-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x64 : Shape := ⟨2, ![16, 64]⟩
abbrev S16x20 : Shape := ⟨2, ![16, 20]⟩
abbrev S100000x64 : Shape := ⟨2, ![100000, 64]⟩
abbrev S2048x64 : Shape := ⟨2, ![2048, 64]⟩
abbrev S2048x512 : Shape := ⟨2, ![2048, 512]⟩
abbrev S2048 : Shape := ⟨1, ![2048]⟩
abbrev S100000x512 : Shape := ⟨2, ![100000, 512]⟩
abbrev S100000 : Shape := ⟨1, ![100000]⟩
abbrev S_ : Shape := ⟨0, ![]⟩

class Facts : Prop where
  bcast_S_S16x64 : S_.BroadcastsInDim S16x64 (![] : Fin 0 → Fin S16x64.rank)
  reducesTo_S16x64_S_d0_1 : S16x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S2048x64 : S_.BroadcastsInDim S2048x64 (![] : Fin 0 → Fin S2048x64.rank)
  reducesTo_S2048x64_S_d0_1 : S2048x64.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S100000x512 : S_.BroadcastsInDim S100000x512 (![] : Fin 0 → Fin S100000x512.rank)
  reducesTo_S100000x512_S_d0_1 : S100000x512.ReducesTo [0, 1] S_
  bcast_S_S100000 : S_.BroadcastsInDim S100000 (![] : Fin 0 → Fin S100000.rank)
  reducesTo_S100000_S_d0 : S100000.ReducesTo [0] S_
  bcast_S_S16x20 : S_.BroadcastsInDim S16x20 (![] : Fin 0 → Fin S16x20.rank)
  reducesTo_S16x20_S_d0_1 : S16x20.ReducesTo [0, 1] S_

variable [Facts]

def fn_part2 {F : FTy → Type} [FloatOps F] (main_arg1 : IVec S16x20 32) (main_arg8 : FVec F S100000 .f32) (main_v33 : IVec S_ 1) : IVec S_ 1 :=
  let main_v34 : FVec F S100000 .f32 := Host.absf main_arg8
  let main_cst_12 : FVec F S_ .f32 := constant S_ .f32 0x7F800000#32
  let main_v35 : FVec F S100000 .f32 := broadcastInDim S100000 ![] bcast_S_S100000 main_cst_12
  let main_v36 : IVec S100000 1 := cmpf .olt main_v34 main_v35
  let main_c_13 : IVec S_ 1 := constantI S_ 1 1#1
  let main_v37 : IVec S_ 1 := (fun x v => Host.reduce IntOp.andi x v reducesTo_S100000_S_d0 h_S_) main_v36 main_c_13
  let main_v38 : IVec S_ 1 := andi main_v33 main_v37
  let main_c_14 : IVec S_ 32 := constantI S_ 32 0#32
  let main_v39 : IVec S16x20 32 := broadcastInDim S16x20 ![] bcast_S_S16x20 main_c_14
  let main_v40 : IVec S16x20 1 := cmpi .sge main_arg1 main_v39
  let main_c_15 : IVec S_ 32 := constantI S_ 32 99999#32
  let main_v41 : IVec S16x20 32 := broadcastInDim S16x20 ![] bcast_S_S16x20 main_c_15
  let main_v42 : IVec S16x20 1 := cmpi .sle main_arg1 main_v41
  let main_v43 : IVec S16x20 1 := andi main_v40 main_v42
  let main_c_16 : IVec S_ 1 := constantI S_ 1 1#1
  let main_v44 : IVec S_ 1 := (fun x v => Host.reduce IntOp.andi x v reducesTo_S16x20_S_d0_1 h_S_) main_v43 main_c_16
  let main_v45 : IVec S_ 1 := andi main_v38 main_v44
  main_v45

def fn_part1 {F : FTy → Type} [FloatOps F] (main_arg1 : IVec S16x20 32) (main_arg5 : FVec F S2048 .f32) (main_arg6 : FVec F S2048 .f32) (main_arg7 : FVec F S100000x512 .f32) (main_arg8 : FVec F S100000 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg6
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S100000x512 .f32 := Host.absf main_arg7
  let main_cst_10 : FVec F S_ .f32 := constant S_ .f32 0x7F800000#32
  let main_v30 : FVec F S100000x512 .f32 := broadcastInDim S100000x512 ![] bcast_S_S100000x512 main_cst_10
  let main_v31 : IVec S100000x512 1 := cmpf .olt main_v29 main_v30
  let main_c_11 : IVec S_ 1 := constantI S_ 1 1#1
  let main_v32 : IVec S_ 1 := (fun x v => Host.reduce IntOp.andi x v reducesTo_S100000x512_S_d0_1 h_S_) main_v31 main_c_11
  let main_v33 : IVec S_ 1 := andi main_v28 main_v32
  fn_part2 (F := F) main_arg1 main_arg8 main_v33

def fn {F : FTy → Type} [FloatOps F] (main_arg0 : FVec F S16x64 .f32) (main_arg1 : IVec S16x20 32) (main_arg2 : FVec F S100000x64 .f32) (main_arg3 : FVec F S2048x64 .f32) (main_arg4 : FVec F S2048x512 .f32) (main_arg5 : FVec F S2048 .f32) (main_arg6 : FVec F S2048 .f32) (main_arg7 : FVec F S100000x512 .f32) (main_arg8 : FVec F S100000 .f32) : IVec S_ 1 :=
  let main_v0 : FVec F S16x64 .f32 := Host.absf main_arg0
  let main_cst : FVec F S_ .f32 := constant S_ .f32 0x7F800000#32
  let main_v1 : FVec F S16x64 .f32 := broadcastInDim S16x64 ![] bcast_S_S16x64 main_cst
  let main_v2 : IVec S16x64 1 := cmpf .olt main_v0 main_v1
  let main_c : IVec S_ 1 := constantI S_ 1 1#1
  let main_v3 : IVec S_ 1 := (fun x v => Host.reduce IntOp.andi x v reducesTo_S16x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2048x64 .f32 := Host.absf main_arg3
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S2048x512 .f32 := Host.absf main_arg4
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg1 main_arg5 main_arg6 main_arg7 main_arg8 main_v13 main_v16
-- ==== Kernel.lean ====
abbrev S16x64 : Shape := ⟨2, ![16, 64]⟩
abbrev S16x20 : Shape := ⟨2, ![16, 20]⟩
abbrev S100000x64 : Shape := ⟨2, ![100000, 64]⟩
abbrev S2048x64 : Shape := ⟨2, ![2048, 64]⟩
abbrev S2048x512 : Shape := ⟨2, ![2048, 512]⟩
abbrev S2048 : Shape := ⟨1, ![2048]⟩
abbrev S100000x512 : Shape := ⟨2, ![100000, 512]⟩
abbrev S100000 : Shape := ⟨1, ![100000]⟩
abbrev S320 : Shape := ⟨1, ![320]⟩
abbrev S_ : Shape := ⟨0, ![]⟩
abbrev S512 : Shape := ⟨1, ![512]⟩
abbrev S512x64 : Shape := ⟨2, ![512, 64]⟩
abbrev S16 : Shape := ⟨1, ![16]⟩
abbrev S1 : Shape := ⟨1, ![1]⟩
abbrev S1x64 : Shape := ⟨2, ![1, 64]⟩
abbrev S64 : Shape := ⟨1, ![64]⟩
abbrev S320x64 : Shape := ⟨2, ![320, 64]⟩
abbrev S16x20x64 : Shape := ⟨3, ![16, 20, 64]⟩
abbrev S16x1x64 : Shape := ⟨3, ![16, 1, 64]⟩
abbrev S16x21x64 : Shape := ⟨3, ![16, 21, 64]⟩
abbrev S16x24x64 : Shape := ⟨3, ![16, 24, 64]⟩
abbrev S384x64 : Shape := ⟨2, ![384, 64]⟩
abbrev S1x2048 : Shape := ⟨2, ![1, 2048]⟩
abbrev S1x100000 : Shape := ⟨2, ![1, 100000]⟩
abbrev S16x21x100000 : Shape := ⟨3, ![16, 21, 100000]⟩
abbrev S6400x512 : Shape := ⟨2, ![6400, 512]⟩
abbrev S1x6400 : Shape := ⟨2, ![1, 6400]⟩
abbrev S16x21x6400 : Shape := ⟨3, ![16, 21, 6400]⟩
abbrev S384x512 : Shape := ⟨2, ![384, 512]⟩
abbrev S24x512 : Shape := ⟨2, ![24, 512]⟩
abbrev S24x64 : Shape := ⟨2, ![24, 64]⟩
abbrev S24x2048 : Shape := ⟨2, ![24, 2048]⟩
abbrev S384x6400 : Shape := ⟨2, ![384, 6400]⟩
abbrev S16x24x6400 : Shape := ⟨3, ![16, 24, 6400]⟩

abbrev nBuf : Table → Nat
  | .hbm => 26
  | .local .tc .vmem => 12
  | .local .scVector .vmem => 2
  | _ => 0

abbrev bufTy : (tb : Table) → Fin (nBuf tb) → BufTy
  | .hbm, ⟨0, _⟩ => ⟨S16x64, .f32⟩
  | .hbm, ⟨1, _⟩ => ⟨S16x20, .i32⟩
  | .hbm, ⟨2, _⟩ => ⟨S100000x64, .f32⟩
  | .hbm, ⟨3, _⟩ => ⟨S2048x64, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S100000x512, .f32⟩
  | .hbm, ⟨8, _⟩ => ⟨S100000, .f32⟩
  | .hbm, ⟨9, _⟩ => ⟨S320, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512x64, .f32⟩
  | .hbm, ⟨14, _⟩ => ⟨S320x64, .f32⟩
  | .hbm, ⟨15, _⟩ => ⟨S16x20x64, .f32⟩
  | .hbm, ⟨16, _⟩ => ⟨S16x1x64, .f32⟩
  | .hbm, ⟨17, _⟩ => ⟨S16x21x64, .f32⟩
  | .hbm, ⟨18, _⟩ => ⟨S_, .i32⟩
  | .hbm, ⟨19, _⟩ => ⟨S_, .f32⟩
  | .hbm, ⟨20, _⟩ => ⟨S16x24x64, .f32⟩
  | .hbm, ⟨21, _⟩ => ⟨S384x64, .f32⟩
  | .hbm, ⟨22, _⟩ => ⟨S1x2048, .f32⟩
  | .hbm, ⟨23, _⟩ => ⟨S1x2048, .f32⟩
  | .hbm, ⟨24, _⟩ => ⟨S1x100000, .f32⟩
  | .hbm, ⟨25, _⟩ => ⟨S16x21x100000, .f32⟩
  | .local .tc .vmem, ⟨0, _⟩ => ⟨S384x64, .f32⟩
  | .local .tc .vmem, ⟨1, _⟩ => ⟨S2048x64, .f32⟩
  | .local .tc .vmem, ⟨2, _⟩ => ⟨S2048x512, .f32⟩
  | .local .tc .vmem, ⟨3, _⟩ => ⟨S1x2048, .f32⟩
  | .local .tc .vmem, ⟨4, _⟩ => ⟨S1x2048, .f32⟩
  | .local .tc .vmem, ⟨5, _⟩ => ⟨S6400x512, .f32⟩
  | .local .tc .vmem, ⟨6, _⟩ => ⟨S6400x512, .f32⟩
  | .local .tc .vmem, ⟨7, _⟩ => ⟨S1x6400, .f32⟩
  | .local .tc .vmem, ⟨8, _⟩ => ⟨S1x6400, .f32⟩
  | .local .tc .vmem, ⟨9, _⟩ => ⟨S16x21x6400, .f32⟩
  | .local .tc .vmem, ⟨10, _⟩ => ⟨S16x21x6400, .f32⟩
  | .local .tc .vmem, ⟨11, _⟩ => ⟨S384x512, .f32⟩
  | .local .scVector .vmem, ⟨0, _⟩ => ⟨S16, .i32⟩
  | .local .scVector .vmem, ⟨1, _⟩ => ⟨S16x64, .f32⟩
  | _, _ => ⟨S16x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_arg2_scv : Ref sig .scVector := ⟨.hbm, 2, rfl⟩
abbrev main_v1_scv : Ref sig .scVector := ⟨.hbm, 12, rfl⟩
abbrev main_v2_scv : Ref sig .scVector := ⟨.hbm, 13, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg5_1 : Ref sig .tc := ⟨.vmem, 6, rfl⟩
abbrev cc1_stg6_0 : Ref sig .tc := ⟨.vmem, 7, rfl⟩
abbrev cc1_stg6_1 : Ref sig .tc := ⟨.vmem, 8, rfl⟩
abbrev cc1_stg7_0 : Ref sig .tc := ⟨.vmem, 9, rfl⟩
abbrev cc1_stg7_1 : Ref sig .tc := ⟨.vmem, 10, rfl⟩
abbrev cc1_scratch0 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem5_1 : DmaSem sig := 9
abbrev cc1_sem6_0 : DmaSem sig := 10
abbrev cc1_sem6_1 : DmaSem sig := 11
abbrev cc1_sem7_0 : DmaSem sig := 12
abbrev cc1_sem7_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  ![v2.toNat]
def k0_off2 (v6 : BitVec 32) : Fin 2 → Nat :=
  let c0_i32_1 : BitVec 32 := 0#32
  ![v6.toNat, 0]

def k0_off3 (v16 : BitVec 32) : Fin 2 → Nat :=
  let c0_i32_5 : BitVec 32 := 0#32
  ![v16.toNat, 0]

def k0_off4 (v26 : BitVec 32) : Fin 2 → Nat :=
  let c0_i32_10 : BitVec 32 := 0#32
  ![v26.toNat, 0]

def k0_off5 (v36 : BitVec 32) : Fin 2 → Nat :=
  let c0_i32_14 : BitVec 32 := 0#32
  ![v36.toNat, 0]

def k0_off6 (v46 : BitVec 32) : Fin 2 → Nat :=
  let c0_i32_18 : BitVec 32 := 0#32
  ![v46.toNat, 0]

def k0_off7 (v56 : BitVec 32) : Fin 2 → Nat :=
  let c0_i32_22 : BitVec 32 := 0#32
  ![v56.toNat, 0]

def k0_off8 (v66 : BitVec 32) : Fin 2 → Nat :=
  let c0_i32_26 : BitVec 32 := 0#32
  ![v66.toNat, 0]

def k0_off9 (v76 : BitVec 32) : Fin 2 → Nat :=
  let c0_i32_30 : BitVec 32 := 0#32
  ![v76.toNat, 0]

def k0_off10 (v86 : BitVec 32) : Fin 2 → Nat :=
  let c0_i32_34 : BitVec 32 := 0#32
  ![v86.toNat, 0]

def k0_off11 (v96 : BitVec 32) : Fin 2 → Nat :=
  let c0_i32_38 : BitVec 32 := 0#32
  ![v96.toNat, 0]

def k0_off12 (v106 : BitVec 32) : Fin 2 → Nat :=
  let c0_i32_42 : BitVec 32 := 0#32
  ![v106.toNat, 0]

def k0_off13 (v116 : BitVec 32) : Fin 2 → Nat :=
  let c0_i32_46 : BitVec 32 := 0#32
  ![v116.toNat, 0]

def k0_off14 (v126 : BitVec 32) : Fin 2 → Nat :=
  let c0_i32_50 : BitVec 32 := 0#32
  ![v126.toNat, 0]

def k0_off15 (v136 : BitVec 32) : Fin 2 → Nat :=
  let c0_i32_54 : BitVec 32 := 0#32
  ![v136.toNat, 0]

def k0_off16 (v146 : BitVec 32) : Fin 2 → Nat :=
  let c0_i32_58 : BitVec 32 := 0#32
  ![v146.toNat, 0]

def k0_off17 (v156 : BitVec 32) : Fin 2 → Nat :=
  let c0_i32_62 : BitVec 32 := 0#32
  ![v156.toNat, 0]

def k0_chk16 (v156 : BitVec 32) : Prop :=
  (∀ a, (k0_off17 v156) a + S1x64.size a ≤ S100000x64.size a)
instance k0_chk16.dec : ∀ (v156 : BitVec 32), Decidable (k0_chk16 v156) := fun v156 => decidable_of_iff' _ (Iff.of_eq (k0_chk16.eq_1 v156))
theorem k0_off17_inb : ∀ (v156 : BitVec 32) (k0_hw16 : k0_chk16 v156), ∀ a, (k0_off17 v156) a + S1x64.size a ≤ S100000x64.size a := fun v156 k0_hw16 => k0_hw16

def k0_off18 (v6 : BitVec 32) : Fin 2 → Nat :=
  let c0_i32_67 : BitVec 32 := 0#32
  ![v6.toNat, 0]

def k0_chk1 (v6 : BitVec 32) : Prop :=
  (∀ a, (k0_off2 v6) a + S1x64.size a ≤ S100000x64.size a) ∧
  (∀ a, (k0_off18 v6) a + S1x64.size a ≤ S100000x64.size a)
instance k0_chk1.dec : ∀ (v6 : BitVec 32), Decidable (k0_chk1 v6) := fun v6 => decidable_of_iff' _ (Iff.of_eq (k0_chk1.eq_1 v6))
theorem k0_off2_inb : ∀ (v6 : BitVec 32) (k0_hw1 : k0_chk1 v6), ∀ a, (k0_off2 v6) a + S1x64.size a ≤ S100000x64.size a := fun v6 k0_hw1 => k0_hw1.1
theorem k0_off18_inb : ∀ (v6 : BitVec 32) (k0_hw1 : k0_chk1 v6), ∀ a, (k0_off18 v6) a + S1x64.size a ≤ S100000x64.size a := fun v6 k0_hw1 => k0_hw1.2

def k0_off19 (v16 : BitVec 32) : Fin 2 → Nat :=
  let c0_i32_72 : BitVec 32 := 0#32
  ![v16.toNat, 0]

def k0_chk2 (v16 : BitVec 32) : Prop :=
  (∀ a, (k0_off3 v16) a + S1x64.size a ≤ S100000x64.size a) ∧
  (∀ a, (k0_off19 v16) a + S1x64.size a ≤ S100000x64.size a)
instance k0_chk2.dec : ∀ (v16 : BitVec 32), Decidable (k0_chk2 v16) := fun v16 => decidable_of_iff' _ (Iff.of_eq (k0_chk2.eq_1 v16))
theorem k0_off3_inb : ∀ (v16 : BitVec 32) (k0_hw2 : k0_chk2 v16), ∀ a, (k0_off3 v16) a + S1x64.size a ≤ S100000x64.size a := fun v16 k0_hw2 => k0_hw2.1
theorem k0_off19_inb : ∀ (v16 : BitVec 32) (k0_hw2 : k0_chk2 v16), ∀ a, (k0_off19 v16) a + S1x64.size a ≤ S100000x64.size a := fun v16 k0_hw2 => k0_hw2.2

def k0_off20 (v26 : BitVec 32) : Fin 2 → Nat :=
  let c0_i32_77 : BitVec 32 := 0#32
  ![v26.toNat, 0]

def k0_chk3 (v26 : BitVec 32) : Prop :=
  (∀ a, (k0_off4 v26) a + S1x64.size a ≤ S100000x64.size a) ∧
  (∀ a, (k0_off20 v26) a + S1x64.size a ≤ S100000x64.size a)
instance k0_chk3.dec : ∀ (v26 : BitVec 32), Decidable (k0_chk3 v26) := fun v26 => decidable_of_iff' _ (Iff.of_eq (k0_chk3.eq_1 v26))
theorem k0_off4_inb : ∀ (v26 : BitVec 32) (k0_hw3 : k0_chk3 v26), ∀ a, (k0_off4 v26) a + S1x64.size a ≤ S100000x64.size a := fun v26 k0_hw3 => k0_hw3.1
theorem k0_off20_inb : ∀ (v26 : BitVec 32) (k0_hw3 : k0_chk3 v26), ∀ a, (k0_off20 v26) a + S1x64.size a ≤ S100000x64.size a := fun v26 k0_hw3 => k0_hw3.2

def k0_off21 (v36 : BitVec 32) : Fin 2 → Nat :=
  let c0_i32_82 : BitVec 32 := 0#32
  ![v36.toNat, 0]

def k0_chk4 (v36 : BitVec 32) : Prop :=
  (∀ a, (k0_off5 v36) a + S1x64.size a ≤ S100000x64.size a) ∧
  (∀ a, (k0_off21 v36) a + S1x64.size a ≤ S100000x64.size a)
instance k0_chk4.dec : ∀ (v36 : BitVec 32), Decidable (k0_chk4 v36) := fun v36 => decidable_of_iff' _ (Iff.of_eq (k0_chk4.eq_1 v36))
theorem k0_off5_inb : ∀ (v36 : BitVec 32) (k0_hw4 : k0_chk4 v36), ∀ a, (k0_off5 v36) a + S1x64.size a ≤ S100000x64.size a := fun v36 k0_hw4 => k0_hw4.1
theorem k0_off21_inb : ∀ (v36 : BitVec 32) (k0_hw4 : k0_chk4 v36), ∀ a, (k0_off21 v36) a + S1x64.size a ≤ S100000x64.size a := fun v36 k0_hw4 => k0_hw4.2

def k0_off22 (v46 : BitVec 32) : Fin 2 → Nat :=
  let c0_i32_87 : BitVec 32 := 0#32
  ![v46.toNat, 0]

def k0_chk5 (v46 : BitVec 32) : Prop :=
  (∀ a, (k0_off6 v46) a + S1x64.size a ≤ S100000x64.size a) ∧
  (∀ a, (k0_off22 v46) a + S1x64.size a ≤ S100000x64.size a)
instance k0_chk5.dec : ∀ (v46 : BitVec 32), Decidable (k0_chk5 v46) := fun v46 => decidable_of_iff' _ (Iff.of_eq (k0_chk5.eq_1 v46))
theorem k0_off6_inb : ∀ (v46 : BitVec 32) (k0_hw5 : k0_chk5 v46), ∀ a, (k0_off6 v46) a + S1x64.size a ≤ S100000x64.size a := fun v46 k0_hw5 => k0_hw5.1
theorem k0_off22_inb : ∀ (v46 : BitVec 32) (k0_hw5 : k0_chk5 v46), ∀ a, (k0_off22 v46) a + S1x64.size a ≤ S100000x64.size a := fun v46 k0_hw5 => k0_hw5.2

def k0_off23 (v56 : BitVec 32) : Fin 2 → Nat :=
  let c0_i32_92 : BitVec 32 := 0#32
  ![v56.toNat, 0]

def k0_chk6 (v56 : BitVec 32) : Prop :=
  (∀ a, (k0_off7 v56) a + S1x64.size a ≤ S100000x64.size a) ∧
  (∀ a, (k0_off23 v56) a + S1x64.size a ≤ S100000x64.size a)
instance k0_chk6.dec : ∀ (v56 : BitVec 32), Decidable (k0_chk6 v56) := fun v56 => decidable_of_iff' _ (Iff.of_eq (k0_chk6.eq_1 v56))
theorem k0_off7_inb : ∀ (v56 : BitVec 32) (k0_hw6 : k0_chk6 v56), ∀ a, (k0_off7 v56) a + S1x64.size a ≤ S100000x64.size a := fun v56 k0_hw6 => k0_hw6.1
theorem k0_off23_inb : ∀ (v56 : BitVec 32) (k0_hw6 : k0_chk6 v56), ∀ a, (k0_off23 v56) a + S1x64.size a ≤ S100000x64.size a := fun v56 k0_hw6 => k0_hw6.2

def k0_off24 (v66 : BitVec 32) : Fin 2 → Nat :=
  let c0_i32_97 : BitVec 32 := 0#32
  ![v66.toNat, 0]

def k0_chk7 (v66 : BitVec 32) : Prop :=
  (∀ a, (k0_off8 v66) a + S1x64.size a ≤ S100000x64.size a) ∧
  (∀ a, (k0_off24 v66) a + S1x64.size a ≤ S100000x64.size a)
instance k0_chk7.dec : ∀ (v66 : BitVec 32), Decidable (k0_chk7 v66) := fun v66 => decidable_of_iff' _ (Iff.of_eq (k0_chk7.eq_1 v66))
theorem k0_off8_inb : ∀ (v66 : BitVec 32) (k0_hw7 : k0_chk7 v66), ∀ a, (k0_off8 v66) a + S1x64.size a ≤ S100000x64.size a := fun v66 k0_hw7 => k0_hw7.1
theorem k0_off24_inb : ∀ (v66 : BitVec 32) (k0_hw7 : k0_chk7 v66), ∀ a, (k0_off24 v66) a + S1x64.size a ≤ S100000x64.size a := fun v66 k0_hw7 => k0_hw7.2

def k0_off25 (v76 : BitVec 32) : Fin 2 → Nat :=
  let c0_i32_102 : BitVec 32 := 0#32
  ![v76.toNat, 0]

def k0_chk8 (v76 : BitVec 32) : Prop :=
  (∀ a, (k0_off9 v76) a + S1x64.size a ≤ S100000x64.size a) ∧
  (∀ a, (k0_off25 v76) a + S1x64.size a ≤ S100000x64.size a)
instance k0_chk8.dec : ∀ (v76 : BitVec 32), Decidable (k0_chk8 v76) := fun v76 => decidable_of_iff' _ (Iff.of_eq (k0_chk8.eq_1 v76))
theorem k0_off9_inb : ∀ (v76 : BitVec 32) (k0_hw8 : k0_chk8 v76), ∀ a, (k0_off9 v76) a + S1x64.size a ≤ S100000x64.size a := fun v76 k0_hw8 => k0_hw8.1
theorem k0_off25_inb : ∀ (v76 : BitVec 32) (k0_hw8 : k0_chk8 v76), ∀ a, (k0_off25 v76) a + S1x64.size a ≤ S100000x64.size a := fun v76 k0_hw8 => k0_hw8.2

def k0_off26 (v86 : BitVec 32) : Fin 2 → Nat :=
  let c0_i32_107 : BitVec 32 := 0#32
  ![v86.toNat, 0]

def k0_chk9 (v86 : BitVec 32) : Prop :=
  (∀ a, (k0_off10 v86) a + S1x64.size a ≤ S100000x64.size a) ∧
  (∀ a, (k0_off26 v86) a + S1x64.size a ≤ S100000x64.size a)
instance k0_chk9.dec : ∀ (v86 : BitVec 32), Decidable (k0_chk9 v86) := fun v86 => decidable_of_iff' _ (Iff.of_eq (k0_chk9.eq_1 v86))
theorem k0_off10_inb : ∀ (v86 : BitVec 32) (k0_hw9 : k0_chk9 v86), ∀ a, (k0_off10 v86) a + S1x64.size a ≤ S100000x64.size a := fun v86 k0_hw9 => k0_hw9.1
theorem k0_off26_inb : ∀ (v86 : BitVec 32) (k0_hw9 : k0_chk9 v86), ∀ a, (k0_off26 v86) a + S1x64.size a ≤ S100000x64.size a := fun v86 k0_hw9 => k0_hw9.2

def k0_off27 (v96 : BitVec 32) : Fin 2 → Nat :=
  let c0_i32_112 : BitVec 32 := 0#32
  ![v96.toNat, 0]

def k0_chk10 (v96 : BitVec 32) : Prop :=
  (∀ a, (k0_off11 v96) a + S1x64.size a ≤ S100000x64.size a) ∧
  (∀ a, (k0_off27 v96) a + S1x64.size a ≤ S100000x64.size a)
instance k0_chk10.dec : ∀ (v96 : BitVec 32), Decidable (k0_chk10 v96) := fun v96 => decidable_of_iff' _ (Iff.of_eq (k0_chk10.eq_1 v96))
theorem k0_off11_inb : ∀ (v96 : BitVec 32) (k0_hw10 : k0_chk10 v96), ∀ a, (k0_off11 v96) a + S1x64.size a ≤ S100000x64.size a := fun v96 k0_hw10 => k0_hw10.1
theorem k0_off27_inb : ∀ (v96 : BitVec 32) (k0_hw10 : k0_chk10 v96), ∀ a, (k0_off27 v96) a + S1x64.size a ≤ S100000x64.size a := fun v96 k0_hw10 => k0_hw10.2

def k0_off28 (v106 : BitVec 32) : Fin 2 → Nat :=
  let c0_i32_117 : BitVec 32 := 0#32
  ![v106.toNat, 0]

def k0_chk11 (v106 : BitVec 32) : Prop :=
  (∀ a, (k0_off12 v106) a + S1x64.size a ≤ S100000x64.size a) ∧
  (∀ a, (k0_off28 v106) a + S1x64.size a ≤ S100000x64.size a)
instance k0_chk11.dec : ∀ (v106 : BitVec 32), Decidable (k0_chk11 v106) := fun v106 => decidable_of_iff' _ (Iff.of_eq (k0_chk11.eq_1 v106))
theorem k0_off12_inb : ∀ (v106 : BitVec 32) (k0_hw11 : k0_chk11 v106), ∀ a, (k0_off12 v106) a + S1x64.size a ≤ S100000x64.size a := fun v106 k0_hw11 => k0_hw11.1
theorem k0_off28_inb : ∀ (v106 : BitVec 32) (k0_hw11 : k0_chk11 v106), ∀ a, (k0_off28 v106) a + S1x64.size a ≤ S100000x64.size a := fun v106 k0_hw11 => k0_hw11.2

def k0_off29 (v116 : BitVec 32) : Fin 2 → Nat :=
  let c0_i32_122 : BitVec 32 := 0#32
  ![v116.toNat, 0]

def k0_chk12 (v116 : BitVec 32) : Prop :=
  (∀ a, (k0_off13 v116) a + S1x64.size a ≤ S100000x64.size a) ∧
  (∀ a, (k0_off29 v116) a + S1x64.size a ≤ S100000x64.size a)
instance k0_chk12.dec : ∀ (v116 : BitVec 32), Decidable (k0_chk12 v116) := fun v116 => decidable_of_iff' _ (Iff.of_eq (k0_chk12.eq_1 v116))
theorem k0_off13_inb : ∀ (v116 : BitVec 32) (k0_hw12 : k0_chk12 v116), ∀ a, (k0_off13 v116) a + S1x64.size a ≤ S100000x64.size a := fun v116 k0_hw12 => k0_hw12.1
theorem k0_off29_inb : ∀ (v116 : BitVec 32) (k0_hw12 : k0_chk12 v116), ∀ a, (k0_off29 v116) a + S1x64.size a ≤ S100000x64.size a := fun v116 k0_hw12 => k0_hw12.2

def k0_off30 (v126 : BitVec 32) : Fin 2 → Nat :=
  let c0_i32_127 : BitVec 32 := 0#32
  ![v126.toNat, 0]

def k0_chk13 (v126 : BitVec 32) : Prop :=
  (∀ a, (k0_off14 v126) a + S1x64.size a ≤ S100000x64.size a) ∧
  (∀ a, (k0_off30 v126) a + S1x64.size a ≤ S100000x64.size a)
instance k0_chk13.dec : ∀ (v126 : BitVec 32), Decidable (k0_chk13 v126) := fun v126 => decidable_of_iff' _ (Iff.of_eq (k0_chk13.eq_1 v126))
theorem k0_off14_inb : ∀ (v126 : BitVec 32) (k0_hw13 : k0_chk13 v126), ∀ a, (k0_off14 v126) a + S1x64.size a ≤ S100000x64.size a := fun v126 k0_hw13 => k0_hw13.1
theorem k0_off30_inb : ∀ (v126 : BitVec 32) (k0_hw13 : k0_chk13 v126), ∀ a, (k0_off30 v126) a + S1x64.size a ≤ S100000x64.size a := fun v126 k0_hw13 => k0_hw13.2

def k0_off31 (v136 : BitVec 32) : Fin 2 → Nat :=
  let c0_i32_132 : BitVec 32 := 0#32
  ![v136.toNat, 0]

def k0_chk14 (v136 : BitVec 32) : Prop :=
  (∀ a, (k0_off15 v136) a + S1x64.size a ≤ S100000x64.size a) ∧
  (∀ a, (k0_off31 v136) a + S1x64.size a ≤ S100000x64.size a)
instance k0_chk14.dec : ∀ (v136 : BitVec 32), Decidable (k0_chk14 v136) := fun v136 => decidable_of_iff' _ (Iff.of_eq (k0_chk14.eq_1 v136))
theorem k0_off15_inb : ∀ (v136 : BitVec 32) (k0_hw14 : k0_chk14 v136), ∀ a, (k0_off15 v136) a + S1x64.size a ≤ S100000x64.size a := fun v136 k0_hw14 => k0_hw14.1
theorem k0_off31_inb : ∀ (v136 : BitVec 32) (k0_hw14 : k0_chk14 v136), ∀ a, (k0_off31 v136) a + S1x64.size a ≤ S100000x64.size a := fun v136 k0_hw14 => k0_hw14.2

def k0_off32 (v146 : BitVec 32) : Fin 2 → Nat :=
  let c0_i32_137 : BitVec 32 := 0#32
  ![v146.toNat, 0]

def k0_chk15 (v146 : BitVec 32) : Prop :=
  (∀ a, (k0_off16 v146) a + S1x64.size a ≤ S100000x64.size a) ∧
  (∀ a, (k0_off32 v146) a + S1x64.size a ≤ S100000x64.size a)
instance k0_chk15.dec : ∀ (v146 : BitVec 32), Decidable (k0_chk15 v146) := fun v146 => decidable_of_iff' _ (Iff.of_eq (k0_chk15.eq_1 v146))
theorem k0_off16_inb : ∀ (v146 : BitVec 32) (k0_hw15 : k0_chk15 v146), ∀ a, (k0_off16 v146) a + S1x64.size a ≤ S100000x64.size a := fun v146 k0_hw15 => k0_hw15.1
theorem k0_off32_inb : ∀ (v146 : BitVec 32) (k0_hw15 : k0_chk15 v146), ∀ a, (k0_off32 v146) a + S1x64.size a ≤ S100000x64.size a := fun v146 k0_hw15 => k0_hw15.2

def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let c0_i32_145_r1 : BitVec 32 := 0#32
  ![v2.toNat, 0]
abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_15 : BitVec 32 := 0#32
  let c16_i32 : BitVec 32 := 16#32
  let v22 : BitVec 32 := Scalar.addi c0_i32_15 c16_i32
  let c1_i32 : BitVec 32 := 1#32
  ⟨c0_i32_15, v22, c1_i32⟩
def k1_off1 (k1_t1 : Fin k1_t1_loop.trips) : Fin 2 → Nat :=
  let c0_i32_15 : BitVec 32 := 0#32
  let c1_i32 : BitVec 32 := 1#32
  let arg10 : BitVec 32 := Scf.iv c0_i32_15 c1_i32 k1_t1
  let c24_i32 : BitVec 32 := 24#32
  let v24 : BitVec 32 := Scalar.muli arg10 c24_i32
  let v25 : Index := Scalar.indexCast v24
  let c0_17 : Index := 0#32
  ![v25.toNat, 0]
def k1_off2 (k1_t1 : Fin k1_t1_loop.trips) : Fin 2 → Nat :=
  let c0_i32_15 : BitVec 32 := 0#32
  let c1_i32 : BitVec 32 := 1#32
  let arg10 : BitVec 32 := Scf.iv c0_i32_15 c1_i32 k1_t1
  let c24_i32_24 : BitVec 32 := 24#32
  let v48 : BitVec 32 := Scalar.muli arg10 c24_i32_24
  let v49 : Index := Scalar.indexCast v48
  let c0_25 : Index := 0#32
  ![v49.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S384x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6400x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x6400 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x21x6400 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16x20_S320 : S16x20.ShapeCasts S320
  pads_S320_S512_01920 : S320.Pads (![0] : Fin 1 → Nat) ![192] ![0] S512
  h_S_ : 0 < S_.numel
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  inb_S16x64_S1x64_0_0 : ∀ a, (![0, 0] : Fin 2 → Nat) a + S1x64.size a ≤ S16x64.size a
  squeezes_S1x64_S64 : S1x64.Squeezes S64
  slices_S16_o1_S1 : S16.Slices ![1] S1
  inb_S16x64_S1x64_1_0 : ∀ a, (![1, 0] : Fin 2 → Nat) a + S1x64.size a ≤ S16x64.size a
  slices_S16_o2_S1 : S16.Slices ![2] S1
  inb_S16x64_S1x64_2_0 : ∀ a, (![2, 0] : Fin 2 → Nat) a + S1x64.size a ≤ S16x64.size a
  slices_S16_o3_S1 : S16.Slices ![3] S1
  inb_S16x64_S1x64_3_0 : ∀ a, (![3, 0] : Fin 2 → Nat) a + S1x64.size a ≤ S16x64.size a
  slices_S16_o4_S1 : S16.Slices ![4] S1
  inb_S16x64_S1x64_4_0 : ∀ a, (![4, 0] : Fin 2 → Nat) a + S1x64.size a ≤ S16x64.size a
  slices_S16_o5_S1 : S16.Slices ![5] S1
  inb_S16x64_S1x64_5_0 : ∀ a, (![5, 0] : Fin 2 → Nat) a + S1x64.size a ≤ S16x64.size a
  slices_S16_o6_S1 : S16.Slices ![6] S1
  inb_S16x64_S1x64_6_0 : ∀ a, (![6, 0] : Fin 2 → Nat) a + S1x64.size a ≤ S16x64.size a
  slices_S16_o7_S1 : S16.Slices ![7] S1
  inb_S16x64_S1x64_7_0 : ∀ a, (![7, 0] : Fin 2 → Nat) a + S1x64.size a ≤ S16x64.size a
  slices_S16_o8_S1 : S16.Slices ![8] S1
  inb_S16x64_S1x64_8_0 : ∀ a, (![8, 0] : Fin 2 → Nat) a + S1x64.size a ≤ S16x64.size a
  slices_S16_o9_S1 : S16.Slices ![9] S1
  inb_S16x64_S1x64_9_0 : ∀ a, (![9, 0] : Fin 2 → Nat) a + S1x64.size a ≤ S16x64.size a
  slices_S16_o10_S1 : S16.Slices ![10] S1
  inb_S16x64_S1x64_10_0 : ∀ a, (![10, 0] : Fin 2 → Nat) a + S1x64.size a ≤ S16x64.size a
  slices_S16_o11_S1 : S16.Slices ![11] S1
  inb_S16x64_S1x64_11_0 : ∀ a, (![11, 0] : Fin 2 → Nat) a + S1x64.size a ≤ S16x64.size a
  slices_S16_o12_S1 : S16.Slices ![12] S1
  inb_S16x64_S1x64_12_0 : ∀ a, (![12, 0] : Fin 2 → Nat) a + S1x64.size a ≤ S16x64.size a
  slices_S16_o13_S1 : S16.Slices ![13] S1
  inb_S16x64_S1x64_13_0 : ∀ a, (![13, 0] : Fin 2 → Nat) a + S1x64.size a ≤ S16x64.size a
  slices_S16_o14_S1 : S16.Slices ![14] S1
  inb_S16x64_S1x64_14_0 : ∀ a, (![14, 0] : Fin 2 → Nat) a + S1x64.size a ≤ S16x64.size a
  slices_S16_o15_S1 : S16.Slices ![15] S1
  inb_S16x64_S1x64_15_0 : ∀ a, (![15, 0] : Fin 2 → Nat) a + S1x64.size a ≤ S16x64.size a
  slices_S512x64_S320x64_0_0 : S512x64.Slices ![0, 0] S320x64
  shapeCasts_S320x64_S16x20x64 : S320x64.ShapeCasts S16x20x64
  bcast_S16x64_S16x1x64_0_2 : S16x64.BroadcastsInDim S16x1x64 (![0, 2] : Fin 2 → Fin S16x1x64.rank)
  concatenates_S16x1x64_S16x20x64_S16x21x64_d1 : Shape.Concatenates [S16x1x64, S16x20x64] S16x21x64 1
  pads_S16x21x64_S16x24x64_000_030_000 : S16x21x64.Pads (![0, 0, 0] : Fin 3 → Nat) ![0, 3, 0] ![0, 0, 0] S16x24x64
  shapeCasts_S16x24x64_S384x64 : S16x24x64.ShapeCasts S384x64
  shapeCasts_S2048_S1x2048 : S2048.ShapeCasts S1x2048
  shapeCasts_S100000_S1x100000 : S100000.ShapeCasts S1x100000
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S24x64 : 0 < S24x64.numel
  shapeCasts_S24x64_S24x64 : S24x64.ShapeCasts S24x64
  inb_S2048x64_S2048x64_0_0 : ∀ a, (![0, 0] : Fin 2 → Nat) a + S2048x64.size a ≤ S2048x64.size a
  h_S2048x64 : 0 < S2048x64.numel
  inb_S2048x512_S2048x512_0_0 : ∀ a, (![0, 0] : Fin 2 → Nat) a + S2048x512.size a ≤ S2048x512.size a
  h_S2048x512 : 0 < S2048x512.numel
  broadcasts_S1x2048_S24x2048 : S1x2048.Broadcasts S24x2048
  slices_S24x2048_o0_0_S24x512 : S24x2048.Slices ![0, 0] S24x512
  slices_S24x2048_o0_512_S24x512 : S24x2048.Slices ![0, 512] S24x512
  slices_S24x2048_o0_1024_S24x512 : S24x2048.Slices ![0, 1024] S24x512
  slices_S24x2048_o0_1536_S24x512 : S24x2048.Slices ![0, 1536] S24x512
  h_S24x512 : 0 < S24x512.numel
  shapeCasts_S24x512_S24x512 : S24x512.ShapeCasts S24x512
  inb_S384x512_S384x512_0_0 : ∀ a, (![0, 0] : Fin 2 → Nat) a + S384x512.size a ≤ S384x512.size a
  h_S384x512 : 0 < S384x512.numel
  bitsLt_bf16_f32 : FTy.bits .bf16 < FTy.bits .f32
  inb_S6400x512_S6400x512_0_0 : ∀ a, (![0, 0] : Fin 2 → Nat) a + S6400x512.size a ≤ S6400x512.size a
  h_S6400x512 : 0 < S6400x512.numel
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1x6400_S384x6400 : S1x6400.Broadcasts S384x6400
  shapeCasts_S384x6400_S16x24x6400 : S384x6400.ShapeCasts S16x24x6400
  slices_S16x24x6400_o0_0_0_S16x21x6400 : S16x24x6400.Slices ![0, 0, 0] S16x21x6400
  inb_S16x21x6400_S16x21x6400_0_0_0 : ∀ a, (![0, 0, 0] : Fin 3 → Nat) a + S16x21x6400.size a ≤ S16x21x6400.size a
  h_S16x21x6400 : 0 < S16x21x6400.numel
  dot_S24x64_S2048x64_S24x2048_1_1_0_0_n_n_wf : DotDims.WF S24x64 S2048x64 S24x2048 [1] [1] [0] [0] [] []
  dot_S24x512_S2048x512_S24x2048_1_1_0_0_n_n_wf : DotDims.WF S24x512 S2048x512 S24x2048 [1] [1] [0] [0] [] []
  dot_S384x512_S6400x512_S384x6400_1_1_0_0_n_n_wf : DotDims.WF S384x512 S6400x512 S384x6400 [1] [1] [0] [0] [] []
  hcc0_scratch2 : 0 + S_.numel ≤ 14
  hcc0_scoped0 : 1 + S_.numel ≤ 14
  hcc0_scoped1 : 2 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16.size a ≤ S512.size a
  k0_off33_inb : ∀ i : grid0.Coords, ∀ a, (k0_off33 i) a + S16x64.size a ≤ S512x64.size a
  hrank1 : 0 < grid1.rank
  k1_t1_ok : ∀ i : grid1.Coords, ∀ (k1_h1 : k1_cond1 i = 1#1), k1_t1_loop.OK
  k1_off1_inb : ∀ (i : grid1.Coords) (k1_t1 : Fin k1_t1_loop.trips), ∀ (k1_h1 : k1_cond1 i = 1#1), ∀ a, (k1_off1 k1_t1) a + S24x64.size a ≤ S384x64.size a
  k1_off2_inb : ∀ (i : grid1.Coords) (k1_t1 : Fin k1_t1_loop.trips), ∀ (k1_h1 : k1_cond1 i = 1#1), ∀ a, (k1_off2 k1_t1) a + S24x512.size a ≤ S384x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S384x64.size a ≤ S384x64.size a
  hwx1_0 : ∀ i : grid1.Coords, EltTy.bits .f32 = 32 ∨ (Rect.block (s := S384x64) S384x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S2048x64.size a
  hwx1_1 : ∀ i : grid1.Coords, EltTy.bits .f32 = 32 ∨ (Rect.block (s := S2048x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S2048x512.size a
  hwx1_2 : ∀ i : grid1.Coords, EltTy.bits .f32 = 32 ∨ (Rect.block (s := S2048x512) S2048x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S6400x512.size a < S100000x512.size a
  hwx1_5 : ∀ i : grid1.Coords, EltTy.bits .f32 = 32 ∨ (Rect.unit (s := S100000x512) (fun a => cc1_transform_5 i a * S6400x512.size a) (fun a => (Pipeline.Clip.of (cc1_transform_5 i a) (S6400x512.size a) (S100000x512.size a)).extent (S6400x512.size a)) fun a => Pipeline.Clip.inb (Pipeline.Clip.ok_of (hstart1_5 i a))).WholeWords (EltTy.packing .f32)
  hwxs1_5 : ∀ i : grid1.Coords, EltTy.bits .f32 = 32 ∨ (Rect.unit (s := S6400x512) (fun _ => 0) (fun a => (Pipeline.Clip.of (cc1_transform_5 i a) (S6400x512.size a) (S100000x512.size a)).extent (S6400x512.size a)) fun a => (Nat.zero_add _).trans_le (Pipeline.Clip.extent_le (Pipeline.Clip.ok_of (hstart1_5 i a)))).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S1x6400.size a < S1x100000.size a
  hwx1_6 : ∀ i : grid1.Coords, EltTy.bits .f32 = 32 ∨ (Rect.unit (s := S1x100000) (fun a => cc1_transform_6 i a * S1x6400.size a) (fun a => (Pipeline.Clip.of (cc1_transform_6 i a) (S1x6400.size a) (S1x100000.size a)).extent (S1x6400.size a)) fun a => Pipeline.Clip.inb (Pipeline.Clip.ok_of (hstart1_6 i a))).WholeWords (EltTy.packing .f32)
  hwxs1_6 : ∀ i : grid1.Coords, EltTy.bits .f32 = 32 ∨ (Rect.unit (s := S1x6400) (fun _ => 0) (fun a => (Pipeline.Clip.of (cc1_transform_6 i a) (S1x6400.size a) (S1x100000.size a)).extent (S1x6400.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S16x21x6400.size a < S16x21x100000.size a
  hwx1_7 : ∀ i : grid1.Coords, EltTy.bits .f32 = 32 ∨ (Rect.unit (s := S16x21x100000) (fun a => cc1_transform_7 i a * S16x21x6400.size a) (fun a => (Pipeline.Clip.of (cc1_transform_7 i a) (S16x21x6400.size a) (S16x21x100000.size a)).extent (S16x21x6400.size a)) fun a => Pipeline.Clip.inb (Pipeline.Clip.ok_of (hstart1_7 i a))).WholeWords (EltTy.packing .f32)
  hwxs1_7 : ∀ i : grid1.Coords, EltTy.bits .f32 = 32 ∨ (Rect.unit (s := S16x21x6400) (fun _ => 0) (fun a => (Pipeline.Clip.of (cc1_transform_7 i a) (S16x21x6400.size a) (S16x21x100000.size a)).extent (S16x21x6400.size a)) fun a => (Nat.zero_add _).trans_le (Pipeline.Clip.extent_le (Pipeline.Clip.ok_of (hstart1_7 i a)))).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S24x64_S2048x64_S24x2048_1_1_0_0_n_n : DotDims S24x64 S2048x64 S24x2048 where
  lhsContracting := [1]
  rhsContracting := [1]
  lhsNonContracting := [0]
  rhsNonContracting := [0]
  lhsBatch := []
  rhsBatch := []
  wf := dot_S24x64_S2048x64_S24x2048_1_1_0_0_n_n_wf
def dot_S24x512_S2048x512_S24x2048_1_1_0_0_n_n : DotDims S24x512 S2048x512 S24x2048 where
  lhsContracting := [1]
  rhsContracting := [1]
  lhsNonContracting := [0]
  rhsNonContracting := [0]
  lhsBatch := []
  rhsBatch := []
  wf := dot_S24x512_S2048x512_S24x2048_1_1_0_0_n_n_wf
def dot_S384x512_S6400x512_S384x6400_1_1_0_0_n_n : DotDims S384x512 S6400x512 S384x6400 where
  lhsContracting := [1]
  rhsContracting := [1]
  lhsNonContracting := [0]
  rhsNonContracting := [0]
  lhsBatch := []
  rhsBatch := []
  wf := dot_S384x512_S6400x512_S384x6400_1_1_0_0_n_n_wf

abbrev win1_0 : Pipeline.Window sig grid1 :=
  Pipeline.Window.ofSpec (Memref.whole main_v8) S384x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_arg7) S6400x512.size cc1_transform_5 reads1_5 false false 2 stage1_5 sem1_5
    hrank1 hreads1_5 hstart1_5 nbuf1_5 (Memref.isWhole_whole _) hwx1_5 hwxs1_5 hstage1_5

abbrev win1_6 : Pipeline.Window sig grid1 :=
  Pipeline.Window.ofSpecClip (Memref.whole main_v11) S1x6400.size cc1_transform_6 reads1_6 false false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v12) S16x21x6400.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16x64 : Shape := ⟨2, ![16, 64]⟩
abbrev S16x20 : Shape := ⟨2, ![16, 20]⟩
abbrev S100000x64 : Shape := ⟨2, ![100000, 64]⟩
abbrev S2048x64 : Shape := ⟨2, ![2048, 64]⟩
abbrev S2048x512 : Shape := ⟨2, ![2048, 512]⟩
abbrev S2048 : Shape := ⟨1, ![2048]⟩
abbrev S100000x512 : Shape := ⟨2, ![100000, 512]⟩
abbrev S100000 : Shape := ⟨1, ![100000]⟩
abbrev S_ : Shape := ⟨0, ![]⟩
abbrev S16x20x1 : Shape := ⟨3, ![16, 20, 1]⟩
abbrev S1 : Shape := ⟨1, ![1]⟩
abbrev S1x1x1 : Shape := ⟨3, ![1, 1, 1]⟩
abbrev S16x20x64 : Shape := ⟨3, ![16, 20, 64]⟩
abbrev S16x1x64 : Shape := ⟨3, ![16, 1, 64]⟩
abbrev S16x21x64 : Shape := ⟨3, ![16, 21, 64]⟩
abbrev S21x512 : Shape := ⟨2, ![21, 512]⟩
abbrev S16x21x512 : Shape := ⟨3, ![16, 21, 512]⟩
abbrev S1x21x64 : Shape := ⟨3, ![1, 21, 64]⟩
abbrev S21x64 : Shape := ⟨2, ![21, 64]⟩
abbrev S64x2048 : Shape := ⟨2, ![64, 2048]⟩
abbrev S21x2048 : Shape := ⟨2, ![21, 2048]⟩
abbrev S512x2048 : Shape := ⟨2, ![512, 2048]⟩
abbrev S1x2048 : Shape := ⟨2, ![1, 2048]⟩
abbrev S1x21x512 : Shape := ⟨3, ![1, 21, 512]⟩
abbrev S512x100000 : Shape := ⟨2, ![512, 100000]⟩
abbrev S16x21x100000 : Shape := ⟨3, ![16, 21, 100000]⟩
abbrev S1x1x100000 : Shape := ⟨3, ![1, 1, 100000]⟩

abbrev nBuf : Space → Nat
  | .hbm => 112
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S16x20, .i32⟩
  | .hbm, ⟨2, _⟩ => ⟨S100000x64, .f32⟩
  | .hbm, ⟨3, _⟩ => ⟨S2048x64, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S100000x512, .f32⟩
  | .hbm, ⟨8, _⟩ => ⟨S100000, .f32⟩
  | .hbm, ⟨9, _⟩ => ⟨S_, .i32⟩
  | .hbm, ⟨10, _⟩ => ⟨S16x20, .i32⟩
  | .hbm, ⟨11, _⟩ => ⟨S16x20, .i1⟩
  | .hbm, ⟨12, _⟩ => ⟨S_, .i32⟩
  | .hbm, ⟨13, _⟩ => ⟨S16x20, .i32⟩
  | .hbm, ⟨14, _⟩ => ⟨S16x20, .i32⟩
  | .hbm, ⟨15, _⟩ => ⟨S16x20, .i32⟩
  | .hbm, ⟨16, _⟩ => ⟨S16x20x1, .i32⟩
  | .hbm, ⟨17, _⟩ => ⟨S1, .i32⟩
  | .hbm, ⟨18, _⟩ => ⟨S_, .i32⟩
  | .hbm, ⟨19, _⟩ => ⟨S16x20x1, .i32⟩
  | .hbm, ⟨20, _⟩ => ⟨S16x20x1, .i1⟩
  | .hbm, ⟨21, _⟩ => ⟨S1x1x1, .i32⟩
  | .hbm, ⟨22, _⟩ => ⟨S16x20x1, .i32⟩
  | .hbm, ⟨23, _⟩ => ⟨S16x20x1, .i1⟩
  | .hbm, ⟨24, _⟩ => ⟨S16x20x1, .i1⟩
  | .hbm, ⟨25, _⟩ => ⟨S_, .i1⟩
  | .hbm, ⟨26, _⟩ => ⟨S16x20, .i1⟩
  | .hbm, ⟨27, _⟩ => ⟨S16x20x64, .f32⟩
  | .hbm, ⟨28, _⟩ => ⟨S16x20x64, .i1⟩
  | .hbm, ⟨29, _⟩ => ⟨S_, .f32⟩
  | .hbm, ⟨30, _⟩ => ⟨S16x20x64, .f32⟩
  | .hbm, ⟨31, _⟩ => ⟨S16x20x64, .f32⟩
  | .hbm, ⟨32, _⟩ => ⟨S16x1x64, .f32⟩
  | .hbm, ⟨33, _⟩ => ⟨S16x21x64, .f32⟩
  | .hbm, ⟨34, _⟩ => ⟨S_, .f32⟩
  | .hbm, ⟨35, _⟩ => ⟨S21x512, .f32⟩
  | .hbm, ⟨36, _⟩ => ⟨S_, .f32⟩
  | .hbm, ⟨37, _⟩ => ⟨S21x512, .f32⟩
  | .hbm, ⟨38, _⟩ => ⟨S_, .f32⟩
  | .hbm, ⟨39, _⟩ => ⟨S16x21x512, .f32⟩
  | .hbm, ⟨40, _⟩ => ⟨S_, .i32⟩
  | .hbm, ⟨41, _⟩ => ⟨S16x21x64, .f32⟩
  | .hbm, ⟨42, _⟩ => ⟨S2048x64, .f32⟩
  | .hbm, ⟨43, _⟩ => ⟨S2048x512, .f32⟩
  | .hbm, ⟨44, _⟩ => ⟨S2048, .f32⟩
  | .hbm, ⟨45, _⟩ => ⟨S2048, .f32⟩
  | .hbm, ⟨46, _⟩ => ⟨S_, .i32⟩
  | .hbm, ⟨47, _⟩ => ⟨S21x512, .f32⟩
  | .hbm, ⟨48, _⟩ => ⟨S21x512, .f32⟩
  | .hbm, ⟨49, _⟩ => ⟨S16x21x512, .f32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1x21x64, .f32⟩
  | .hbm, ⟨55, _⟩ => ⟨S21x64, .f32⟩
  | .hbm, ⟨56, _⟩ => ⟨S64x2048, .f32⟩
  | .hbm, ⟨57, _⟩ => ⟨S21x2048, .f32⟩
  | .hbm, ⟨58, _⟩ => ⟨S512x2048, .f32⟩
  | .hbm, ⟨59, _⟩ => ⟨S21x2048, .f32⟩
  | .hbm, ⟨60, _⟩ => ⟨S21x2048, .f32⟩
  | .hbm, ⟨61, _⟩ => ⟨S1x2048, .f32⟩
  | .hbm, ⟨62, _⟩ => ⟨S21x2048, .f32⟩
  | .hbm, ⟨63, _⟩ => ⟨S21x2048, .f32⟩
  | .hbm, ⟨64, _⟩ => ⟨S1x2048, .f32⟩
  | .hbm, ⟨65, _⟩ => ⟨S21x2048, .f32⟩
  | .hbm, ⟨66, _⟩ => ⟨S21x2048, .f32⟩
  | .hbm, ⟨67, _⟩ => ⟨S21x512, .f32⟩
  | .hbm, ⟨68, _⟩ => ⟨S21x512, .f32⟩
  | .hbm, ⟨69, _⟩ => ⟨S21x512, .f32⟩
  | .hbm, ⟨70, _⟩ => ⟨S21x512, .f32⟩
  | .hbm, ⟨71, _⟩ => ⟨S21x512, .f32⟩
  | .hbm, ⟨72, _⟩ => ⟨S21x512, .f32⟩
  | .hbm, ⟨73, _⟩ => ⟨S_, .f32⟩
  | .hbm, ⟨74, _⟩ => ⟨S21x512, .f32⟩
  | .hbm, ⟨75, _⟩ => ⟨S21x512, .f32⟩
  | .hbm, ⟨76, _⟩ => ⟨S_, .f32⟩
  | .hbm, ⟨77, _⟩ => ⟨S21x512, .f32⟩
  | .hbm, ⟨78, _⟩ => ⟨S21x512, .f32⟩
  | .hbm, ⟨79, _⟩ => ⟨S21x512, .f32⟩
  | .hbm, ⟨80, _⟩ => ⟨S21x512, .f32⟩
  | .hbm, ⟨81, _⟩ => ⟨S_, .f32⟩
  | .hbm, ⟨82, _⟩ => ⟨S21x512, .f32⟩
  | .hbm, ⟨83, _⟩ => ⟨S21x512, .f32⟩
  | .hbm, ⟨84, _⟩ => ⟨S_, .f32⟩
  | .hbm, ⟨85, _⟩ => ⟨S21x512, .f32⟩
  | .hbm, ⟨86, _⟩ => ⟨S21x512, .f32⟩
  | .hbm, ⟨87, _⟩ => ⟨S21x512, .f32⟩
  | .hbm, ⟨88, _⟩ => ⟨S21x512, .f32⟩
  | .hbm, ⟨89, _⟩ => ⟨S21x512, .f32⟩
  | .hbm, ⟨90, _⟩ => ⟨S_, .f32⟩
  | .hbm, ⟨91, _⟩ => ⟨S21x512, .f32⟩
  | .hbm, ⟨92, _⟩ => ⟨S21x512, .f32⟩
  | .hbm, ⟨93, _⟩ => ⟨S_, .f32⟩
  | .hbm, ⟨94, _⟩ => ⟨S21x512, .f32⟩
  | .hbm, ⟨95, _⟩ => ⟨S21x512, .f32⟩
  | .hbm, ⟨96, _⟩ => ⟨S21x512, .f32⟩
  | .hbm, ⟨97, _⟩ => ⟨S21x512, .f32⟩
  | .hbm, ⟨98, _⟩ => ⟨S21x512, .f32⟩
  | .hbm, ⟨99, _⟩ => ⟨S21x512, .f32⟩
  | .hbm, ⟨100, _⟩ => ⟨S21x512, .f32⟩
  | .hbm, ⟨101, _⟩ => ⟨S1x21x512, .f32⟩
  | .hbm, ⟨102, _⟩ => ⟨S_, .i32⟩
  | .hbm, ⟨103, _⟩ => ⟨S_, .i32⟩
  | .hbm, ⟨104, _⟩ => ⟨S16x21x512, .f32⟩
  | .hbm, ⟨105, _⟩ => ⟨S_, .i32⟩
  | .hbm, ⟨106, _⟩ => ⟨S_, .i32⟩
  | .hbm, ⟨107, _⟩ => ⟨S512x100000, .f32⟩
  | .hbm, ⟨108, _⟩ => ⟨S16x21x100000, .f32⟩
  | .hbm, ⟨109, _⟩ => ⟨S1x1x100000, .f32⟩
  | .hbm, ⟨110, _⟩ => ⟨S16x21x100000, .f32⟩
  | .hbm, ⟨111, _⟩ => ⟨S16x21x100000, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_cst : Ref sig .tc := ⟨.hbm, 34, rfl⟩
abbrev main_v3 : Ref sig .tc := ⟨.hbm, 35, rfl⟩
abbrev main_cst_0 : Ref sig .tc := ⟨.hbm, 36, rfl⟩
abbrev main_v4 : Ref sig .tc := ⟨.hbm, 37, rfl⟩
abbrev main_cst_1 : Ref sig .tc := ⟨.hbm, 38, rfl⟩
abbrev main_v5 : Ref sig .tc := ⟨.hbm, 39, rfl⟩
abbrev main_c : Ref sig .tc := ⟨.hbm, 40, rfl⟩
abbrev main_v6_0 : Ref sig .tc := ⟨.hbm, 41, rfl⟩
abbrev main_v6_1 : Ref sig .tc := ⟨.hbm, 42, rfl⟩
abbrev main_v6_2 : Ref sig .tc := ⟨.hbm, 43, rfl⟩
abbrev main_v6_3 : Ref sig .tc := ⟨.hbm, 44, rfl⟩
abbrev main_v6_4 : Ref sig .tc := ⟨.hbm, 45, rfl⟩
abbrev main_v6_5 : Ref sig .tc := ⟨.hbm, 46, rfl⟩
abbrev main_v6_6 : Ref sig .tc := ⟨.hbm, 47, rfl⟩
abbrev main_v6_7 : Ref sig .tc := ⟨.hbm, 48, rfl⟩
abbrev main_v6_8 : Ref sig .tc := ⟨.hbm, 49, rfl⟩
abbrev main_while0c_c_10 : Ref sig .tc := ⟨.hbm, 50, rfl⟩
abbrev main_while0c_v12 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_v0 : Ref sig .tc := ⟨.hbm, 54, rfl⟩
abbrev main_while0b_v12 : Ref sig .tc := ⟨.hbm, 55, rfl⟩
abbrev main_while0b_call2_v0 : Ref sig .tc := ⟨.hbm, 56, rfl⟩
abbrev main_while0b_call2_v1 : Ref sig .tc := ⟨.hbm, 57, rfl⟩
abbrev main_while0b_call2_v2 : Ref sig .tc := ⟨.hbm, 58, rfl⟩
abbrev main_while0b_call2_v3 : Ref sig .tc := ⟨.hbm, 59, rfl⟩
abbrev main_while0b_call2_v4 : Ref sig .tc := ⟨.hbm, 60, rfl⟩
abbrev main_while0b_call2_v5 : Ref sig .tc := ⟨.hbm, 61, rfl⟩
abbrev main_while0b_call2_v6 : Ref sig .tc := ⟨.hbm, 62, rfl⟩
abbrev main_while0b_call2_v7 : Ref sig .tc := ⟨.hbm, 63, rfl⟩
abbrev main_while0b_call2_v8 : Ref sig .tc := ⟨.hbm, 64, rfl⟩
abbrev main_while0b_call2_v9 : Ref sig .tc := ⟨.hbm, 65, rfl⟩
abbrev main_while0b_call2_v10 : Ref sig .tc := ⟨.hbm, 66, rfl⟩
abbrev main_while0b_call2_v11 : Ref sig .tc := ⟨.hbm, 67, rfl⟩
abbrev main_while0b_call2_v12 : Ref sig .tc := ⟨.hbm, 68, rfl⟩
abbrev main_while0b_call2_v13 : Ref sig .tc := ⟨.hbm, 69, rfl⟩
abbrev main_while0b_call2_v14 : Ref sig .tc := ⟨.hbm, 70, rfl⟩
abbrev main_while0b_call2_v15 : Ref sig .tc := ⟨.hbm, 71, rfl⟩
abbrev main_while0b_call2_v16 : Ref sig .tc := ⟨.hbm, 72, rfl⟩
abbrev main_while0b_call2_cst : Ref sig .tc := ⟨.hbm, 73, rfl⟩
abbrev main_while0b_call2_v17 : Ref sig .tc := ⟨.hbm, 74, rfl⟩
abbrev main_while0b_call2_v18 : Ref sig .tc := ⟨.hbm, 75, rfl⟩
abbrev main_while0b_call2_cst_0 : Ref sig .tc := ⟨.hbm, 76, rfl⟩
abbrev main_while0b_call2_v19 : Ref sig .tc := ⟨.hbm, 77, rfl⟩
abbrev main_while0b_call2_v20 : Ref sig .tc := ⟨.hbm, 78, rfl⟩
abbrev main_while0b_call2_v21 : Ref sig .tc := ⟨.hbm, 79, rfl⟩
abbrev main_while0b_call2_v22 : Ref sig .tc := ⟨.hbm, 80, rfl⟩
abbrev main_while0b_call2_cst_1 : Ref sig .tc := ⟨.hbm, 81, rfl⟩
abbrev main_while0b_call2_v23 : Ref sig .tc := ⟨.hbm, 82, rfl⟩
abbrev main_while0b_call2_v24 : Ref sig .tc := ⟨.hbm, 83, rfl⟩
abbrev main_while0b_call2_cst_2 : Ref sig .tc := ⟨.hbm, 84, rfl⟩
abbrev main_while0b_call2_v25 : Ref sig .tc := ⟨.hbm, 85, rfl⟩
abbrev main_while0b_call2_v26 : Ref sig .tc := ⟨.hbm, 86, rfl⟩
abbrev main_while0b_call2_v27 : Ref sig .tc := ⟨.hbm, 87, rfl⟩
abbrev main_while0b_call2_v28 : Ref sig .tc := ⟨.hbm, 88, rfl⟩
abbrev main_while0b_call2_v29 : Ref sig .tc := ⟨.hbm, 89, rfl⟩
abbrev main_while0b_call2_cst_3 : Ref sig .tc := ⟨.hbm, 90, rfl⟩
abbrev main_while0b_call2_v30 : Ref sig .tc := ⟨.hbm, 91, rfl⟩
abbrev main_while0b_call2_v31 : Ref sig .tc := ⟨.hbm, 92, rfl⟩
abbrev main_while0b_call2_cst_4 : Ref sig .tc := ⟨.hbm, 93, rfl⟩
abbrev main_while0b_call2_v32 : Ref sig .tc := ⟨.hbm, 94, rfl⟩
abbrev main_while0b_call2_v33 : Ref sig .tc := ⟨.hbm, 95, rfl⟩
abbrev main_while0b_call2_v34 : Ref sig .tc := ⟨.hbm, 96, rfl⟩
abbrev main_while0b_call2_v35 : Ref sig .tc := ⟨.hbm, 97, rfl⟩
abbrev main_while0b_v13_1 : Ref sig .tc := ⟨.hbm, 98, rfl⟩
abbrev main_while0b_call2_v37 : Ref sig .tc := ⟨.hbm, 99, rfl⟩
abbrev main_while0b_v13_0 : Ref sig .tc := ⟨.hbm, 100, rfl⟩
abbrev main_while0b_call3_v0 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_v14 : Ref sig .tc := ⟨.hbm, 104, rfl⟩
abbrev main_while0b_c_10 : Ref sig .tc := ⟨.hbm, 105, rfl⟩
abbrev main_while0b_v15 : Ref sig .tc := ⟨.hbm, 106, rfl⟩
abbrev main_v7 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩

abbrev nD : Nat := 1
abbrev τ : Topo := Topo.v7x

variable {F : FTy → Type} [FloatOps F]

abbrev main_while0_count : Scf.Loop 32 := ⟨0#32, 16#32, 1#32⟩

class Facts₀ : Prop where
  bcast_S_S16x20 : S_.BroadcastsInDim S16x20 (![] : Fin 0 → Fin S16x20.rank)
  bcast_S16x20_S16x20x1_0_1 : S16x20.BroadcastsInDim S16x20x1 (![0, 1] : Fin 2 → Fin S16x20x1.rank)
  bcast_S_S16x20x1 : S_.BroadcastsInDim S16x20x1 (![] : Fin 0 → Fin S16x20x1.rank)
  bcast_S1_S1x1x1_2 : S1.BroadcastsInDim S1x1x1 (![2] : Fin 1 → Fin S1x1x1.rank)
  bcast_S1x1x1_S16x20x1_0_1_2 : S1x1x1.BroadcastsInDim S16x20x1 (![0, 1, 2] : Fin 3 → Fin S16x20x1.rank)
  reducesTo_S16x20x1_S16x20_d2 : S16x20x1.ReducesTo [2] S16x20
  h_S_ : 0 < S_.numel
  bcast_S16x20_S16x20x64_0_1 : S16x20.BroadcastsInDim S16x20x64 (![0, 1] : Fin 2 → Fin S16x20x64.rank)
  bcast_S_S16x20x64 : S_.BroadcastsInDim S16x20x64 (![] : Fin 0 → Fin S16x20x64.rank)
  bcast_S16x64_S16x1x64_0_2 : S16x64.BroadcastsInDim S16x1x64 (![0, 2] : Fin 2 → Fin S16x1x64.rank)
  concatenates_S16x1x64_S16x20x64_S16x21x64_d1 : Shape.Concatenates [S16x1x64, S16x20x64] S16x21x64 1
  bcast_S_S21x512 : S_.BroadcastsInDim S21x512 (![] : Fin 0 → Fin S21x512.rank)
  bcast_S_S16x21x512 : S_.BroadcastsInDim S16x21x512 (![] : Fin 0 → Fin S16x21x512.rank)
  sliceFits_S16x21x64_S1x21x64 : S16x21x64.Slices (fun _ => 0) S1x21x64
  shapeCasts_S1x21x64_S21x64 : S1x21x64.ShapeCasts S21x64
  transposes_S2048x64_S64x2048_1_0 : S2048x64.Transposes [1, 0] S64x2048
  transposes_S2048x512_S512x2048_1_0 : S2048x512.Transposes [1, 0] S512x2048
  bcast_S2048_S1x2048_1 : S2048.BroadcastsInDim S1x2048 (![1] : Fin 1 → Fin S1x2048.rank)
  bcast_S1x2048_S21x2048_0_1 : S1x2048.BroadcastsInDim S21x2048 (![0, 1] : Fin 2 → Fin S21x2048.rank)
  slices_S21x2048_S21x512_0_0 : S21x2048.Slices ![0, 0] S21x512
  slices_S21x2048_S21x512_0_512 : S21x2048.Slices ![0, 512] S21x512
  slices_S21x2048_S21x512_0_1024 : S21x2048.Slices ![0, 1024] S21x512
  slices_S21x2048_S21x512_0_1536 : S21x2048.Slices ![0, 1536] S21x512
  bcast_S21x512_S1x21x512_1_2 : S21x512.BroadcastsInDim S1x21x512 (![1, 2] : Fin 2 → Fin S1x21x512.rank)
  updateFits_S16x21x512_S1x21x512 : S16x21x512.Slices (fun _ => 0) S1x21x512
  transposes_S100000x512_S512x100000_1_0 : S100000x512.Transposes [1, 0] S512x100000
  bcast_S100000_S1x1x100000_2 : S100000.BroadcastsInDim S1x1x100000 (![2] : Fin 1 → Fin S1x1x100000.rank)
  bcast_S1x1x100000_S16x21x100000_0_1_2 : S1x1x100000.BroadcastsInDim S16x21x100000 (![0, 1, 2] : Fin 3 → Fin S16x21x100000.rank)
  gather_S100000x64_S16x20x1_S16x20x64_2_0_n_n_0_2_164_wf : GatherDims.WF S100000x64 S16x20x1 S16x20x64 [2] [0] [] [0] [] 2 ![1, 64]
  dot_S21x64_S64x2048_S21x2048_1_0_0_1_n_n_wf : DotDims.WF S21x64 S64x2048 S21x2048 [1] [0] [0] [1] [] []
  dot_S21x512_S512x2048_S21x2048_1_0_0_1_n_n_wf : DotDims.WF S21x512 S512x2048 S21x2048 [1] [0] [0] [1] [] []
  dot_S16x21x512_S512x100000_S16x21x100000_2_0_01_1_n_n_wf : DotDims.WF S16x21x512 S512x100000 S16x21x100000 [2] [0] [0, 1] [1] [] []
  main_while0_ok : main_while0_count.OK

variable [Facts₀]

def gather_S100000x64_S16x20x1_S16x20x64_2_0_n_n_0_2_164 : GatherDims S100000x64 S16x20x1 S16x20x64 where
  offsetDims := [2]
  collapsedSliceDims := [0]
  operandBatchingDims := []
  startIndicesBatchingDims := []
  startIndexMap := [0]
  indexVectorDim := 2
  sliceSizes := ![1, 64]
  wf := gather_S100000x64_S16x20x1_S16x20x64_2_0_n_n_0_2_164_wf
def dot_S21x64_S64x2048_S21x2048_1_0_0_1_n_n : DotDims S21x64 S64x2048 S21x2048 where
  lhsContracting := [1]
  rhsContracting := [0]
  lhsNonContracting := [0]
  rhsNonContracting := [1]
  lhsBatch := []
  rhsBatch := []
  wf := dot_S21x64_S64x2048_S21x2048_1_0_0_1_n_n_wf
def dot_S21x512_S512x2048_S21x2048_1_0_0_1_n_n : DotDims S21x512 S512x2048 S21x2048 where
  lhsContracting := [1]
  rhsContracting := [0]
  lhsNonContracting := [0]
  rhsNonContracting := [1]
  lhsBatch := []
  rhsBatch := []
  wf := dot_S21x512_S512x2048_S21x2048_1_0_0_1_n_n_wf
def dot_S16x21x512_S512x100000_S16x21x100000_2_0_01_1_n_n : DotDims S16x21x512 S512x100000 S16x21x100000 where
  lhsContracting := [2]
  rhsContracting := [0]
  lhsNonContracting := [0, 1]
  rhsNonContracting := [1]
  lhsBatch := []
  rhsBatch := []
  wf := dot_S16x21x512_S512x100000_S16x21x100000_2_0_01_1_n_n_wf

class Facts : Prop extends Facts₀ where

variable [Facts]
-- ==== Proof.PreRange.lean ====
/-
  What the precondition says of the captions: every caption word, read as a signed 32-bit integer, lies in
  [0, 99999]; as an unsigned number it is therefore below 100000, the number of rows of the embedding table.
  The precondition is a conjunction of "all" reductions; the last conjunct is the one over the captions.
-/
import proofs.«203981_g87385404604482_cont_9to1_m_1030_24_alg».proof.Pre_input_domain
import proofs.«203981_g87385404604482_cont_9to1_m_1030_24_alg».proof.Proof.Gen.Pre_input_domain
import Idealize.ShloMosaic.Lib.ReduceAll
import Idealize.ShloMosaic.Lib.ValueIdx
import Idealize.ShloMosaic.Lib.Affine

noncomputable section

namespace Cert.Pre_input_domain.Hand

open Idealize.ShloMosaic Cert.Pre_input_domain Cert.Pre_input_domain.Facts

instance : Subsingleton S_.Idx := ⟨fun a b => funext fun d => d.elim0⟩

/-- A word that is at least 0 and at most 99999 as a signed integer is below 100000 as a natural number. -/
theorem word_range (v : BitVec 32) (e : IntOp.andi (IntOp.cmpi .sge v 0#32) (IntOp.cmpi .sle v 99999#32) = 1#1) : v.toNat < 100000 := by
  have ofBool_eq_one (p : Bool) : (BitVec.ofBool p = 1#1) ↔ p = true := by cases p <;> decide
  obtain ⟨h1, h2⟩ := IntOp.andi_eq_one.1 e
  simp only [IntOp.cmpi, ofBool_eq_one, BitVec.sle_eq_decide, decide_eq_true_eq, BitVec.toInt_eq_toNat_cond, BitVec.toNat_ofNat,
    Nat.reducePow, Nat.reduceMod] at h1 h2
  omega

variable {F : FTy → Type} [FloatOps F]

/-- Under the precondition every caption is the index of a table row. -/
theorem captions_range (a0 : FVec F S16x64 .f32) (a1 : IVec S16x20 32) (a2 : FVec F S100000x64 .f32) (a3 : FVec F S2048x64 .f32)
    (a4 : FVec F S2048x512 .f32) (a5 : FVec F S2048 .f32) (a6 : FVec F S2048 .f32) (a7 : FVec F S100000x512 .f32) (a8 : FVec F S100000 .f32)
    (h : fn (F := F) a0 a1 a2 a3 a4 a5 a6 a7 a8 = fun _ => 1#1) (i : S16x20.Idx) : (a1 i).toNat < 100000 := by
  have e := congrFun h ValueIdx.ix0
  unfold fn fn_part1 fn_part2 at e
  dsimp only at e
  obtain ⟨-, e2⟩ := IntOp.andi_eq_one.1 e
  have e3 := Host.reduce_andi_all _ _ _ _ _ e2 i
  exact word_range _ e3

end Cert.Pre_input_domain.Hand

end
-- ==== Proof.ScGhost.lean ====
/-
  The SparseCore side of the launch, 1: the program as the launch theorem reads it, the ghost state, and what the
  handshakes of SparseCore call 0 carry.

  Call 0 is a vector-subcore kernel on 2 SparseCores x 16 vector subcores. Tile (c, s) reads 16 words of the index
  array at offset 32 s + 16 c, copies the 16 table rows they name into its row scratch, and copies the scratch to the
  16 rows of the result at the same offset. The table and the index array are only read: every tile holds a read
  share of each, whole. The result's rows are written: every tile holds its own 16 rows outright.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.ValueIdx
import Idealize.ShloMosaic.Lib.Tactic
import proofs.«203981_g87385404604482_cont_9to1_m_1030_24_alg».proof.Proof.Gen.KernelIdeal
import proofs.«203981_g87385404604482_cont_9to1_m_1030_24_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, a pipeline's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The arrays -/

/-- The table (an argument), the padded index array, the call's result, as locations of device `d`. -/
abbrev tLoc (d : Dev nD) : Loc nD τ sig := (SparseCore.T d).loc main_arg2
abbrev iLoc (d : Dev nD) : Loc nD τ sig := (SparseCore.T d).loc main_v1
abbrev oLoc (d : Dev nD) : Loc nD τ sig := (SparseCore.T d).loc main_v2

-- what the call is run from: the table's contents and the index array's, per device
variable (tb : (d : Dev nD) → Buf (Elt F) (tLoc d)) (ix : (d : Dev nD) → Buf (Elt F) (iLoc d))

/-- The table row an index word names (a word below 100000 names the row of its value). -/
def rowOf (w : BitVec 32) : Fin 100000 := ⟨w.toNat % 100000, Nat.mod_lt _ (by decide)⟩

theorem rowOf_val {w : BitVec 32} (h : w.toNat < 100000) : (rowOf w).val = w.toNat := Nat.mod_eq_of_lt h

/-- The gathered array: row `r` is the table row that index word `r` names. -/
def gath (d : Dev nD) : Buf (Elt F) (oLoc d) :=
  fun (i : S512x64.Idx) => (tb d : S100000x64.Idx → Elt F .f32) (ix2 (rowOf ((ix d : S512.Idx → BitVec 32) (ix1 (i 0)))) (i 1))

/-- What the proof asks of the index array: every word names a table row. -/
def IdxOK : Prop := ∀ (d : Dev nD) (i : S512.Idx), ((ix d : S512.Idx → BitVec 32) i).toNat < 100000

/-! ## A tile's coordinates, rows and shares -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Tile `(c, s)` of the call's grid. -/
abbrev crd (c : Fin 2) (s : Fin 16) : grid0.Coords := coordsV (Fin.cast bound_zero.symm c) (Fin.cast bound_one.symm s)

abbrev tV : Memref sig .scVector .hbm S100000x64 .f32 := Memref.whole main_arg2_scv
abbrev iV : Memref sig .scVector .hbm S512 .i32 := Memref.whole main_v1_scv
abbrev oV : Memref sig .scVector .hbm S512x64 .f32 := Memref.whole main_v2_scv

/-- The result's 16 rows of tile `L`, as the body slices them. -/
abbrev oRowsV (L : grid0.Coords) : Memref sig .scVector .hbm S16x64 .f32 :=
  (oV).slice (Rect.unit (s := S512x64) (k0_off33 L) S16x64.size (k0_off33_inb L)) (fun _ => rfl)
abbrev oSet (L : grid0.Coords) : Finset S512x64.Idx := (oRowsV L).view.set

/-- A SparseCore's read share of an array held whole: a half. -/
def qCore (n : ℕ) : PosShare TreeShare := if n = 0 then fullShare.left else fullShare.right
/-- A tile's read share: its SparseCore's, the tile's token of sixteen. -/
def qTile (L : grid0.Coords) : PosShare TreeShare := Transfers.shareTokN (qCore (L 0).val) (L 1).val

variable [FloatOps F]

/-- What tile `L` is handed: a read share of the table and of the index array, whole, and its 16 rows of the result; -/
def goA (d : Dev nD) (L : grid0.Coords) : sProp 𝕄 :=
  iprop((tLoc d ↦{qTile L} tb d) ∗ (iLoc d ↦{qTile L} ix d) ∗ ∃ f, oLoc d ↦[oSet L]{fullShare} f)
/-- what it hands back: the shares, and its rows at the gathered array. -/
def tdA (d : Dev nD) (L : grid0.Coords) : sProp 𝕄 :=
  iprop((tLoc d ↦{qTile L} tb d) ∗ (iLoc d ↦{qTile L} ix d) ∗ oLoc d ↦[oSet L]{fullShare} gath tb ix d)
/-- What SparseCore `c` is handed: its half of the table and of the index array, and its tiles' rows of the result; -/
def stA (d : Dev nD) (c : Fin 2) : sProp 𝕄 :=
  iprop((tLoc d ↦{qCore c.val} tb d) ∗ (iLoc d ↦{qCore c.val} ix d) ∗ bigSep Finset.univ fun s : Fin 16 => iprop(∃ f, oLoc d ↦[oSet (crd c s)]{fullShare} f))
/-- what it hands back. -/
def dnA (d : Dev nD) (c : Fin 2) : sProp 𝕄 :=
  iprop((tLoc d ↦{qCore c.val} tb d) ∗ (iLoc d ↦{qCore c.val} ix d) ∗ bigSep Finset.univ fun s : Fin 16 => oLoc d ↦[oSet (crd c s)]{fullShare} gath tb ix d)

/-- The one SparseCore call's payloads; its kernel's proof consumes nothing of the launch's. -/
def P : (K (F := F)).Pay (nD := nD) (Val := Elt F) (Name := ℕ) (U := UU) where
  st := fun q d c => match q with | 0 => stA tb ix d (Fin.cast nCore_zero c)
  dn := fun q d c => match q with | 0 => dnA tb ix d (Fin.cast nCore_zero c)
  go := fun q d c i => match q with | 0 => goA tb ix d (crd (Fin.cast nCore_zero c) (Fin.cast nSub_zero i))
  td := fun q d c i => match q with | 0 => tdA tb ix d (crd (Fin.cast nCore_zero c) (Fin.cast nSub_zero i))
  x := fun _ _ => iprop(emp)

instance goA_storable (d : Dev nD) (L : grid0.Coords) : BI.Storable (upEmb : UEmb _ 𝕄) (goA tb ix d L) := by unfold goA; infer_instance
instance tdA_storable (d : Dev nD) (L : grid0.Coords) : BI.Storable (upEmb : UEmb _ 𝕄) (tdA tb ix d L) := by unfold tdA; infer_instance
instance stA_storable (d : Dev nD) (c : Fin 2) : BI.Storable (upEmb : UEmb _ 𝕄) (stA tb ix d c) := by unfold stA; infer_instance
instance dnA_storable (d : Dev nD) (c : Fin 2) : BI.Storable (upEmb : UEmb _ 𝕄) (dnA tb ix d c) := by unfold dnA; infer_instance

instance P_storable : (P (F := F) tb ix).IsStorable where
  st q d c := match q with | 0 => stA_storable tb ix d _
  dn q d c := match q with | 0 => dnA_storable tb ix d _
  go q d c i := match q with | 0 => goA_storable tb ix d _
  td q d c i := match q with | 0 => tdA_storable tb ix d _

theorem P_st (d : Dev nD) (c : Fin ((K (F := F)).nCore 0)) : (P tb ix).st 0 d c = stA tb ix d (Fin.cast nCore_zero c) := rfl
theorem P_dn (d : Dev nD) (c : Fin ((K (F := F)).nCore 0)) : (P tb ix).dn 0 d c = dnA tb ix d (Fin.cast nCore_zero c) := rfl
theorem P_go (d : Dev nD) (c : Fin ((K (F := F)).nCore 0)) (i : Fin ((K (F := F)).nSub 0)) :
    (P tb ix).go 0 d c i = goA tb ix d (crd (Fin.cast nCore_zero c) (Fin.cast nSub_zero i)) := rfl
theorem P_td (d : Dev nD) (c : Fin ((K (F := F)).nCore 0)) (i : Fin ((K (F := F)).nSub 0)) :
    (P tb ix).td 0 d c i = tdA tb ix d (crd (Fin.cast nCore_zero c) (Fin.cast nSub_zero i)) := rfl
theorem P_x (q : Fin 1) (thr : Thread nD τ) : (P (F := F) tb ix).x q thr = iprop(emp) := rfl

end Cert.KernelIdeal.Sc

end
-- ==== Proof.MainOps.lean ====
/-
  @main of the kernel program on a TensorCore, spelt as a chain of four items: the host operations before the
  SparseCore call (flatten the captions to 320 words, pad with the word 0 to 512), the SparseCore call, the host
  operations between the two calls (keep the first 320 gathered rows, lay them out as [16, 20, 64], put the
  feature row in front of each sequence, pad each sequence with three zero rows to 24, flatten to [384, 64];
  the two bias vectors and the output bias as single rows), and the entry of the pallas_call's region.
  The buffer contents after each stretch are the fold of the operations' results over the contents before it.
-/
import proofs.«203981_g87385404604482_cont_9to1_m_1030_24_alg».proof.Proof.Gen.KernelIdeal
import Idealize.ShloMosaic.Lib.Pipeline.Regions
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Facts₀ Cert.KernelIdeal.Facts

variable {F : FTy → Type} [FloatOps F]

/-- The four host operations before the SparseCore call. -/
abbrev opsA : List (HloOp τ sig (Elt F)) :=
  [ StableHlo.reshape main_arg1 main_v0 rfl shapeCasts_S16x20_S320,
    StableHlo.nullary main_c (constantI S_ 32 0#32),
    StableHlo.TRef.unary (.of main_c : StableHlo.TRef sig ⟨S_, .i32⟩) (.of main_call0_v0 : StableHlo.TRef sig ⟨S_, .i32⟩) id,
    StableHlo.TRef.binary (.of main_v0 : StableHlo.TRef sig ⟨S320, .i32⟩) (.of main_call0_v0 : StableHlo.TRef sig ⟨S_, .i32⟩) (.of main_v1 : StableHlo.TRef sig ⟨S512, .i32⟩)
      (fun x v => pad S512 ![0] ![192] ![0] x v pads_S320_S512_01920 h_S_) ]

/-- The eleven host operations between the SparseCore call and the pallas_call. -/
abbrev opsB : List (HloOp τ sig (Elt F)) :=
  [ StableHlo.unary main_v2 main_v3 ((extractStridedSlice S320x64 ![0, 0] · slices_S512x64_S320x64_0_0) : (⟨S512x64, .f32⟩ : BufTy).Contents (Elt F) → (⟨S320x64, .f32⟩ : BufTy).Contents (Elt F)),
    StableHlo.reshape main_v3 main_v4 rfl shapeCasts_S320x64_S16x20x64,
    StableHlo.unary main_arg0 main_v5 (broadcastInDim S16x1x64 ![0, 2] bcast_S16x64_S16x1x64_0_2 : (⟨S16x64, .f32⟩ : BufTy).Contents (Elt F) → (⟨S16x1x64, .f32⟩ : BufTy).Contents (Elt F)),
    StableHlo.binary main_v5 main_v4 main_v6 ((fun a b => concatenate S16x21x64 1 [⟨S16x1x64, a⟩, ⟨S16x20x64, b⟩] concatenates_S16x1x64_S16x20x64_S16x21x64_d1) : (⟨S16x1x64, .f32⟩ : BufTy).Contents (Elt F) → (⟨S16x20x64, .f32⟩ : BufTy).Contents (Elt F) → (⟨S16x21x64, .f32⟩ : BufTy).Contents (Elt F)),
    StableHlo.nullary main_c_0 (constantI S_ 32 0#32),
    StableHlo.TRef.unary (.of main_c_0 : StableHlo.TRef sig ⟨S_, .i32⟩) (.of main_call1_v0 : StableHlo.TRef sig ⟨S_, .f32⟩) (sitofp .f32),
    StableHlo.TRef.binary (.of main_v6 : StableHlo.TRef sig ⟨S16x21x64, .f32⟩) (.of main_call1_v0 : StableHlo.TRef sig ⟨S_, .f32⟩) (.of main_v7 : StableHlo.TRef sig ⟨S16x24x64, .f32⟩)
      (fun x v => pad S16x24x64 ![0, 0, 0] ![0, 3, 0] ![0, 0, 0] x v pads_S16x21x64_S16x24x64_000_030_000 h_S_),
    StableHlo.reshape main_v7 main_v8 rfl shapeCasts_S16x24x64_S384x64,
    StableHlo.reshape main_arg5 main_v9 rfl shapeCasts_S2048_S1x2048,
    StableHlo.reshape main_arg6 main_v10 rfl shapeCasts_S2048_S1x2048,
    StableHlo.reshape main_arg8 main_v11 rfl shapeCasts_S100000_S1x100000 ]

/-- @main is the chain: the first stretch, the SparseCore call, the second stretch, the region's entry. -/
theorem main_chain (d : Dev nD) : main (F := F) d = (Pipeline.chain
  [ StableHlo.seq opsA,
    sc.run d 0,
    StableHlo.seq opsB,
    Prog.lift (.customCall (SparseCore.inner (Pipeline.entry 0)) ()) ] :
      Prog (TpuEff nD τ sig (Elt F) (SparseCore.Sig (Pipeline.Sig Λ₀ (Fin 1) fun p => (pcfgs (F := F) p).Adm) 1) .tc) PUnit) := by
  chain_rfl

end Cert.KernelIdeal.Hand

end
-- ==== Proof.MainVals.lean ====
/-
  The contents of the TensorCore's buffers along @main, as pure functions of the launch contents: the padded
  index vector the SparseCore call reads; after the call, the rows it gathered; the [384, 64] input of the
  pallas_call built from the features and the gathered rows; the bias rows.
-/
import proofs.«203981_g87385404604482_cont_9to1_m_1030_24_alg».proof.Proof.MainOps

noncomputable section

namespace Cert.KernelIdeal.Hand

open Idealize.ShloMosaic Idealize.ShloMosaic.TcCoe Idealize.ShloMosaic.StableHlo
open Idealize.SL Idealize.SL.Sem
open Cert.KernelIdeal Cert.KernelIdeal.Facts₀ Cert.KernelIdeal.Facts

variable {F : FTy → Type} [FloatOps F]

/-- The captions flattened to 320 words and padded with the word 0 to 512. -/
def idxPad (cap : IVec S16x20 32) : IVec S512 32 :=
  pad S512 ![0] ![192] ![0] (shapeCast S320 cap shapeCasts_S16x20_S320) (id (constantI S_ 32 0#32)) pads_S320_S512_01920 h_S_

/-- The pallas_call's [384, 64] input: per sequence the feature row, the 20 gathered rows, three zero rows. -/
def xRows (feat : FVec F S16x64 .f32) (emb : FVec F S512x64 .f32) : FVec F S384x64 .f32 :=
  shapeCast S384x64
    (pad S16x24x64 ![0, 0, 0] ![0, 3, 0] ![0, 0, 0]
      (concatenate S16x21x64 1 [⟨S16x1x64, broadcastInDim S16x1x64 ![0, 2] bcast_S16x64_S16x1x64_0_2 feat⟩,
        ⟨S16x20x64, shapeCast S16x20x64 (extractStridedSlice S320x64 ![0, 0] emb slices_S512x64_S320x64_0_0) shapeCasts_S320x64_S16x20x64⟩]
        concatenates_S16x1x64_S16x20x64_S16x21x64_d1)
      (sitofp .f32 (constantI S_ 32 0#32)) pads_S16x21x64_S16x24x64_000_030_000 h_S_)
    shapeCasts_S16x24x64_S384x64

variable (V : Valuation τ sig (Elt F))

theorem afterA_v1 : after (opsA (F := F)) V (Proc.devRef .tc main_v1) = idxPad (V (Proc.devRef .tc main_arg1)) := by
  dsimp only [opsA]
  after_results
  rfl

theorem afterB_v8 : after (opsB (F := F)) V (Proc.devRef .tc main_v8) = xRows (V (Proc.devRef .tc main_arg0)) (V (Proc.devRef .tc main_v2)) := by
  dsimp only [opsB]
  after_results
  rfl

theorem afterB_v9 : after (opsB (F := F)) V (Proc.devRef .tc main_v9) = shapeCast S1x2048 (V (Proc.devRef .tc main_arg5)) shapeCasts_S2048_S1x2048 := by
  dsimp only [opsB]
  after_results
  rfl

theorem afterB_v10 : after (opsB (F := F)) V (Proc.devRef .tc main_v10) = shapeCast S1x2048 (V (Proc.devRef .tc main_arg6)) shapeCasts_S2048_S1x2048 := by
  dsimp only [opsB]
  after_results
  rfl

theorem afterB_v11 : after (opsB (F := F)) V (Proc.devRef .tc main_v11) = shapeCast S1x100000 (V (Proc.devRef .tc main_arg8)) shapeCasts_S100000_S1x100000 := by
  dsimp only [opsB]
  after_results
  rfl

end Cert.KernelIdeal.Hand

end
-- ==== Proof.TcValue.lean ====
/-
  The values the TensorCore kernel computes, as pure terms generic in the float instance: the rows of the
  input each trip of the recurrence reads, the carried pair (h, c) before each trip, the hidden rows each trip
  stores, and the stacked hidden states the scratch holds after the sixteen trips.  No separation logic here.
-/
import proofs.«203981_g87385404604482_cont_9to1_m_1030_24_alg».proof.Proof.Gen.KernelIdeal.Skeleton
import Idealize.ShloMosaic.Lib.WritesUnit

noncomputable section

namespace Cert.KernelIdeal.Tc

open Cert.KernelIdeal Cert.KernelIdeal.Gen
open Idealize.ShloMosaic

variable {F : FTy → Type} [FloatOps F]

/-- The recurrence has sixteen trips. -/
theorem trips_eq : k1_t1_loop.trips = 16 := by decide

/-- The first grid point, at which the kernel's conditional holds. -/
def i0 : grid1.Coords := grid1.coords (⟨0, by decide⟩ : Fin grid1.N)

theorem cond_i0 : k1_cond1 i0 = 1#1 := by decide

/-- Rows 24k … 24k+23 lie inside the 384-row input. -/
theorem off1_inb (k : Fin k1_t1_loop.trips) : ∀ a, k1_off1 k a + S24x64.size a ≤ S384x64.size a :=
  k1_off1_inb i0 k cond_i0

/-- Rows 24k … 24k+23 lie inside the 384-row scratch. -/
theorem off2_inb (k : Fin k1_t1_loop.trips) : ∀ a, k1_off2 k a + S24x512.size a ≤ S384x512.size a :=
  k1_off2_inb i0 k cond_i0

/-- Rows 24k … 24k+23 of the input `x`: entry (r, j) is x (24k + r, j). -/
def xrows (x : Vec F S384x64 .f32) (k : Fin k1_t1_loop.trips) : Vec F S24x64 .f32 :=
  fun j => x ((Rect.unit (s := S384x64) (k1_off1 k) S24x64.size (off1_inb k)).toLoadRect.idx j)

/-- One trip on the carried pair (h, c): gates = xₖ·W_ihᵀ + h·W_hhᵀ + (b_ih + b_hh); the new pair is
    (o ⊙ tanh c', c') with c' = f ⊙ c + i ⊙ g. -/
def step (x : Vec F S384x64 .f32) (wih : Vec F S2048x64 .f32) (whh : Vec F S2048x512 .f32)
    (b1 b2 : Vec F S1x2048 .f32) (k : Fin k1_t1_loop.trips)
    (s : FVec F S24x512 .f32 × FVec F S24x512 .f32) : FVec F S24x512 .f32 × FVec F S24x512 .f32 :=
  (k1_pay5 b1 b2 s.1 s.2 (xrows x k) wih whh, k1_pay4 b1 b2 s.1 s.2 (xrows x k) wih whh)

/-- The carried pair (h, c) before trip `k`: zeros, then one `step` per trip. -/
def lstm (x : Vec F S384x64 .f32) (wih : Vec F S2048x64 .f32) (whh : Vec F S2048x512 .f32)
    (b1 b2 : Vec F S1x2048 .f32) : ℕ → FVec F S24x512 .f32 × FVec F S24x512 .f32
  | 0 => (k1_pay1, k1_pay2)
  | k + 1 => if h : k < k1_t1_loop.trips then step x wih whh b1 b2 ⟨k, h⟩ (lstm x wih whh b1 b2 k)
      else lstm x wih whh b1 b2 k

theorem lstm_succ (x : Vec F S384x64 .f32) (wih : Vec F S2048x64 .f32) (whh : Vec F S2048x512 .f32)
    (b1 b2 : Vec F S1x2048 .f32) (k : Fin k1_t1_loop.trips) :
    lstm x wih whh b1 b2 (k.val + 1) = step x wih whh b1 b2 k (lstm x wih whh b1 b2 k.val) := by
  rw [lstm]; exact dif_pos k.isLt

/-- The 24 hidden rows trip `k` stores: the new h of that trip. -/
def hrow (x : Vec F S384x64 .f32) (wih : Vec F S2048x64 .f32) (whh : Vec F S2048x512 .f32)
    (b1 b2 : Vec F S1x2048 .f32) (k : Fin k1_t1_loop.trips) : FVec F S24x512 .f32 :=
  k1_pay6 b1 b2 (lstm x wih whh b1 b2 k.val).1 (lstm x wih whh b1 b2 k.val).2 (xrows x k) wih whh

/-- Row `y 0` of the 384-row scratch lies in the 24 rows trip `(y 0) / 24` stores, at row `(y 0) % 24`. -/
theorem hs_mem (y : S384x512.Idx) :
    ∀ a, (![24 * ((y 0).val / 24), 0] : Fin 2 → ℕ) a ≤ (y a).val
      ∧ (y a).val < (![24 * ((y 0).val / 24), 0] : Fin 2 → ℕ) a + S24x512.size a := by
  have h0 : (y 0).val < 384 := (y 0).isLt
  have h1 : (y 1).val < 512 := (y 1).isLt
  refine Fin.forall_fin_two.mpr ⟨⟨?_, ?_⟩, ⟨?_, ?_⟩⟩
  · show 24 * ((y 0).val / 24) ≤ (y 0).val; omega
  · show (y 0).val < 24 * ((y 0).val / 24) + 24; omega
  · show 0 ≤ (y 1).val; omega
  · show (y 1).val < 0 + 512; omega

theorem hs_trip (y : S384x512.Idx) : (y 0).val / 24 < k1_t1_loop.trips := by
  rw [trips_eq]; have h0 : (y 0).val < 384 := (y 0).isLt; omega

/-- The stacked hidden states: row 24k + r is row r of what trip k stores. -/
def hs (x : Vec F S384x64 .f32) (wih : Vec F S2048x64 .f32) (whh : Vec F S2048x512 .f32)
    (b1 b2 : Vec F S1x2048 .f32) : Vec F S384x512 .f32 :=
  fun y => hrow x wih whh b1 b2 ⟨(y 0).val / 24, hs_trip y⟩
    (Rect.unitLocal (s := S384x512) (off := ![24 * ((y 0).val / 24), 0]) (size := S24x512.size) y (hs_mem y))

end Cert.KernelIdeal.Tc

end
-- ==== Proof.TcLoop.lean ====
/-
  The recurrence's counted loop: what its loads read and its stores leave, the loop by its invariant (the scratch at
  the stores of the trips before `k`, the carried pair at the recurrence's value), and the scratch after the sixteen
  trips read back as the stacked hidden states.
-/
import proofs.«203981_g87385404604482_cont_9to1_m_1030_24_alg».proof.Proof.TcValue
import proofs.«203981_g87385404604482_cont_9to1_m_1030_24_alg».proof.Proof.Gen.KernelIdeal.Loops
import Idealize.ShloMosaic.Lib.WholeRead
import Idealize.ShloMosaic.Lib.WritesUnit
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Whole-buffer loads and stores -/

/-- A load through the unit-stride rectangle of the whole shape reads the contents as they are. -/
theorem readAt_unit_whole {κ : Kind} {sp : Space} {sh : Shape} {e : EltTy} (v : View sig κ sp sh e) (f : v.ty.Contents (Elt F))
    (off : Fin sh.rank → ℕ) (inb : ∀ a, off a + sh.size a ≤ sh.size a) :
    v.readAt (Elt F) (Rect.unit (s := sh) off sh.size inb).toLoadRect f = v.read (Elt F) f := by
  funext j
  rw [View.readAt_apply]
  congr 1; funext a; apply Fin.ext
  have := inb a
  show off a + 1 * (j a).val = (j a).val
  omega

/-- A load of a whole buffer held at the contents that read `X` reads `X`. -/
theorem readAt_whole {κ : Kind} {sp : Space} {sh : Shape} {e : EltTy} {m : Memref sig κ sp sh e} (h : m.IsWhole) (X : sh.Idx → Elt F e)
    (off : Fin sh.rank → ℕ) (inb : ∀ a, off a + sh.size a ≤ sh.size a) :
    View.readAt (Elt F) m.view (Rect.unit (s := sh) off sh.size inb).toLoadRect (h.unread X) = X :=
  (readAt_unit_whole m.view _ off inb).trans (h.read_unread X)

/-- A store through the unit-stride rectangle of the whole shape leaves its payload. -/
theorem read_writes_unit_whole {κ : Kind} {sp : Space} {sh : Shape} {e : EltTy} (v : View sig κ sp sh e) (f : v.ty.Contents (Elt F))
    (off : Fin sh.rank → ℕ) (inb : ∀ a, off a + sh.size a ≤ sh.size a) (w : sh.Idx → Elt F e) :
    v.read (Elt F) (v.writes (Elt F) f [(⟨Rect.unit (s := sh) off sh.size inb, w⟩ : View.Piece (Elt F) sh e)]) = w := by
  funext y
  exact View.read_writes_cons_unit_of_mem v f inb w [] y y rfl (fun a => by have := inb a; omega)

/-- The trip's load of its 24 rows of the input held at `x` reads `xrows x k`. -/
theorem readAt_xrows {m : Memref sig .tc .vmem S384x64 .f32} (h : m.IsWhole) (x : Vec F S384x64 .f32) (k : Fin k1_t1_loop.trips)
    (inb : ∀ a, k1_off1 k a + S24x64.size a ≤ S384x64.size a) :
    View.readAt (Elt F) m.view (Rect.unit (s := S384x64) (k1_off1 k) S24x64.size inb).toLoadRect (h.unread x) = xrows x k := by
  funext j
  rw [h.readAt_unread]; rfl

/-! ## The loop -/

/-- The stores of the trips before `k`, last first: trip `j` writes `hrow j` at rows 24j … 24j+23. -/
def pieces (x : Vec F S384x64 .f32) (wih : Vec F S2048x64 .f32) (whh : Vec F S2048x512 .f32) (b1 b2 : Vec F S1x2048 .f32) : ℕ → List (View.Piece (Elt F) S384x512 .f32)
  | 0 => []
  | k + 1 => if h : k < k1_t1_loop.trips then
      (⟨Rect.unit (s := S384x512) (k1_off2 ⟨k, h⟩) S24x512.size (off2_inb ⟨k, h⟩), hrow x wih whh b1 b2 ⟨k, h⟩⟩ : View.Piece (Elt F) S384x512 .f32) :: pieces x wih whh b1 b2 k
    else pieces x wih whh b1 b2 k

theorem pieces_succ (x : Vec F S384x64 .f32) (wih : Vec F S2048x64 .f32) (whh : Vec F S2048x512 .f32) (b1 b2 : Vec F S1x2048 .f32) (k : Fin k1_t1_loop.trips) :
    pieces x wih whh b1 b2 (k.val + 1) = (⟨Rect.unit (s := S384x512) (k1_off2 k) S24x512.size (off2_inb k), hrow x wih whh b1 b2 k⟩ : View.Piece (Elt F) S384x512 .f32) :: pieces x wih whh b1 b2 k.val := by
  rw [pieces]; exact dif_pos k.isLt

/-- The recurrence's invariant before trip `k`: the three inputs as held, the scratch at the stores of the trips before
    `k` over what it held at loop entry, the carried pair the recurrence's value. -/
abbrev inv (c : Dev nD) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (x : Vec F S384x64 .f32) (wih : Vec F S2048x64 .f32) (whh : Vec F S2048x512 .f32) (b1 b2 : Vec F S1x2048 .f32) (G : BufTy.Contents (Elt F) arg9.view.ty) (k : ℕ) (acc : FVec F S24x512 .f32 × FVec F S24x512 .f32) : sProp 𝕄 :=
  iprop((arg1.view.loc (c : Thread nD τ) ↦[arg1.view.set]{fullShare} harg1.unread x) ∗ (arg2.view.loc (c : Thread nD τ) ↦[arg2.view.set]{fullShare} harg2.unread wih)
    ∗ (arg3.view.loc (c : Thread nD τ) ↦[arg3.view.set]{fullShare} harg3.unread whh)
    ∗ (∃ f, (arg9.view.loc (c : Thread nD τ) ↦[arg9.view.set]{fullShare} f) ∗ ⌜f = arg9.view.writes (Elt F) G (pieces x wih whh b1 b2 k)⌝)
    ∗ ⌜acc = lstm x wih whh b1 b2 k⌝)

set_option warn.classDefReducibility false in
set_option maxHeartbeats 1000000 in
@[sl_loop] def loopInv (𝒱 : Variants) (c : Dev nD) (bd : Option 𝒱.V) (E : Set Name) (i : grid1.Coords) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (k1_h1 : k1_cond1 i = 1#1) (x : Vec F S384x64 .f32) (wih : Vec F S2048x64 .f32) (whh : Vec F S2048x512 .f32) (b1 b2 : Vec F S1x2048 .f32) (G : BufTy.Contents (Elt F) arg9.view.ty) :
    LoopInvTy_k1_t1 (F := F) Ix Name U Lvl 𝒱 c bd E i arg1 harg1 arg2 harg2 arg3 harg3 arg4 harg4 arg5 harg5 arg6 harg6 arg7 harg7 arg8 harg8 arg9 harg9 k1_h1 b1 b2 (k1_pay1 (F := F), k1_pay2 (F := F)) where
  inv := inv (F := F) c arg1 harg1 arg2 harg2 arg3 harg3 arg4 harg4 arg5 harg5 arg6 harg6 arg7 harg7 arg8 harg8 arg9 harg9 x wih whh b1 b2 G
  step k acc := by
    iintro ⟨H1, H2, H3, ⟨%f9, H9, %hf9⟩, %hacc⟩
    subst hacc
    unfold k1_t1_body
    sl_exec
    rw [readAt_xrows harg1 x k, readAt_whole harg2 wih, readAt_whole harg3 whh]
    sl_step
    isplitl [H1]; · iexact H1
    isplitl [H2]; · iexact H2
    isplitl [H3]; · iexact H3
    isplitl [H9]
    · iexists _; isplitl [H9]; · iexact H9
      ipureintro; rw [hf9, ← View.writes_append, pieces_succ]; rfl
    ipureintro; rw [lstm_succ]; rfl

/-! ## The scratch after the loop -/

/-- Below row 24k the stores of the trips before `k` read back as the stacked hidden states, whatever was there. -/
theorem read_pieces {κ : Kind} {sp : Space} (v : View sig κ sp S384x512 .f32) (G : v.ty.Contents (Elt F)) (x : Vec F S384x64 .f32) (wih : Vec F S2048x64 .f32) (whh : Vec F S2048x512 .f32) (b1 b2 : Vec F S1x2048 .f32) :
    ∀ (k : ℕ), k ≤ 16 → ∀ y : S384x512.Idx, (y 0).val < 24 * k →
      v.read (Elt F) (v.writes (Elt F) G (pieces x wih whh b1 b2 k)) y = hs x wih whh b1 b2 y := by
  intro k
  induction k with
  | zero => intro _ y hy; omega
  | succ k ih =>
    intro hk y hy
    have hkt : k < k1_t1_loop.trips := by rw [trips_eq]; omega
    have e := pieces_succ x wih whh b1 b2 ⟨k, hkt⟩
    rw [e]
    rw [View.read_writes_cons_rows (o := 24 * k) (W := 24) v G (off2_inb ⟨k, hkt⟩) (hrow x wih whh b1 b2 ⟨k, hkt⟩) _ y
      (k1_off2_eq ⟨k, hkt⟩) rfl rfl]
    by_cases h : 24 * k ≤ (y 0).val ∧ (y 0).val < 24 * k + 24
    · rw [dif_pos h]
      have hq : (y 0).val / 24 = k := by omega
      unfold hs
      subst hq
      rfl
    · rw [dif_neg h]
      exact ih (by omega) y (by omega)

/-- After the sixteen trips the scratch reads as the stacked hidden states. -/
theorem read_pieces_all {κ : Kind} {sp : Space} (v : View sig κ sp S384x512 .f32) (G : v.ty.Contents (Elt F)) (x : Vec F S384x64 .f32) (wih : Vec F S2048x64 .f32) (whh : Vec F S2048x512 .f32) (b1 b2 : Vec F S1x2048 .f32) :
    v.read (Elt F) (v.writes (Elt F) G (pieces x wih whh b1 b2 16)) = hs x wih whh b1 b2 :=
  funext fun y => read_pieces v G x wih whh b1 b2 16 le_rfl y (by have : (y 0).val < 384 := (y 0).isLt; omega)

end Cert.KernelIdeal.Tc

end
-- ==== Proof.TcBody.lean ====
/-
  The kernel body run once per control case on whole staging memrefs: at the first grid point the recurrence's loop
  fills the scratch with the stacked hidden states and then the output block is computed; at every later point only
  the output block is computed from the scratch as the first point left it.
-/
import proofs.«203981_g87385404604482_cont_9to1_m_1030_24_alg».proof.Proof.TcLoop
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The whole scratch read over the stores of the sixteen trips alone (`View.readCov`: over no prior contents) is the
    stacked hidden states. -/
theorem readCov_pieces {κ : Kind} {sp : Space} (v : View sig κ sp S384x512 .f32) (x : Vec F S384x64 .f32) (wih : Vec F S2048x64 .f32) (whh : Vec F S2048x512 .f32) (b1 b2 : Vec F S1x2048 .f32)
    (off : Fin S384x512.rank → ℕ) (inb : ∀ a, off a + S384x512.size a ≤ S384x512.size a) :
    v.readCov (pieces x wih whh b1 b2 16) (Rect.unit (s := S384x512) off S384x512.size inb).toLoadRect = hs x wih whh b1 b2 := by
  unfold View.readCov
  rw [readAt_unit_whole]
  exact read_pieces_all v _ x wih whh b1 b2

set_option maxHeartbeats 2000000 in
/-- A later grid point (the conditional not taken): from the staged weight block `W5`, bias block `B6` and the scratch at
    `hsv`, the body leaves the output's staging buffer at `k1_pay7 hsv W5 B6` and everything else as it was. -/
theorem runB (𝒱 : Variants) (c : Dev nD) (i : grid1.Coords) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (hc : ¬ k1_cond1 i = 1#1)
    (W5 : Vec F S6400x512 .f32) (B6 : Vec F S1x6400 .f32) (hsv : Vec F S384x512 .f32) (E : Set Name) (K : PUnit → sProp 𝕄) :
    iprop(owns (c : Thread nD τ) arg6 fullShare W5 ∗ owns (c : Thread nD τ) arg7 fullShare B6 ∗ (∃ d, owns (c : Thread nD τ) arg8 fullShare d)
        ∗ owns (c : Thread nD τ) arg9 fullShare hsv
        ∗ (iprop(owns (c : Thread nD τ) arg6 fullShare W5 ∗ owns (c : Thread nD τ) arg7 fullShare B6 ∗ owns (c : Thread nD τ) arg8 fullShare (k1_pay7 hsv W5 B6) ∗ owns (c : Thread nD τ) arg9 fullShare hsv) -∗ K ⟨⟩))
      ⊢ wp frame (wpE (defs₀ (F := F)) 𝒱 (c : Thread nD τ) none) E (cc1__fused_body i arg1 harg1 arg2 harg2 arg3 harg3 arg4 harg4 arg5 harg5 arg6 harg6 arg7 harg7 arg8 harg8 arg9 harg9) K := by
  simp only [cc1__fused_body_eq_skeleton]; unfold cc1__fused_body_skel
  unfold owns
  iintro ⟨⟨%f6, %hf6, H6⟩, ⟨%f7, %hf7, H7⟩, ⟨%d8, %f8, -, H8⟩, ⟨%f9, %hf9, H9⟩, Hk⟩
  obtain rfl := harg6.eq_unread hf6
  obtain rfl := harg7.eq_unread hf7
  obtain rfl := harg9.eq_unread hf9
  sl_exec (disch := first | exact hc)
  sl_step
  iapply Hk
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_writes_unit_whole, readAt_whole harg9 hsv, readAt_whole harg6 W5, readAt_whole harg7 B6]
  iexists _; isplitr; · ipureintro; exact hf9
  iexact H9

set_option maxHeartbeats 4000000 in
/-- The first grid point (the conditional taken): from the five whole inputs, the staged weight and bias blocks and the
    scratch at anything, the body leaves the scratch at the stacked hidden states `hs`, the output's staging buffer at
    `k1_pay7 hs W5 B6`, and the inputs as they were. -/
theorem runA (𝒱 : Variants) (c : Dev nD) (i : grid1.Coords) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (hc : k1_cond1 i = 1#1)
    (x : Vec F S384x64 .f32) (wih : Vec F S2048x64 .f32) (whh : Vec F S2048x512 .f32) (b1 b2 : Vec F S1x2048 .f32) (W5 : Vec F S6400x512 .f32) (B6 : Vec F S1x6400 .f32) (E : Set Name) (K : PUnit → sProp 𝕄) :
    iprop(owns (c : Thread nD τ) arg1 fullShare x ∗ owns (c : Thread nD τ) arg2 fullShare wih ∗ owns (c : Thread nD τ) arg3 fullShare whh ∗ owns (c : Thread nD τ) arg4 fullShare b1 ∗ owns (c : Thread nD τ) arg5 fullShare b2 ∗ owns (c : Thread nD τ) arg6 fullShare W5 ∗ owns (c : Thread nD τ) arg7 fullShare B6 ∗ (∃ d, owns (c : Thread nD τ) arg8 fullShare d)
        ∗ (∃ d, owns (c : Thread nD τ) arg9 fullShare d)
        ∗ (iprop(owns (c : Thread nD τ) arg1 fullShare x ∗ owns (c : Thread nD τ) arg2 fullShare wih ∗ owns (c : Thread nD τ) arg3 fullShare whh ∗ owns (c : Thread nD τ) arg4 fullShare b1 ∗ owns (c : Thread nD τ) arg5 fullShare b2 ∗ owns (c : Thread nD τ) arg6 fullShare W5 ∗ owns (c : Thread nD τ) arg7 fullShare B6 ∗ owns (c : Thread nD τ) arg8 fullShare (k1_pay7 (hs x wih whh b1 b2) W5 B6) ∗ owns (c : Thread nD τ) arg9 fullShare (hs x wih whh b1 b2)) -∗ K ⟨⟩))
      ⊢ wp frame (wpE (defs₀ (F := F)) 𝒱 (c : Thread nD τ) none) E (cc1__fused_body i arg1 harg1 arg2 harg2 arg3 harg3 arg4 harg4 arg5 harg5 arg6 harg6 arg7 harg7 arg8 harg8 arg9 harg9) K := by
  simp only [cc1__fused_body_eq_skeleton]; unfold cc1__fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc)
  unfold runA.sl.v3
  rw [readAt_whole harg4 b1, readAt_whole harg5 b2, readAt_whole harg6 W5, readAt_whole harg7 B6,
    show Scf.trips k1_t1_loop.lb k1_t1_loop.ub k1_t1_loop.st = 16 from trips_eq, readCov_pieces]
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [read_writes_unit_whole]
  iexists _; isplitr
  swap; · iexact H9
  ipureintro
  exact read_pieces_all _ _ x wih whh b1 b2

end Cert.KernelIdeal.Tc

end
-- ==== Proof.TcRegion.lean ====
/-
  The TensorCore kernel's region inside the larger program: the pipeline's relational proof data (the arrays as the
  region finds them; every input's staging buffer left as found; the output's staging buffer at the output block of
  the stacked hidden states and SOME staged weight and bias blocks — the array's blocks where the fetches filled the
  buffers, anything past the array's end, where the last block overhangs; the scratch carried from the first grid
  point to the later ones), the body obligation at every grid point, and the region's run from the region boundary.
-/
import proofs.«203981_g87385404604482_cont_9to1_m_1030_24_alg».proof.Proof.TcBody
import proofs.«203981_g87385404604482_cont_9to1_m_1030_24_alg».proof.Proof.Gen.KernelIdeal.Launch
import proofs.«203981_g87385404604482_cont_9to1_m_1030_24_alg».proof.Proof.Gen.KernelIdeal.Points
import Idealize.ShloMosaic.Lib.Pipeline.Regions
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-! ## The arrays as the region finds them, read through the windows -/

/-- Window `w`'s block of its array at grid point `t` (its part inside the array), the array at its contents when the
    region is entered. -/
def blkOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What window `w`'s staging buffer holds after the fetch at point `t`, if it held `d`: the block on the part the
    fetch fills, `d` on the rest (the rows or columns of an overhanging last block that lie past the array). -/
def fetchedOf (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (blkOf V c w t)

/-- The five whole inputs of the recurrence. -/
def xOf (c : Dev nD) : Vec F S384x64 .f32 := blkOf V c 0 t1_0
def wihOf (c : Dev nD) : Vec F S2048x64 .f32 := blkOf V c 1 t1_0
def whhOf (c : Dev nD) : Vec F S2048x512 .f32 := blkOf V c 2 t1_0
def b1Of (c : Dev nD) : Vec F S1x2048 .f32 := blkOf V c 3 t1_0
def b2Of (c : Dev nD) : Vec F S1x2048 .f32 := blkOf V c 4 t1_0

/-- The stacked hidden states of the region's inputs. -/
def hsOf (c : Dev nD) : Vec F S384x512 .f32 := hs (xOf V c) (wihOf V c) (whhOf V c) (b1Of V c) (b2Of V c)

/-- What the body may leave in the output's staging buffer at point `t`: the output block computed from the stacked
    hidden states and SOME staged weight and bias blocks — the array's blocks where the fetches filled the buffers,
    anything past the array's end. -/
def Out7 (c : Dev nD) (t : Fin cfg1.N) (X : Vec F S16x21x6400 .f32) : Prop :=
  ∃ (d5 : Vec F S6400x512 .f32) (d6 : Vec F S1x6400 .f32), X = k1_pay7 (hsOf V c) (fetchedOf V c 5 t d5) (fetchedOf V c 6 t d6)

/-! ## The pipeline's proof data -/

/-- The relational proof data of the pipeline on core `c`: the arrays as the region finds them; every input's staging
    buffer left as found; the output's at `Out7`; the invariant the scratch — at anything before the first point, at
    the stacked hidden states after it —; nothing owed; the recorded waits within those at entry. -/
def rdats (W₀ : Dev nD → Waits sig Ix) (_ : Fin 1) (c : Dev nD) : RDat τ (Elt F) Ix Name U Lvl cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => Out7 V c t X
  Φ t := if t.val = 0 then Pipeline.scopedRest spec1 c
    else owns (c : Thread nD τ) (Memref.whole cc1_scratch0 : Memref sig .tc .vmem S384x512 .f32) fullShare (hsOf V c)
  q _ := fullShare
  owed _ := 0
  recorded _ := ↑(W₀ c)

variable (W₀ : Dev nD → Waits sig Ix)

theorem fetched_eq (c : Dev nD) (w : Fin cfg1.W) (t : Fin cfg1.N) (d) :
    (rdats (Name := Name) (U := U) (Lvl := Lvl) V W₀ 0 c).fetched w t d = fetchedOf V c w t d := rfl

/-! ## The body obligation -/

/-- The kernel's conditional holds at the first grid point only. -/
theorem hcond : ∀ t : Fin cfg1.N, k1_cond1 (grid1.coords t) = 1#1 ↔ t.val = 0 :=
  (by decide +kernel : ∀ t : Fin grid1.N, k1_cond1 (grid1.coords t) = 1#1 ↔ t.val = 0)

/-- The uncut, never-refetched inputs' staging buffers hold the whole inputs at every point. -/
theorem fetchedOf_0 (c : Dev nD) (t : Fin cfg1.N) (d) : fetchedOf V c 0 t d = xOf V c := rfl
theorem fetchedOf_1 (c : Dev nD) (t : Fin cfg1.N) (d) : fetchedOf V c 1 t d = wihOf V c := rfl
theorem fetchedOf_2 (c : Dev nD) (t : Fin cfg1.N) (d) : fetchedOf V c 2 t d = whhOf V c := rfl
theorem fetchedOf_3 (c : Dev nD) (t : Fin cfg1.N) (d) : fetchedOf V c 3 t d = b1Of V c := rfl
theorem fetchedOf_4 (c : Dev nD) (t : Fin cfg1.N) (d) : fetchedOf V c 4 t d = b2Of V c := rfl

theorem Φ_zero (c : Dev nD) (s : Fin (cfg1.N + 1)) (h : s.val = 0) :
    (rdats (Name := Name) (U := U) (Lvl := Lvl) V W₀ 0 c).Φ s = Pipeline.scopedRest spec1 c := if_pos h

theorem Φ_pos (c : Dev nD) (s : Fin (cfg1.N + 1)) (h : s.val ≠ 0) :
    (rdats (Name := Name) (U := U) (Lvl := Lvl) V W₀ 0 c).Φ s = owns (c : Thread nD τ) (Memref.whole cc1_scratch0 : Memref sig .tc .vmem S384x512 .f32) fullShare (hsOf V c) := if_neg h

set_option maxHeartbeats 4000000 in
/-- The body at any grid point, for any contents the staging buffers may then hold. -/
theorem sound_body (𝒱₀ : Variants) (ι : Ix) (c : Dev nD) (t : Fin cfg1.N)
    (Y : (w : Fin cfg1.W) → (cfg1.win w).block.Idx → Elt F (cfg1.win w).elt) (hY : ∀ w, (rdats (Name := Name) (U := U) (Lvl := Lvl) V W₀ 0 c).Finds w t (Y w)) :
    iprop((rdats (Name := Name) (U := U) (Lvl := Lvl) V W₀ 0 c).Φ t.castSucc ∗ (rdats (Name := Name) (U := U) (Lvl := Lvl) V W₀ 0 c).owesAt ι t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7))
      ⊢ wp frame (wpE (defs₀ (F := F)) 𝒱₀ (c : Thread nD τ) none) Set.univ (bodyAt1 (F := F) t) (fun _ =>
        iprop((rdats (Name := Name) (U := U) (Lvl := Lvl) V W₀ 0 c).Φ t.succ ∗ (rdats (Name := Name) (U := U) (Lvl := Lvl) V W₀ 0 c).owesAt ι t.succ
          ∗ (∃ X, ⌜(rdats (Name := Name) (U := U) (Lvl := Lvl) V W₀ 0 c).after 0 t (Y 0) X⌝ ∗ owns (c : Thread nD τ) (st1_0 t) fullShare X)
          ∗ (∃ X, ⌜(rdats (Name := Name) (U := U) (Lvl := Lvl) V W₀ 0 c).after 1 t (Y 1) X⌝ ∗ owns (c : Thread nD τ) (st1_1 t) fullShare X)
          ∗ (∃ X, ⌜(rdats (Name := Name) (U := U) (Lvl := Lvl) V W₀ 0 c).after 2 t (Y 2) X⌝ ∗ owns (c : Thread nD τ) (st1_2 t) fullShare X)
          ∗ (∃ X, ⌜(rdats (Name := Name) (U := U) (Lvl := Lvl) V W₀ 0 c).after 3 t (Y 3) X⌝ ∗ owns (c : Thread nD τ) (st1_3 t) fullShare X)
          ∗ (∃ X, ⌜(rdats (Name := Name) (U := U) (Lvl := Lvl) V W₀ 0 c).after 4 t (Y 4) X⌝ ∗ owns (c : Thread nD τ) (st1_4 t) fullShare X)
          ∗ (∃ X, ⌜(rdats (Name := Name) (U := U) (Lvl := Lvl) V W₀ 0 c).after 5 t (Y 5) X⌝ ∗ owns (c : Thread nD τ) (st1_5 t) fullShare X)
          ∗ (∃ X, ⌜(rdats (Name := Name) (U := U) (Lvl := Lvl) V W₀ 0 c).after 6 t (Y 6) X⌝ ∗ owns (c : Thread nD τ) (st1_6 t) fullShare X)
          ∗ (∃ X, ⌜(rdats (Name := Name) (U := U) (Lvl := Lvl) V W₀ 0 c).after 7 t (Y 7) X⌝ ∗ owns (c : Thread nD τ) (st1_7 t) fullShare X))) := by
  obtain ⟨d0, e0⟩ := RDat.finds_in_eq_fetched (rdats (Name := Name) (U := U) (Lvl := Lvl) V W₀ 0 c) 0 rfl (fun _ _ _ => rfl) (fun _ _ _ h => h) t _ (hY 0)
  obtain ⟨d1, e1⟩ := RDat.finds_in_eq_fetched (rdats (Name := Name) (U := U) (Lvl := Lvl) V W₀ 0 c) 1 rfl (fun _ _ _ => rfl) (fun _ _ _ h => h) t _ (hY 1)
  obtain ⟨d2, e2⟩ := RDat.finds_in_eq_fetched (rdats (Name := Name) (U := U) (Lvl := Lvl) V W₀ 0 c) 2 rfl (fun _ _ _ => rfl) (fun _ _ _ h => h) t _ (hY 2)
  obtain ⟨d3, e3⟩ := RDat.finds_in_eq_fetched (rdats (Name := Name) (U := U) (Lvl := Lvl) V W₀ 0 c) 3 rfl (fun _ _ _ => rfl) (fun _ _ _ h => h) t _ (hY 3)
  obtain ⟨d4, e4⟩ := RDat.finds_in_eq_fetched (rdats (Name := Name) (U := U) (Lvl := Lvl) V W₀ 0 c) 4 rfl (fun _ _ _ => rfl) (fun _ _ _ h => h) t _ (hY 4)
  obtain ⟨d5, e5⟩ := ((rdats (Name := Name) (U := U) (Lvl := Lvl) V W₀ 0 c).finds_of_fetch (fetch1_5 t) _).mp (hY 5)
  obtain ⟨d6, e6⟩ := ((rdats (Name := Name) (U := U) (Lvl := Lvl) V W₀ 0 c).finds_of_fetch (fetch1_6 t) _).mp (hY 6)
  rw [fetched_eq] at e0 e1 e2 e3 e4 e5 e6
  rw [fetchedOf_0] at e0; rw [fetchedOf_1] at e1; rw [fetchedOf_2] at e2; rw [fetchedOf_3] at e3; rw [fetchedOf_4] at e4
  rw [e0, e1, e2, e3, e4, e5, e6]
  by_cases ht : t.val = 0
  · have hΦ0 := Φ_zero (Name := Name) (U := U) (Lvl := Lvl) V W₀ c t.castSucc ht
    have hΦ1 := Φ_pos (Name := Name) (U := U) (Lvl := Lvl) V W₀ c t.succ (Nat.succ_ne_zero t.val)
    rw [hΦ0, hΦ1, scopedRest1_eq]
    iintro ⟨⟨%f9, H9⟩, Ho, H0, H1, H2, H3, H4, H5, H6, H7⟩
    unfold bodyAt1
    iapply (runA 𝒱₀ c (grid1.coords t) _ _ _ _ _ _ _ _ _ _ _ _ _ _ _ _ _ _ ((hcond t).mpr ht) (xOf V c) (wihOf V c) (whhOf V c) (b1Of V c) (b2Of V c)
      (fetchedOf V c 5 t d5) (fetchedOf V c 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexists f9; rw [owns_whole]; iexact H9
    iintro ⟨H0, H1, H2, H3, H4, H5, H6, H7, H9⟩
    isplitl [H9]; · iexact H9
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    iexists _; isplitr; · ipureintro; exact ⟨d5, d6, rfl⟩
    iexact H7
  · have hΦ0 := Φ_pos (Name := Name) (U := U) (Lvl := Lvl) V W₀ c t.castSucc ht
    have hΦ1 := Φ_pos (Name := Name) (U := U) (Lvl := Lvl) V W₀ c t.succ (Nat.succ_ne_zero t.val)
    rw [hΦ0, hΦ1]
    iintro ⟨H9, Ho, H0, H1, H2, H3, H4, H5, H6, H7⟩
    unfold bodyAt1
    iapply (runB 𝒱₀ c (grid1.coords t) _ _ _ _ _ _ _ _ _ _ _ _ _ _ _ _ _ _ (fun h => ht ((hcond t).mp h)) (fetchedOf V c 5 t d5) (fetchedOf V c 6 t d6) (hsOf V c) Set.univ _)
    isplitl [H5]; · iexact H5
    isplitl [H6]; · iexact H6
    isplitl [H7]; · iexists _; iexact H7
    isplitl [H9]; · iexact H9
    iintro ⟨H5, H6, H7, H9⟩
    isplitl [H9]; · iexact H9
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    iexists _; isplitr; · ipureintro; exact ⟨d5, d6, rfl⟩
    iexact H7

/-- The library's body obligation, at every point. -/
theorem body_obligation (𝒱₀ : Variants) (ι : Ix) (c : Dev nD) :
    (rdats (Name := Name) (U := U) (Lvl := Lvl) V W₀ 0 c).BodyObligation (defs₀ (F := F)) 𝒱₀ ι Set.univ := fun t Y hY => by
  rw [bigSep_W1, bigSep_W1]
  exact sound_body V W₀ 𝒱₀ ι c t Y hY

/-! ## The region -/

/-- What the region is entered from: the eight windowed arrays whole at their entry contents, and the core owing
    nothing with its recorded waits those at entry. -/
def pre (ι : Ix) (c : Dev nD) : sProp 𝕄 :=
  iprop((rdats (Name := Name) (U := U) (Lvl := Lvl) V W₀ 0 c).arrays (rdats (Name := Name) (U := U) (Lvl := Lvl) V W₀ 0 c).A ∗ (rdats (Name := Name) (U := U) (Lvl := Lvl) V W₀ 0 c).owesAt ι 0)

/-- What it leaves: the arrays at contents they may hold after the sixteen write-backs (the inputs as at entry, the
    output in the relation the write-backs determine), and the core owing nothing, its recorded waits those at entry
    and the staging cells' at the index `ι`. -/
def post (ι : Ix) (c : Dev nD) : sProp 𝕄 :=
  iprop((rdats (Name := Name) (U := U) (Lvl := Lvl) V W₀ 0 c).arraysAt cfg1.N ∗ (rdats (Name := Name) (U := U) (Lvl := Lvl) V W₀ 0 c).owesAt ι (Fin.last cfg1.N))

/-- The kernel region as the library's record: the decided layout, no semaphore of the kernel's own, the body
    obligation, nothing owed at the staging cells, the scratch in and out of the invariant. -/
def region (𝒱₀ : Variants) (ι : Ix) (L : GSem nD τ sig → Finset Ix) (lv : GSem nD τ sig → Ix → Lvl) :
    Pipeline.RDat.RegionSeg (pcfgs (F := F)) (fun q => (cfgs q).toPCfg_adm) (rdats (Name := Name) (U := U) (Lvl := Lvl) V W₀) ι (defs₀ (F := F)) 𝒱₀ L lv 0 where
  win := winFacts1.to₀
  block_pos := block_pos1
  stage_whole := stage_whole1
  K := PEmpty
  osem := fun k => k.elim
  ho := Pipeline.OwnSemFacts.none _
  hbody c := body_obligation V W₀ 𝒱₀ ι c
  hwaits c := Pipeline.RDat.hwaits_of_owed_zero (pcfgs (F := F)) (fun q => (cfgs q).toPCfg_adm) (rdats (Name := Name) (U := U) (Lvl := Lvl) V W₀) ι L lv 0 (fun _ _ => rfl) c
  pre := pre V W₀ ι
  post := post V W₀ ι
  X _ := iprop(emp)
  Y _ := iprop(emp)
  Z _ := iprop(emp)
  hentry c := by
    unfold pre
    iintro ⟨⟨Ha, Ho⟩, -, -⟩
    imodintro
    isplitl [Ha]; · iexact Ha
    isplitr
    · unfold Pipeline.prefHeld
      rw [show (Finset.univ : Finset (Fin (pcfgs (F := F) 0).pre.K)) = ∅ from Finset.eq_empty_of_forall_notMem fun k => k.elim0, BI.bigSep_empty]
      iempintro
    isplitl [Ho]; · iexact Ho
    isplitr <;> iempintro
  hin c := by
    iintro ⟨-, -, H⟩
    rw [Φ_zero V W₀ c 0 rfl]
    iexact H
  hout c := by
    rw [Φ_pos V W₀ c (Fin.last cfg1.N) (by decide), Pipeline.ownSems0_none, scopedRest1_eq, owns_whole]
    iintro H
    isplitr; · iempintro
    isplitr; · iempintro
    iexists _; iexact H
  hexit c := by
    unfold post
    iintro ⟨Ha, Ho, -, -⟩
    imodintro
    isplitl [Ha] <;> iassumption

set_option maxHeartbeats 4000000 in
set_option backward.isDefEq.respectTransparency.types false in
/-- THE REGION'S RUN inside a larger program of the TensorCore: from the region boundary, `pre`, the level facts and
    the pipeline's launch ghost state, the call of the region runs to the boundary and `post` for the continuation. -/
theorem region_wp (EP : Emb (URounds (GSem nD τ sig) Unit) 𝕄) [Infinite Name] [EP.LandsIn (upEmb : UEmb _ 𝕄)]
    (𝒱₀ : Variants) (ι : Ix) (L : GSem nD τ sig → Finset Ix) (lv : GSem nD τ sig → Ix → Lvl) (c : Dev nD) {α : Type}
    (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ post V W₀ ι c)
            -∗ wp frame (wpE (Pipeline.defs (pcfgs (F := F)) defs₀) (Variants.lift 𝒱₀) (c.tc : Thread nD τ) none) Set.univ (k ⟨⟩) Q)
        ∗ boundary (c.tc : Thread nD τ) ∗ pre V W₀ ι c ∗ levAts L lv
        ∗ Pipeline.cellsGhost cfgs EP 0 c ∗ Pipeline.toksInit cfgs EP 0 c)
      ⊢ wp frame (wpE (Pipeline.defs (pcfgs (F := F)) defs₀) (Variants.lift 𝒱₀) (c.tc : Thread nD τ) none) Set.univ
          (.op (.customCall (Pipeline.entry 0) ()) k) Q :=
  Pipeline.RDat.RegionSeg.wp (pcfgs (F := F)) (fun q => (cfgs q).toPCfg_adm) (rdats (Name := Name) (U := U) (Lvl := Lvl) V W₀) ι cellOf_inj EP defs₀ 𝒱₀ L lv
    (region V W₀ 𝒱₀ ι L lv) c none (fun _ h => absurd h (by simp)) k Q

end Cert.KernelIdeal.Tc

end
-- ==== Proof.Launch.lean ====
/-
  @main on a TensorCore, run: the host operations before the SparseCore call leave the padded index vector; the
  call is handed the table, the index vector and the result array whole and returns them with the result at the
  gathered rows; the host operations after it build the pallas_call's operands; the region is entered through the
  lifting of the certificate's body table and leaves the output array; the arguments are never written.
-/
import proofs.«203981_g87385404604482_cont_9to1_m_1030_24_alg».proof.Proof.ScGhost
import proofs.«203981_g87385404604482_cont_9to1_m_1030_24_alg».proof.Proof.MainVals
import proofs.«203981_g87385404604482_cont_9to1_m_1030_24_alg».proof.Proof.TcRegion
import Idealize.ShloMosaic.Lib.Pipeline.Frame

noncomputable section

namespace Cert.KernelIdeal.Hand

open Cert.KernelIdeal Cert.KernelIdeal.Gen Cert.KernelIdeal.Sc
open Idealize.ShloMosaic Idealize.ShloMosaic.TcCoe
open Idealize.ShloMosaic.SparseCore.Cfg (HIx Pay)
open Idealize.ShloMosaic.StableHlo (held after wp_seq launchContents)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The table and the padded index vector the SparseCore call is run from. -/
def tbl (d : Dev nD) : Buf (Elt F) (tLoc d) := m (tLoc d)
def idx (d : Dev nD) : Buf (Elt F) (iLoc d) := idxPad (m ((SparseCore.T d : Thread nD τ).loc main_arg1) : IVec S16x20 32)

/-- The buffer contents along @main: at launch, after the first stretch, after the call, after the second stretch. -/
def V0 (d : Dev nD) : Valuation τ sig (Elt F) := fun b => m (d, b)
abbrev VA (d : Dev nD) : Valuation τ sig (Elt F) := after opsA (V0 m d)
def VB (d : Dev nD) : Valuation τ sig (Elt F) := Function.update (VA m d) (Proc.devRef .tc main_v2) (gath (tbl m) (idx m) d)
abbrev VC (d : Dev nD) : Valuation τ sig (Elt F) := after opsB (VB m d)

theorem opsA_sub : ∀ op ∈ (opsA : List (HloOp τ sig (Elt F))), op.bufs ⊆ ucRefs τ sig := by
  intro op h
  refine sub_ucRefs op ?_
  simp only [opsA, List.mem_cons, List.mem_nil_iff, or_false] at h
  rcases h with rfl | rfl | rfl | rfl
  · exact StableHlo.reshape_bufs_sub ..
  · exact StableHlo.nullary_bufs_sub ..
  · exact StableHlo.unary_bufs_sub ..
  · exact StableHlo.binary_bufs_sub ..

theorem opsB_sub : ∀ op ∈ (opsB : List (HloOp τ sig (Elt F))), op.bufs ⊆ ucRefs τ sig := by
  intro op h
  refine sub_ucRefs op ?_
  simp only [opsB, List.mem_cons, List.mem_nil_iff, or_false] at h
  rcases h with rfl | rfl | rfl | rfl | rfl | rfl | rfl | rfl | rfl | rfl | rfl
  · exact StableHlo.unary_bufs_sub ..
  · exact StableHlo.reshape_bufs_sub ..
  · exact StableHlo.unary_bufs_sub ..
  · exact StableHlo.binary_bufs_sub ..
  · exact StableHlo.nullary_bufs_sub ..
  · exact StableHlo.unary_bufs_sub ..
  · exact StableHlo.binary_bufs_sub ..
  · exact StableHlo.reshape_bufs_sub ..
  · exact StableHlo.reshape_bufs_sub ..
  · exact StableHlo.reshape_bufs_sub ..
  · exact StableHlo.reshape_bufs_sub ..

theorem opsA_fresh : ∀ op ∈ (opsA : List (HloOp τ sig (Elt F))), op.fresh = ∅ := by
  intro op h
  simp only [opsA, List.mem_cons, List.mem_nil_iff, or_false] at h
  rcases h with rfl | rfl | rfl | rfl <;> rfl

theorem opsB_fresh : ∀ op ∈ (opsB : List (HloOp τ sig (Elt F))), op.fresh = ∅ := by
  intro op h
  simp only [opsB, List.mem_cons, List.mem_nil_iff, or_false] at h
  rcases h with rfl | rfl | rfl | rfl | rfl | rfl | rfl | rfl | rfl | rfl | rfl <;> rfl

/-- The three arrays of the SparseCore call among the unscoped ones. -/
def callRefs : Finset (DevRef τ sig) := {Proc.devRef .tc main_arg2, Proc.devRef .tc main_v1, Proc.devRef .tc main_v2}

theorem callRefs_sub : (callRefs : Finset (DevRef τ sig)) ⊆ ucRefs τ sig := by decide

theorem held_callRefs (d : Dev nD) (W : Valuation τ sig (Elt F)) :
    (held (SparseCore.T d) callRefs W : sProp 𝕄)
      = iprop((tLoc d ↦{fullShare} W (Proc.devRef .tc main_arg2)) ∗ (iLoc d ↦{fullShare} W (Proc.devRef .tc main_v1)) ∗ oLoc d ↦{fullShare} W (Proc.devRef .tc main_v2)) := by
  unfold held callRefs
  rw [SparseCore.bigSep_insert' (by decide), SparseCore.bigSep_insert' (by decide), bigSep_singleton]

theorem VA_arg2 (d : Dev nD) : VA m d (Proc.devRef .tc main_arg2) = tbl m d := by
  dsimp only [VA, opsA]; after_results; rfl
theorem VA_v1 (d : Dev nD) : VA m d (Proc.devRef .tc main_v1) = idx m d := by
  show after opsA (V0 m d) (Proc.devRef .tc main_v1) = _
  rw [afterA_v1]; rfl

theorem VB_arg2 (d : Dev nD) : VB m d (Proc.devRef .tc main_arg2) = tbl m d :=
  (Function.update_of_ne (show Proc.devRef (τ := τ) .tc main_arg2 ≠ Proc.devRef .tc main_v2 by decide) _ _).trans (VA_arg2 m d)
theorem VB_v1 (d : Dev nD) : VB m d (Proc.devRef .tc main_v1) = idx m d :=
  (Function.update_of_ne (show Proc.devRef (τ := τ) .tc main_v1 ≠ Proc.devRef .tc main_v2 by decide) _ _).trans (VA_v1 m d)
theorem VB_v2 (d : Dev nD) : VB m d (Proc.devRef .tc main_v2) = gath (tbl m) (idx m) d := Function.update_self _ _ _

/-- The arrays outside the call are the same before and after it. -/
theorem held_rest_VB (d : Dev nD) :
    (held (SparseCore.T d) (ucRefs τ sig \ callRefs) (VB m d) : sProp 𝕄) = held (SparseCore.T d) (ucRefs τ sig \ callRefs) (VA m d) :=
  StableHlo.held_congr _ fun b hb => Function.update_of_ne (fun e => (Finset.mem_sdiff.mp hb).2 (by subst e; decide)) _ _

/-- The unscoped arrays before the call: the call's three and the rest. -/
theorem held_A_split (d : Dev nD) :
    (held (d.tc : Thread nD τ) (ucRefs τ sig) (after opsA (V0 m d)) : sProp 𝕄)
      = iprop(((tLoc d ↦{fullShare} tbl m d) ∗ (iLoc d ↦{fullShare} idx m d) ∗ oLoc d ↦{fullShare} VA m d (Proc.devRef .tc main_v2))
          ∗ held (SparseCore.T d) (ucRefs τ sig \ callRefs) (VA m d)) := by
  rw [show (held (d.tc : Thread nD τ) (ucRefs τ sig) (after opsA (V0 m d)) : sProp 𝕄) = held (SparseCore.T d) (ucRefs τ sig) (VA m d) from rfl,
    StableHlo.held_sub_split (SparseCore.T d) callRefs_sub (VA m d), held_callRefs d (VA m d), VA_arg2, VA_v1]

/-- The unscoped arrays after the call, the result at the gathered rows. -/
theorem held_B_join (d : Dev nD) :
    (iprop(((tLoc d ↦{fullShare} tbl m d) ∗ (iLoc d ↦{fullShare} idx m d) ∗ oLoc d ↦{fullShare} gath (tbl m) (idx m) d)
          ∗ held (SparseCore.T d) (ucRefs τ sig \ callRefs) (VA m d)) : sProp 𝕄)
      = held (d.tc : Thread nD τ) (ucRefs τ sig) (VB m d) := by
  rw [show (held (d.tc : Thread nD τ) (ucRefs τ sig) (VB m d) : sProp 𝕄) = held (SparseCore.T d) (ucRefs τ sig) (VB m d) from rfl,
    StableHlo.held_sub_split (SparseCore.T d) callRefs_sub (VB m d), held_callRefs d (VB m d), VB_arg2, VB_v1, VB_v2, held_rest_VB]

/-- What the pallas_call's region needs of the launch element, per device: its staging cells' ghost state and duty tokens. -/
abbrev Gd (d : Dev nD) : sProp 𝕄 := iprop(Pipeline.cellsGhost cfgs EP 0 d ∗ Pipeline.toksInit cfgs EP 0 d)

/-- The TensorCore's handshake state after the one SparseCore call: it owes nothing; its record of waits out, and back. -/
theorem tcSt_open (d : Dev nD) (n : ℕ) (hn : 1 ≤ n) :
    ((K (F := F)).tcSt EH d n : sProp 𝕄)
      ⊢ iprop((∃ W, ⌜(K (F := F)).WBelow (SparseCore.T d) W (8 * n)⌝ ∗ owes (SparseCore.T d) 0 W)
          ∗ ((∃ W, ⌜(K (F := F)).WBelow (SparseCore.T d) W (8 * n)⌝ ∗ owes (SparseCore.T d) 0 W) -∗ (K (F := F)).tcSt EH d n)) := by
  unfold SparseCore.Cfg.tcSt
  rw [(K (F := F)).Otc_end d hn]
  iintro ⟨H1, H2⟩
  isplitl [H1]; · iexact H1
  iintro H1
  isplitl [H1]; · iexact H1
  iexact H2

section Main

/-- The buffer contents at the region's entry, as the pipeline library reads them: per reference. -/
abbrev Vc (c : Dev nD) (b : Ref sig .tc) : Buf (Elt F) ((c : Thread nD τ).loc b) := VC m c b

/-- What @main leaves the claim: the pallas_call's eight arrays as its sixteen write-backs leave them, and the
    other unscoped arrays at their contents before the region. -/
def FIN (d : Dev nD) : sProp 𝕄 :=
  iprop(∃ W : Waits sig (HIx 1), (Tc.rdats (Name := ℕ) (U := UU) (Lvl := ℕ) (Vc m) (fun _ => W) 0 d).arraysAt cfg1.N ∗ Pipeline.unscopedRest spec1 d (Vc m d))

/-- The region's run, as @main's proof uses it. -/
def RegionRun : Prop :=
  ∀ (κ : GSem nD τ sig → ℕ) (d : Dev nD) (W : Waits sig (HIx 1)) (Φ : PUnit → sProp 𝕄),
    iprop((K (F := F)).ctx EH (P (tbl m) (idx m)) κ ∗ boundary (SparseCore.T d) ∗ held (SparseCore.T d) (ucRefs τ sig) (VC m d) ∗ owes (SparseCore.T d) 0 W ∗ Gd d
        ∗ ((boundary (SparseCore.T d) ∗ FIN m d ∗ ∃ W', ⌜∀ p ∈ W', p ∈ W ∨ p.2 = none⌝ ∗ owes (SparseCore.T d) 0 W') -∗ Φ ⟨⟩))
      ⊢ wp frame (wpE ((K (F := F)).defs (D (F := F))) 𝒱 (SparseCore.T d) none) Set.univ
          (Prog.lift (.customCall (SparseCore.inner (Pipeline.entry 0)) ())) Φ

/-- The call's hand-over and hand-back, over the three arrays whole. -/
def St0 : Prop := ∀ d : Dev nD, iprop((tLoc d ↦{fullShare} tbl m d) ∗ (iLoc d ↦{fullShare} idx m d) ∗ ∃ f, oLoc d ↦{fullShare} f)
      ⊢ (bigSep Finset.univ fun c : Fin ((K (F := F)).nCore 0) => (P (tbl m) (idx m)).st 0 d c : sProp 𝕄)
def Dn0 : Prop := ∀ d : Dev nD, (bigSep Finset.univ fun c : Fin ((K (F := F)).nCore 0) => (P (tbl m) (idx m)).dn 0 d c : sProp 𝕄)
      ⊢ iprop((tLoc d ↦{fullShare} tbl m d) ∗ (iLoc d ↦{fullShare} idx m d) ∗ oLoc d ↦{fullShare} gath (tbl m) (idx m) d)

/-- @main on device `d`'s TensorCore. -/
theorem hmain (h_st0 : St0 m) (h_dn0 : Dn0 m) (hregion : RegionRun m) (κ : GSem nD τ sig → ℕ) (d : Dev nD) :
    iprop((K (F := F)).ctx EH (P (tbl m) (idx m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d : Thread nD τ).loc b)) : sProp 𝕄) = held (SparseCore.T d) (ucRefs τ sig) (V0 m d) from unscopedBufs_held d (V0 m d)]
  rw [main_chain]
  simp only [Pipeline.chain_cons, Pipeline.chain_nil]
  iintro ⟨#Hctx, Hst, ⟨Hb, Hheld, -, -⟩, HG⟩
  -- the first stretch
  iapply (wp_seq 𝒱 none Set.univ d (ucRefs τ sig) _ opsA opsA_sub opsA_fresh (V0 m d)) $$ [Hb Hheld]
  · isplitl [Hb] <;> iassumption
  iintro ⟨Hb, Hheld⟩
  -- the call: its three arrays out of the unscoped ones
  ihave Hh := (Entails.of_eq (held_A_split m d)) $$ Hheld
  icases Hh with ⟨⟨Ht, Hi, Ho⟩, Hrest⟩
  rw [wp_bind]
  iapply ((K (F := F)).wp_run (D (F := F)) 𝒱 (EH := EH) (P := P (tbl m) (idx m)) κ d 0) $$ [Hst Ht Hi Ho Hb Hrest HG]
  isplitr; · iexact Hctx
  isplitl [Hst]; · iexact Hst
  isplitl [Ht Hi Ho]
  · iapply (h_st0 d)
    isplitl [Ht]; · iexact Ht
    isplitl [Hi]; · iexact Hi
    iexists _; iexact Ho
  iintro ⟨Hst, Hdn⟩
  ihave Hdn' := (h_dn0 d) $$ Hdn
  icases Hdn' with ⟨Ht, Hi, Ho⟩
  ihave Hheld := (Entails.of_eq (held_B_join m d)) $$ [Ht Hi Ho Hrest]
  · isplitr [Hrest]
    · isplitl [Ht]; · iexact Ht
      isplitl [Hi]; · iexact Hi
      iexact Ho
    iexact Hrest
  -- the second stretch
  iapply (wp_seq 𝒱 none Set.univ d (ucRefs τ sig) _ opsB opsB_sub opsB_fresh (VB m d)) $$ [Hb Hheld]
  · isplitl [Hb] <;> iassumption
  iintro ⟨Hb, Hheld⟩
  -- the region: the TensorCore's record of waits out of its handshake state, and back
  ihave H := (tcSt_open (F := F) d ((0 : Fin 1).val + 1) (by decide)) $$ Hst
  icases H with ⟨⟨%W, %hW, HO⟩, Hback⟩
  rw [wp_bind]
  iapply (hregion κ d W _) $$ [Hb Hheld HO HG Hback]
  isplitr; · iexact Hctx
  isplitl [Hb]; · iexact Hb
  isplitl [Hheld]; · iexact Hheld
  isplitl [HO]; · iexact HO
  isplitl [HG]; · iexact HG
  iintro ⟨Hb, Hfin, ⟨%W', %hW', HO⟩⟩
  rw [wp_pure]
  imodintro
  isplitl [HO Hback]
  · iapply Hback
    iexists W'
    isplitr
    · ipureintro
      intro p hp
      rcases hW' p hp with h | h
      · exact hW p h
      · rw [h, SparseCore.Cfg.lev_none]; exact Nat.zero_le _
    iexact HO
  iexact Hfin

end Main

end Cert.KernelIdeal.Hand

end
-- ==== Proof.TcRel.lean ====
/-
  What the region leaves, read: a block of a written-back array read back through relational proof data; the relation
  between the region's inputs and the output array after it; entering the region from the core's unscoped buffers and
  reading its arrays off the final state.
-/
import proofs.«203981_g87385404604482_cont_9to1_m_1030_24_alg».proof.Proof.TcRegion
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b)) (W₀ : Dev nD → Waits sig Ix)

/-! ## A block of a written-back array, read back -/

/-- Of relational proof data whose window `w` writes back at every point, into pairwise disjoint blocks: block `t` of
    anything the array may hold after the write-backs below `n` (`t < n`) is the moved part of SOME contents the body
    may have left in the staging buffer at `t`. -/
theorem read_blk_ArrAt {cfg : Cfg sig Λ₀} {c : Dev nD} (rd : RDat τ (Elt F) Ix Name U Lvl cfg c) (w : Fin cfg.W)
    (hfl : ∀ t, (cfg.win w).flush t = true)
    (hdisj : ∀ t t' : Fin cfg.N, t ≠ t' → Disjoint ((cfg.win w).blk t).view.set ((cfg.win w).blk t').view.set) :
    ∀ (n : ℕ) (G : Buf (Elt F) ((cfg.win w).arr.view.loc (c.tc : Thread nD τ))), rd.ArrAt w n G → ∀ t : Fin cfg.N, t.val < n →
      ∃ X, rd.Leaves w t X ∧ ((cfg.win w).blk t).view.read (Elt F) G = (cfg.win w).cut (cfg.grid.coords t) X
  | 0, _, _, _, ht => absurd ht (Nat.not_lt_zero _)
  | n + 1, G, hG, t, ht => by
    by_cases hn : n < cfg.N
    swap
    · rw [rd.ArrAt_stable w (n + 1) (by omega), ← rd.ArrAt_stable w n (by omega)] at hG
      exact read_blk_ArrAt rd w hfl hdisj n G hG t (by have := t.isLt; omega)
    rw [show n + 1 = (⟨n, hn⟩ : Fin cfg.N).val + 1 from rfl, rd.ArrAt_succ, if_pos (hfl _)] at hG
    obtain ⟨G₀, X, hG₀, hX, rfl⟩ := hG
    by_cases htn : t.val = n
    · obtain rfl : t = ⟨n, hn⟩ := Fin.ext htn
      exact ⟨X, hX, View.read_write_univ _ _⟩
    · obtain ⟨X', hX', e⟩ := read_blk_ArrAt rd w hfl hdisj n G₀ hG₀ t (by omega)
      refine ⟨X', hX', Eq.trans ?_ e⟩
      exact View.read_congr fun i hi => View.write_of_not_mem _ _ _
        (Finset.disjoint_left.mp (hdisj t ⟨n, hn⟩ (fun e => htn (congrArg Fin.val e))) hi)

/-! ## The output array after the region -/

/-- The output window's index map sends distinct grid points to distinct blocks. -/
theorem idx_inj7 : ∀ t t' : Fin cfg1.N, win1_7.index t = win1_7.index t' → t = t' :=
  (by decide +kernel : ∀ t t' : Fin grid1.N, win1_7.index t = win1_7.index t' → t = t')

theorem disjoint7 (t t' : Fin cfg1.N) (hne : t ≠ t') :
    Disjoint ((cfg1.win 7).blk t).view.set ((cfg1.win 7).blk t').view.set :=
  (cfg1.win 7).disjoint_blk fun h => hne (idx_inj7 t t' h)

/-- THE RELATION between the region's inputs and the output array after it: block `t` of the array (its part inside
    the array: at the last point columns below 4000 only) is the moved part of the output block computed from the
    stacked hidden states and SOME staged weight and bias blocks that hold the arrays' blocks where the fetches
    filled them. -/
def OutRel (c : Dev nD) (out : Buf (Elt F) ((cfg1.win 7).arr.view.loc (c.tc : Thread nD τ))) : Prop :=
  ∀ t : Fin cfg1.N, ∃ X, Out7 V c t X ∧ ((cfg1.win 7).blk t).view.read (Elt F) out = (cfg1.win 7).cut (cfg1.grid.coords t) X

theorem outRel_of_ArrAt (c : Dev nD) (out : Buf (Elt F) ((cfg1.win 7).arr.view.loc (c.tc : Thread nD τ)))
    (h : (rdats (Name := Name) (U := U) (Lvl := Lvl) V W₀ 0 c).ArrAt 7 cfg1.N out) : OutRel V c out := fun t => by
  obtain ⟨X, ⟨Y, _, hYX⟩, e⟩ := read_blk_ArrAt (rdats (Name := Name) (U := U) (Lvl := Lvl) V W₀ 0 c) 7 flush1_7
    (fun t t' h => disjoint7 t t' h) cfg1.N out h t t.isLt
  exact ⟨X, hYX, e⟩

/-! ## Entering from the core's unscoped buffers; reading the arrays off the final state -/

/-- ENTRY: the core's unscoped buffers at `V c` and its `owes` at nothing with recorded waits `W₀ c` give `pre`, the
    unscoped buffers that are no window's array left over. -/
theorem pre_of_unscopedBufs (ι : Ix) (c : Dev nD) :
    iprop(unscopedBufs (Ix := Ix) (Name := Name) (U := U) (Lvl := Lvl) c (V c) ∗ owes (c.tc : Thread nD τ) (0 : CellTallies nD τ sig Ix) (W₀ c))
      ⊢ iprop(pre (Name := Name) (U := U) (Lvl := Lvl) V W₀ ι c ∗ Pipeline.unscopedRest (Ix := Ix) (Name := Name) (U := U) (Lvl := Lvl) spec1 c (V c)) := by
  have h := Pipeline.RDat.arrays_of_unscopedBufs (pcfgs (F := F)) (fun q => (cfgs q).toPCfg_adm) (rdats (Name := Name) (U := U) (Lvl := Lvl) V W₀) (p := 0)
    winFacts1 arr_whole1 c (fun w => by unfold RDat.share; split <;> rfl) (V c) (fun _ => rfl)
  unfold pre
  iintro ⟨Hu, Ho⟩
  ihave H := h $$ Hu
  icases H with ⟨Ha, Hr⟩
  isplitr [Hr]
  · isplitl [Ha]; · iexact Ha
    iexists (W₀ c)
    isplitr; · ipureintro; exact Set.subset_union_left
    iexact Ho
  iexact Hr

/-- EXIT, read at the end: `post` beside the state interpretation of a final state says that the state's memory holds
    every input array as the region found it and the output array in the relation `OutRel`. -/
theorem post_read [∀ e, Nonempty (Elt F e)] (ι : Ix) (c : Dev nD) (s' : Phys nD τ sig (Elt F)) :
    iprop(post (Name := Name) (U := U) (Lvl := Lvl) V W₀ ι c ∗ SI s')
      ⊢ iprop(⌜(∀ w : Fin cfg1.W, (cfg1.win w).isOut = false →
            s'.mem.mem ((spec1 w).arr.view.loc (c.tc : Thread nD τ)) = V c (Pipeline.arrRef spec1 w))
          ∧ OutRel V c (s'.mem.mem ((spec1 7).arr.view.loc (c.tc : Thread nD τ)))⌝ ∗ SI s') := by
  unfold post
  iintro ⟨⟨Ha, -⟩, HSI⟩
  ihave H := (Pipeline.RDat.arrays_read (pcfgs (F := F)) (fun q => (cfgs q).toPCfg_adm) (rdats (Name := Name) (U := U) (Lvl := Lvl) V W₀) (p := 0) arr_whole1 c cfg1.N s') $$ [Ha HSI]
  · isplitl [Ha] <;> iassumption
  icases H with ⟨%h, HSI⟩
  isplitr
  · ipureintro
    refine ⟨fun w hw => ?_, outRel_of_ArrAt V W₀ c _ (h 7)⟩
    have := h w
    rw [(rdats (Name := Name) (U := U) (Lvl := Lvl) V W₀ 0 c).ArrAt_in w hw] at this
    exact this
  iexact HSI

/-- The exit's recorded waits, in plain words: each is one recorded at entry or sits at the staging cells' index. -/
theorem bound_last (ι : Ix) (c : Dev nD) (W' : Waits sig Ix) (h : (↑W' : Set (SemLoc sig × Ix)) ⊆ (rdats (Name := Name) (U := U) (Lvl := Lvl) V W₀ 0 c).bound ι (Fin.last cfg1.N)) :
    ∀ p ∈ W', p ∈ W₀ c ∨ p.2 = ι := fun p hp => by
  rcases h (Finset.mem_coe.mpr hp) with h | ⟨w, s, rfl⟩
  · exact .inl (Finset.mem_coe.mp h)
  · exact .inr rfl

/-! ## The blocks determined, where the output block's moved part does not read past the arrays' end -/

/-- In a float instance where the moved part of the output block does not depend on what the staged weight and bias
    blocks hold past the arrays' end (`hind`: an entry of the matrix product reads one row of each operand), every
    block of the output array after the region is that moved part, at any choice of the contents past the end. -/
theorem OutRel.blocks (c : Dev nD)
    (hind : ∀ (t : Fin cfg1.N) (d5 d5' : Vec F S6400x512 .f32) (d6 d6' : Vec F S1x6400 .f32),
      (cfg1.win 7).cut (cfg1.grid.coords t) (k1_pay7 (hsOf V c) (fetchedOf V c 5 t d5) (fetchedOf V c 6 t d6))
        = (cfg1.win 7).cut (cfg1.grid.coords t) (k1_pay7 (hsOf V c) (fetchedOf V c 5 t d5') (fetchedOf V c 6 t d6')))
    {out : Buf (Elt F) ((cfg1.win 7).arr.view.loc (c.tc : Thread nD τ))} (h : OutRel V c out)
    (t : Fin cfg1.N) (d5 : Vec F S6400x512 .f32) (d6 : Vec F S1x6400 .f32) :
    ((cfg1.win 7).blk t).view.read (Elt F) out
      = (cfg1.win 7).cut (cfg1.grid.coords t) (k1_pay7 (hsOf V c) (fetchedOf V c 5 t d5) (fetchedOf V c 6 t d6)) := by
  obtain ⟨X, ⟨e5, e6, rfl⟩, e⟩ := h t
  exact e.trans (hind t _ _ _ _)

end Cert.KernelIdeal.Tc

end
-- ==== Proof.LaunchRegion.lean ====
/-
  The pallas_call's region inside @main: the unscoped arrays are the region's eight and the rest; the region is
  entered through the lifting of the certificate's body table; its staging cells' ghost state is the launch's;
  the TensorCore owes nothing across it and records only waits on its staging semaphores.
-/
import proofs.«203981_g87385404604482_cont_9to1_m_1030_24_alg».proof.Proof.Launch
import proofs.«203981_g87385404604482_cont_9to1_m_1030_24_alg».proof.Proof.TcRel

noncomputable section

namespace Cert.KernelIdeal.Hand

open Cert.KernelIdeal Cert.KernelIdeal.Gen Cert.KernelIdeal.Sc
open Idealize.ShloMosaic Idealize.ShloMosaic.TcCoe
open Idealize.ShloMosaic.SparseCore.Cfg (HIx Pay)
open Idealize.ShloMosaic.StableHlo (held after wp_seq launchContents)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

set_option maxHeartbeats 4000000 in
set_option backward.isDefEq.respectTransparency.types false in
theorem regionRun : RegionRun m := by
  intro κ d W Φ
  iintro ⟨#Hctx, Hb, Hheld, HO, ⟨Hg, Ht⟩, Hk⟩
  ihave Hub := (Entails.of_eq (unscopedBufs_held (Ix := HIx 1) (Name := ℕ) (U := UU) (Lvl := ℕ) d (VC m d)).symm) $$ Hheld
  ihave Ha := (Tc.pre_of_unscopedBufs (Name := ℕ) (U := UU) (Lvl := ℕ) (Vc m) (fun _ => W) none d) $$ [Hub HO]
  · isplitl [Hub] <;> iassumption
  icases Ha with ⟨Hpre, Hrest⟩
  ihave Hlev := ((K (F := F)).ctx_levAts κ) $$ Hctx
  rw [show (Prog.lift (TpuEff.customCall (SparseCore.inner (Pipeline.entry 0)) ()) : Prog (TpuEff nD τ sig (Elt F) (SparseCore.Sig (ΛP (F := F)) 1) .tc) PUnit)
        = SparseCore.liftProg (Q := 1) (.op (.customCall (Pipeline.entry 0) ()) fun _ => .ret ⟨⟩) from rfl]
  iapply ((K (F := F)).wp_liftProg (D (F := F)) 𝒱 (SparseCore.T d) Set.univ none _ Φ)
  iapply (Tc.region_wp (Name := ℕ) (U := UU) (Lvl := ℕ) (Vc m) (fun _ => W) EP 𝒱₀ none (K (F := F)).L (K (F := F)).lev d (fun _ => .ret ⟨⟩) Φ) $$ [Hb Hpre Hg Ht Hk Hrest]
  isplitl [Hk Hrest]
  · iintro ⟨Hb, Hpost⟩
    rw [wp_ret]; imodintro
    unfold Tc.post
    icases Hpost with ⟨Harr, ⟨%W', %hW', HO⟩⟩
    iapply Hk
    isplitl [Hb]; · iexact Hb
    isplitl [Harr Hrest]
    · unfold FIN
      iexists W
      isplitl [Harr]; · iexact Harr
      iexact Hrest
    iexists W'
    isplitr
    · ipureintro; exact Tc.bound_last (Name := ℕ) (U := UU) (Lvl := ℕ) (Vc m) (fun _ => W) none d W' hW'
    iexact HO
  isplitl [Hb]; · iexact Hb
  isplitl [Hpre]; · iexact Hpre
  isplitr; · iexact Hlev
  isplitl [Hg]; · iexact Hg
  iexact Ht

end Cert.KernelIdeal.Hand

end
-- ==== Proof.LaunchFin.lean ====
/-
  The end of the run: what the TensorCores hold at the end says of the final memory that the nine arguments are
  as at launch and that the result array is in the relation the pallas_call's sixteen write-backs determine; the
  launch element funds the handshakes' rounds and the pallas_call's staging cells; the launch theorem then gives
  the program's run.
-/
import proofs.«203981_g87385404604482_cont_9to1_m_1030_24_alg».proof.Proof.LaunchRegion

noncomputable section

namespace Cert.KernelIdeal.Hand

open Cert.KernelIdeal Cert.KernelIdeal.Gen Cert.KernelIdeal.Sc
open Idealize.ShloMosaic Idealize.ShloMosaic.TcCoe
open Idealize.ShloMosaic.SparseCore.Cfg (HIx Pay)
open Idealize.ShloMosaic.StableHlo (held after wp_seq launchContents)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- An argument no host operation writes holds its launch contents at the region's entry. -/
local macro "kept_arg" : tactic => `(tactic| (
  show after opsB (VB _ _) _ = _
  dsimp only [opsB]
  after_results
  unfold VB
  rw [Function.update_of_ne (by decide)]
  show after opsA (V0 _ _) _ = _
  dsimp only [opsA]
  after_results
  rfl))

theorem VC_arg0 (d : Dev nD) : VC m d (Proc.devRef .tc main_arg0) = m ((SparseCore.T d : Thread nD τ).loc main_arg0) := by kept_arg
theorem VC_arg1 (d : Dev nD) : VC m d (Proc.devRef .tc main_arg1) = m ((SparseCore.T d : Thread nD τ).loc main_arg1) := by kept_arg
theorem VC_arg2 (d : Dev nD) : VC m d (Proc.devRef .tc main_arg2) = m ((SparseCore.T d : Thread nD τ).loc main_arg2) := by kept_arg
theorem VC_arg3 (d : Dev nD) : VC m d (Proc.devRef .tc main_arg3) = m ((SparseCore.T d : Thread nD τ).loc main_arg3) := by kept_arg
theorem VC_arg4 (d : Dev nD) : VC m d (Proc.devRef .tc main_arg4) = m ((SparseCore.T d : Thread nD τ).loc main_arg4) := by kept_arg
theorem VC_arg5 (d : Dev nD) : VC m d (Proc.devRef .tc main_arg5) = m ((SparseCore.T d : Thread nD τ).loc main_arg5) := by kept_arg
theorem VC_arg6 (d : Dev nD) : VC m d (Proc.devRef .tc main_arg6) = m ((SparseCore.T d : Thread nD τ).loc main_arg6) := by kept_arg
theorem VC_arg7 (d : Dev nD) : VC m d (Proc.devRef .tc main_arg7) = m ((SparseCore.T d : Thread nD τ).loc main_arg7) := by kept_arg
theorem VC_arg8 (d : Dev nD) : VC m d (Proc.devRef .tc main_arg8) = m ((SparseCore.T d : Thread nD τ).loc main_arg8) := by kept_arg

/-- Every word of the padded index vector names a table row when every caption does: a padded entry is a caption or the word 0. -/
theorem idxPad_lt (cap : IVec S16x20 32) (h : ∀ j, (cap j).toNat < 100000) (i : S512.Idx) : (idxPad cap i).toNat < 100000 := by
  unfold idxPad pad
  split
  · exact h _
  · show (0#32 : BitVec 32).toNat < 100000
    decide

/-- What a final state must satisfy on device `d`. -/
def fq (d : Dev nD) (s' : Phys nD τ sig (Elt F)) : Prop :=
  (∃ W : Waits sig (HIx 1), ∀ w : Fin cfg1.W, (Tc.rdats (Name := ℕ) (U := UU) (Lvl := ℕ) (Vc m) (fun _ => W) 0 d).ArrAt w cfg1.N
      (s'.mem.mem ((spec1 w).arr.view.loc (d.tc : Thread nD τ))))
  ∧ s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)
  ∧ s'.mem.mem ((SparseCore.T d : Thread nD τ).loc main_arg5) = m ((SparseCore.T d : Thread nD τ).loc main_arg5)
  ∧ s'.mem.mem ((SparseCore.T d : Thread nD τ).loc main_arg6) = m ((SparseCore.T d : Thread nD τ).loc main_arg6)
  ∧ s'.mem.mem ((SparseCore.T d : Thread nD τ).loc main_arg8) = m ((SparseCore.T d : Thread nD τ).loc main_arg8)

theorem hfin (d : Dev nD) (s' : Phys nD τ sig (Elt F)) : iprop(FIN m d ∗ SI s') ⊢ (⌜fq m d s'⌝ : sProp 𝕄) := by
  unfold FIN
  iintro ⟨⟨%W, Harr, Hrest⟩, HSI⟩
  ihave H := (Pipeline.RDat.arrays_read (pcfgs (F := F)) (fun q => (cfgs q).toPCfg_adm) (Tc.rdats (Name := ℕ) (U := UU) (Lvl := ℕ) (Vc m) (fun _ => W)) (p := 0) arr_whole1 d cfg1.N s') $$ [Harr HSI]
  · isplitl [Harr] <;> iassumption
  icases H with ⟨%hA, HSI⟩
  ihave Hr := (Entails.of_eq (unscopedRest1_eq d (Vc m d))) $$ Hrest
  icases Hr with ⟨H0, H1, H2, H5, H6, H8, -⟩
  ihave H := (persistent_entails_right (SI_pointsTo_agree (st := s') (ℓ := (SparseCore.T d : Thread nD τ).loc main_arg0) (I := Finset.univ) (q := fullShare) (f := Vc m d main_arg0))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := Vc m d main_arg1))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := Vc m d main_arg2))) $$ [HSI H2]
  · isplitl [HSI] <;> iassumption
  icases H with ⟨%h2, HSI, -⟩
  ihave H := (persistent_entails_right (SI_pointsTo_agree (st := s') (ℓ := (SparseCore.T d : Thread nD τ).loc main_arg5) (I := Finset.univ) (q := fullShare) (f := Vc m d main_arg5))) $$ [HSI H5]
  · isplitl [HSI] <;> iassumption
  icases H with ⟨%h5, HSI, -⟩
  ihave H := (persistent_entails_right (SI_pointsTo_agree (st := s') (ℓ := (SparseCore.T d : Thread nD τ).loc main_arg6) (I := Finset.univ) (q := fullShare) (f := Vc m d main_arg6))) $$ [HSI H6]
  · isplitl [HSI] <;> iassumption
  icases H with ⟨%h6, HSI, -⟩
  ihave H := (SI_pointsTo_agree (st := s') (ℓ := (SparseCore.T d : Thread nD τ).loc main_arg8) (I := Finset.univ) (q := fullShare) (f := Vc m d main_arg8)) $$ [HSI H8]
  · isplitl [HSI] <;> iassumption
  icases H with %h8
  ipureintro
  exact ⟨⟨W, hA⟩, (funext fun i => h0 i (Finset.mem_univ i)).trans (VC_arg0 m d), (funext fun i => h1 i (Finset.mem_univ i)).trans (VC_arg1 m d),
    (funext fun i => h2 i (Finset.mem_univ i)).trans (VC_arg2 m d), (funext fun i => h5 i (Finset.mem_univ i)).trans (VC_arg5 m d),
    (funext fun i => h6 i (Finset.mem_univ i)).trans (VC_arg6 m d), (funext fun i => h8 i (Finset.mem_univ i)).trans (VC_arg8 m d)⟩

/-- The run's post: on every device the result array is in the relation the pallas_call's write-backs determine, and the
    nine arguments are as at launch. -/
def QC : PUnit × MemSt nD τ sig (Elt F) → Prop := fun r => ∀ c : Dev nD,
  Tc.OutRel (Vc m) c (r.2.mem ((c.tc : Thread nD τ).loc main_v12))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

theorem hQ (s' : Phys nD τ sig (Elt F)) (h : ∀ d, fq m d s') : QC m (⟨⟩, s'.mem) := by
  intro c
  obtain ⟨⟨W, hA⟩, h0, h1, h2, h5, h6, h8⟩ := h c
  have in_w : ∀ (w : Fin cfg1.W), (cfg1.win w).isOut = false →
      s'.mem.mem ((spec1 w).arr.view.loc (c.tc : Thread nD τ)) = Vc m c (Pipeline.arrRef spec1 w) := fun w hw => by
    have := hA w
    rw [(Tc.rdats (Name := ℕ) (U := UU) (Lvl := ℕ) (Vc m) (fun _ => W) 0 c).ArrAt_in w hw] at this
    exact this
  exact ⟨Tc.outRel_of_ArrAt (Name := ℕ) (U := UU) (Lvl := ℕ) (Vc m) (fun _ => W) c _ (hA 7), h0, h1, h2,
    (in_w 1 rfl).trans (VC_arg3 m c), (in_w 2 rfl).trans (VC_arg4 m c), h5, h6, (in_w 5 rfl).trans (VC_arg7 m c), h8⟩

/-! ## The pallas_call's operands as functions of the launch contents -/

local macro "kept_argB" : tactic => `(tactic| (
  unfold VB
  rw [Function.update_of_ne (by decide)]
  show after opsA (V0 _ _) _ = _
  dsimp only [opsA]
  after_results
  rfl))

theorem VB_arg0 (d : Dev nD) : VB m d (Proc.devRef .tc main_arg0) = m ((SparseCore.T d : Thread nD τ).loc main_arg0) := by kept_argB
theorem VB_arg5 (d : Dev nD) : VB m d (Proc.devRef .tc main_arg5) = m ((SparseCore.T d : Thread nD τ).loc main_arg5) := by kept_argB
theorem VB_arg6 (d : Dev nD) : VB m d (Proc.devRef .tc main_arg6) = m ((SparseCore.T d : Thread nD τ).loc main_arg6) := by kept_argB
theorem VB_arg8 (d : Dev nD) : VB m d (Proc.devRef .tc main_arg8) = m ((SparseCore.T d : Thread nD τ).loc main_arg8) := by kept_argB

/-- The [384, 64] input: built from the features and the gathered rows. -/
theorem VC_v8 (d : Dev nD) : VC m d (Proc.devRef .tc main_v8)
    = xRows (m ((SparseCore.T d : Thread nD τ).loc main_arg0) : FVec F S16x64 .f32) (gath (tbl m) (idx m) d : FVec F S512x64 .f32) := by
  show after opsB (VB m d) _ = _
  rw [afterB_v8, VB_arg0, VB_v2]
/-- The two bias rows and the output bias row. -/
theorem VC_v9 (d : Dev nD) : VC m d (Proc.devRef .tc main_v9)
    = shapeCast S1x2048 (m ((SparseCore.T d : Thread nD τ).loc main_arg5) : FVec F S2048 .f32) Cert.KernelIdeal.Facts₀.shapeCasts_S2048_S1x2048 := by
  show after opsB (VB m d) _ = _
  rw [afterB_v9, VB_arg5]
theorem VC_v10 (d : Dev nD) : VC m d (Proc.devRef .tc main_v10)
    = shapeCast S1x2048 (m ((SparseCore.T d : Thread nD τ).loc main_arg6) : FVec F S2048 .f32) Cert.KernelIdeal.Facts₀.shapeCasts_S2048_S1x2048 := by
  show after opsB (VB m d) _ = _
  rw [afterB_v10, VB_arg6]
theorem VC_v11 (d : Dev nD) : VC m d (Proc.devRef .tc main_v11)
    = shapeCast S1x100000 (m ((SparseCore.T d : Thread nD τ).loc main_arg8) : FVec F S100000 .f32) Cert.KernelIdeal.Facts₀.shapeCasts_S100000_S1x100000 := by
  show after opsB (VB m d) _ = _
  rw [afterB_v11, VB_arg8]

/-- Every word of the padded index vector names a table row when every caption does. -/
theorem idxOK (h : ∀ (d : Dev nD) (j : S16x20.Idx), ((m ((SparseCore.T d : Thread nD τ).loc main_arg1) : IVec S16x20 32) j).toNat < 100000) : IdxOK (F := F) (idx m) :=
  fun d i => idxPad_lt _ (h d) i

/-! ## The launch element -/

/-- The launch element: the handshakes' rounds, the pallas_call's staging cells' rounds, no transfer counted. -/
def u₀ : UU := (initOf (K (F := F)).hsCells (K (F := F)).hsToks, (initOf (Pipeline.cells cfgs cellOf_inj) (Pipeline.launchToks cfgs cellOf_inj), 1))

theorem Gd_all :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => (Gd d : sProp 𝕄) := by
  rw [← bigSep_sep']
  refine bigSep_mono fun d _ => ?_
  rw [bigSep_univ_of_subsingleton (0 : Fin 1), bigSep_univ_of_subsingleton (0 : Fin 1)]
  exact BI.Entails.refl _

theorem hu₀ (hPx : (bigSep Finset.univ fun thr : Thread nD τ => bigSep Finset.univ fun q : Fin 1 => (P (F := F) (tbl m) (idx m)).x q thr) = (iprop(emp) : sProp 𝕄)) :
    iprop(ownU (u₀ (F := F)) ∗ (P (F := F) (tbl m) (idx m)).oxCred ∗ (K (F := F)).freeSems0)
      ⊢ |={Set.univ}=> iprop(BI.own (EH (initOf (K (F := F)).hsCells (K (F := F)).hsToks)) ∗ (bigSep Finset.univ fun d : Dev nD => (Gd d : sProp 𝕄))
        ∗ bigSep Finset.univ fun thr : Thread nD τ => bigSep Finset.univ fun q : Fin 1 => (P (F := F) (tbl m) (idx m)).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans (embR : Emb (UP × Counters) 𝕄))
        (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost cfgs (EP (F := F)) cellOf_inj) $$ HP' with Hg
  imodintro
  isplitl [HH]; · iexact HH
  isplitl [Hg]
  · iapply Gd_all; iexact Hg
  rw [hPx]; iempintro

/-! ## The program's run -/

variable (ρ : Dev nD → PrngReg)

/-- Every weakly fair execution of the program's threads terminates with the result array in the pallas_call's
    relation and the arguments unchanged, given the SparseCore side's obligations. -/
theorem run_main [∀ e, Nonempty (Elt F e)]
    (htile : (K (F := F)).TileObl (D (F := F)) 𝒱 (P (tbl m) (idx m)) v₀ 0)
    (hvec : (K (F := F)).VecSplit' (P (tbl m) (idx m)) 0)
    (h_st0 : St0 m) (h_dn0 : Dn0 m)
    (hPx : (bigSep Finset.univ fun thr : Thread nD τ => bigSep Finset.univ fun q : Fin 1 => (P (F := F) (tbl m) (idx m)).x q thr) = (iprop(emp) : sProp 𝕄)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (tbl m) (idx m)) facts v₀
    (fun q hq => match q with | 0 => nomatch hq)
    (fun q _ => match q with | 0 => htile)
    (fun q _ => match q with | 0 => SparseCore.Cfg.VecSplit.of_plain hvec)
    m ρ main (fun d => Gd d) (FIN m) (u₀ (F := F)) (hu₀ m hPx) (hmain m ρ h_st0 h_dn0 (regionRun m)) (fq m) (hfin m) (QC m) (hQ m)

end Cert.KernelIdeal.Hand

end
-- ==== Proof.BitsScGhost.lean ====
/-
  The SparseCore side of the launch, 1: the program as the launch theorem reads it, the ghost state, and what the
  handshakes of SparseCore call 0 carry.

  Call 0 is a vector-subcore kernel on 2 SparseCores x 16 vector subcores. Tile (c, s) reads 16 words of the index
  array at offset 32 s + 16 c, copies the 16 table rows they name into its row scratch, and copies the scratch to the
  16 rows of the result at the same offset. The table and the index array are only read: every tile holds a read
  share of each, whole. The result's rows are written: every tile holds its own 16 rows outright.
-/
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.ValueIdx
import Idealize.ShloMosaic.Lib.Tactic
import proofs.«203981_g87385404604482_cont_9to1_m_1030_24_alg».proof.Proof.Gen.Kernel
import proofs.«203981_g87385404604482_cont_9to1_m_1030_24_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, a pipeline's staging cells' rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

/-! ## The arrays -/

/-- The table (an argument), the padded index array, the call's result, as locations of device `d`. -/
abbrev tLoc (d : Dev nD) : Loc nD τ sig := (SparseCore.T d).loc main_arg2
abbrev iLoc (d : Dev nD) : Loc nD τ sig := (SparseCore.T d).loc main_v1
abbrev oLoc (d : Dev nD) : Loc nD τ sig := (SparseCore.T d).loc main_v2

-- what the call is run from: the table's contents and the index array's, per device
variable (tb : (d : Dev nD) → Buf (Elt F) (tLoc d)) (ix : (d : Dev nD) → Buf (Elt F) (iLoc d))

/-- The table row an index word names (a word below 100000 names the row of its value). -/
def rowOf (w : BitVec 32) : Fin 100000 := ⟨w.toNat % 100000, Nat.mod_lt _ (by decide)⟩

theorem rowOf_val {w : BitVec 32} (h : w.toNat < 100000) : (rowOf w).val = w.toNat := Nat.mod_eq_of_lt h

/-- The gathered array: row `r` is the table row that index word `r` names. -/
def gath (d : Dev nD) : Buf (Elt F) (oLoc d) :=
  fun (i : S512x64.Idx) => (tb d : S100000x64.Idx → Elt F .f32) (ix2 (rowOf ((ix d : S512.Idx → BitVec 32) (ix1 (i 0)))) (i 1))

/-- What the proof asks of the index array: every word names a table row. -/
def IdxOK : Prop := ∀ (d : Dev nD) (i : S512.Idx), ((ix d : S512.Idx → BitVec 32) i).toNat < 100000

/-! ## A tile's coordinates, rows and shares -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl

/-- Tile `(c, s)` of the call's grid. -/
abbrev crd (c : Fin 2) (s : Fin 16) : grid0.Coords := coordsV (Fin.cast bound_zero.symm c) (Fin.cast bound_one.symm s)

abbrev tV : Memref sig .scVector .hbm S100000x64 .f32 := Memref.whole main_arg2_scv
abbrev iV : Memref sig .scVector .hbm S512 .i32 := Memref.whole main_v1_scv
abbrev oV : Memref sig .scVector .hbm S512x64 .f32 := Memref.whole main_v2_scv

/-- The result's 16 rows of tile `L`, as the body slices them. -/
abbrev oRowsV (L : grid0.Coords) : Memref sig .scVector .hbm S16x64 .f32 :=
  (oV).slice (Rect.unit (s := S512x64) (k0_off33 L) S16x64.size (k0_off33_inb L)) (fun _ => rfl)
abbrev oSet (L : grid0.Coords) : Finset S512x64.Idx := (oRowsV L).view.set

/-- A SparseCore's read share of an array held whole: a half. -/
def qCore (n : ℕ) : PosShare TreeShare := if n = 0 then fullShare.left else fullShare.right
/-- A tile's read share: its SparseCore's, the tile's token of sixteen. -/
def qTile (L : grid0.Coords) : PosShare TreeShare := Transfers.shareTokN (qCore (L 0).val) (L 1).val

variable [FloatOps F]

/-- What tile `L` is handed: a read share of the table and of the index array, whole, and its 16 rows of the result; -/
def goA (d : Dev nD) (L : grid0.Coords) : sProp 𝕄 :=
  iprop((tLoc d ↦{qTile L} tb d) ∗ (iLoc d ↦{qTile L} ix d) ∗ ∃ f, oLoc d ↦[oSet L]{fullShare} f)
/-- what it hands back: the shares, and its rows at the gathered array. -/
def tdA (d : Dev nD) (L : grid0.Coords) : sProp 𝕄 :=
  iprop((tLoc d ↦{qTile L} tb d) ∗ (iLoc d ↦{qTile L} ix d) ∗ oLoc d ↦[oSet L]{fullShare} gath tb ix d)
/-- What SparseCore `c` is handed: its half of the table and of the index array, and its tiles' rows of the result; -/
def stA (d : Dev nD) (c : Fin 2) : sProp 𝕄 :=
  iprop((tLoc d ↦{qCore c.val} tb d) ∗ (iLoc d ↦{qCore c.val} ix d) ∗ bigSep Finset.univ fun s : Fin 16 => iprop(∃ f, oLoc d ↦[oSet (crd c s)]{fullShare} f))
/-- what it hands back. -/
def dnA (d : Dev nD) (c : Fin 2) : sProp 𝕄 :=
  iprop((tLoc d ↦{qCore c.val} tb d) ∗ (iLoc d ↦{qCore c.val} ix d) ∗ bigSep Finset.univ fun s : Fin 16 => oLoc d ↦[oSet (crd c s)]{fullShare} gath tb ix d)

/-- The one SparseCore call's payloads; its kernel's proof consumes nothing of the launch's. -/
def P : (K (F := F)).Pay (nD := nD) (Val := Elt F) (Name := ℕ) (U := UU) where
  st := fun q d c => match q with | 0 => stA tb ix d (Fin.cast nCore_zero c)
  dn := fun q d c => match q with | 0 => dnA tb ix d (Fin.cast nCore_zero c)
  go := fun q d c i => match q with | 0 => goA tb ix d (crd (Fin.cast nCore_zero c) (Fin.cast nSub_zero i))
  td := fun q d c i => match q with | 0 => tdA tb ix d (crd (Fin.cast nCore_zero c) (Fin.cast nSub_zero i))
  x := fun _ _ => iprop(emp)

instance goA_storable (d : Dev nD) (L : grid0.Coords) : BI.Storable (upEmb : UEmb _ 𝕄) (goA tb ix d L) := by unfold goA; infer_instance
instance tdA_storable (d : Dev nD) (L : grid0.Coords) : BI.Storable (upEmb : UEmb _ 𝕄) (tdA tb ix d L) := by unfold tdA; infer_instance
instance stA_storable (d : Dev nD) (c : Fin 2) : BI.Storable (upEmb : UEmb _ 𝕄) (stA tb ix d c) := by unfold stA; infer_instance
instance dnA_storable (d : Dev nD) (c : Fin 2) : BI.Storable (upEmb : UEmb _ 𝕄) (dnA tb ix d c) := by unfold dnA; infer_instance

instance P_storable : (P (F := F) tb ix).IsStorable where
  st q d c := match q with | 0 => stA_storable tb ix d _
  dn q d c := match q with | 0 => dnA_storable tb ix d _
  go q d c i := match q with | 0 => goA_storable tb ix d _
  td q d c i := match q with | 0 => tdA_storable tb ix d _

theorem P_st (d : Dev nD) (c : Fin ((K (F := F)).nCore 0)) : (P tb ix).st 0 d c = stA tb ix d (Fin.cast nCore_zero c) := rfl
theorem P_dn (d : Dev nD) (c : Fin ((K (F := F)).nCore 0)) : (P tb ix).dn 0 d c = dnA tb ix d (Fin.cast nCore_zero c) := rfl
theorem P_go (d : Dev nD) (c : Fin ((K (F := F)).nCore 0)) (i : Fin ((K (F := F)).nSub 0)) :
    (P tb ix).go 0 d c i = goA tb ix d (crd (Fin.cast nCore_zero c) (Fin.cast nSub_zero i)) := rfl
theorem P_td (d : Dev nD) (c : Fin ((K (F := F)).nCore 0)) (i : Fin ((K (F := F)).nSub 0)) :
    (P tb ix).td 0 d c i = tdA tb ix d (crd (Fin.cast nCore_zero c) (Fin.cast nSub_zero i)) := rfl
theorem P_x (q : Fin 1) (thr : Thread nD τ) : (P (F := F) tb ix).x q thr = iprop(emp) := rfl

end Cert.Kernel.Sc

end
-- ==== Proof.BitsMainOps.lean ====
/-
  @main of the kernel program on a TensorCore, spelt as a chain of four items: the host operations before the
  SparseCore call (flatten the captions to 320 words, pad with the word 0 to 512), the SparseCore call, the host
  operations between the two calls (keep the first 320 gathered rows, lay them out as [16, 20, 64], put the
  feature row in front of each sequence, pad each sequence with three zero rows to 24, flatten to [384, 64];
  the two bias vectors and the output bias as single rows), and the entry of the pallas_call's region.
  The buffer contents after each stretch are the fold of the operations' results over the contents before it.
-/
import proofs.«203981_g87385404604482_cont_9to1_m_1030_24_alg».proof.Proof.Gen.Kernel
import Idealize.ShloMosaic.Lib.Pipeline.Regions
import Idealize.ShloMosaic.Lib.StableHlo.Run

noncomputable section

namespace Cert.Kernel.Hand

open Idealize.ShloMosaic Idealize.ShloMosaic.TcCoe
open Idealize.SL Idealize.SL.Sem
open Cert.Kernel Cert.Kernel.Facts₀ Cert.Kernel.Facts

variable {F : FTy → Type} [FloatOps F]

/-- The four host operations before the SparseCore call. -/
abbrev opsA : List (HloOp τ sig (Elt F)) :=
  [ StableHlo.reshape main_arg1 main_v0 rfl shapeCasts_S16x20_S320,
    StableHlo.nullary main_c (constantI S_ 32 0#32),
    StableHlo.TRef.unary (.of main_c : StableHlo.TRef sig ⟨S_, .i32⟩) (.of main_call0_v0 : StableHlo.TRef sig ⟨S_, .i32⟩) id,
    StableHlo.TRef.binary (.of main_v0 : StableHlo.TRef sig ⟨S320, .i32⟩) (.of main_call0_v0 : StableHlo.TRef sig ⟨S_, .i32⟩) (.of main_v1 : StableHlo.TRef sig ⟨S512, .i32⟩)
      (fun x v => pad S512 ![0] ![192] ![0] x v pads_S320_S512_01920 h_S_) ]

/-- The eleven host operations between the SparseCore call and the pallas_call. -/
abbrev opsB : List (HloOp τ sig (Elt F)) :=
  [ StableHlo.unary main_v2 main_v3 ((extractStridedSlice S320x64 ![0, 0] · slices_S512x64_S320x64_0_0) : (⟨S512x64, .f32⟩ : BufTy).Contents (Elt F) → (⟨S320x64, .f32⟩ : BufTy).Contents (Elt F)),
    StableHlo.reshape main_v3 main_v4 rfl shapeCasts_S320x64_S16x20x64,
    StableHlo.unary main_arg0 main_v5 (broadcastInDim S16x1x64 ![0, 2] bcast_S16x64_S16x1x64_0_2 : (⟨S16x64, .f32⟩ : BufTy).Contents (Elt F) → (⟨S16x1x64, .f32⟩ : BufTy).Contents (Elt F)),
    StableHlo.binary main_v5 main_v4 main_v6 ((fun a b => concatenate S16x21x64 1 [⟨S16x1x64, a⟩, ⟨S16x20x64, b⟩] concatenates_S16x1x64_S16x20x64_S16x21x64_d1) : (⟨S16x1x64, .f32⟩ : BufTy).Contents (Elt F) → (⟨S16x20x64, .f32⟩ : BufTy).Contents (Elt F) → (⟨S16x21x64, .f32⟩ : BufTy).Contents (Elt F)),
    StableHlo.nullary main_c_0 (constantI S_ 32 0#32),
    StableHlo.TRef.unary (.of main_c_0 : StableHlo.TRef sig ⟨S_, .i32⟩) (.of main_call1_v0 : StableHlo.TRef sig ⟨S_, .f32⟩) (sitofp .f32),
    StableHlo.TRef.binary (.of main_v6 : StableHlo.TRef sig ⟨S16x21x64, .f32⟩) (.of main_call1_v0 : StableHlo.TRef sig ⟨S_, .f32⟩) (.of main_v7 : StableHlo.TRef sig ⟨S16x24x64, .f32⟩)
      (fun x v => pad S16x24x64 ![0, 0, 0] ![0, 3, 0] ![0, 0, 0] x v pads_S16x21x64_S16x24x64_000_030_000 h_S_),
    StableHlo.reshape main_v7 main_v8 rfl shapeCasts_S16x24x64_S384x64,
    StableHlo.reshape main_arg5 main_v9 rfl shapeCasts_S2048_S1x2048,
    StableHlo.reshape main_arg6 main_v10 rfl shapeCasts_S2048_S1x2048,
    StableHlo.reshape main_arg8 main_v11 rfl shapeCasts_S100000_S1x100000 ]

/-- @main is the chain: the first stretch, the SparseCore call, the second stretch, the region's entry. -/
theorem main_chain (d : Dev nD) : main (F := F) d = (Pipeline.chain
  [ StableHlo.seq opsA,
    sc.run d 0,
    StableHlo.seq opsB,
    Prog.lift (.customCall (SparseCore.inner (Pipeline.entry 0)) ()) ] :
      Prog (TpuEff nD τ sig (Elt F) (SparseCore.Sig (Pipeline.Sig Λ₀ (Fin 1) fun p => (pcfgs (F := F) p).Adm) 1) .tc) PUnit) := by
  chain_rfl

end Cert.Kernel.Hand

end
-- ==== Proof.BitsMainVals.lean ====
/-
  The contents of the TensorCore's buffers along @main, as pure functions of the launch contents: the padded
  index vector the SparseCore call reads; after the call, the rows it gathered; the [384, 64] input of the
  pallas_call built from the features and the gathered rows; the bias rows.
-/
import proofs.«203981_g87385404604482_cont_9to1_m_1030_24_alg».proof.Proof.BitsMainOps

noncomputable section

namespace Cert.Kernel.Hand

open Idealize.ShloMosaic Idealize.ShloMosaic.TcCoe Idealize.ShloMosaic.StableHlo
open Idealize.SL Idealize.SL.Sem
open Cert.Kernel Cert.Kernel.Facts₀ Cert.Kernel.Facts

variable {F : FTy → Type} [FloatOps F]

/-- The captions flattened to 320 words and padded with the word 0 to 512. -/
def idxPad (cap : IVec S16x20 32) : IVec S512 32 :=
  pad S512 ![0] ![192] ![0] (shapeCast S320 cap shapeCasts_S16x20_S320) (id (constantI S_ 32 0#32)) pads_S320_S512_01920 h_S_

/-- The pallas_call's [384, 64] input: per sequence the feature row, the 20 gathered rows, three zero rows. -/
def xRows (feat : FVec F S16x64 .f32) (emb : FVec F S512x64 .f32) : FVec F S384x64 .f32 :=
  shapeCast S384x64
    (pad S16x24x64 ![0, 0, 0] ![0, 3, 0] ![0, 0, 0]
      (concatenate S16x21x64 1 [⟨S16x1x64, broadcastInDim S16x1x64 ![0, 2] bcast_S16x64_S16x1x64_0_2 feat⟩,
        ⟨S16x20x64, shapeCast S16x20x64 (extractStridedSlice S320x64 ![0, 0] emb slices_S512x64_S320x64_0_0) shapeCasts_S320x64_S16x20x64⟩]
        concatenates_S16x1x64_S16x20x64_S16x21x64_d1)
      (sitofp .f32 (constantI S_ 32 0#32)) pads_S16x21x64_S16x24x64_000_030_000 h_S_)
    shapeCasts_S16x24x64_S384x64

variable (V : Valuation τ sig (Elt F))

theorem afterA_v1 : after (opsA (F := F)) V (Proc.devRef .tc main_v1) = idxPad (V (Proc.devRef .tc main_arg1)) := by
  dsimp only [opsA]
  after_results
  rfl

theorem afterB_v8 : after (opsB (F := F)) V (Proc.devRef .tc main_v8) = xRows (V (Proc.devRef .tc main_arg0)) (V (Proc.devRef .tc main_v2)) := by
  dsimp only [opsB]
  after_results
  rfl

theorem afterB_v9 : after (opsB (F := F)) V (Proc.devRef .tc main_v9) = shapeCast S1x2048 (V (Proc.devRef .tc main_arg5)) shapeCasts_S2048_S1x2048 := by
  dsimp only [opsB]
  after_results
  rfl

theorem afterB_v10 : after (opsB (F := F)) V (Proc.devRef .tc main_v10) = shapeCast S1x2048 (V (Proc.devRef .tc main_arg6)) shapeCasts_S2048_S1x2048 := by
  dsimp only [opsB]
  after_results
  rfl

theorem afterB_v11 : after (opsB (F := F)) V (Proc.devRef .tc main_v11) = shapeCast S1x100000 (V (Proc.devRef .tc main_arg8)) shapeCasts_S100000_S1x100000 := by
  dsimp only [opsB]
  after_results
  rfl

end Cert.Kernel.Hand

end
-- ==== Proof.BitsTcValue.lean ====
/-
  The values the TensorCore kernel computes, as pure terms generic in the float instance: the rows of the
  input each trip of the recurrence reads, the carried pair (h, c) before each trip, the hidden rows each trip
  stores, and the stacked hidden states the scratch holds after the sixteen trips.  No separation logic here.
-/
import proofs.«203981_g87385404604482_cont_9to1_m_1030_24_alg».proof.Proof.Gen.Kernel.Skeleton
import Idealize.ShloMosaic.Lib.WritesUnit

noncomputable section

namespace Cert.Kernel.Tc

open Cert.Kernel Cert.Kernel.Gen
open Idealize.ShloMosaic

variable {F : FTy → Type} [FloatOps F]

/-- The recurrence has sixteen trips. -/
theorem trips_eq : k1_t1_loop.trips = 16 := by decide

/-- The first grid point, at which the kernel's conditional holds. -/
def i0 : grid1.Coords := grid1.coords (⟨0, by decide⟩ : Fin grid1.N)

theorem cond_i0 : k1_cond1 i0 = 1#1 := by decide

/-- Rows 24k … 24k+23 lie inside the 384-row input. -/
theorem off1_inb (k : Fin k1_t1_loop.trips) : ∀ a, k1_off1 k a + S24x64.size a ≤ S384x64.size a :=
  k1_off1_inb i0 k cond_i0

/-- Rows 24k … 24k+23 lie inside the 384-row scratch. -/
theorem off2_inb (k : Fin k1_t1_loop.trips) : ∀ a, k1_off2 k a + S24x512.size a ≤ S384x512.size a :=
  k1_off2_inb i0 k cond_i0

/-- Rows 24k … 24k+23 of the input `x`: entry (r, j) is x (24k + r, j). -/
def xrows (x : Vec F S384x64 .f32) (k : Fin k1_t1_loop.trips) : Vec F S24x64 .f32 :=
  fun j => x ((Rect.unit (s := S384x64) (k1_off1 k) S24x64.size (off1_inb k)).toLoadRect.idx j)

/-- One trip on the carried pair (h, c): gates = xₖ·W_ihᵀ + h·W_hhᵀ + (b_ih + b_hh); the new pair is
    (o ⊙ tanh c', c') with c' = f ⊙ c + i ⊙ g. -/
def step (x : Vec F S384x64 .f32) (wih : Vec F S2048x64 .f32) (whh : Vec F S2048x512 .f32)
    (b1 b2 : Vec F S1x2048 .f32) (k : Fin k1_t1_loop.trips)
    (s : FVec F S24x512 .f32 × FVec F S24x512 .f32) : FVec F S24x512 .f32 × FVec F S24x512 .f32 :=
  (k1_pay5 b1 b2 s.1 s.2 (xrows x k) wih whh, k1_pay4 b1 b2 s.1 s.2 (xrows x k) wih whh)

/-- The carried pair (h, c) before trip `k`: zeros, then one `step` per trip. -/
def lstm (x : Vec F S384x64 .f32) (wih : Vec F S2048x64 .f32) (whh : Vec F S2048x512 .f32)
    (b1 b2 : Vec F S1x2048 .f32) : ℕ → FVec F S24x512 .f32 × FVec F S24x512 .f32
  | 0 => (k1_pay1, k1_pay2)
  | k + 1 => if h : k < k1_t1_loop.trips then step x wih whh b1 b2 ⟨k, h⟩ (lstm x wih whh b1 b2 k)
      else lstm x wih whh b1 b2 k

theorem lstm_succ (x : Vec F S384x64 .f32) (wih : Vec F S2048x64 .f32) (whh : Vec F S2048x512 .f32)
    (b1 b2 : Vec F S1x2048 .f32) (k : Fin k1_t1_loop.trips) :
    lstm x wih whh b1 b2 (k.val + 1) = step x wih whh b1 b2 k (lstm x wih whh b1 b2 k.val) := by
  rw [lstm]; exact dif_pos k.isLt

/-- The 24 hidden rows trip `k` stores: the new h of that trip. -/
def hrow (x : Vec F S384x64 .f32) (wih : Vec F S2048x64 .f32) (whh : Vec F S2048x512 .f32)
    (b1 b2 : Vec F S1x2048 .f32) (k : Fin k1_t1_loop.trips) : FVec F S24x512 .f32 :=
  k1_pay6 b1 b2 (lstm x wih whh b1 b2 k.val).1 (lstm x wih whh b1 b2 k.val).2 (xrows x k) wih whh

/-- Row `y 0` of the 384-row scratch lies in the 24 rows trip `(y 0) / 24` stores, at row `(y 0) % 24`. -/
theorem hs_mem (y : S384x512.Idx) :
    ∀ a, (![24 * ((y 0).val / 24), 0] : Fin 2 → ℕ) a ≤ (y a).val
      ∧ (y a).val < (![24 * ((y 0).val / 24), 0] : Fin 2 → ℕ) a + S24x512.size a := by
  have h0 : (y 0).val < 384 := (y 0).isLt
  have h1 : (y 1).val < 512 := (y 1).isLt
  refine Fin.forall_fin_two.mpr ⟨⟨?_, ?_⟩, ⟨?_, ?_⟩⟩
  · show 24 * ((y 0).val / 24) ≤ (y 0).val; omega
  · show (y 0).val < 24 * ((y 0).val / 24) + 24; omega
  · show 0 ≤ (y 1).val; omega
  · show (y 1).val < 0 + 512; omega

theorem hs_trip (y : S384x512.Idx) : (y 0).val / 24 < k1_t1_loop.trips := by
  rw [trips_eq]; have h0 : (y 0).val < 384 := (y 0).isLt; omega

/-- The stacked hidden states: row 24k + r is row r of what trip k stores. -/
def hs (x : Vec F S384x64 .f32) (wih : Vec F S2048x64 .f32) (whh : Vec F S2048x512 .f32)
    (b1 b2 : Vec F S1x2048 .f32) : Vec F S384x512 .f32 :=
  fun y => hrow x wih whh b1 b2 ⟨(y 0).val / 24, hs_trip y⟩
    (Rect.unitLocal (s := S384x512) (off := ![24 * ((y 0).val / 24), 0]) (size := S24x512.size) y (hs_mem y))

end Cert.Kernel.Tc

end
-- ==== Proof.BitsTcLoop.lean ====
/-
  The recurrence's counted loop: what its loads read and its stores leave, the loop by its invariant (the scratch at
  the stores of the trips before `k`, the carried pair at the recurrence's value), and the scratch after the sixteen
  trips read back as the stacked hidden states.
-/
import proofs.«203981_g87385404604482_cont_9to1_m_1030_24_alg».proof.Proof.BitsTcValue
import proofs.«203981_g87385404604482_cont_9to1_m_1030_24_alg».proof.Proof.Gen.Kernel.Loops
import Idealize.ShloMosaic.Lib.WholeRead
import Idealize.ShloMosaic.Lib.WritesUnit
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Whole-buffer loads and stores -/

/-- A load through the unit-stride rectangle of the whole shape reads the contents as they are. -/
theorem readAt_unit_whole {κ : Kind} {sp : Space} {sh : Shape} {e : EltTy} (v : View sig κ sp sh e) (f : v.ty.Contents (Elt F))
    (off : Fin sh.rank → ℕ) (inb : ∀ a, off a + sh.size a ≤ sh.size a) :
    v.readAt (Elt F) (Rect.unit (s := sh) off sh.size inb).toLoadRect f = v.read (Elt F) f := by
  funext j
  rw [View.readAt_apply]
  congr 1; funext a; apply Fin.ext
  have := inb a
  show off a + 1 * (j a).val = (j a).val
  omega

/-- A load of a whole buffer held at the contents that read `X` reads `X`. -/
theorem readAt_whole {κ : Kind} {sp : Space} {sh : Shape} {e : EltTy} {m : Memref sig κ sp sh e} (h : m.IsWhole) (X : sh.Idx → Elt F e)
    (off : Fin sh.rank → ℕ) (inb : ∀ a, off a + sh.size a ≤ sh.size a) :
    View.readAt (Elt F) m.view (Rect.unit (s := sh) off sh.size inb).toLoadRect (h.unread X) = X :=
  (readAt_unit_whole m.view _ off inb).trans (h.read_unread X)

/-- A store through the unit-stride rectangle of the whole shape leaves its payload. -/
theorem read_writes_unit_whole {κ : Kind} {sp : Space} {sh : Shape} {e : EltTy} (v : View sig κ sp sh e) (f : v.ty.Contents (Elt F))
    (off : Fin sh.rank → ℕ) (inb : ∀ a, off a + sh.size a ≤ sh.size a) (w : sh.Idx → Elt F e) :
    v.read (Elt F) (v.writes (Elt F) f [(⟨Rect.unit (s := sh) off sh.size inb, w⟩ : View.Piece (Elt F) sh e)]) = w := by
  funext y
  exact View.read_writes_cons_unit_of_mem v f inb w [] y y rfl (fun a => by have := inb a; omega)

/-- The trip's load of its 24 rows of the input held at `x` reads `xrows x k`. -/
theorem readAt_xrows {m : Memref sig .tc .vmem S384x64 .f32} (h : m.IsWhole) (x : Vec F S384x64 .f32) (k : Fin k1_t1_loop.trips)
    (inb : ∀ a, k1_off1 k a + S24x64.size a ≤ S384x64.size a) :
    View.readAt (Elt F) m.view (Rect.unit (s := S384x64) (k1_off1 k) S24x64.size inb).toLoadRect (h.unread x) = xrows x k := by
  funext j
  rw [h.readAt_unread]; rfl

/-! ## The loop -/

/-- The stores of the trips before `k`, last first: trip `j` writes `hrow j` at rows 24j … 24j+23. -/
def pieces (x : Vec F S384x64 .f32) (wih : Vec F S2048x64 .f32) (whh : Vec F S2048x512 .f32) (b1 b2 : Vec F S1x2048 .f32) : ℕ → List (View.Piece (Elt F) S384x512 .f32)
  | 0 => []
  | k + 1 => if h : k < k1_t1_loop.trips then
      (⟨Rect.unit (s := S384x512) (k1_off2 ⟨k, h⟩) S24x512.size (off2_inb ⟨k, h⟩), hrow x wih whh b1 b2 ⟨k, h⟩⟩ : View.Piece (Elt F) S384x512 .f32) :: pieces x wih whh b1 b2 k
    else pieces x wih whh b1 b2 k

theorem pieces_succ (x : Vec F S384x64 .f32) (wih : Vec F S2048x64 .f32) (whh : Vec F S2048x512 .f32) (b1 b2 : Vec F S1x2048 .f32) (k : Fin k1_t1_loop.trips) :
    pieces x wih whh b1 b2 (k.val + 1) = (⟨Rect.unit (s := S384x512) (k1_off2 k) S24x512.size (off2_inb k), hrow x wih whh b1 b2 k⟩ : View.Piece (Elt F) S384x512 .f32) :: pieces x wih whh b1 b2 k.val := by
  rw [pieces]; exact dif_pos k.isLt

/-- The recurrence's invariant before trip `k`: the three inputs as held, the scratch at the stores of the trips before
    `k` over what it held at loop entry, the carried pair the recurrence's value. -/
abbrev inv (c : Dev nD) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (x : Vec F S384x64 .f32) (wih : Vec F S2048x64 .f32) (whh : Vec F S2048x512 .f32) (b1 b2 : Vec F S1x2048 .f32) (G : BufTy.Contents (Elt F) arg9.view.ty) (k : ℕ) (acc : FVec F S24x512 .f32 × FVec F S24x512 .f32) : sProp 𝕄 :=
  iprop((arg1.view.loc (c : Thread nD τ) ↦[arg1.view.set]{fullShare} harg1.unread x) ∗ (arg2.view.loc (c : Thread nD τ) ↦[arg2.view.set]{fullShare} harg2.unread wih)
    ∗ (arg3.view.loc (c : Thread nD τ) ↦[arg3.view.set]{fullShare} harg3.unread whh)
    ∗ (∃ f, (arg9.view.loc (c : Thread nD τ) ↦[arg9.view.set]{fullShare} f) ∗ ⌜f = arg9.view.writes (Elt F) G (pieces x wih whh b1 b2 k)⌝)
    ∗ ⌜acc = lstm x wih whh b1 b2 k⌝)

set_option warn.classDefReducibility false in
set_option maxHeartbeats 1000000 in
@[sl_loop] def loopInv (𝒱 : Variants) (c : Dev nD) (bd : Option 𝒱.V) (E : Set Name) (i : grid1.Coords) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (k1_h1 : k1_cond1 i = 1#1) (x : Vec F S384x64 .f32) (wih : Vec F S2048x64 .f32) (whh : Vec F S2048x512 .f32) (b1 b2 : Vec F S1x2048 .f32) (G : BufTy.Contents (Elt F) arg9.view.ty) :
    LoopInvTy_k1_t1 (F := F) Ix Name U Lvl 𝒱 c bd E i arg1 harg1 arg2 harg2 arg3 harg3 arg4 harg4 arg5 harg5 arg6 harg6 arg7 harg7 arg8 harg8 arg9 harg9 k1_h1 b1 b2 (k1_pay1 (F := F), k1_pay2 (F := F)) where
  inv := inv (F := F) c arg1 harg1 arg2 harg2 arg3 harg3 arg4 harg4 arg5 harg5 arg6 harg6 arg7 harg7 arg8 harg8 arg9 harg9 x wih whh b1 b2 G
  step k acc := by
    iintro ⟨H1, H2, H3, ⟨%f9, H9, %hf9⟩, %hacc⟩
    subst hacc
    unfold k1_t1_body
    sl_exec
    rw [readAt_xrows harg1 x k, readAt_whole harg2 wih, readAt_whole harg3 whh]
    sl_step
    isplitl [H1]; · iexact H1
    isplitl [H2]; · iexact H2
    isplitl [H3]; · iexact H3
    isplitl [H9]
    · iexists _; isplitl [H9]; · iexact H9
      ipureintro; rw [hf9, ← View.writes_append, pieces_succ]; rfl
    ipureintro; rw [lstm_succ]; rfl

/-! ## The scratch after the loop -/

/-- Below row 24k the stores of the trips before `k` read back as the stacked hidden states, whatever was there. -/
theorem read_pieces {κ : Kind} {sp : Space} (v : View sig κ sp S384x512 .f32) (G : v.ty.Contents (Elt F)) (x : Vec F S384x64 .f32) (wih : Vec F S2048x64 .f32) (whh : Vec F S2048x512 .f32) (b1 b2 : Vec F S1x2048 .f32) :
    ∀ (k : ℕ), k ≤ 16 → ∀ y : S384x512.Idx, (y 0).val < 24 * k →
      v.read (Elt F) (v.writes (Elt F) G (pieces x wih whh b1 b2 k)) y = hs x wih whh b1 b2 y := by
  intro k
  induction k with
  | zero => intro _ y hy; omega
  | succ k ih =>
    intro hk y hy
    have hkt : k < k1_t1_loop.trips := by rw [trips_eq]; omega
    have e := pieces_succ x wih whh b1 b2 ⟨k, hkt⟩
    rw [e]
    rw [View.read_writes_cons_rows (o := 24 * k) (W := 24) v G (off2_inb ⟨k, hkt⟩) (hrow x wih whh b1 b2 ⟨k, hkt⟩) _ y
      (k1_off2_eq ⟨k, hkt⟩) rfl rfl]
    by_cases h : 24 * k ≤ (y 0).val ∧ (y 0).val < 24 * k + 24
    · rw [dif_pos h]
      have hq : (y 0).val / 24 = k := by omega
      unfold hs
      subst hq
      rfl
    · rw [dif_neg h]
      exact ih (by omega) y (by omega)

/-- After the sixteen trips the scratch reads as the stacked hidden states. -/
theorem read_pieces_all {κ : Kind} {sp : Space} (v : View sig κ sp S384x512 .f32) (G : v.ty.Contents (Elt F)) (x : Vec F S384x64 .f32) (wih : Vec F S2048x64 .f32) (whh : Vec F S2048x512 .f32) (b1 b2 : Vec F S1x2048 .f32) :
    v.read (Elt F) (v.writes (Elt F) G (pieces x wih whh b1 b2 16)) = hs x wih whh b1 b2 :=
  funext fun y => read_pieces v G x wih whh b1 b2 16 le_rfl y (by have : (y 0).val < 384 := (y 0).isLt; omega)

end Cert.Kernel.Tc

end
-- ==== Proof.BitsTcBody.lean ====
/-
  The kernel body run once per control case on whole staging memrefs: at the first grid point the recurrence's loop
  fills the scratch with the stacked hidden states and then the output block is computed; at every later point only
  the output block is computed from the scratch as the first point left it.
-/
import proofs.«203981_g87385404604482_cont_9to1_m_1030_24_alg».proof.Proof.BitsTcLoop
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-- The whole scratch read over the stores of the sixteen trips alone (`View.readCov`: over no prior contents) is the
    stacked hidden states. -/
theorem readCov_pieces {κ : Kind} {sp : Space} (v : View sig κ sp S384x512 .f32) (x : Vec F S384x64 .f32) (wih : Vec F S2048x64 .f32) (whh : Vec F S2048x512 .f32) (b1 b2 : Vec F S1x2048 .f32)
    (off : Fin S384x512.rank → ℕ) (inb : ∀ a, off a + S384x512.size a ≤ S384x512.size a) :
    v.readCov (pieces x wih whh b1 b2 16) (Rect.unit (s := S384x512) off S384x512.size inb).toLoadRect = hs x wih whh b1 b2 := by
  unfold View.readCov
  rw [readAt_unit_whole]
  exact read_pieces_all v _ x wih whh b1 b2

set_option maxHeartbeats 2000000 in
/-- A later grid point (the conditional not taken): from the staged weight block `W5`, bias block `B6` and the scratch at
    `hsv`, the body leaves the output's staging buffer at `k1_pay7 hsv W5 B6` and everything else as it was. -/
theorem runB (𝒱 : Variants) (c : Dev nD) (i : grid1.Coords) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (hc : ¬ k1_cond1 i = 1#1)
    (W5 : Vec F S6400x512 .f32) (B6 : Vec F S1x6400 .f32) (hsv : Vec F S384x512 .f32) (E : Set Name) (K : PUnit → sProp 𝕄) :
    iprop(owns (c : Thread nD τ) arg6 fullShare W5 ∗ owns (c : Thread nD τ) arg7 fullShare B6 ∗ (∃ d, owns (c : Thread nD τ) arg8 fullShare d)
        ∗ owns (c : Thread nD τ) arg9 fullShare hsv
        ∗ (iprop(owns (c : Thread nD τ) arg6 fullShare W5 ∗ owns (c : Thread nD τ) arg7 fullShare B6 ∗ owns (c : Thread nD τ) arg8 fullShare (k1_pay7 hsv W5 B6) ∗ owns (c : Thread nD τ) arg9 fullShare hsv) -∗ K ⟨⟩))
      ⊢ wp frame (wpE (defs₀ (F := F)) 𝒱 (c : Thread nD τ) none) E (cc1__fused_body i arg1 harg1 arg2 harg2 arg3 harg3 arg4 harg4 arg5 harg5 arg6 harg6 arg7 harg7 arg8 harg8 arg9 harg9) K := by
  simp only [cc1__fused_body_eq_skeleton]; unfold cc1__fused_body_skel
  unfold owns
  iintro ⟨⟨%f6, %hf6, H6⟩, ⟨%f7, %hf7, H7⟩, ⟨%d8, %f8, -, H8⟩, ⟨%f9, %hf9, H9⟩, Hk⟩
  obtain rfl := harg6.eq_unread hf6
  obtain rfl := harg7.eq_unread hf7
  obtain rfl := harg9.eq_unread hf9
  sl_exec (disch := first | exact hc)
  sl_step
  iapply Hk
  isplitl [H6]; · iexists _; isplitr; · ipureintro; exact hf6
                  iexact H6
  isplitl [H7]; · iexists _; isplitr; · ipureintro; exact hf7
                  iexact H7
  isplitl [H8]
  · iexists _; isplitr
    swap; · iexact H8
    ipureintro
    rw [read_writes_unit_whole, readAt_whole harg9 hsv, readAt_whole harg6 W5, readAt_whole harg7 B6]
  iexists _; isplitr; · ipureintro; exact hf9
  iexact H9

set_option maxHeartbeats 4000000 in
/-- The first grid point (the conditional taken): from the five whole inputs, the staged weight and bias blocks and the
    scratch at anything, the body leaves the scratch at the stacked hidden states `hs`, the output's staging buffer at
    `k1_pay7 hs W5 B6`, and the inputs as they were. -/
theorem runA (𝒱 : Variants) (c : Dev nD) (i : grid1.Coords) (arg1 : Memref sig .tc .vmem S384x64 .f32) (harg1 : arg1.IsWhole) (arg2 : Memref sig .tc .vmem S2048x64 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S6400x512 .f32) (harg6 : arg6.IsWhole) (arg7 : Memref sig .tc .vmem S1x6400 .f32) (harg7 : arg7.IsWhole) (arg8 : Memref sig .tc .vmem S16x21x6400 .f32) (harg8 : arg8.IsWhole) (arg9 : Memref sig .tc .vmem S384x512 .f32) (harg9 : arg9.IsWhole) (hc : k1_cond1 i = 1#1)
    (x : Vec F S384x64 .f32) (wih : Vec F S2048x64 .f32) (whh : Vec F S2048x512 .f32) (b1 b2 : Vec F S1x2048 .f32) (W5 : Vec F S6400x512 .f32) (B6 : Vec F S1x6400 .f32) (E : Set Name) (K : PUnit → sProp 𝕄) :
    iprop(owns (c : Thread nD τ) arg1 fullShare x ∗ owns (c : Thread nD τ) arg2 fullShare wih ∗ owns (c : Thread nD τ) arg3 fullShare whh ∗ owns (c : Thread nD τ) arg4 fullShare b1 ∗ owns (c : Thread nD τ) arg5 fullShare b2 ∗ owns (c : Thread nD τ) arg6 fullShare W5 ∗ owns (c : Thread nD τ) arg7 fullShare B6 ∗ (∃ d, owns (c : Thread nD τ) arg8 fullShare d)
        ∗ (∃ d, owns (c : Thread nD τ) arg9 fullShare d)
        ∗ (iprop(owns (c : Thread nD τ) arg1 fullShare x ∗ owns (c : Thread nD τ) arg2 fullShare wih ∗ owns (c : Thread nD τ) arg3 fullShare whh ∗ owns (c : Thread nD τ) arg4 fullShare b1 ∗ owns (c : Thread nD τ) arg5 fullShare b2 ∗ owns (c : Thread nD τ) arg6 fullShare W5 ∗ owns (c : Thread nD τ) arg7 fullShare B6 ∗ owns (c : Thread nD τ) arg8 fullShare (k1_pay7 (hs x wih whh b1 b2) W5 B6) ∗ owns (c : Thread nD τ) arg9 fullShare (hs x wih whh b1 b2)) -∗ K ⟨⟩))
      ⊢ wp frame (wpE (defs₀ (F := F)) 𝒱 (c : Thread nD τ) none) E (cc1__fused_body i arg1 harg1 arg2 harg2 arg3 harg3 arg4 harg4 arg5 harg5 arg6 harg6 arg7 harg7 arg8 harg8 arg9 harg9) K := by
  simp only [cc1__fused_body_eq_skeleton]; unfold cc1__fused_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  sl_exec (disch := first | exact hc)
  unfold runA.sl.v3
  rw [readAt_whole harg4 b1, readAt_whole harg5 b2, readAt_whole harg6 W5, readAt_whole harg7 B6,
    show Scf.trips k1_t1_loop.lb k1_t1_loop.ub k1_t1_loop.st = 16 from trips_eq, readCov_pieces]
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [read_writes_unit_whole]
  iexists _; isplitr
  swap; · iexact H9
  ipureintro
  exact read_pieces_all _ _ x wih whh b1 b2

end Cert.Kernel.Tc

end
-- ==== Proof.BitsTcRegion.lean ====
/-
  The TensorCore kernel's region inside the larger program: the pipeline's relational proof data (the arrays as the
  region finds them; every input's staging buffer left as found; the output's staging buffer at the output block of
  the stacked hidden states and SOME staged weight and bias blocks — the array's blocks where the fetches filled the
  buffers, anything past the array's end, where the last block overhangs; the scratch carried from the first grid
  point to the later ones), the body obligation at every grid point, and the region's run from the region boundary.
-/
import proofs.«203981_g87385404604482_cont_9to1_m_1030_24_alg».proof.Proof.BitsTcBody
import proofs.«203981_g87385404604482_cont_9to1_m_1030_24_alg».proof.Proof.Gen.Kernel.Launch
import proofs.«203981_g87385404604482_cont_9to1_m_1030_24_alg».proof.Proof.Gen.Kernel.Points
import Idealize.ShloMosaic.Lib.Pipeline.Regions
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-! ## The arrays as the region finds them, read through the windows -/

/-- Window `w`'s block of its array at grid point `t` (its part inside the array), the array at its contents when the
    region is entered. -/
def blkOf (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What window `w`'s staging buffer holds after the fetch at point `t`, if it held `d`: the block on the part the
    fetch fills, `d` on the rest (the rows or columns of an overhanging last block that lie past the array). -/
def fetchedOf (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (blkOf V c w t)

/-- The five whole inputs of the recurrence. -/
def xOf (c : Dev nD) : Vec F S384x64 .f32 := blkOf V c 0 t1_0
def wihOf (c : Dev nD) : Vec F S2048x64 .f32 := blkOf V c 1 t1_0
def whhOf (c : Dev nD) : Vec F S2048x512 .f32 := blkOf V c 2 t1_0
def b1Of (c : Dev nD) : Vec F S1x2048 .f32 := blkOf V c 3 t1_0
def b2Of (c : Dev nD) : Vec F S1x2048 .f32 := blkOf V c 4 t1_0

/-- The stacked hidden states of the region's inputs. -/
def hsOf (c : Dev nD) : Vec F S384x512 .f32 := hs (xOf V c) (wihOf V c) (whhOf V c) (b1Of V c) (b2Of V c)

/-- What the body may leave in the output's staging buffer at point `t`: the output block computed from the stacked
    hidden states and SOME staged weight and bias blocks — the array's blocks where the fetches filled the buffers,
    anything past the array's end. -/
def Out7 (c : Dev nD) (t : Fin cfg1.N) (X : Vec F S16x21x6400 .f32) : Prop :=
  ∃ (d5 : Vec F S6400x512 .f32) (d6 : Vec F S1x6400 .f32), X = k1_pay7 (hsOf V c) (fetchedOf V c 5 t d5) (fetchedOf V c 6 t d6)

/-! ## The pipeline's proof data -/

/-- The relational proof data of the pipeline on core `c`: the arrays as the region finds them; every input's staging
    buffer left as found; the output's at `Out7`; the invariant the scratch — at anything before the first point, at
    the stacked hidden states after it —; nothing owed; the recorded waits within those at entry. -/
def rdats (W₀ : Dev nD → Waits sig Ix) (_ : Fin 1) (c : Dev nD) : RDat τ (Elt F) Ix Name U Lvl cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => Out7 V c t X
  Φ t := if t.val = 0 then Pipeline.scopedRest spec1 c
    else owns (c : Thread nD τ) (Memref.whole cc1_scratch0 : Memref sig .tc .vmem S384x512 .f32) fullShare (hsOf V c)
  q _ := fullShare
  owed _ := 0
  recorded _ := ↑(W₀ c)

variable (W₀ : Dev nD → Waits sig Ix)

theorem fetched_eq (c : Dev nD) (w : Fin cfg1.W) (t : Fin cfg1.N) (d) :
    (rdats (Name := Name) (U := U) (Lvl := Lvl) V W₀ 0 c).fetched w t d = fetchedOf V c w t d := rfl

/-! ## The body obligation -/

/-- The kernel's conditional holds at the first grid point only. -/
theorem hcond : ∀ t : Fin cfg1.N, k1_cond1 (grid1.coords t) = 1#1 ↔ t.val = 0 :=
  (by decide +kernel : ∀ t : Fin grid1.N, k1_cond1 (grid1.coords t) = 1#1 ↔ t.val = 0)

/-- The uncut, never-refetched inputs' staging buffers hold the whole inputs at every point. -/
theorem fetchedOf_0 (c : Dev nD) (t : Fin cfg1.N) (d) : fetchedOf V c 0 t d = xOf V c := rfl
theorem fetchedOf_1 (c : Dev nD) (t : Fin cfg1.N) (d) : fetchedOf V c 1 t d = wihOf V c := rfl
theorem fetchedOf_2 (c : Dev nD) (t : Fin cfg1.N) (d) : fetchedOf V c 2 t d = whhOf V c := rfl
theorem fetchedOf_3 (c : Dev nD) (t : Fin cfg1.N) (d) : fetchedOf V c 3 t d = b1Of V c := rfl
theorem fetchedOf_4 (c : Dev nD) (t : Fin cfg1.N) (d) : fetchedOf V c 4 t d = b2Of V c := rfl

theorem Φ_zero (c : Dev nD) (s : Fin (cfg1.N + 1)) (h : s.val = 0) :
    (rdats (Name := Name) (U := U) (Lvl := Lvl) V W₀ 0 c).Φ s = Pipeline.scopedRest spec1 c := if_pos h

theorem Φ_pos (c : Dev nD) (s : Fin (cfg1.N + 1)) (h : s.val ≠ 0) :
    (rdats (Name := Name) (U := U) (Lvl := Lvl) V W₀ 0 c).Φ s = owns (c : Thread nD τ) (Memref.whole cc1_scratch0 : Memref sig .tc .vmem S384x512 .f32) fullShare (hsOf V c) := if_neg h

set_option maxHeartbeats 4000000 in
/-- The body at any grid point, for any contents the staging buffers may then hold. -/
theorem sound_body (𝒱₀ : Variants) (ι : Ix) (c : Dev nD) (t : Fin cfg1.N)
    (Y : (w : Fin cfg1.W) → (cfg1.win w).block.Idx → Elt F (cfg1.win w).elt) (hY : ∀ w, (rdats (Name := Name) (U := U) (Lvl := Lvl) V W₀ 0 c).Finds w t (Y w)) :
    iprop((rdats (Name := Name) (U := U) (Lvl := Lvl) V W₀ 0 c).Φ t.castSucc ∗ (rdats (Name := Name) (U := U) (Lvl := Lvl) V W₀ 0 c).owesAt ι t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7))
      ⊢ wp frame (wpE (defs₀ (F := F)) 𝒱₀ (c : Thread nD τ) none) Set.univ (bodyAt1 (F := F) t) (fun _ =>
        iprop((rdats (Name := Name) (U := U) (Lvl := Lvl) V W₀ 0 c).Φ t.succ ∗ (rdats (Name := Name) (U := U) (Lvl := Lvl) V W₀ 0 c).owesAt ι t.succ
          ∗ (∃ X, ⌜(rdats (Name := Name) (U := U) (Lvl := Lvl) V W₀ 0 c).after 0 t (Y 0) X⌝ ∗ owns (c : Thread nD τ) (st1_0 t) fullShare X)
          ∗ (∃ X, ⌜(rdats (Name := Name) (U := U) (Lvl := Lvl) V W₀ 0 c).after 1 t (Y 1) X⌝ ∗ owns (c : Thread nD τ) (st1_1 t) fullShare X)
          ∗ (∃ X, ⌜(rdats (Name := Name) (U := U) (Lvl := Lvl) V W₀ 0 c).after 2 t (Y 2) X⌝ ∗ owns (c : Thread nD τ) (st1_2 t) fullShare X)
          ∗ (∃ X, ⌜(rdats (Name := Name) (U := U) (Lvl := Lvl) V W₀ 0 c).after 3 t (Y 3) X⌝ ∗ owns (c : Thread nD τ) (st1_3 t) fullShare X)
          ∗ (∃ X, ⌜(rdats (Name := Name) (U := U) (Lvl := Lvl) V W₀ 0 c).after 4 t (Y 4) X⌝ ∗ owns (c : Thread nD τ) (st1_4 t) fullShare X)
          ∗ (∃ X, ⌜(rdats (Name := Name) (U := U) (Lvl := Lvl) V W₀ 0 c).after 5 t (Y 5) X⌝ ∗ owns (c : Thread nD τ) (st1_5 t) fullShare X)
          ∗ (∃ X, ⌜(rdats (Name := Name) (U := U) (Lvl := Lvl) V W₀ 0 c).after 6 t (Y 6) X⌝ ∗ owns (c : Thread nD τ) (st1_6 t) fullShare X)
          ∗ (∃ X, ⌜(rdats (Name := Name) (U := U) (Lvl := Lvl) V W₀ 0 c).after 7 t (Y 7) X⌝ ∗ owns (c : Thread nD τ) (st1_7 t) fullShare X))) := by
  obtain ⟨d0, e0⟩ := RDat.finds_in_eq_fetched (rdats (Name := Name) (U := U) (Lvl := Lvl) V W₀ 0 c) 0 rfl (fun _ _ _ => rfl) (fun _ _ _ h => h) t _ (hY 0)
  obtain ⟨d1, e1⟩ := RDat.finds_in_eq_fetched (rdats (Name := Name) (U := U) (Lvl := Lvl) V W₀ 0 c) 1 rfl (fun _ _ _ => rfl) (fun _ _ _ h => h) t _ (hY 1)
  obtain ⟨d2, e2⟩ := RDat.finds_in_eq_fetched (rdats (Name := Name) (U := U) (Lvl := Lvl) V W₀ 0 c) 2 rfl (fun _ _ _ => rfl) (fun _ _ _ h => h) t _ (hY 2)
  obtain ⟨d3, e3⟩ := RDat.finds_in_eq_fetched (rdats (Name := Name) (U := U) (Lvl := Lvl) V W₀ 0 c) 3 rfl (fun _ _ _ => rfl) (fun _ _ _ h => h) t _ (hY 3)
  obtain ⟨d4, e4⟩ := RDat.finds_in_eq_fetched (rdats (Name := Name) (U := U) (Lvl := Lvl) V W₀ 0 c) 4 rfl (fun _ _ _ => rfl) (fun _ _ _ h => h) t _ (hY 4)
  obtain ⟨d5, e5⟩ := ((rdats (Name := Name) (U := U) (Lvl := Lvl) V W₀ 0 c).finds_of_fetch (fetch1_5 t) _).mp (hY 5)
  obtain ⟨d6, e6⟩ := ((rdats (Name := Name) (U := U) (Lvl := Lvl) V W₀ 0 c).finds_of_fetch (fetch1_6 t) _).mp (hY 6)
  rw [fetched_eq] at e0 e1 e2 e3 e4 e5 e6
  rw [fetchedOf_0] at e0; rw [fetchedOf_1] at e1; rw [fetchedOf_2] at e2; rw [fetchedOf_3] at e3; rw [fetchedOf_4] at e4
  rw [e0, e1, e2, e3, e4, e5, e6]
  by_cases ht : t.val = 0
  · have hΦ0 := Φ_zero (Name := Name) (U := U) (Lvl := Lvl) V W₀ c t.castSucc ht
    have hΦ1 := Φ_pos (Name := Name) (U := U) (Lvl := Lvl) V W₀ c t.succ (Nat.succ_ne_zero t.val)
    rw [hΦ0, hΦ1, scopedRest1_eq]
    iintro ⟨⟨%f9, H9⟩, Ho, H0, H1, H2, H3, H4, H5, H6, H7⟩
    unfold bodyAt1
    iapply (runA 𝒱₀ c (grid1.coords t) _ _ _ _ _ _ _ _ _ _ _ _ _ _ _ _ _ _ ((hcond t).mpr ht) (xOf V c) (wihOf V c) (whhOf V c) (b1Of V c) (b2Of V c)
      (fetchedOf V c 5 t d5) (fetchedOf V c 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H9]; · iexists f9; rw [owns_whole]; iexact H9
    iintro ⟨H0, H1, H2, H3, H4, H5, H6, H7, H9⟩
    isplitl [H9]; · iexact H9
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    iexists _; isplitr; · ipureintro; exact ⟨d5, d6, rfl⟩
    iexact H7
  · have hΦ0 := Φ_pos (Name := Name) (U := U) (Lvl := Lvl) V W₀ c t.castSucc ht
    have hΦ1 := Φ_pos (Name := Name) (U := U) (Lvl := Lvl) V W₀ c t.succ (Nat.succ_ne_zero t.val)
    rw [hΦ0, hΦ1]
    iintro ⟨H9, Ho, H0, H1, H2, H3, H4, H5, H6, H7⟩
    unfold bodyAt1
    iapply (runB 𝒱₀ c (grid1.coords t) _ _ _ _ _ _ _ _ _ _ _ _ _ _ _ _ _ _ (fun h => ht ((hcond t).mp h)) (fetchedOf V c 5 t d5) (fetchedOf V c 6 t d6) (hsOf V c) Set.univ _)
    isplitl [H5]; · iexact H5
    isplitl [H6]; · iexact H6
    isplitl [H7]; · iexists _; iexact H7
    isplitl [H9]; · iexact H9
    iintro ⟨H5, H6, H7, H9⟩
    isplitl [H9]; · iexact H9
    isplitl [Ho]; · iexact Ho
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    iexists _; isplitr; · ipureintro; exact ⟨d5, d6, rfl⟩
    iexact H7

/-- The library's body obligation, at every point. -/
theorem body_obligation (𝒱₀ : Variants) (ι : Ix) (c : Dev nD) :
    (rdats (Name := Name) (U := U) (Lvl := Lvl) V W₀ 0 c).BodyObligation (defs₀ (F := F)) 𝒱₀ ι Set.univ := fun t Y hY => by
  rw [bigSep_W1, bigSep_W1]
  exact sound_body V W₀ 𝒱₀ ι c t Y hY

/-! ## The region -/

/-- What the region is entered from: the eight windowed arrays whole at their entry contents, and the core owing
    nothing with its recorded waits those at entry. -/
def pre (ι : Ix) (c : Dev nD) : sProp 𝕄 :=
  iprop((rdats (Name := Name) (U := U) (Lvl := Lvl) V W₀ 0 c).arrays (rdats (Name := Name) (U := U) (Lvl := Lvl) V W₀ 0 c).A ∗ (rdats (Name := Name) (U := U) (Lvl := Lvl) V W₀ 0 c).owesAt ι 0)

/-- What it leaves: the arrays at contents they may hold after the sixteen write-backs (the inputs as at entry, the
    output in the relation the write-backs determine), and the core owing nothing, its recorded waits those at entry
    and the staging cells' at the index `ι`. -/
def post (ι : Ix) (c : Dev nD) : sProp 𝕄 :=
  iprop((rdats (Name := Name) (U := U) (Lvl := Lvl) V W₀ 0 c).arraysAt cfg1.N ∗ (rdats (Name := Name) (U := U) (Lvl := Lvl) V W₀ 0 c).owesAt ι (Fin.last cfg1.N))

/-- The kernel region as the library's record: the decided layout, no semaphore of the kernel's own, the body
    obligation, nothing owed at the staging cells, the scratch in and out of the invariant. -/
def region (𝒱₀ : Variants) (ι : Ix) (L : GSem nD τ sig → Finset Ix) (lv : GSem nD τ sig → Ix → Lvl) :
    Pipeline.RDat.RegionSeg (pcfgs (F := F)) (fun q => (cfgs q).toPCfg_adm) (rdats (Name := Name) (U := U) (Lvl := Lvl) V W₀) ι (defs₀ (F := F)) 𝒱₀ L lv 0 where
  win := winFacts1.to₀
  block_pos := block_pos1
  stage_whole := stage_whole1
  K := PEmpty
  osem := fun k => k.elim
  ho := Pipeline.OwnSemFacts.none _
  hbody c := body_obligation V W₀ 𝒱₀ ι c
  hwaits c := Pipeline.RDat.hwaits_of_owed_zero (pcfgs (F := F)) (fun q => (cfgs q).toPCfg_adm) (rdats (Name := Name) (U := U) (Lvl := Lvl) V W₀) ι L lv 0 (fun _ _ => rfl) c
  pre := pre V W₀ ι
  post := post V W₀ ι
  X _ := iprop(emp)
  Y _ := iprop(emp)
  Z _ := iprop(emp)
  hentry c := by
    unfold pre
    iintro ⟨⟨Ha, Ho⟩, -, -⟩
    imodintro
    isplitl [Ha]; · iexact Ha
    isplitr
    · unfold Pipeline.prefHeld
      rw [show (Finset.univ : Finset (Fin (pcfgs (F := F) 0).pre.K)) = ∅ from Finset.eq_empty_of_forall_notMem fun k => k.elim0, BI.bigSep_empty]
      iempintro
    isplitl [Ho]; · iexact Ho
    isplitr <;> iempintro
  hin c := by
    iintro ⟨-, -, H⟩
    rw [Φ_zero V W₀ c 0 rfl]
    iexact H
  hout c := by
    rw [Φ_pos V W₀ c (Fin.last cfg1.N) (by decide), Pipeline.ownSems0_none, scopedRest1_eq, owns_whole]
    iintro H
    isplitr; · iempintro
    isplitr; · iempintro
    iexists _; iexact H
  hexit c := by
    unfold post
    iintro ⟨Ha, Ho, -, -⟩
    imodintro
    isplitl [Ha] <;> iassumption

set_option maxHeartbeats 4000000 in
set_option backward.isDefEq.respectTransparency.types false in
/-- THE REGION'S RUN inside a larger program of the TensorCore: from the region boundary, `pre`, the level facts and
    the pipeline's launch ghost state, the call of the region runs to the boundary and `post` for the continuation. -/
theorem region_wp (EP : Emb (URounds (GSem nD τ sig) Unit) 𝕄) [Infinite Name] [EP.LandsIn (upEmb : UEmb _ 𝕄)]
    (𝒱₀ : Variants) (ι : Ix) (L : GSem nD τ sig → Finset Ix) (lv : GSem nD τ sig → Ix → Lvl) (c : Dev nD) {α : Type}
    (k : PUnit → Prog (TpuEff nD τ sig (Elt F) (Pipeline.Sig Λ₀ (Fin 1) fun p => (pcfgs (F := F) p).Adm) .tc) α) (Q : α → sProp 𝕄) :
    iprop((iprop(boundary (c.tc : Thread nD τ) ∗ post V W₀ ι c)
            -∗ wp frame (wpE (Pipeline.defs (pcfgs (F := F)) defs₀) (Variants.lift 𝒱₀) (c.tc : Thread nD τ) none) Set.univ (k ⟨⟩) Q)
        ∗ boundary (c.tc : Thread nD τ) ∗ pre V W₀ ι c ∗ levAts L lv
        ∗ Pipeline.cellsGhost cfgs EP 0 c ∗ Pipeline.toksInit cfgs EP 0 c)
      ⊢ wp frame (wpE (Pipeline.defs (pcfgs (F := F)) defs₀) (Variants.lift 𝒱₀) (c.tc : Thread nD τ) none) Set.univ
          (.op (.customCall (Pipeline.entry 0) ()) k) Q :=
  Pipeline.RDat.RegionSeg.wp (pcfgs (F := F)) (fun q => (cfgs q).toPCfg_adm) (rdats (Name := Name) (U := U) (Lvl := Lvl) V W₀) ι cellOf_inj EP defs₀ 𝒱₀ L lv
    (region V W₀ 𝒱₀ ι L lv) c none (fun _ h => absurd h (by simp)) k Q

end Cert.Kernel.Tc

end
-- ==== Proof.BitsLaunch.lean ====
/-
  @main on a TensorCore, run: the host operations before the SparseCore call leave the padded index vector; the
  call is handed the table, the index vector and the result array whole and returns them with the result at the
  gathered rows; the host operations after it build the pallas_call's operands; the region is entered through the
  lifting of the certificate's body table and leaves the output array; the arguments are never written.
-/
import proofs.«203981_g87385404604482_cont_9to1_m_1030_24_alg».proof.Proof.BitsScGhost
import proofs.«203981_g87385404604482_cont_9to1_m_1030_24_alg».proof.Proof.BitsMainVals
import proofs.«203981_g87385404604482_cont_9to1_m_1030_24_alg».proof.Proof.BitsTcRegion
import Idealize.ShloMosaic.Lib.Pipeline.Frame

noncomputable section

namespace Cert.Kernel.Hand

open Cert.Kernel Cert.Kernel.Gen Cert.Kernel.Sc
open Idealize.ShloMosaic Idealize.ShloMosaic.TcCoe
open Idealize.ShloMosaic.SparseCore.Cfg (HIx Pay)
open Idealize.ShloMosaic.StableHlo (held after wp_seq launchContents)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- The table and the padded index vector the SparseCore call is run from. -/
def tbl (d : Dev nD) : Buf (Elt F) (tLoc d) := m (tLoc d)
def idx (d : Dev nD) : Buf (Elt F) (iLoc d) := idxPad (m ((SparseCore.T d : Thread nD τ).loc main_arg1) : IVec S16x20 32)

/-- The buffer contents along @main: at launch, after the first stretch, after the call, after the second stretch. -/
def V0 (d : Dev nD) : Valuation τ sig (Elt F) := fun b => m (d, b)
abbrev VA (d : Dev nD) : Valuation τ sig (Elt F) := after opsA (V0 m d)
def VB (d : Dev nD) : Valuation τ sig (Elt F) := Function.update (VA m d) (Proc.devRef .tc main_v2) (gath (tbl m) (idx m) d)
abbrev VC (d : Dev nD) : Valuation τ sig (Elt F) := after opsB (VB m d)

theorem opsA_sub : ∀ op ∈ (opsA : List (HloOp τ sig (Elt F))), op.bufs ⊆ ucRefs τ sig := by
  intro op h
  refine sub_ucRefs op ?_
  simp only [opsA, List.mem_cons, List.mem_nil_iff, or_false] at h
  rcases h with rfl | rfl | rfl | rfl
  · exact StableHlo.reshape_bufs_sub ..
  · exact StableHlo.nullary_bufs_sub ..
  · exact StableHlo.unary_bufs_sub ..
  · exact StableHlo.binary_bufs_sub ..

theorem opsB_sub : ∀ op ∈ (opsB : List (HloOp τ sig (Elt F))), op.bufs ⊆ ucRefs τ sig := by
  intro op h
  refine sub_ucRefs op ?_
  simp only [opsB, List.mem_cons, List.mem_nil_iff, or_false] at h
  rcases h with rfl | rfl | rfl | rfl | rfl | rfl | rfl | rfl | rfl | rfl | rfl
  · exact StableHlo.unary_bufs_sub ..
  · exact StableHlo.reshape_bufs_sub ..
  · exact StableHlo.unary_bufs_sub ..
  · exact StableHlo.binary_bufs_sub ..
  · exact StableHlo.nullary_bufs_sub ..
  · exact StableHlo.unary_bufs_sub ..
  · exact StableHlo.binary_bufs_sub ..
  · exact StableHlo.reshape_bufs_sub ..
  · exact StableHlo.reshape_bufs_sub ..
  · exact StableHlo.reshape_bufs_sub ..
  · exact StableHlo.reshape_bufs_sub ..

theorem opsA_fresh : ∀ op ∈ (opsA : List (HloOp τ sig (Elt F))), op.fresh = ∅ := by
  intro op h
  simp only [opsA, List.mem_cons, List.mem_nil_iff, or_false] at h
  rcases h with rfl | rfl | rfl | rfl <;> rfl

theorem opsB_fresh : ∀ op ∈ (opsB : List (HloOp τ sig (Elt F))), op.fresh = ∅ := by
  intro op h
  simp only [opsB, List.mem_cons, List.mem_nil_iff, or_false] at h
  rcases h with rfl | rfl | rfl | rfl | rfl | rfl | rfl | rfl | rfl | rfl | rfl <;> rfl

/-- The three arrays of the SparseCore call among the unscoped ones. -/
def callRefs : Finset (DevRef τ sig) := {Proc.devRef .tc main_arg2, Proc.devRef .tc main_v1, Proc.devRef .tc main_v2}

theorem callRefs_sub : (callRefs : Finset (DevRef τ sig)) ⊆ ucRefs τ sig := by decide

theorem held_callRefs (d : Dev nD) (W : Valuation τ sig (Elt F)) :
    (held (SparseCore.T d) callRefs W : sProp 𝕄)
      = iprop((tLoc d ↦{fullShare} W (Proc.devRef .tc main_arg2)) ∗ (iLoc d ↦{fullShare} W (Proc.devRef .tc main_v1)) ∗ oLoc d ↦{fullShare} W (Proc.devRef .tc main_v2)) := by
  unfold held callRefs
  rw [SparseCore.bigSep_insert' (by decide), SparseCore.bigSep_insert' (by decide), bigSep_singleton]

theorem VA_arg2 (d : Dev nD) : VA m d (Proc.devRef .tc main_arg2) = tbl m d := by
  dsimp only [VA, opsA]; after_results; rfl
theorem VA_v1 (d : Dev nD) : VA m d (Proc.devRef .tc main_v1) = idx m d := by
  show after opsA (V0 m d) (Proc.devRef .tc main_v1) = _
  rw [afterA_v1]; rfl

theorem VB_arg2 (d : Dev nD) : VB m d (Proc.devRef .tc main_arg2) = tbl m d :=
  (Function.update_of_ne (show Proc.devRef (τ := τ) .tc main_arg2 ≠ Proc.devRef .tc main_v2 by decide) _ _).trans (VA_arg2 m d)
theorem VB_v1 (d : Dev nD) : VB m d (Proc.devRef .tc main_v1) = idx m d :=
  (Function.update_of_ne (show Proc.devRef (τ := τ) .tc main_v1 ≠ Proc.devRef .tc main_v2 by decide) _ _).trans (VA_v1 m d)
theorem VB_v2 (d : Dev nD) : VB m d (Proc.devRef .tc main_v2) = gath (tbl m) (idx m) d := Function.update_self _ _ _

/-- The arrays outside the call are the same before and after it. -/
theorem held_rest_VB (d : Dev nD) :
    (held (SparseCore.T d) (ucRefs τ sig \ callRefs) (VB m d) : sProp 𝕄) = held (SparseCore.T d) (ucRefs τ sig \ callRefs) (VA m d) :=
  StableHlo.held_congr _ fun b hb => Function.update_of_ne (fun e => (Finset.mem_sdiff.mp hb).2 (by subst e; decide)) _ _

/-- The unscoped arrays before the call: the call's three and the rest. -/
theorem held_A_split (d : Dev nD) :
    (held (d.tc : Thread nD τ) (ucRefs τ sig) (after opsA (V0 m d)) : sProp 𝕄)
      = iprop(((tLoc d ↦{fullShare} tbl m d) ∗ (iLoc d ↦{fullShare} idx m d) ∗ oLoc d ↦{fullShare} VA m d (Proc.devRef .tc main_v2))
          ∗ held (SparseCore.T d) (ucRefs τ sig \ callRefs) (VA m d)) := by
  rw [show (held (d.tc : Thread nD τ) (ucRefs τ sig) (after opsA (V0 m d)) : sProp 𝕄) = held (SparseCore.T d) (ucRefs τ sig) (VA m d) from rfl,
    StableHlo.held_sub_split (SparseCore.T d) callRefs_sub (VA m d), held_callRefs d (VA m d), VA_arg2, VA_v1]

/-- The unscoped arrays after the call, the result at the gathered rows. -/
theorem held_B_join (d : Dev nD) :
    (iprop(((tLoc d ↦{fullShare} tbl m d) ∗ (iLoc d ↦{fullShare} idx m d) ∗ oLoc d ↦{fullShare} gath (tbl m) (idx m) d)
          ∗ held (SparseCore.T d) (ucRefs τ sig \ callRefs) (VA m d)) : sProp 𝕄)
      = held (d.tc : Thread nD τ) (ucRefs τ sig) (VB m d) := by
  rw [show (held (d.tc : Thread nD τ) (ucRefs τ sig) (VB m d) : sProp 𝕄) = held (SparseCore.T d) (ucRefs τ sig) (VB m d) from rfl,
    StableHlo.held_sub_split (SparseCore.T d) callRefs_sub (VB m d), held_callRefs d (VB m d), VB_arg2, VB_v1, VB_v2, held_rest_VB]

/-- What the pallas_call's region needs of the launch element, per device: its staging cells' ghost state and duty tokens. -/
abbrev Gd (d : Dev nD) : sProp 𝕄 := iprop(Pipeline.cellsGhost cfgs EP 0 d ∗ Pipeline.toksInit cfgs EP 0 d)

/-- The TensorCore's handshake state after the one SparseCore call: it owes nothing; its record of waits out, and back. -/
theorem tcSt_open (d : Dev nD) (n : ℕ) (hn : 1 ≤ n) :
    ((K (F := F)).tcSt EH d n : sProp 𝕄)
      ⊢ iprop((∃ W, ⌜(K (F := F)).WBelow (SparseCore.T d) W (8 * n)⌝ ∗ owes (SparseCore.T d) 0 W)
          ∗ ((∃ W, ⌜(K (F := F)).WBelow (SparseCore.T d) W (8 * n)⌝ ∗ owes (SparseCore.T d) 0 W) -∗ (K (F := F)).tcSt EH d n)) := by
  unfold SparseCore.Cfg.tcSt
  rw [(K (F := F)).Otc_end d hn]
  iintro ⟨H1, H2⟩
  isplitl [H1]; · iexact H1
  iintro H1
  isplitl [H1]; · iexact H1
  iexact H2

section Main

/-- The buffer contents at the region's entry, as the pipeline library reads them: per reference. -/
abbrev Vc (c : Dev nD) (b : Ref sig .tc) : Buf (Elt F) ((c : Thread nD τ).loc b) := VC m c b

/-- What @main leaves the claim: the pallas_call's eight arrays as its sixteen write-backs leave them, and the
    other unscoped arrays at their contents before the region. -/
def FIN (d : Dev nD) : sProp 𝕄 :=
  iprop(∃ W : Waits sig (HIx 1), (Tc.rdats (Name := ℕ) (U := UU) (Lvl := ℕ) (Vc m) (fun _ => W) 0 d).arraysAt cfg1.N ∗ Pipeline.unscopedRest spec1 d (Vc m d))

/-- The region's run, as @main's proof uses it. -/
def RegionRun : Prop :=
  ∀ (κ : GSem nD τ sig → ℕ) (d : Dev nD) (W : Waits sig (HIx 1)) (Φ : PUnit → sProp 𝕄),
    iprop((K (F := F)).ctx EH (P (tbl m) (idx m)) κ ∗ boundary (SparseCore.T d) ∗ held (SparseCore.T d) (ucRefs τ sig) (VC m d) ∗ owes (SparseCore.T d) 0 W ∗ Gd d
        ∗ ((boundary (SparseCore.T d) ∗ FIN m d ∗ ∃ W', ⌜∀ p ∈ W', p ∈ W ∨ p.2 = none⌝ ∗ owes (SparseCore.T d) 0 W') -∗ Φ ⟨⟩))
      ⊢ wp frame (wpE ((K (F := F)).defs (D (F := F))) 𝒱 (SparseCore.T d) none) Set.univ
          (Prog.lift (.customCall (SparseCore.inner (Pipeline.entry 0)) ())) Φ

/-- The call's hand-over and hand-back, over the three arrays whole. -/
def St0 : Prop := ∀ d : Dev nD, iprop((tLoc d ↦{fullShare} tbl m d) ∗ (iLoc d ↦{fullShare} idx m d) ∗ ∃ f, oLoc d ↦{fullShare} f)
      ⊢ (bigSep Finset.univ fun c : Fin ((K (F := F)).nCore 0) => (P (tbl m) (idx m)).st 0 d c : sProp 𝕄)
def Dn0 : Prop := ∀ d : Dev nD, (bigSep Finset.univ fun c : Fin ((K (F := F)).nCore 0) => (P (tbl m) (idx m)).dn 0 d c : sProp 𝕄)
      ⊢ iprop((tLoc d ↦{fullShare} tbl m d) ∗ (iLoc d ↦{fullShare} idx m d) ∗ oLoc d ↦{fullShare} gath (tbl m) (idx m) d)

/-- @main on device `d`'s TensorCore. -/
theorem hmain (h_st0 : St0 m) (h_dn0 : Dn0 m) (hregion : RegionRun m) (κ : GSem nD τ sig → ℕ) (d : Dev nD) :
    iprop((K (F := F)).ctx EH (P (tbl m) (idx m)) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d : Thread nD τ).loc b)) : sProp 𝕄) = held (SparseCore.T d) (ucRefs τ sig) (V0 m d) from unscopedBufs_held d (V0 m d)]
  rw [main_chain]
  simp only [Pipeline.chain_cons, Pipeline.chain_nil]
  iintro ⟨#Hctx, Hst, ⟨Hb, Hheld, -, -⟩, HG⟩
  -- the first stretch
  iapply (wp_seq 𝒱 none Set.univ d (ucRefs τ sig) _ opsA opsA_sub opsA_fresh (V0 m d)) $$ [Hb Hheld]
  · isplitl [Hb] <;> iassumption
  iintro ⟨Hb, Hheld⟩
  -- the call: its three arrays out of the unscoped ones
  ihave Hh := (Entails.of_eq (held_A_split m d)) $$ Hheld
  icases Hh with ⟨⟨Ht, Hi, Ho⟩, Hrest⟩
  rw [wp_bind]
  iapply ((K (F := F)).wp_run (D (F := F)) 𝒱 (EH := EH) (P := P (tbl m) (idx m)) κ d 0) $$ [Hst Ht Hi Ho Hb Hrest HG]
  isplitr; · iexact Hctx
  isplitl [Hst]; · iexact Hst
  isplitl [Ht Hi Ho]
  · iapply (h_st0 d)
    isplitl [Ht]; · iexact Ht
    isplitl [Hi]; · iexact Hi
    iexists _; iexact Ho
  iintro ⟨Hst, Hdn⟩
  ihave Hdn' := (h_dn0 d) $$ Hdn
  icases Hdn' with ⟨Ht, Hi, Ho⟩
  ihave Hheld := (Entails.of_eq (held_B_join m d)) $$ [Ht Hi Ho Hrest]
  · isplitr [Hrest]
    · isplitl [Ht]; · iexact Ht
      isplitl [Hi]; · iexact Hi
      iexact Ho
    iexact Hrest
  -- the second stretch
  iapply (wp_seq 𝒱 none Set.univ d (ucRefs τ sig) _ opsB opsB_sub opsB_fresh (VB m d)) $$ [Hb Hheld]
  · isplitl [Hb] <;> iassumption
  iintro ⟨Hb, Hheld⟩
  -- the region: the TensorCore's record of waits out of its handshake state, and back
  ihave H := (tcSt_open (F := F) d ((0 : Fin 1).val + 1) (by decide)) $$ Hst
  icases H with ⟨⟨%W, %hW, HO⟩, Hback⟩
  rw [wp_bind]
  iapply (hregion κ d W _) $$ [Hb Hheld HO HG Hback]
  isplitr; · iexact Hctx
  isplitl [Hb]; · iexact Hb
  isplitl [Hheld]; · iexact Hheld
  isplitl [HO]; · iexact HO
  isplitl [HG]; · iexact HG
  iintro ⟨Hb, Hfin, ⟨%W', %hW', HO⟩⟩
  rw [wp_pure]
  imodintro
  isplitl [HO Hback]
  · iapply Hback
    iexists W'
    isplitr
    · ipureintro
      intro p hp
      rcases hW' p hp with h | h
      · exact hW p h
      · rw [h, SparseCore.Cfg.lev_none]; exact Nat.zero_le _
    iexact HO
  iexact Hfin

end Main

end Cert.Kernel.Hand

end
-- ==== Proof.BitsTcRel.lean ====
/-
  What the region leaves, read: a block of a written-back array read back through relational proof data; the relation
  between the region's inputs and the output array after it; entering the region from the core's unscoped buffers and
  reading its arrays off the final state.
-/
import proofs.«203981_g87385404604482_cont_9to1_m_1030_24_alg».proof.Proof.BitsTcRegion
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.Kernel.Tc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b)) (W₀ : Dev nD → Waits sig Ix)

/-! ## A block of a written-back array, read back -/

/-- Of relational proof data whose window `w` writes back at every point, into pairwise disjoint blocks: block `t` of
    anything the array may hold after the write-backs below `n` (`t < n`) is the moved part of SOME contents the body
    may have left in the staging buffer at `t`. -/
theorem read_blk_ArrAt {cfg : Cfg sig Λ₀} {c : Dev nD} (rd : RDat τ (Elt F) Ix Name U Lvl cfg c) (w : Fin cfg.W)
    (hfl : ∀ t, (cfg.win w).flush t = true)
    (hdisj : ∀ t t' : Fin cfg.N, t ≠ t' → Disjoint ((cfg.win w).blk t).view.set ((cfg.win w).blk t').view.set) :
    ∀ (n : ℕ) (G : Buf (Elt F) ((cfg.win w).arr.view.loc (c.tc : Thread nD τ))), rd.ArrAt w n G → ∀ t : Fin cfg.N, t.val < n →
      ∃ X, rd.Leaves w t X ∧ ((cfg.win w).blk t).view.read (Elt F) G = (cfg.win w).cut (cfg.grid.coords t) X
  | 0, _, _, _, ht => absurd ht (Nat.not_lt_zero _)
  | n + 1, G, hG, t, ht => by
    by_cases hn : n < cfg.N
    swap
    · rw [rd.ArrAt_stable w (n + 1) (by omega), ← rd.ArrAt_stable w n (by omega)] at hG
      exact read_blk_ArrAt rd w hfl hdisj n G hG t (by have := t.isLt; omega)
    rw [show n + 1 = (⟨n, hn⟩ : Fin cfg.N).val + 1 from rfl, rd.ArrAt_succ, if_pos (hfl _)] at hG
    obtain ⟨G₀, X, hG₀, hX, rfl⟩ := hG
    by_cases htn : t.val = n
    · obtain rfl : t = ⟨n, hn⟩ := Fin.ext htn
      exact ⟨X, hX, View.read_write_univ _ _⟩
    · obtain ⟨X', hX', e⟩ := read_blk_ArrAt rd w hfl hdisj n G₀ hG₀ t (by omega)
      refine ⟨X', hX', Eq.trans ?_ e⟩
      exact View.read_congr fun i hi => View.write_of_not_mem _ _ _
        (Finset.disjoint_left.mp (hdisj t ⟨n, hn⟩ (fun e => htn (congrArg Fin.val e))) hi)

/-! ## The output array after the region -/

/-- The output window's index map sends distinct grid points to distinct blocks. -/
theorem idx_inj7 : ∀ t t' : Fin cfg1.N, win1_7.index t = win1_7.index t' → t = t' :=
  (by decide +kernel : ∀ t t' : Fin grid1.N, win1_7.index t = win1_7.index t' → t = t')

theorem disjoint7 (t t' : Fin cfg1.N) (hne : t ≠ t') :
    Disjoint ((cfg1.win 7).blk t).view.set ((cfg1.win 7).blk t').view.set :=
  (cfg1.win 7).disjoint_blk fun h => hne (idx_inj7 t t' h)

/-- THE RELATION between the region's inputs and the output array after it: block `t` of the array (its part inside
    the array: at the last point columns below 4000 only) is the moved part of the output block computed from the
    stacked hidden states and SOME staged weight and bias blocks that hold the arrays' blocks where the fetches
    filled them. -/
def OutRel (c : Dev nD) (out : Buf (Elt F) ((cfg1.win 7).arr.view.loc (c.tc : Thread nD τ))) : Prop :=
  ∀ t : Fin cfg1.N, ∃ X, Out7 V c t X ∧ ((cfg1.win 7).blk t).view.read (Elt F) out = (cfg1.win 7).cut (cfg1.grid.coords t) X

theorem outRel_of_ArrAt (c : Dev nD) (out : Buf (Elt F) ((cfg1.win 7).arr.view.loc (c.tc : Thread nD τ)))
    (h : (rdats (Name := Name) (U := U) (Lvl := Lvl) V W₀ 0 c).ArrAt 7 cfg1.N out) : OutRel V c out := fun t => by
  obtain ⟨X, ⟨Y, _, hYX⟩, e⟩ := read_blk_ArrAt (rdats (Name := Name) (U := U) (Lvl := Lvl) V W₀ 0 c) 7 flush1_7
    (fun t t' h => disjoint7 t t' h) cfg1.N out h t t.isLt
  exact ⟨X, hYX, e⟩

/-! ## Entering from the core's unscoped buffers; reading the arrays off the final state -/

/-- ENTRY: the core's unscoped buffers at `V c` and its `owes` at nothing with recorded waits `W₀ c` give `pre`, the
    unscoped buffers that are no window's array left over. -/
theorem pre_of_unscopedBufs (ι : Ix) (c : Dev nD) :
    iprop(unscopedBufs (Ix := Ix) (Name := Name) (U := U) (Lvl := Lvl) c (V c) ∗ owes (c.tc : Thread nD τ) (0 : CellTallies nD τ sig Ix) (W₀ c))
      ⊢ iprop(pre (Name := Name) (U := U) (Lvl := Lvl) V W₀ ι c ∗ Pipeline.unscopedRest (Ix := Ix) (Name := Name) (U := U) (Lvl := Lvl) spec1 c (V c)) := by
  have h := Pipeline.RDat.arrays_of_unscopedBufs (pcfgs (F := F)) (fun q => (cfgs q).toPCfg_adm) (rdats (Name := Name) (U := U) (Lvl := Lvl) V W₀) (p := 0)
    winFacts1 arr_whole1 c (fun w => by unfold RDat.share; split <;> rfl) (V c) (fun _ => rfl)
  unfold pre
  iintro ⟨Hu, Ho⟩
  ihave H := h $$ Hu
  icases H with ⟨Ha, Hr⟩
  isplitr [Hr]
  · isplitl [Ha]; · iexact Ha
    iexists (W₀ c)
    isplitr; · ipureintro; exact Set.subset_union_left
    iexact Ho
  iexact Hr

/-- EXIT, read at the end: `post` beside the state interpretation of a final state says that the state's memory holds
    every input array as the region found it and the output array in the relation `OutRel`. -/
theorem post_read [∀ e, Nonempty (Elt F e)] (ι : Ix) (c : Dev nD) (s' : Phys nD τ sig (Elt F)) :
    iprop(post (Name := Name) (U := U) (Lvl := Lvl) V W₀ ι c ∗ SI s')
      ⊢ iprop(⌜(∀ w : Fin cfg1.W, (cfg1.win w).isOut = false →
            s'.mem.mem ((spec1 w).arr.view.loc (c.tc : Thread nD τ)) = V c (Pipeline.arrRef spec1 w))
          ∧ OutRel V c (s'.mem.mem ((spec1 7).arr.view.loc (c.tc : Thread nD τ)))⌝ ∗ SI s') := by
  unfold post
  iintro ⟨⟨Ha, -⟩, HSI⟩
  ihave H := (Pipeline.RDat.arrays_read (pcfgs (F := F)) (fun q => (cfgs q).toPCfg_adm) (rdats (Name := Name) (U := U) (Lvl := Lvl) V W₀) (p := 0) arr_whole1 c cfg1.N s') $$ [Ha HSI]
  · isplitl [Ha] <;> iassumption
  icases H with ⟨%h, HSI⟩
  isplitr
  · ipureintro
    refine ⟨fun w hw => ?_, outRel_of_ArrAt V W₀ c _ (h 7)⟩
    have := h w
    rw [(rdats (Name := Name) (U := U) (Lvl := Lvl) V W₀ 0 c).ArrAt_in w hw] at this
    exact this
  iexact HSI

/-- The exit's recorded waits, in plain words: each is one recorded at entry or sits at the staging cells' index. -/
theorem bound_last (ι : Ix) (c : Dev nD) (W' : Waits sig Ix) (h : (↑W' : Set (SemLoc sig × Ix)) ⊆ (rdats (Name := Name) (U := U) (Lvl := Lvl) V W₀ 0 c).bound ι (Fin.last cfg1.N)) :
    ∀ p ∈ W', p ∈ W₀ c ∨ p.2 = ι := fun p hp => by
  rcases h (Finset.mem_coe.mpr hp) with h | ⟨w, s, rfl⟩
  · exact .inl (Finset.mem_coe.mp h)
  · exact .inr rfl

/-! ## The blocks determined, where the output block's moved part does not read past the arrays' end -/

/-- In a float instance where the moved part of the output block does not depend on what the staged weight and bias
    blocks hold past the arrays' end (`hind`: an entry of the matrix product reads one row of each operand), every
    block of the output array after the region is that moved part, at any choice of the contents past the end. -/
theorem OutRel.blocks (c : Dev nD)
    (hind : ∀ (t : Fin cfg1.N) (d5 d5' : Vec F S6400x512 .f32) (d6 d6' : Vec F S1x6400 .f32),
      (cfg1.win 7).cut (cfg1.grid.coords t) (k1_pay7 (hsOf V c) (fetchedOf V c 5 t d5) (fetchedOf V c 6 t d6))
        = (cfg1.win 7).cut (cfg1.grid.coords t) (k1_pay7 (hsOf V c) (fetchedOf V c 5 t d5') (fetchedOf V c 6 t d6')))
    {out : Buf (Elt F) ((cfg1.win 7).arr.view.loc (c.tc : Thread nD τ))} (h : OutRel V c out)
    (t : Fin cfg1.N) (d5 : Vec F S6400x512 .f32) (d6 : Vec F S1x6400 .f32) :
    ((cfg1.win 7).blk t).view.read (Elt F) out
      = (cfg1.win 7).cut (cfg1.grid.coords t) (k1_pay7 (hsOf V c) (fetchedOf V c 5 t d5) (fetchedOf V c 6 t d6)) := by
  obtain ⟨X, ⟨e5, e6, rfl⟩, e⟩ := h t
  exact e.trans (hind t _ _ _ _)

end Cert.Kernel.Tc

end
-- ==== Proof.BitsLaunchRegion.lean ====
/-
  The pallas_call's region inside @main: the unscoped arrays are the region's eight and the rest; the region is
  entered through the lifting of the certificate's body table; its staging cells' ghost state is the launch's;
  the TensorCore owes nothing across it and records only waits on its staging semaphores.
-/
import proofs.«203981_g87385404604482_cont_9to1_m_1030_24_alg».proof.Proof.BitsLaunch
import proofs.«203981_g87385404604482_cont_9to1_m_1030_24_alg».proof.Proof.BitsTcRel

noncomputable section

namespace Cert.Kernel.Hand

open Cert.Kernel Cert.Kernel.Gen Cert.Kernel.Sc
open Idealize.ShloMosaic Idealize.ShloMosaic.TcCoe
open Idealize.ShloMosaic.SparseCore.Cfg (HIx Pay)
open Idealize.ShloMosaic.StableHlo (held after wp_seq launchContents)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

set_option maxHeartbeats 4000000 in
set_option backward.isDefEq.respectTransparency.types false in
theorem regionRun : RegionRun m := by
  intro κ d W Φ
  iintro ⟨#Hctx, Hb, Hheld, HO, ⟨Hg, Ht⟩, Hk⟩
  ihave Hub := (Entails.of_eq (unscopedBufs_held (Ix := HIx 1) (Name := ℕ) (U := UU) (Lvl := ℕ) d (VC m d)).symm) $$ Hheld
  ihave Ha := (Tc.pre_of_unscopedBufs (Name := ℕ) (U := UU) (Lvl := ℕ) (Vc m) (fun _ => W) none d) $$ [Hub HO]
  · isplitl [Hub] <;> iassumption
  icases Ha with ⟨Hpre, Hrest⟩
  ihave Hlev := ((K (F := F)).ctx_levAts κ) $$ Hctx
  rw [show (Prog.lift (TpuEff.customCall (SparseCore.inner (Pipeline.entry 0)) ()) : Prog (TpuEff nD τ sig (Elt F) (SparseCore.Sig (ΛP (F := F)) 1) .tc) PUnit)
        = SparseCore.liftProg (Q := 1) (.op (.customCall (Pipeline.entry 0) ()) fun _ => .ret ⟨⟩) from rfl]
  iapply ((K (F := F)).wp_liftProg (D (F := F)) 𝒱 (SparseCore.T d) Set.univ none _ Φ)
  iapply (Tc.region_wp (Name := ℕ) (U := UU) (Lvl := ℕ) (Vc m) (fun _ => W) EP 𝒱₀ none (K (F := F)).L (K (F := F)).lev d (fun _ => .ret ⟨⟩) Φ) $$ [Hb Hpre Hg Ht Hk Hrest]
  isplitl [Hk Hrest]
  · iintro ⟨Hb, Hpost⟩
    rw [wp_ret]; imodintro
    unfold Tc.post
    icases Hpost with ⟨Harr, ⟨%W', %hW', HO⟩⟩
    iapply Hk
    isplitl [Hb]; · iexact Hb
    isplitl [Harr Hrest]
    · unfold FIN
      iexists W
      isplitl [Harr]; · iexact Harr
      iexact Hrest
    iexists W'
    isplitr
    · ipureintro; exact Tc.bound_last (Name := ℕ) (U := UU) (Lvl := ℕ) (Vc m) (fun _ => W) none d W' hW'
    iexact HO
  isplitl [Hb]; · iexact Hb
  isplitl [Hpre]; · iexact Hpre
  isplitr; · iexact Hlev
  isplitl [Hg]; · iexact Hg
  iexact Ht

end Cert.Kernel.Hand

end
-- ==== Proof.BitsLaunchFin.lean ====
/-
  The end of the run: what the TensorCores hold at the end says of the final memory that the nine arguments are
  as at launch and that the result array is in the relation the pallas_call's sixteen write-backs determine; the
  launch element funds the handshakes' rounds and the pallas_call's staging cells; the launch theorem then gives
  the program's run.
-/
import proofs.«203981_g87385404604482_cont_9to1_m_1030_24_alg».proof.Proof.BitsLaunchRegion

noncomputable section

namespace Cert.Kernel.Hand

open Cert.Kernel Cert.Kernel.Gen Cert.Kernel.Sc
open Idealize.ShloMosaic Idealize.ShloMosaic.TcCoe
open Idealize.ShloMosaic.SparseCore.Cfg (HIx Pay)
open Idealize.ShloMosaic.StableHlo (held after wp_seq launchContents)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- An argument no host operation writes holds its launch contents at the region's entry. -/
local macro "kept_arg" : tactic => `(tactic| (
  show after opsB (VB _ _) _ = _
  dsimp only [opsB]
  after_results
  unfold VB
  rw [Function.update_of_ne (by decide)]
  show after opsA (V0 _ _) _ = _
  dsimp only [opsA]
  after_results
  rfl))

theorem VC_arg0 (d : Dev nD) : VC m d (Proc.devRef .tc main_arg0) = m ((SparseCore.T d : Thread nD τ).loc main_arg0) := by kept_arg
theorem VC_arg1 (d : Dev nD) : VC m d (Proc.devRef .tc main_arg1) = m ((SparseCore.T d : Thread nD τ).loc main_arg1) := by kept_arg
theorem VC_arg2 (d : Dev nD) : VC m d (Proc.devRef .tc main_arg2) = m ((SparseCore.T d : Thread nD τ).loc main_arg2) := by kept_arg
theorem VC_arg3 (d : Dev nD) : VC m d (Proc.devRef .tc main_arg3) = m ((SparseCore.T d : Thread nD τ).loc main_arg3) := by kept_arg
theorem VC_arg4 (d : Dev nD) : VC m d (Proc.devRef .tc main_arg4) = m ((SparseCore.T d : Thread nD τ).loc main_arg4) := by kept_arg
theorem VC_arg5 (d : Dev nD) : VC m d (Proc.devRef .tc main_arg5) = m ((SparseCore.T d : Thread nD τ).loc main_arg5) := by kept_arg
theorem VC_arg6 (d : Dev nD) : VC m d (Proc.devRef .tc main_arg6) = m ((SparseCore.T d : Thread nD τ).loc main_arg6) := by kept_arg
theorem VC_arg7 (d : Dev nD) : VC m d (Proc.devRef .tc main_arg7) = m ((SparseCore.T d : Thread nD τ).loc main_arg7) := by kept_arg
theorem VC_arg8 (d : Dev nD) : VC m d (Proc.devRef .tc main_arg8) = m ((SparseCore.T d : Thread nD τ).loc main_arg8) := by kept_arg

/-- Every word of the padded index vector names a table row when every caption does: a padded entry is a caption or the word 0. -/
theorem idxPad_lt (cap : IVec S16x20 32) (h : ∀ j, (cap j).toNat < 100000) (i : S512.Idx) : (idxPad cap i).toNat < 100000 := by
  unfold idxPad pad
  split
  · exact h _
  · show (0#32 : BitVec 32).toNat < 100000
    decide

/-- What a final state must satisfy on device `d`. -/
def fq (d : Dev nD) (s' : Phys nD τ sig (Elt F)) : Prop :=
  (∃ W : Waits sig (HIx 1), ∀ w : Fin cfg1.W, (Tc.rdats (Name := ℕ) (U := UU) (Lvl := ℕ) (Vc m) (fun _ => W) 0 d).ArrAt w cfg1.N
      (s'.mem.mem ((spec1 w).arr.view.loc (d.tc : Thread nD τ))))
  ∧ s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)
  ∧ s'.mem.mem ((SparseCore.T d : Thread nD τ).loc main_arg5) = m ((SparseCore.T d : Thread nD τ).loc main_arg5)
  ∧ s'.mem.mem ((SparseCore.T d : Thread nD τ).loc main_arg6) = m ((SparseCore.T d : Thread nD τ).loc main_arg6)
  ∧ s'.mem.mem ((SparseCore.T d : Thread nD τ).loc main_arg8) = m ((SparseCore.T d : Thread nD τ).loc main_arg8)

theorem hfin (d : Dev nD) (s' : Phys nD τ sig (Elt F)) : iprop(FIN m d ∗ SI s') ⊢ (⌜fq m d s'⌝ : sProp 𝕄) := by
  unfold FIN
  iintro ⟨⟨%W, Harr, Hrest⟩, HSI⟩
  ihave H := (Pipeline.RDat.arrays_read (pcfgs (F := F)) (fun q => (cfgs q).toPCfg_adm) (Tc.rdats (Name := ℕ) (U := UU) (Lvl := ℕ) (Vc m) (fun _ => W)) (p := 0) arr_whole1 d cfg1.N s') $$ [Harr HSI]
  · isplitl [Harr] <;> iassumption
  icases H with ⟨%hA, HSI⟩
  ihave Hr := (Entails.of_eq (unscopedRest1_eq d (Vc m d))) $$ Hrest
  icases Hr with ⟨H0, H1, H2, H5, H6, H8, -⟩
  ihave H := (persistent_entails_right (SI_pointsTo_agree (st := s') (ℓ := (SparseCore.T d : Thread nD τ).loc main_arg0) (I := Finset.univ) (q := fullShare) (f := Vc m d main_arg0))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := Vc m d main_arg1))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := Vc m d main_arg2))) $$ [HSI H2]
  · isplitl [HSI] <;> iassumption
  icases H with ⟨%h2, HSI, -⟩
  ihave H := (persistent_entails_right (SI_pointsTo_agree (st := s') (ℓ := (SparseCore.T d : Thread nD τ).loc main_arg5) (I := Finset.univ) (q := fullShare) (f := Vc m d main_arg5))) $$ [HSI H5]
  · isplitl [HSI] <;> iassumption
  icases H with ⟨%h5, HSI, -⟩
  ihave H := (persistent_entails_right (SI_pointsTo_agree (st := s') (ℓ := (SparseCore.T d : Thread nD τ).loc main_arg6) (I := Finset.univ) (q := fullShare) (f := Vc m d main_arg6))) $$ [HSI H6]
  · isplitl [HSI] <;> iassumption
  icases H with ⟨%h6, HSI, -⟩
  ihave H := (SI_pointsTo_agree (st := s') (ℓ := (SparseCore.T d : Thread nD τ).loc main_arg8) (I := Finset.univ) (q := fullShare) (f := Vc m d main_arg8)) $$ [HSI H8]
  · isplitl [HSI] <;> iassumption
  icases H with %h8
  ipureintro
  exact ⟨⟨W, hA⟩, (funext fun i => h0 i (Finset.mem_univ i)).trans (VC_arg0 m d), (funext fun i => h1 i (Finset.mem_univ i)).trans (VC_arg1 m d),
    (funext fun i => h2 i (Finset.mem_univ i)).trans (VC_arg2 m d), (funext fun i => h5 i (Finset.mem_univ i)).trans (VC_arg5 m d),
    (funext fun i => h6 i (Finset.mem_univ i)).trans (VC_arg6 m d), (funext fun i => h8 i (Finset.mem_univ i)).trans (VC_arg8 m d)⟩

/-- The run's post: on every device the result array is in the relation the pallas_call's write-backs determine, and the
    nine arguments are as at launch. -/
def QC : PUnit × MemSt nD τ sig (Elt F) → Prop := fun r => ∀ c : Dev nD,
  Tc.OutRel (Vc m) c (r.2.mem ((c.tc : Thread nD τ).loc main_v12))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)

theorem hQ (s' : Phys nD τ sig (Elt F)) (h : ∀ d, fq m d s') : QC m (⟨⟩, s'.mem) := by
  intro c
  obtain ⟨⟨W, hA⟩, h0, h1, h2, h5, h6, h8⟩ := h c
  have in_w : ∀ (w : Fin cfg1.W), (cfg1.win w).isOut = false →
      s'.mem.mem ((spec1 w).arr.view.loc (c.tc : Thread nD τ)) = Vc m c (Pipeline.arrRef spec1 w) := fun w hw => by
    have := hA w
    rw [(Tc.rdats (Name := ℕ) (U := UU) (Lvl := ℕ) (Vc m) (fun _ => W) 0 c).ArrAt_in w hw] at this
    exact this
  exact ⟨Tc.outRel_of_ArrAt (Name := ℕ) (U := UU) (Lvl := ℕ) (Vc m) (fun _ => W) c _ (hA 7), h0, h1, h2,
    (in_w 1 rfl).trans (VC_arg3 m c), (in_w 2 rfl).trans (VC_arg4 m c), h5, h6, (in_w 5 rfl).trans (VC_arg7 m c), h8⟩

/-! ## The pallas_call's operands as functions of the launch contents -/

local macro "kept_argB" : tactic => `(tactic| (
  unfold VB
  rw [Function.update_of_ne (by decide)]
  show after opsA (V0 _ _) _ = _
  dsimp only [opsA]
  after_results
  rfl))

theorem VB_arg0 (d : Dev nD) : VB m d (Proc.devRef .tc main_arg0) = m ((SparseCore.T d : Thread nD τ).loc main_arg0) := by kept_argB
theorem VB_arg5 (d : Dev nD) : VB m d (Proc.devRef .tc main_arg5) = m ((SparseCore.T d : Thread nD τ).loc main_arg5) := by kept_argB
theorem VB_arg6 (d : Dev nD) : VB m d (Proc.devRef .tc main_arg6) = m ((SparseCore.T d : Thread nD τ).loc main_arg6) := by kept_argB
theorem VB_arg8 (d : Dev nD) : VB m d (Proc.devRef .tc main_arg8) = m ((SparseCore.T d : Thread nD τ).loc main_arg8) := by kept_argB

/-- The [384, 64] input: built from the features and the gathered rows. -/
theorem VC_v8 (d : Dev nD) : VC m d (Proc.devRef .tc main_v8)
    = xRows (m ((SparseCore.T d : Thread nD τ).loc main_arg0) : FVec F S16x64 .f32) (gath (tbl m) (idx m) d : FVec F S512x64 .f32) := by
  show after opsB (VB m d) _ = _
  rw [afterB_v8, VB_arg0, VB_v2]
/-- The two bias rows and the output bias row. -/
theorem VC_v9 (d : Dev nD) : VC m d (Proc.devRef .tc main_v9)
    = shapeCast S1x2048 (m ((SparseCore.T d : Thread nD τ).loc main_arg5) : FVec F S2048 .f32) Cert.Kernel.Facts₀.shapeCasts_S2048_S1x2048 := by
  show after opsB (VB m d) _ = _
  rw [afterB_v9, VB_arg5]
theorem VC_v10 (d : Dev nD) : VC m d (Proc.devRef .tc main_v10)
    = shapeCast S1x2048 (m ((SparseCore.T d : Thread nD τ).loc main_arg6) : FVec F S2048 .f32) Cert.Kernel.Facts₀.shapeCasts_S2048_S1x2048 := by
  show after opsB (VB m d) _ = _
  rw [afterB_v10, VB_arg6]
theorem VC_v11 (d : Dev nD) : VC m d (Proc.devRef .tc main_v11)
    = shapeCast S1x100000 (m ((SparseCore.T d : Thread nD τ).loc main_arg8) : FVec F S100000 .f32) Cert.Kernel.Facts₀.shapeCasts_S100000_S1x100000 := by
  show after opsB (VB m d) _ = _
  rw [afterB_v11, VB_arg8]

/-- Every word of the padded index vector names a table row when every caption does. -/
theorem idxOK (h : ∀ (d : Dev nD) (j : S16x20.Idx), ((m ((SparseCore.T d : Thread nD τ).loc main_arg1) : IVec S16x20 32) j).toNat < 100000) : IdxOK (F := F) (idx m) :=
  fun d i => idxPad_lt _ (h d) i

/-! ## The launch element -/

/-- The launch element: the handshakes' rounds, the pallas_call's staging cells' rounds, no transfer counted. -/
def u₀ : UU := (initOf (K (F := F)).hsCells (K (F := F)).hsToks, (initOf (Pipeline.cells cfgs cellOf_inj) (Pipeline.launchToks cfgs cellOf_inj), 1))

theorem Gd_all :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => (Gd d : sProp 𝕄) := by
  rw [← bigSep_sep']
  refine bigSep_mono fun d _ => ?_
  rw [bigSep_univ_of_subsingleton (0 : Fin 1), bigSep_univ_of_subsingleton (0 : Fin 1)]
  exact BI.Entails.refl _

theorem hu₀ (hPx : (bigSep Finset.univ fun thr : Thread nD τ => bigSep Finset.univ fun q : Fin 1 => (P (F := F) (tbl m) (idx m)).x q thr) = (iprop(emp) : sProp 𝕄)) :
    iprop(ownU (u₀ (F := F)) ∗ (P (F := F) (tbl m) (idx m)).oxCred ∗ (K (F := F)).freeSems0)
      ⊢ |={Set.univ}=> iprop(BI.own (EH (initOf (K (F := F)).hsCells (K (F := F)).hsToks)) ∗ (bigSep Finset.univ fun d : Dev nD => (Gd d : sProp 𝕄))
        ∗ bigSep Finset.univ fun thr : Thread nD τ => bigSep Finset.univ fun q : Fin 1 => (P (F := F) (tbl m) (idx m)).x q thr) := by
  unfold u₀
  iintro ⟨Hu, -, -⟩
  ihave H := (ownU_pair _ _) $$ Hu
  icases H with ⟨HH, HR⟩
  ihave H2 := (own_pair_emb embR _ _) $$ HR
  icases H2 with ⟨HP, -⟩
  ihave HP' := (Entails.of_eq (show (BI.own (((Emb.inl : Emb UP (UP × Counters)).trans (embR : Emb (UP × Counters) 𝕄))
        (initOf (Pipeline.cells cfgs cellOf_inj) (Pipeline.launchToks cfgs cellOf_inj))) : sProp 𝕄)
      = BI.own ((EP (F := F)) (initOf (Pipeline.cells cfgs cellOf_inj) (Pipeline.launchToks cfgs cellOf_inj))) from rfl)) $$ HP
  imod (Pipeline.fund_ghost cfgs (EP (F := F)) cellOf_inj) $$ HP' with Hg
  imodintro
  isplitl [HH]; · iexact HH
  isplitl [Hg]
  · iapply Gd_all; iexact Hg
  rw [hPx]; iempintro

/-! ## The program's run -/

variable (ρ : Dev nD → PrngReg)

/-- Every weakly fair execution of the program's threads terminates with the result array in the pallas_call's
    relation and the arguments unchanged, given the SparseCore side's obligations. -/
theorem run_main [∀ e, Nonempty (Elt F e)]
    (htile : (K (F := F)).TileObl (D (F := F)) 𝒱 (P (tbl m) (idx m)) v₀ 0)
    (hvec : (K (F := F)).VecSplit' (P (tbl m) (idx m)) 0)
    (h_st0 : St0 m) (h_dn0 : Dn0 m)
    (hPx : (bigSep Finset.univ fun thr : Thread nD τ => bigSep Finset.univ fun q : Fin 1 => (P (F := F) (tbl m) (idx m)).x q thr) = (iprop(emp) : sProp 𝕄)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (tbl m) (idx m)) facts v₀
    (fun q hq => match q with | 0 => nomatch hq)
    (fun q _ => match q with | 0 => htile)
    (fun q _ => match q with | 0 => SparseCore.Cfg.VecSplit.of_plain hvec)
    m ρ main (fun d => Gd d) (FIN m) (u₀ (F := F)) (hu₀ m hPx) (hmain m ρ h_st0 h_dn0 (regionRun m)) (fq m) (hfin m) (QC m) (hQ m)

end Cert.Kernel.Hand

end
-- ==== Proof.ScOwn.lean ====
import proofs.«203981_g87385404604482_cont_9to1_m_1030_24_alg».proof.Proof.ScGhost

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A tile's own storage: its three DMA semaphores and two scratch buffers among the subcore's own -/

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cIcell : GSem nD τ sig := (thr d L, .dma cc0_scoped0.sem)
abbrev cRcell : GSem nD τ sig := (thr d L, .dma cc0_scratch2.sem)
abbrev cOcell : GSem nD τ sig := (thr d L, .dma cc0_scoped1.sem)

abbrev sI : Memref sig .scVector .vmem S16 .i32 := Memref.whole cc0_scratch0
abbrev sR : Memref sig .scVector .vmem S16x64 .f32 := Memref.whole cc0_scratch1

theorem ownSems0_V :
    (ownSems0 (thr d L) : sProp 𝕄)
      = iprop(semVal (cIcell d L) 0 ∗ semVal (cRcell d L) 0 ∗ semVal (cOcell d L) 0
          ∗ bigSep ((((ownCells (thr d L)).erase (cIcell d L)).erase (cRcell d L)).erase (cOcell d L))
              fun g => semVal g 0) := by
  unfold SparseCore.Cfg.ownSems0
  rw [SparseCore.bigSep_erase' ((mem_ownCells (g := cIcell d L)).mpr ⟨rfl, by
      show (SemLoc.dma cc0_scoped0.sem : SemLoc sig).isScoped .scVector = true; decide⟩),
    SparseCore.bigSep_erase' (Finset.mem_erase.mpr ⟨by simp [cIcell, cRcell]; decide, (mem_ownCells (g := cRcell d L)).mpr ⟨rfl, by
      show (SemLoc.dma cc0_scratch2.sem : SemLoc sig).isScoped .scVector = true; decide⟩⟩),
    SparseCore.bigSep_erase' (Finset.mem_erase.mpr ⟨by simp [cRcell, cOcell]; decide, Finset.mem_erase.mpr ⟨by simp [cIcell, cOcell]; decide,
      (mem_ownCells (g := cOcell d L)).mpr ⟨rfl, by show (SemLoc.dma cc0_scoped1.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.KernelIdeal.Sc

end
-- ==== Proof.ScGeom.lean ====
import proofs.«203981_g87385404604482_cont_9to1_m_1030_24_alg».proof.Proof.ScGhost
import proofs.«203981_g87385404604482_cont_9to1_m_1030_24_alg».proof.Proof.ScOwn

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Sixteen at a time -/

theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The row scratch, row by row -/

theorem hdivR : 16 ∣ S16x64.size 0 := ⟨1, rfl⟩
abbrev rowR (t : Fin 16) : Rect S16x64 := Rect.part (s := S16x64) (a₀ := 0) hdivR t

theorem inb_dst (t : Fin 16) : ∀ a, (![t.val, 0] : Fin 2 → Nat) a + S1x64.size a ≤ S16x64.size a := by
  have := t.isLt; intro a; fin_cases a
  · show t.val + 1 ≤ 16; omega
  · show 0 + 64 ≤ 64; omega
abbrev rectR (t : Fin 16) : Rect S16x64 := Rect.unit (s := S16x64) ![t.val, 0] S1x64.size (inb_dst t)
/-- Row `t` of the row scratch, as the body slices and squeezes it. -/
abbrev dRowV (t : Fin 16) : Memref sig .scVector .vmem S64 .f32 := ((sR).slice (rectR t) (fun _ => rfl)).squeeze S64 squeezes_S1x64_S64

theorem rectR_eq (t : Fin 16) : rectR t = rowR t := by
  unfold rectR rowR Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- The elements of row `t` of the row scratch. -/
abbrev dSet (t : Fin 16) : Finset S16x64.Idx := (dRowV t).view.set

theorem set_dRowV (t : Fin 16) : dSet t = (rowR t).set := by
  show (((sR).view.slice (rectR t)).reshape S64 squeezes_S1x64_S64.numel_eq).set = _
  rw [View.set_reshape, View.set_slice]
  show (rectR t).set.map (Function.Embedding.refl _) = _
  rw [Finset.map_refl, rectR_eq]

theorem rowsR_disjoint : ∀ i ∈ (Finset.univ : Finset (Fin 16)), ∀ j ∈ (Finset.univ : Finset (Fin 16)), i ≠ j → Disjoint (dSet i) (dSet j) :=
  fun i _ j _ h => by rw [set_dRowV, set_dRowV]; exact Rect.part_disjoint hdivR h
theorem rowsR_cover : (Finset.univ : Finset (Fin 16)).biUnion dSet = Finset.univ :=
  (Finset.biUnion_congr rfl fun i _ => set_dRowV i).trans (Rect.biUnion_part hdivR)

/-- The row scratch whole is its sixteen rows. -/
theorem sR_rows (d : Dev nD) (L : grid0.Coords) (f : Buf (Elt F) ((thr d L).loc cc0_scratch1)) :
    ((thr d L).loc cc0_scratch1 ↦{fullShare} f : sProp 𝕄) = bigSep Finset.univ fun t : Fin 16 => (thr d L).loc cc0_scratch1 ↦[dSet t]{fullShare} f := by
  rw [← pointsTo_biUnion Finset.univ (ℓ := (thr d L).loc cc0_scratch1) dSet rowsR_disjoint, rowsR_cover]; try rfl

/-! ## A table row, at a run-time word -/

/-- The side condition of a row slice at word `w`: the row is one of the table's. -/
def chkW (w : BitVec 32) : Prop := ∀ a, (![w.toNat, 0] : Fin 2 → Nat) a + S1x64.size a ≤ S100000x64.size a

theorem chkW_of {w : BitVec 32} (h : w.toNat < 100000) : chkW w := by
  intro a; fin_cases a
  · show w.toNat + 1 ≤ 100000; omega
  · show 0 + 64 ≤ 64; omega

/-- The table's row at word `w`, as the body slices and squeezes it. -/
abbrev sRowV (w : BitVec 32) (h : chkW w) : Memref sig .scVector .hbm S64 .f32 :=
  ((tV).slice (Rect.unit (s := S100000x64) ![w.toNat, 0] S1x64.size h) (fun _ => rfl)).squeeze S64 squeezes_S1x64_S64

theorem chk1_of {w : BitVec 32} (h : chkW w) : k0_chk1 w := ⟨h, h⟩
theorem chk2_of {w : BitVec 32} (h : chkW w) : k0_chk2 w := ⟨h, h⟩
theorem chk3_of {w : BitVec 32} (h : chkW w) : k0_chk3 w := ⟨h, h⟩
theorem chk4_of {w : BitVec 32} (h : chkW w) : k0_chk4 w := ⟨h, h⟩
theorem chk5_of {w : BitVec 32} (h : chkW w) : k0_chk5 w := ⟨h, h⟩
theorem chk6_of {w : BitVec 32} (h : chkW w) : k0_chk6 w := ⟨h, h⟩
theorem chk7_of {w : BitVec 32} (h : chkW w) : k0_chk7 w := ⟨h, h⟩
theorem chk8_of {w : BitVec 32} (h : chkW w) : k0_chk8 w := ⟨h, h⟩
theorem chk9_of {w : BitVec 32} (h : chkW w) : k0_chk9 w := ⟨h, h⟩
theorem chk10_of {w : BitVec 32} (h : chkW w) : k0_chk10 w := ⟨h, h⟩
theorem chk11_of {w : BitVec 32} (h : chkW w) : k0_chk11 w := ⟨h, h⟩
theorem chk12_of {w : BitVec 32} (h : chkW w) : k0_chk12 w := ⟨h, h⟩
theorem chk13_of {w : BitVec 32} (h : chkW w) : k0_chk13 w := ⟨h, h⟩
theorem chk14_of {w : BitVec 32} (h : chkW w) : k0_chk14 w := ⟨h, h⟩
theorem chk15_of {w : BitVec 32} (h : chkW w) : k0_chk15 w := ⟨h, h⟩
theorem chk16_of {w : BitVec 32} (h : chkW w) : k0_chk16 w := h

/-! ## The sixteen index words the body extracts -/

theorem slicesT (t : Fin 16) : S16.Slices ![t.val] S1 :=
  ⟨rfl, Fin.forall_fin_one.mpr (by have := t.isLt; show t.val + 1 ≤ 16; omega)⟩

/-- Word `t` of the index vector, as the body extracts it. -/
def wd (v4 : IVec S16 32) (t : Fin 16) : BitVec 32 :=
  extractAt ![0] (extractStridedSlice S1 ![t.val] v4 (slicesT t)) inpos_S1_p0

theorem wd_eq (v4 : IVec S16 32) (t : Fin 16) : wd v4 t = v4 (ix1 t) := by
  unfold wd extractAt extractStridedSlice
  congr 1; funext a
  match a with
  | ⟨0, _⟩ => apply Fin.ext; simp

theorem shapeCast_self (v3 : IVec S16 32) (j : S16.Idx) : shapeCast S16 v3 shapeCasts_S16_S16 j = v3 j := by
  unfold shapeCast
  congr 1
  revert j; decide

variable [FloatOps F]

theorem wd_pay2 (v3 : Vec F S16 .i32) : extractAt ![0] (k0_pay2 v3) inpos_S1_p0 = wd (k0_pay1 v3) 0 := rfl
theorem wd_pay3 (v3 : Vec F S16 .i32) : extractAt ![0] (k0_pay3 v3) inpos_S1_p0 = wd (k0_pay1 v3) 1 := rfl
theorem wd_pay4 (v3 : Vec F S16 .i32) : extractAt ![0] (k0_pay4 v3) inpos_S1_p0 = wd (k0_pay1 v3) 2 := rfl
theorem wd_pay5 (v4 : IVec S16 32) : extractAt ![0] (k0_pay5 v4) inpos_S1_p0 = wd v4 3 := rfl
theorem wd_pay6 (v4 : IVec S16 32) : extractAt ![0] (k0_pay6 v4) inpos_S1_p0 = wd v4 4 := rfl
theorem wd_pay7 (v4 : IVec S16 32) : extractAt ![0] (k0_pay7 v4) inpos_S1_p0 = wd v4 5 := rfl
theorem wd_pay8 (v4 : IVec S16 32) : extractAt ![0] (k0_pay8 v4) inpos_S1_p0 = wd v4 6 := rfl
theorem wd_pay9 (v4 : IVec S16 32) : extractAt ![0] (k0_pay9 v4) inpos_S1_p0 = wd v4 7 := rfl
theorem wd_pay10 (v4 : IVec S16 32) : extractAt ![0] (k0_pay10 v4) inpos_S1_p0 = wd v4 8 := rfl
theorem wd_pay11 (v4 : IVec S16 32) : extractAt ![0] (k0_pay11 v4) inpos_S1_p0 = wd v4 9 := rfl
theorem wd_pay12 (v4 : IVec S16 32) : extractAt ![0] (k0_pay12 v4) inpos_S1_p0 = wd v4 10 := rfl
theorem wd_pay13 (v4 : IVec S16 32) : extractAt ![0] (k0_pay13 v4) inpos_S1_p0 = wd v4 11 := rfl
theorem wd_pay14 (v4 : IVec S16 32) : extractAt ![0] (k0_pay14 v4) inpos_S1_p0 = wd v4 12 := rfl
theorem wd_pay15 (v4 : IVec S16 32) : extractAt ![0] (k0_pay15 v4) inpos_S1_p0 = wd v4 13 := rfl
theorem wd_pay16 (v4 : IVec S16 32) : extractAt ![0] (k0_pay16 v4) inpos_S1_p0 = wd v4 14 := rfl
theorem wd_pay17 (v4 : IVec S16 32) : extractAt ![0] (k0_pay17 v4) inpos_S1_p0 = wd v4 15 := rfl

end Cert.KernelIdeal.Sc

end
-- ==== Proof.ScBatch.lean ====
import proofs.«203981_g87385404604482_cont_9to1_m_1030_24_alg».proof.Proof.ScGhost
import proofs.«203981_g87385404604482_cont_9to1_m_1030_24_alg».proof.Proof.ScGeom

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The index vector a tile loads -/

/-- The tile's 16 words of the index array, as the body slices them. -/
abbrev iRowsV (L : grid0.Coords) : Memref sig .scVector .hbm S16 .i32 :=
  (iV).slice (Rect.unit (s := S512) (k0_off1 L) S16.size (k0_off1_inb L)) (fun _ => rfl)
abbrev rS : Rect S16 := Rect.unit (s := S16) ![0] S16.size inb_S16_S16_0

theorem rS_idx (j : S16.Idx) : (rS : Rect S16).toLoadRect.idx j = j := by
  funext a; apply Fin.ext
  rw [LoadRect.idx_apply, Subsingleton.elim a 0]
  show 0 + 1 * (j 0).val = (j 0).val
  simp

/-- A load of the whole index scratch after a copy has filled it reads the copy's payload. -/
theorem loaded_eq (d : Dev nD) (L : grid0.Coords) (fs : Buf (Elt F) ((thr d L).loc cc0_scratch0)) (pay : S16.Idx → Elt F .i32) (j : S16.Idx) :
    View.readAt (Elt F) (sI).view (rS : Rect S16).toLoadRect (View.write (Elt F) (sI).view fs pay Finset.univ) j = pay j := by
  simp only [View.readAt_apply, Memref.view_whole, View.read_whole]
  rw [rS_idx, View.write_whole_univ]

variable [FloatOps F]

/-- Word `t` of the vector the body shape-casts is word `t` of the vector it loaded. -/
theorem wd_pay1 (v3 : Vec F S16 .i32) (t : Fin 16) : wd (k0_pay1 v3) t = v3 (ix1 t) :=
  (wd_eq _ t).trans (shapeCast_self v3 (ix1 t))

/-! ## The batch of sixteen row copies on the tile's one semaphore -/

section Batch

variable (d : Dev nD) (L : grid0.Coords)

/-- One row copy's credit. -/
abbrev NN : ℕ := (dRowV 0).view.dmaCredit
omit [FloatOps F] in
theorem NN_pos : 0 < NN := View.dmaCredit_pos _ (by decide)

variable (tbd : Buf (Elt F) (tLoc d)) (fr : Buf (Elt F) ((thr d L).loc cc0_scratch1)) (v4 : IVec S16 32) (hall : ∀ t, chkW (wd v4 t))
variable (q : PosShare TreeShare)

/-- The row scratch once copy `t` has landed in its row `t`. -/
def landed (t : Fin 16) : Buf (Elt F) ((thr d L).loc cc0_scratch1) :=
  (dRowV t).view.write (Elt F) fr (ReadAs.same.apply ((sRowV (wd v4 t) (hall t)).view.read (Elt F) tbd)) Finset.univ

/-- What copy `t` delivers: row `t` of the scratch landed, and its read token of the table row back. -/
def Dl (t : Fin 16) : sProp 𝕄 :=
  iprop(((dRowV t).view.loc (thr d L) ↦[(dRowV t).view.set]{fullShare} landed d L tbd fr v4 hall t)
    ∗ ((sRowV (wd v4 t) (hall t)).view.loc (thr d L) ↦[(sRowV (wd v4 t) (hall t)).view.set]{Transfers.shareTok q 16 t} tbd))

instance Dl_storable (t : Fin 16) : BI.Storable (upEmb : UEmb _ 𝕄) (Dl d L tbd fr v4 hall q t) := by unfold Dl; infer_instance

/-- The table row copy `t` reads, as a set of the table's elements. -/
abbrev sSet (t : Fin 16) : Finset S100000x64.Idx := (sRowV (wd v4 t) (hall t)).view.set

omit [FloatOps F] in
/-- A read share of the whole table: a remainder, the sixteen copies' rows each at its token, and the tokens' rests. -/
theorem toks_split :
    (tLoc d ↦{q} tbd : sProp 𝕄) ⊢ iprop((tLoc d ↦{Transfers.shareDrop q 16} tbd)
      ∗ (bigSep Finset.univ fun t : Fin 16 => tLoc d ↦[sSet v4 hall t]{Transfers.shareTok q 16 t} tbd)
      ∗ (bigSep Finset.univ fun t : Fin 16 => tLoc d ↦[Finset.univ \ sSet v4 hall t]{Transfers.shareTok q 16 t} tbd)) := by
  refine (Transfers.pointsTo_toks_split q 16).trans (sep_mono_right ?_)
  rw [← bigSep_sep']
  exact bigSep_mono fun t _ => (pointsTo_split_subset (Finset.subset_univ _)).1

omit [FloatOps F] in
theorem toks_join :
    iprop((tLoc d ↦{Transfers.shareDrop q 16} tbd)
      ∗ (bigSep Finset.univ fun t : Fin 16 => tLoc d ↦[sSet v4 hall t]{Transfers.shareTok q 16 t} tbd)
      ∗ (bigSep Finset.univ fun t : Fin 16 => tLoc d ↦[Finset.univ \ sSet v4 hall t]{Transfers.shareTok q 16 t} tbd)) ⊢ (tLoc d ↦{q} tbd : sProp 𝕄) := by
  refine (sep_mono_right ?_).trans (Transfers.pointsTo_toks_join q 16)
  rw [← bigSep_sep']
  exact bigSep_mono fun t _ => (pointsTo_split_subset (Finset.subset_univ _)).2

end Batch

end Cert.KernelIdeal.Sc

end
-- ==== Proof.ScValue.lean ====
import proofs.«203981_g87385404604482_cont_9to1_m_1030_24_alg».proof.Proof.ScGhost
import proofs.«203981_g87385404604482_cont_9to1_m_1030_24_alg».proof.Proof.ScBatch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## What the sixteen copies leave in the row scratch -/

theorem emb_dRow (t : Fin 16) (k : S64.Idx) : (dRowV t).view.emb k = (ix2 t (k 0) : S16x64.Idx) := by
  have hk := Shape.reshapeEquiv_cons_one (n := 1) (d := ![64]) squeezes_S1x64_S64.numel_eq k
  funext a; apply Fin.ext
  show ((rectR t).emb (Shape.reshapeEquiv squeezes_S1x64_S64.numel_eq k) a : Nat) = _
  rw [Rect.emb_apply, hk]
  match a with
  | ⟨0, _⟩ => simp [Fin.cons, Rect.unit]; rfl
  | ⟨1, _⟩ => simp [Fin.cons, Rect.unit]; rfl

theorem chkW_lt {w : BitVec 32} (h : chkW w) : w.toNat < 100000 := by
  have := h 0; simp at this; omega

theorem emb_sRow (w : BitVec 32) (h : chkW w) (k : S64.Idx) :
    (sRowV w h).view.emb k = (ix2 (⟨w.toNat, chkW_lt h⟩ : Fin 100000) (k 0) : S100000x64.Idx) := by
  have hk := Shape.reshapeEquiv_cons_one (n := 1) (d := ![64]) squeezes_S1x64_S64.numel_eq k
  funext a; apply Fin.ext
  show ((Rect.unit (s := S100000x64) ![w.toNat, 0] S1x64.size h).emb (Shape.reshapeEquiv squeezes_S1x64_S64.numel_eq k) a : Nat) = _
  rw [Rect.emb_apply, hk]
  match a with
  | ⟨0, _⟩ => simp [Fin.cons, Rect.unit]; rfl
  | ⟨1, _⟩ => simp [Fin.cons, Rect.unit]; rfl

section Rows

variable (d : Dev nD) (L : grid0.Coords)
variable (tbd : Buf (Elt F) (tLoc d)) (fr : Buf (Elt F) ((thr d L).loc cc0_scratch1)) (v4 : IVec S16 32) (hall : ∀ t, chkW (wd v4 t))

/-- The row scratch once every copy has landed: row `r` is the table row that index word `r` names. -/
def rowsG : Buf (Elt F) ((thr d L).loc cc0_scratch1) :=
  fun (i : S16x64.Idx) => (tbd : S100000x64.Idx → Elt F .f32) (ix2 (rowOf (wd v4 (i 0))) (i 1))

theorem rowOf_eq {w : BitVec 32} (h : chkW w) : rowOf w = ⟨w.toNat, chkW_lt h⟩ := Fin.ext (rowOf_val (chkW_lt h))

theorem landed_on (t : Fin 16) (i : S16x64.Idx) (hi : i ∈ dSet t) : landed d L tbd fr v4 hall t i = rowsG d L tbd v4 i := by
  obtain ⟨k, -, rfl⟩ := Finset.mem_map.mp hi
  unfold landed
  rw [View.write_emb_of_mem _ _ (Finset.mem_univ k)]
  unfold rowsG
  rw [emb_dRow]
  show _root_.cast _ ((sRowV (wd v4 t) (hall t)).view.read (Elt F) tbd k) = _
  rw [View.read_apply, emb_sRow, rowOf_eq (hall t)]
  rfl

theorem rows_join :
    (bigSep Finset.univ fun t : Fin 16 => ((dRowV t).view.loc (thr d L) ↦[(dRowV t).view.set]{fullShare} landed d L tbd fr v4 hall t : sProp 𝕄))
      ⊢ ((thr d L).loc cc0_scratch1 ↦{fullShare} rowsG d L tbd v4) := by
  rw [sR_rows d L (rowsG d L tbd v4)]
  exact bigSep_mono fun t _ => Entails.of_eq (pointsTo_congr (landed_on d L tbd fr v4 hall t))

end Rows

end Cert.KernelIdeal.Sc

end
-- ==== Proof.ScOut.lean ====
import proofs.«203981_g87385404604482_cont_9to1_m_1030_24_alg».proof.Proof.ScGhost
import proofs.«203981_g87385404604482_cont_9to1_m_1030_24_alg».proof.Proof.ScValue

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## What the copy out leaves in the tile's rows of the result -/

theorem whole_emb (k : S16x64.Idx) : (Rect.whole S16x64).emb k = k := by
  funext a; apply Fin.ext; rw [Rect.emb_apply]; simp [Rect.whole, Rect.unit]

section Out

variable (tb : (d : Dev nD) → Buf (Elt F) (tLoc d)) (ix : (d : Dev nD) → Buf (Elt F) (iLoc d))
variable (d : Dev nD) (L : grid0.Coords)

/-- The result's slice keeps the column; -/
theorem emb_oRows_col (k : S16x64.Idx) : ((oRowsV L).view.emb k : S512x64.Idx) 1 = k 1 := by
  apply Fin.ext
  show (k0_off33 L) 1 + 1 * ((k 1 : Fin 64) : Nat) = ((k 1 : Fin 64) : Nat)
  rw [congrFun (k0_off33_eq L) 1]; simp

/-- and its row is the index slice's word: both sit at the tile's offset. -/
theorem emb_iRows_row (k : S16x64.Idx) :
    ((iRowsV L).view.emb (ix1 (k 0)) : S512.Idx) = ix1 (((oRowsV L).view.emb k : S512x64.Idx) 0) := by
  funext a
  match a with
  | ⟨0, _⟩ =>
    apply Fin.ext
    show (k0_off1 L) 0 + 1 * ((k 0 : Fin 16) : Nat) = (k0_off33 L) 0 + 1 * ((k 0 : Fin 16) : Nat)
    rw [congrFun (k0_off1_eq L) 0, congrFun (k0_off33_eq L) 0]; simp

variable [FloatOps F]

theorem out_value (fo : Buf (Elt F) (oLoc d)) (v3 : Vec F S16 .i32) (hV : ∀ j : S16.Idx, v3 j = (ix d : S512.Idx → BitVec 32) ((iRowsV L).view.emb j))
    (i : S512x64.Idx) (hi : i ∈ oSet L) :
    (oRowsV L).view.writes (Elt F) fo [⟨Rect.whole S16x64, ReadAs.same.apply ((sR).view.read (Elt F) (rowsG d L (tb d) (k0_pay1 v3)))⟩] i = gath tb ix d i := by
  obtain ⟨k, -, rfl⟩ := Finset.mem_map.mp hi
  rw [View.writes_singleton]
  have e : (oRowsV L).view.emb k = ((oRowsV L).view.slice (Rect.whole S16x64)).emb k := by
    show _ = (oRowsV L).view.emb ((Rect.whole S16x64).emb k); rw [whole_emb]
  rw [e, View.write_emb_of_mem _ _ (Finset.mem_univ k), ← e]
  show _root_.cast _ ((sR).view.read (Elt F) (rowsG d L (tb d) (k0_pay1 v3)) k) = _
  rw [View.read_apply]
  unfold rowsG gath
  show (tb d : S100000x64.Idx → Elt F .f32) (ix2 (rowOf (wd (k0_pay1 v3) (k 0))) (k 1)) = _
  have h1 : wd (k0_pay1 v3) (k 0) = (ix d : S512.Idx → BitVec 32) (ix1 (((oRowsV L).view.emb k : S512x64.Idx) 0)) :=
    (wd_pay1 v3 (k 0)).trans ((hV _).trans (congrArg (ix d : S512.Idx → BitVec 32) (emb_iRows_row L k)))
  have h2 : (k 1 : Fin 64) = ((oRowsV L).view.emb k : S512x64.Idx) 1 := (emb_oRows_col L k).symm
  exact congrArg₂ (fun (a : BitVec 32) (b : Fin 64) => (tb d : S100000x64.Idx → Elt F .f32) (ix2 (rowOf a) b)) h1 h2

end Out

end Cert.KernelIdeal.Sc

end
-- ==== Proof.ScTile.lean ====
/-
  The SparseCore side of the launch, 2: one tile's task, at a symbolic tile.

  The tile copies its 16 words of the index array into its index scratch and waits; loads them; for each word, in
  order, starts the copy of the table row it names into the matching row of its row scratch, all sixteen on one
  semaphore; waits sixteen times; copies the row scratch to its 16 rows of the result and waits. Between the first
  start and the last wait nothing reads or writes a source or a destination of the sixteen copies, so they run as one
  counted batch: the first fifteen waits learn nothing, the sixteenth that every copy has landed. The table is read
  under sixteen read tokens of the tile's share, one per copy (two words may name the same row). Every word names a
  table row by hypothesis on the index array, so each of the body's side conditions holds.
-/
import proofs.«203981_g87385404604482_cont_9to1_m_1030_24_alg».proof.Proof.ScGhost
import proofs.«203981_g87385404604482_cont_9to1_m_1030_24_alg».proof.Proof.ScOut

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Tile
variable (tb : (d : Dev nD) → Buf (Elt F) (tLoc d)) (ix : (d : Dev nD) → Buf (Elt F) (iLoc d))
variable [FloatOps F]
variable (d : Dev nD) (L : grid0.Coords)

omit [FloatOps F] in
theorem pts_i (q : PosShare TreeShare) (f : Buf (Elt F) (iLoc d)) :
    ((iV).view.loc (thr d L) ↦{q} f : sProp 𝕄) = iLoc d ↦{q} f := by
  simp only [Memref.view_whole, View.set_whole]

set_option maxHeartbeats 8000000 in
theorem tile_body (hF : (K (F := F)).Facts) (hidx : IdxOK ix) (O : CellTallies nD τ sig (HIx 1)) (W : Waits sig (HIx 1)) (hO : ∀ g, O g none = 0) :
    iprop(levAts (K (F := F)).L (K (F := F)).lev ∗ emp ∗ goA tb ix d L
        ∗ scopedBufs (thr d L) ∗ scopedSems0 (thr d L) ∗ owes (thr d L) O W)
      ⊢ wp frame (wpE (defs₀ (F := F)) 𝒱₀ (thr d L) none) Set.univ
          (cc0_k L tV (Memref.isWhole_whole _) iV (Memref.isWhole_whole _) oV (Memref.isWhole_whole _)
            sI (Memref.isWhole_whole _) sR (Memref.isWhole_whole _) cc0_scratch2 cc0_scoped0 cc0_scoped1)
          fun _ => iprop(tdA tb ix d L ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold goA
  iintro ⟨#Hlv, -, ⟨Ht, Hi, %fo, Ho⟩, ⟨⟨%fs, Hs⟩, ⟨%fr, Hr⟩, Hbufs⟩, ⟨HsemI, HsemR, HsemO, Hsems⟩, HO⟩
  ihave Hmw := ((K (F := F)).mayWaits_none (thr := thr d L) hO) $$ Hlv
  ihave Hi' := (Entails.of_eq (pts_i (F := F) d L _ _).symm) $$ Hi
  ihave Hs' := (Entails.of_eq (show ((thr d L).loc cc0_scratch0 ↦{fullShare} fs : sProp 𝕄) = ((sI).view.loc (thr d L) ↦{fullShare} fs) from rfl)) $$ Hs
  -- the index copy, its wait, the load of the sixteen words
  set_option sl_exec.maxSteps 3 in sl_exec
  have hV : ∀ j : S16.Idx, (View.readAt (Elt F) (sI).view (rS : Rect S16).toLoadRect (View.write (Elt F) (sI).view fs (tile_body.sl.dma0 ix d L) Finset.univ)) j = (ix d : S512.Idx → BitVec 32) ((iRowsV L).view.emb j) := by
    intro j; rw [loaded_eq]; unfold tile_body.sl.dma0; exact (View.read_apply _ _).trans (_root_.cast_eq _ _)
  generalize (View.readAt (Elt F) (sI).view (rS : Rect S16).toLoadRect (View.write (Elt F) (sI).view fs (tile_body.sl.dma0 ix d L) Finset.univ)) = v3 at hV ⊢
  beta_reduce
  have hall : ∀ t, chkW (wd (k0_pay1 v3) t) := fun t => chkW_of (by rw [wd_pay1, hV]; exact hidx d _)
  -- the batch of sixteen row copies: allocated from the semaphore's counter at zero
  imod (Transfers.batch_alloc' (Lvl := ℕ) (countersEmb (U := UU)) (thr d L) (none : HIx 1) NN (Dl d L (tb d) fr (k0_pay1 v3) hall (qTile L)) (sm := .dma cc0_scratch2.sem) (E := Set.univ)) $$ HsemR with HB
  -- the table's share by copy, the row scratch by row
  ihave Ht2 := (toks_split d (tb d) (k0_pay1 v3) hall (qTile L)) $$ Ht
  icases Ht2 with ⟨HtD, HtS, HtX⟩
  ihave HtS' := (Entails.of_eq (bigSep_fin16 _)) $$ HtS
  icases HtS' with ⟨T0, T1, T2, T3, T4, T5, T6, T7, T8, T9, T10, T11, T12, T13, T14, T15⟩
  ihave Hr2 := (Entails.of_eq (sR_rows d L fr)) $$ Hr
  ihave Hr3 := (Entails.of_eq (bigSep_fin16 _)) $$ Hr2
  icases Hr3 with ⟨R0, R1, R2, R3, R4, R5, R6, R7, R8, R9, R10, R11, R12, R13, R14, R15⟩
  -- copy 0: its index word names a table row; issued on the batch
  iapply (wp_assume 𝒱₀ (thr d L) none Set.univ (chk1_of (hall 0)))
  iapply (Transfers.wp_dmaBatch (countersEmb (U := UU)) 𝒱₀ (thr d L) none (src := sRowV (wd (k0_pay1 v3) 0) (hall 0)) (dst := dRowV 0) (none : HIx 1) NN rfl subset_rfl
    (D := Dl d L (tb d) fr (k0_pay1 v3) hall (qTile L)) (j := 0) (u := 0) (by decide) (Nat.zero_le _) (by unfold Dl landed; exact .rfl)) $$ [T0 R0 HB]
  · isplitl [T0]; · iexact T0
    isplitl [R0]; · iexact R0
    iexact HB
  iintro HB
  -- copy 1: its index word names a table row; issued on the batch
  iapply (wp_assume 𝒱₀ (thr d L) none Set.univ (chk2_of (hall 1)))
  iapply (Transfers.wp_dmaBatch (countersEmb (U := UU)) 𝒱₀ (thr d L) none (src := sRowV (wd (k0_pay1 v3) 1) (hall 1)) (dst := dRowV 1) (none : HIx 1) NN rfl subset_rfl
    (D := Dl d L (tb d) fr (k0_pay1 v3) hall (qTile L)) (j := 1) (u := 0) (by decide) (Nat.zero_le _) (by unfold Dl landed; exact .rfl)) $$ [T1 R1 HB]
  · isplitl [T1]; · iexact T1
    isplitl [R1]; · iexact R1
    iexact HB
  iintro HB
  -- copy 2: its index word names a table row; issued on the batch
  iapply (wp_assume 𝒱₀ (thr d L) none Set.univ (chk3_of (hall 2)))
  iapply (Transfers.wp_dmaBatch (countersEmb (U := UU)) 𝒱₀ (thr d L) none (src := sRowV (wd (k0_pay1 v3) 2) (hall 2)) (dst := dRowV 2) (none : HIx 1) NN rfl subset_rfl
    (D := Dl d L (tb d) fr (k0_pay1 v3) hall (qTile L)) (j := 2) (u := 0) (by decide) (Nat.zero_le _) (by unfold Dl landed; exact .rfl)) $$ [T2 R2 HB]
  · isplitl [T2]; · iexact T2
    isplitl [R2]; · iexact R2
    iexact HB
  iintro HB
  -- copy 3: its index word names a table row; issued on the batch
  iapply (wp_assume 𝒱₀ (thr d L) none Set.univ (chk4_of (hall 3)))
  iapply (Transfers.wp_dmaBatch (countersEmb (U := UU)) 𝒱₀ (thr d L) none (src := sRowV (wd (k0_pay1 v3) 3) (hall 3)) (dst := dRowV 3) (none : HIx 1) NN rfl subset_rfl
    (D := Dl d L (tb d) fr (k0_pay1 v3) hall (qTile L)) (j := 3) (u := 0) (by decide) (Nat.zero_le _) (by unfold Dl landed; exact .rfl)) $$ [T3 R3 HB]
  · isplitl [T3]; · iexact T3
    isplitl [R3]; · iexact R3
    iexact HB
  iintro HB
  -- copy 4: its index word names a table row; issued on the batch
  iapply (wp_assume 𝒱₀ (thr d L) none Set.univ (chk5_of (hall 4)))
  iapply (Transfers.wp_dmaBatch (countersEmb (U := UU)) 𝒱₀ (thr d L) none (src := sRowV (wd (k0_pay1 v3) 4) (hall 4)) (dst := dRowV 4) (none : HIx 1) NN rfl subset_rfl
    (D := Dl d L (tb d) fr (k0_pay1 v3) hall (qTile L)) (j := 4) (u := 0) (by decide) (Nat.zero_le _) (by unfold Dl landed; exact .rfl)) $$ [T4 R4 HB]
  · isplitl [T4]; · iexact T4
    isplitl [R4]; · iexact R4
    iexact HB
  iintro HB
  -- copy 5: its index word names a table row; issued on the batch
  iapply (wp_assume 𝒱₀ (thr d L) none Set.univ (chk6_of (hall 5)))
  iapply (Transfers.wp_dmaBatch (countersEmb (U := UU)) 𝒱₀ (thr d L) none (src := sRowV (wd (k0_pay1 v3) 5) (hall 5)) (dst := dRowV 5) (none : HIx 1) NN rfl subset_rfl
    (D := Dl d L (tb d) fr (k0_pay1 v3) hall (qTile L)) (j := 5) (u := 0) (by decide) (Nat.zero_le _) (by unfold Dl landed; exact .rfl)) $$ [T5 R5 HB]
  · isplitl [T5]; · iexact T5
    isplitl [R5]; · iexact R5
    iexact HB
  iintro HB
  -- copy 6: its index word names a table row; issued on the batch
  iapply (wp_assume 𝒱₀ (thr d L) none Set.univ (chk7_of (hall 6)))
  iapply (Transfers.wp_dmaBatch (countersEmb (U := UU)) 𝒱₀ (thr d L) none (src := sRowV (wd (k0_pay1 v3) 6) (hall 6)) (dst := dRowV 6) (none : HIx 1) NN rfl subset_rfl
    (D := Dl d L (tb d) fr (k0_pay1 v3) hall (qTile L)) (j := 6) (u := 0) (by decide) (Nat.zero_le _) (by unfold Dl landed; exact .rfl)) $$ [T6 R6 HB]
  · isplitl [T6]; · iexact T6
    isplitl [R6]; · iexact R6
    iexact HB
  iintro HB
  -- copy 7: its index word names a table row; issued on the batch
  iapply (wp_assume 𝒱₀ (thr d L) none Set.univ (chk8_of (hall 7)))
  iapply (Transfers.wp_dmaBatch (countersEmb (U := UU)) 𝒱₀ (thr d L) none (src := sRowV (wd (k0_pay1 v3) 7) (hall 7)) (dst := dRowV 7) (none : HIx 1) NN rfl subset_rfl
    (D := Dl d L (tb d) fr (k0_pay1 v3) hall (qTile L)) (j := 7) (u := 0) (by decide) (Nat.zero_le _) (by unfold Dl landed; exact .rfl)) $$ [T7 R7 HB]
  · isplitl [T7]; · iexact T7
    isplitl [R7]; · iexact R7
    iexact HB
  iintro HB
  -- copy 8: its index word names a table row; issued on the batch
  iapply (wp_assume 𝒱₀ (thr d L) none Set.univ (chk9_of (hall 8)))
  iapply (Transfers.wp_dmaBatch (countersEmb (U := UU)) 𝒱₀ (thr d L) none (src := sRowV (wd (k0_pay1 v3) 8) (hall 8)) (dst := dRowV 8) (none : HIx 1) NN rfl subset_rfl
    (D := Dl d L (tb d) fr (k0_pay1 v3) hall (qTile L)) (j := 8) (u := 0) (by decide) (Nat.zero_le _) (by unfold Dl landed; exact .rfl)) $$ [T8 R8 HB]
  · isplitl [T8]; · iexact T8
    isplitl [R8]; · iexact R8
    iexact HB
  iintro HB
  -- copy 9: its index word names a table row; issued on the batch
  iapply (wp_assume 𝒱₀ (thr d L) none Set.univ (chk10_of (hall 9)))
  iapply (Transfers.wp_dmaBatch (countersEmb (U := UU)) 𝒱₀ (thr d L) none (src := sRowV (wd (k0_pay1 v3) 9) (hall 9)) (dst := dRowV 9) (none : HIx 1) NN rfl subset_rfl
    (D := Dl d L (tb d) fr (k0_pay1 v3) hall (qTile L)) (j := 9) (u := 0) (by decide) (Nat.zero_le _) (by unfold Dl landed; exact .rfl)) $$ [T9 R9 HB]
  · isplitl [T9]; · iexact T9
    isplitl [R9]; · iexact R9
    iexact HB
  iintro HB
  -- copy 10: its index word names a table row; issued on the batch
  iapply (wp_assume 𝒱₀ (thr d L) none Set.univ (chk11_of (hall 10)))
  iapply (Transfers.wp_dmaBatch (countersEmb (U := UU)) 𝒱₀ (thr d L) none (src := sRowV (wd (k0_pay1 v3) 10) (hall 10)) (dst := dRowV 10) (none : HIx 1) NN rfl subset_rfl
    (D := Dl d L (tb d) fr (k0_pay1 v3) hall (qTile L)) (j := 10) (u := 0) (by decide) (Nat.zero_le _) (by unfold Dl landed; exact .rfl)) $$ [T10 R10 HB]
  · isplitl [T10]; · iexact T10
    isplitl [R10]; · iexact R10
    iexact HB
  iintro HB
  -- copy 11: its index word names a table row; issued on the batch
  iapply (wp_assume 𝒱₀ (thr d L) none Set.univ (chk12_of (hall 11)))
  iapply (Transfers.wp_dmaBatch (countersEmb (U := UU)) 𝒱₀ (thr d L) none (src := sRowV (wd (k0_pay1 v3) 11) (hall 11)) (dst := dRowV 11) (none : HIx 1) NN rfl subset_rfl
    (D := Dl d L (tb d) fr (k0_pay1 v3) hall (qTile L)) (j := 11) (u := 0) (by decide) (Nat.zero_le _) (by unfold Dl landed; exact .rfl)) $$ [T11 R11 HB]
  · isplitl [T11]; · iexact T11
    isplitl [R11]; · iexact R11
    iexact HB
  iintro HB
  -- copy 12: its index word names a table row; issued on the batch
  iapply (wp_assume 𝒱₀ (thr d L) none Set.univ (chk13_of (hall 12)))
  iapply (Transfers.wp_dmaBatch (countersEmb (U := UU)) 𝒱₀ (thr d L) none (src := sRowV (wd (k0_pay1 v3) 12) (hall 12)) (dst := dRowV 12) (none : HIx 1) NN rfl subset_rfl
    (D := Dl d L (tb d) fr (k0_pay1 v3) hall (qTile L)) (j := 12) (u := 0) (by decide) (Nat.zero_le _) (by unfold Dl landed; exact .rfl)) $$ [T12 R12 HB]
  · isplitl [T12]; · iexact T12
    isplitl [R12]; · iexact R12
    iexact HB
  iintro HB
  -- copy 13: its index word names a table row; issued on the batch
  iapply (wp_assume 𝒱₀ (thr d L) none Set.univ (chk14_of (hall 13)))
  iapply (Transfers.wp_dmaBatch (countersEmb (U := UU)) 𝒱₀ (thr d L) none (src := sRowV (wd (k0_pay1 v3) 13) (hall 13)) (dst := dRowV 13) (none : HIx 1) NN rfl subset_rfl
    (D := Dl d L (tb d) fr (k0_pay1 v3) hall (qTile L)) (j := 13) (u := 0) (by decide) (Nat.zero_le _) (by unfold Dl landed; exact .rfl)) $$ [T13 R13 HB]
  · isplitl [T13]; · iexact T13
    isplitl [R13]; · iexact R13
    iexact HB
  iintro HB
  -- copy 14: its index word names a table row; issued on the batch
  iapply (wp_assume 𝒱₀ (thr d L) none Set.univ (chk15_of (hall 14)))
  iapply (Transfers.wp_dmaBatch (countersEmb (U := UU)) 𝒱₀ (thr d L) none (src := sRowV (wd (k0_pay1 v3) 14) (hall 14)) (dst := dRowV 14) (none : HIx 1) NN rfl subset_rfl
    (D := Dl d L (tb d) fr (k0_pay1 v3) hall (qTile L)) (j := 14) (u := 0) (by decide) (Nat.zero_le _) (by unfold Dl landed; exact .rfl)) $$ [T14 R14 HB]
  · isplitl [T14]; · iexact T14
    isplitl [R14]; · iexact R14
    iexact HB
  iintro HB
  -- copy 15: its index word names a table row; issued on the batch
  iapply (wp_assume 𝒱₀ (thr d L) none Set.univ (chk16_of (hall 15)))
  iapply (Transfers.wp_dmaBatch (countersEmb (U := UU)) 𝒱₀ (thr d L) none (src := sRowV (wd (k0_pay1 v3) 15) (hall 15)) (dst := dRowV 15) (none : HIx 1) NN rfl subset_rfl
    (D := Dl d L (tb d) fr (k0_pay1 v3) hall (qTile L)) (j := 15) (u := 0) (by decide) (Nat.zero_le _) (by unfold Dl landed; exact .rfl)) $$ [T15 R15 HB]
  · isplitl [T15]; · iexact T15
    isplitl [R15]; · iexact R15
    iexact HB
  iintro HB
  -- wait 0: hands back nothing
  iapply (Transfers.wp_waitBatchO (countersEmb (U := UU)) 𝒱₀ (thr d L) none (dstw := dRowV 0) (none : HIx 1) (N := NN) rfl (D := (Dl d L (tb d) fr (k0_pay1 v3) hall (qTile L))) (n := 16) (u := 0) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 1: hands back nothing
  iapply (Transfers.wp_waitBatchO (countersEmb (U := UU)) 𝒱₀ (thr d L) none (dstw := dRowV 1) (none : HIx 1) (N := NN) rfl (D := (Dl d L (tb d) fr (k0_pay1 v3) hall (qTile L))) (n := 16) (u := (0 + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 2: hands back nothing
  iapply (Transfers.wp_waitBatchO (countersEmb (U := UU)) 𝒱₀ (thr d L) none (dstw := dRowV 2) (none : HIx 1) (N := NN) rfl (D := (Dl d L (tb d) fr (k0_pay1 v3) hall (qTile L))) (n := 16) (u := ((0 + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 3: hands back nothing
  iapply (Transfers.wp_waitBatchO (countersEmb (U := UU)) 𝒱₀ (thr d L) none (dstw := dRowV 3) (none : HIx 1) (N := NN) rfl (D := (Dl d L (tb d) fr (k0_pay1 v3) hall (qTile L))) (n := 16) (u := (((0 + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 4: hands back nothing
  iapply (Transfers.wp_waitBatchO (countersEmb (U := UU)) 𝒱₀ (thr d L) none (dstw := dRowV 4) (none : HIx 1) (N := NN) rfl (D := (Dl d L (tb d) fr (k0_pay1 v3) hall (qTile L))) (n := 16) (u := ((((0 + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 5: hands back nothing
  iapply (Transfers.wp_waitBatchO (countersEmb (U := UU)) 𝒱₀ (thr d L) none (dstw := dRowV 5) (none : HIx 1) (N := NN) rfl (D := (Dl d L (tb d) fr (k0_pay1 v3) hall (qTile L))) (n := 16) (u := (((((0 + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 6: hands back nothing
  iapply (Transfers.wp_waitBatchO (countersEmb (U := UU)) 𝒱₀ (thr d L) none (dstw := dRowV 6) (none : HIx 1) (N := NN) rfl (D := (Dl d L (tb d) fr (k0_pay1 v3) hall (qTile L))) (n := 16) (u := ((((((0 + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 7: hands back nothing
  iapply (Transfers.wp_waitBatchO (countersEmb (U := UU)) 𝒱₀ (thr d L) none (dstw := dRowV 7) (none : HIx 1) (N := NN) rfl (D := (Dl d L (tb d) fr (k0_pay1 v3) hall (qTile L))) (n := 16) (u := (((((((0 + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 8: hands back nothing
  iapply (Transfers.wp_waitBatchO (countersEmb (U := UU)) 𝒱₀ (thr d L) none (dstw := dRowV 8) (none : HIx 1) (N := NN) rfl (D := (Dl d L (tb d) fr (k0_pay1 v3) hall (qTile L))) (n := 16) (u := ((((((((0 + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 9: hands back nothing
  iapply (Transfers.wp_waitBatchO (countersEmb (U := UU)) 𝒱₀ (thr d L) none (dstw := dRowV 9) (none : HIx 1) (N := NN) rfl (D := (Dl d L (tb d) fr (k0_pay1 v3) hall (qTile L))) (n := 16) (u := (((((((((0 + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 10: hands back nothing
  iapply (Transfers.wp_waitBatchO (countersEmb (U := UU)) 𝒱₀ (thr d L) none (dstw := dRowV 10) (none : HIx 1) (N := NN) rfl (D := (Dl d L (tb d) fr (k0_pay1 v3) hall (qTile L))) (n := 16) (u := ((((((((((0 + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 11: hands back nothing
  iapply (Transfers.wp_waitBatchO (countersEmb (U := UU)) 𝒱₀ (thr d L) none (dstw := dRowV 11) (none : HIx 1) (N := NN) rfl (D := (Dl d L (tb d) fr (k0_pay1 v3) hall (qTile L))) (n := 16) (u := (((((((((((0 + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 12: hands back nothing
  iapply (Transfers.wp_waitBatchO (countersEmb (U := UU)) 𝒱₀ (thr d L) none (dstw := dRowV 12) (none : HIx 1) (N := NN) rfl (D := (Dl d L (tb d) fr (k0_pay1 v3) hall (qTile L))) (n := 16) (u := ((((((((((((0 + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 13: hands back nothing
  iapply (Transfers.wp_waitBatchO (countersEmb (U := UU)) 𝒱₀ (thr d L) none (dstw := dRowV 13) (none : HIx 1) (N := NN) rfl (D := (Dl d L (tb d) fr (k0_pay1 v3) hall (qTile L))) (n := 16) (u := (((((((((((((0 + NN) + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 14: hands back nothing
  iapply (Transfers.wp_waitBatchO (countersEmb (U := UU)) 𝒱₀ (thr d L) none (dstw := dRowV 14) (none : HIx 1) (N := NN) rfl (D := (Dl d L (tb d) fr (k0_pay1 v3) hall (qTile L))) (n := 16) (u := ((((((((((((((0 + NN) + NN) + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- the last wait: every copy has landed
  iapply (Transfers.wp_waitBatchLastO (countersEmb (U := UU)) 𝒱₀ (thr d L) none (dstw := dRowV 15) (none : HIx 1) (N := NN) rfl NN_pos (D := (Dl d L (tb d) fr (k0_pay1 v3) hall (qTile L))) (n := 16) (u := (((((((((((((((0 + NN) + NN) + NN) + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HD, HsemR, HO⟩
  -- every delivery: the scratch's rows landed, the table rows' tokens back
  ihave HD' := (Entails.of_eq (show bigSep Finset.univ (Dl d L (tb d) fr (k0_pay1 v3) hall (qTile L)) = iprop(
      (bigSep Finset.univ fun t : Fin 16 => ((dRowV t).view.loc (thr d L) ↦[(dRowV t).view.set]{fullShare} landed d L (tb d) fr (k0_pay1 v3) hall t : sProp 𝕄))
      ∗ (bigSep Finset.univ fun t : Fin 16 => (tLoc d ↦[sSet (k0_pay1 v3) hall t]{Transfers.shareTok (qTile L) 16 t} tb d : sProp 𝕄))) from by
    unfold Dl; exact bigSep_sep' _ _ _)) $$ HD
  icases HD' with ⟨HRows, HToks⟩
  ihave Ht := (toks_join d (tb d) (k0_pay1 v3) hall (qTile L)) $$ [HtD HToks HtX]
  · isplitl [HtD]; · iexact HtD
    isplitl [HToks]; · iexact HToks
    iexact HtX
  ihave Hr := (rows_join d L (tb d) fr (k0_pay1 v3) hall) $$ HRows
  -- the copy out and its wait
  ihave Hr' := (Entails.of_eq (show ((thr d L).loc cc0_scratch1 ↦{fullShare} rowsG d L (tb d) (k0_pay1 v3) : sProp 𝕄) = ((sR).view.loc (thr d L) ↦{fullShare} rowsG d L (tb d) (k0_pay1 v3)) from rfl)) $$ Hr
  ihave Ho' := (Entails.of_eq (show (oLoc d ↦[oSet L]{fullShare} fo : sProp 𝕄) = ((oRowsV L).view.loc (thr d L) ↦[(oRowsV L).view.set]{fullShare} fo) from rfl)) $$ Ho
  sl_exec
  sl_step
  unfold tdA
  isplitl [Ht Hi' Ho']
  · isplitl [Ht]; · iexact Ht
    isplitl [Hi']; · iapply (Entails.of_eq (pts_i (F := F) d L _ _)); iexact Hi'
    iapply (Entails.of_eq (pointsTo_congr (fun i hi => out_value tb ix d L fo v3 hV i hi))); iexact Ho'
  isplitl [Hs' Hr' Hbufs]
  · isplitl [Hs']; · iexists _; iexact Hs'
    isplitl [Hr']; · iexists _; iexact Hr'
    iexact Hbufs
  isplitl [HsemI HsemR HsemO Hsems]
  · isplitl [HsemI]; · iexact HsemI
    isplitl [HsemR]; · iexact HsemR
    isplitl [HsemO]; · iexact HsemO
    iexact Hsems
  iexists _; isplitr
  rotate_left
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact .inl hp

/-! ## The launch theorem's obligation for the tiles -/

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hidx : IdxOK ix) : (K (F := F)).TileObl (D (F := F)) 𝒱 (P tb ix) v₀ 0 := by
  intro d c i O W hO _ _
  -- this kernel owes nothing for a protocol of its own
  simp only [show (P tb ix).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body tb ix d (coordsV ⟨_, hc.1⟩ ⟨_, hc.2⟩) facts hidx O W hO).trans (wp_mono frame _ _ fun _ => obl_post)
end Tile

end Cert.KernelIdeal.Sc

end
-- ==== Proof.ScSplit.lean ====
import proofs.«203981_g87385404604482_cont_9to1_m_1030_24_alg».proof.Proof.ScGhost
import proofs.«203981_g87385404604482_cont_9to1_m_1030_24_alg».proof.Proof.ScGhost

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The result array, by tile: 32 blocks of 16 rows, block `2 s + c` tile `(c, s)`'s -/

theorem hdivO : 32 ∣ S512x64.size 0 := ⟨16, rfl⟩
abbrev blkO (b : Fin 32) : Rect S512x64 := Rect.part (s := S512x64) (a₀ := 0) hdivO b
def blk (c : Fin 2) (s : Fin 16) : Fin 32 := ⟨2 * s.val + c.val, by omega⟩

theorem rect_crd (c : Fin 2) (s : Fin 16) :
    Rect.unit (s := S512x64) (k0_off33 (crd c s)) S16x64.size (k0_off33_inb (crd c s)) = blkO (blk c s) := by
  unfold blkO Rect.part Rect.block
  congr 1 <;> funext a
  · rw [k0_off33_eq]
    match a with
    | 0 => simp [Shape.partIx, Shape.partSize, blk, crd, coordsV]; omega
    | 1 => simp [Shape.partIx, Shape.partSize]
  · match a with
    | 0 => simp [Shape.partSize]
    | 1 => simp [Shape.partSize]

theorem oSet_eq (c : Fin 2) (s : Fin 16) : oSet (crd c s) = (blkO (blk c s)).set := by
  show ((oV).view.slice (Rect.unit (s := S512x64) (k0_off33 (crd c s)) S16x64.size (k0_off33_inb (crd c s)))).set = _
  rw [View.set_slice]
  show (Rect.unit (s := S512x64) (k0_off33 (crd c s)) S16x64.size (k0_off33_inb (crd c s))).set.map (Function.Embedding.refl _) = _
  rw [Finset.map_refl, rect_crd]

theorem blk_inj {c c' : Fin 2} {s s' : Fin 16} (h : blk c s = blk c' s') : c = c' ∧ s = s' := by
  have := congrArg Fin.val h
  simp only [blk] at this
  exact ⟨Fin.ext (by omega), Fin.ext (by omega)⟩

abbrev oSetP (p : Fin 2 × Fin 16) : Finset S512x64.Idx := oSet (crd p.1 p.2)

theorem oBlocks_disjoint : ∀ p ∈ (Finset.univ : Finset (Fin 2 × Fin 16)), ∀ p' ∈ (Finset.univ : Finset (Fin 2 × Fin 16)), p ≠ p' → Disjoint (oSetP p) (oSetP p') := by
  rintro ⟨c, s⟩ - ⟨c', s'⟩ - hne
  show Disjoint (oSet (crd c s)) (oSet (crd c' s'))
  rw [oSet_eq, oSet_eq]
  exact Rect.part_disjoint hdivO fun e => hne (by obtain ⟨h1, h2⟩ := blk_inj e; rw [h1, h2])

theorem oBlocks_cover : (Finset.univ : Finset (Fin 2 × Fin 16)).biUnion oSetP = Finset.univ := by
  ext i
  simp only [Finset.mem_biUnion, Finset.mem_univ, true_and, iff_true]
  obtain ⟨b, hb⟩ := Rect.exists_mem_part hdivO i
  refine ⟨(⟨b.val % 2, Nat.mod_lt _ (by decide)⟩, ⟨b.val / 2, by have := b.isLt; omega⟩), ?_⟩
  show i ∈ oSet (crd _ _)
  rw [oSet_eq]
  have e : blk ⟨b.val % 2, Nat.mod_lt _ (by decide)⟩ ⟨b.val / 2, by have := b.isLt; omega⟩ = b := Fin.ext (by simp only [blk]; omega)
  rw [e]; exact hb

/-- The result whole is its 32 blocks, by SparseCore then by tile. -/
theorem oPts_blocks (d : Dev nD) (f : Buf (Elt F) (oLoc d)) :
    (oLoc d ↦{fullShare} f : sProp 𝕄)
      = bigSep Finset.univ fun c : Fin 2 => bigSep Finset.univ fun s : Fin 16 => oLoc d ↦[oSet (crd c s)]{fullShare} f := by
  rw [← bigSep_univ_prod (fun p : Fin 2 × Fin 16 => (oLoc d ↦[oSet (crd p.1 p.2)]{fullShare} f : sProp 𝕄)),
    ← pointsTo_biUnion Finset.univ (ℓ := oLoc d) oSetP oBlocks_disjoint, oBlocks_cover]; try rfl

/-! ## A SparseCore's operands among its tiles; the call's operands among the SparseCores -/

section Split

variable (tb : (d : Dev nD) → Buf (Elt F) (tLoc d)) (ix : (d : Dev nD) → Buf (Elt F) (iLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem qTile_crd (c : Fin 2) (s : Fin 16) : qTile (crd c s) = Transfers.shareTok (qCore c.val) 16 s := rfl

variable [FloatOps F]

theorem vecSplit : (K (F := F)).VecSplit' (P tb ix) 0 := by
  intro d c
  show stA tb ix d (Fin.cast nCore_zero c) ⊢ |={Set.univ}=> iprop(
      (bigSep Finset.univ fun i : Fin ((K (F := F)).nSub 0) => goA tb ix d (crd (Fin.cast nCore_zero c) (Fin.cast nSub_zero i)))
      ∗ ((bigSep Finset.univ fun i : Fin ((K (F := F)).nSub 0) => tdA tb ix d (crd (Fin.cast nCore_zero c) (Fin.cast nSub_zero i)))
          -∗ dnA tb ix d (Fin.cast nCore_zero c)))
  generalize Fin.cast nCore_zero c = c'
  rw [bigSep_tasks (F := F) (fun s => goA tb ix d (crd c' s)), bigSep_tasks (F := F) (fun s => tdA tb ix d (crd c' s))]
  unfold stA dnA goA tdA
  simp only [qTile_crd]
  rw [bigSep_sep', bigSep_sep', bigSep_sep', bigSep_sep']
  iintro ⟨Ht, Hi, Ho⟩
  ihave Ht' := (Transfers.pointsTo_toks_split (qCore c'.val) 16) $$ Ht
  icases Ht' with ⟨HtD, HtT⟩
  ihave Hi' := (Transfers.pointsTo_toks_split (qCore c'.val) 16) $$ Hi
  icases Hi' with ⟨HiD, HiT⟩
  imodintro
  isplitl [HtT HiT Ho]
  · isplitl [HtT]; · iexact HtT
    isplitl [HiT]; · iexact HiT
    iexact Ho
  iintro ⟨HtT, HiT, Ho⟩
  isplitl [HtD HtT]
  · iapply (Transfers.pointsTo_toks_join (qCore c'.val) 16)
    isplitl [HtD]; · iexact HtD
    iexact HtT
  isplitl [HiD HiT]
  · iapply (Transfers.pointsTo_toks_join (qCore c'.val) 16)
    isplitl [HiD]; · iexact HiD
    iexact HiT
  iexact Ho

theorem halves {ℓ : Loc nD τ sig} (f : Buf (Elt F) ℓ) :
    (ℓ ↦{fullShare} f : sProp 𝕄) ⊣⊢ iprop((ℓ ↦{qCore 0} f) ∗ ℓ ↦{qCore 1} f) :=
  pointsTo_share (PosShare.mem_left_op_right fullShare)

omit [FloatOps F] in
theorem blocks_exists (d : Dev nD) (c : Fin 2) (f : Buf (Elt F) (oLoc d)) :
    (bigSep Finset.univ fun s : Fin 16 => (oLoc d ↦[oSet (crd c s)]{fullShare} f : sProp 𝕄))
      ⊢ bigSep Finset.univ fun s : Fin 16 => iprop(∃ g, oLoc d ↦[oSet (crd c s)]{fullShare} g) :=
  bigSep_mono fun s _ => exists_intro (Φ := fun g => (oLoc d ↦[oSet (crd c s)]{fullShare} g : sProp 𝕄)) f

/-- What @main gives at the call: the table, the index array and the result, whole. -/
theorem st0_intro (d : Dev nD) :
    iprop((tLoc d ↦{fullShare} tb d) ∗ (iLoc d ↦{fullShare} ix d) ∗ ∃ f, oLoc d ↦{fullShare} f)
      ⊢ (bigSep Finset.univ fun c : Fin ((K (F := F)).nCore 0) => (P tb ix).st 0 d c : sProp 𝕄) := by
  show _ ⊢ (bigSep Finset.univ fun c : Fin ((K (F := F)).nCore 0) => stA tb ix d (Fin.cast nCore_zero c) : sProp 𝕄)
  rw [bigSep_cores (F := F) (fun c => stA tb ix d c), bigSep_univ_two]
  unfold stA
  iintro ⟨Ht, Hi, %f, Ho⟩
  ihave Ht' := (halves (tb d)).1 $$ Ht
  icases Ht' with ⟨Ht0, Ht1⟩
  ihave Hi' := (halves (ix d)).1 $$ Hi
  icases Hi' with ⟨Hi0, Hi1⟩
  ihave Ho' := (Entails.of_eq ((oPts_blocks d f).trans (bigSep_univ_two _))) $$ Ho
  icases Ho' with ⟨Ho0, Ho1⟩
  isplitl [Ht0 Hi0 Ho0]
  · isplitl [Ht0]; · iexact Ht0
    isplitl [Hi0]; · iexact Hi0
    iapply (blocks_exists d 0 f); iexact Ho0
  · isplitl [Ht1]; · iexact Ht1
    isplitl [Hi1]; · iexact Hi1
    iapply (blocks_exists d 1 f); iexact Ho1

/-- What @main gets back: the same, the result at the gathered array. -/
theorem dn0_elim (d : Dev nD) :
    (bigSep Finset.univ fun c : Fin ((K (F := F)).nCore 0) => (P tb ix).dn 0 d c : sProp 𝕄)
      ⊢ iprop((tLoc d ↦{fullShare} tb d) ∗ (iLoc d ↦{fullShare} ix d) ∗ oLoc d ↦{fullShare} gath tb ix d) := by
  show (bigSep Finset.univ fun c : Fin ((K (F := F)).nCore 0) => dnA tb ix d (Fin.cast nCore_zero c) : sProp 𝕄) ⊢ _
  rw [bigSep_cores (F := F) (fun c => dnA tb ix d c), bigSep_univ_two]
  unfold dnA
  iintro ⟨⟨Ht0, Hi0, Ho0⟩, Ht1, Hi1, Ho1⟩
  isplitl [Ht0 Ht1]
  · iapply (halves (tb d)).2; isplitl [Ht0]; · iexact Ht0
    iexact Ht1
  isplitl [Hi0 Hi1]
  · iapply (halves (ix d)).2; isplitl [Hi0]; · iexact Hi0
    iexact Hi1
  iapply (Entails.of_eq ((oPts_blocks d (gath tb ix d)).trans (bigSep_univ_two _)).symm)
  isplitl [Ho0]; · iexact Ho0
  iexact Ho1

omit [FloatOps F] in
theorem bigSep_emp' {I : Type} (s : Finset I) : (bigSep s fun _ => iprop(emp)) = (iprop(emp) : sProp 𝕄) := bigSep_emp_const s

/-- The kernel's proof consumes nothing of the launch's. -/
theorem Px_all : (bigSep Finset.univ fun thr : Thread nD τ => bigSep Finset.univ fun q : Fin 1 => (P (F := F) tb ix).x q thr) = (iprop(emp) : sProp 𝕄) := by
  show (bigSep Finset.univ fun _ : Thread nD τ => bigSep Finset.univ fun _ : Fin 1 => (iprop(emp) : sProp 𝕄)) = _
  rw [bigSep_congr fun _ _ => bigSep_emp' (F := F) _, bigSep_emp']

end Split

end Cert.KernelIdeal.Sc

end
-- ==== Proof.BitsScOwn.lean ====
import proofs.«203981_g87385404604482_cont_9to1_m_1030_24_alg».proof.Proof.BitsScGhost

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## A tile's own storage: its three DMA semaphores and two scratch buffers among the subcore's own -/

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cIcell : GSem nD τ sig := (thr d L, .dma cc0_scoped0.sem)
abbrev cRcell : GSem nD τ sig := (thr d L, .dma cc0_scratch2.sem)
abbrev cOcell : GSem nD τ sig := (thr d L, .dma cc0_scoped1.sem)

abbrev sI : Memref sig .scVector .vmem S16 .i32 := Memref.whole cc0_scratch0
abbrev sR : Memref sig .scVector .vmem S16x64 .f32 := Memref.whole cc0_scratch1

theorem ownSems0_V :
    (ownSems0 (thr d L) : sProp 𝕄)
      = iprop(semVal (cIcell d L) 0 ∗ semVal (cRcell d L) 0 ∗ semVal (cOcell d L) 0
          ∗ bigSep ((((ownCells (thr d L)).erase (cIcell d L)).erase (cRcell d L)).erase (cOcell d L))
              fun g => semVal g 0) := by
  unfold SparseCore.Cfg.ownSems0
  rw [SparseCore.bigSep_erase' ((mem_ownCells (g := cIcell d L)).mpr ⟨rfl, by
      show (SemLoc.dma cc0_scoped0.sem : SemLoc sig).isScoped .scVector = true; decide⟩),
    SparseCore.bigSep_erase' (Finset.mem_erase.mpr ⟨by simp [cIcell, cRcell]; decide, (mem_ownCells (g := cRcell d L)).mpr ⟨rfl, by
      show (SemLoc.dma cc0_scratch2.sem : SemLoc sig).isScoped .scVector = true; decide⟩⟩),
    SparseCore.bigSep_erase' (Finset.mem_erase.mpr ⟨by simp [cRcell, cOcell]; decide, Finset.mem_erase.mpr ⟨by simp [cIcell, cOcell]; decide,
      (mem_ownCells (g := cOcell d L)).mpr ⟨rfl, by show (SemLoc.dma cc0_scoped1.sem : SemLoc sig).isScoped .scVector = true; decide⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

end Cert.Kernel.Sc

end
-- ==== Proof.BitsScGeom.lean ====
import proofs.«203981_g87385404604482_cont_9to1_m_1030_24_alg».proof.Proof.BitsScGhost
import proofs.«203981_g87385404604482_cont_9to1_m_1030_24_alg».proof.Proof.BitsScOwn

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## Sixteen at a time -/

theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The row scratch, row by row -/

theorem hdivR : 16 ∣ S16x64.size 0 := ⟨1, rfl⟩
abbrev rowR (t : Fin 16) : Rect S16x64 := Rect.part (s := S16x64) (a₀ := 0) hdivR t

theorem inb_dst (t : Fin 16) : ∀ a, (![t.val, 0] : Fin 2 → Nat) a + S1x64.size a ≤ S16x64.size a := by
  have := t.isLt; intro a; fin_cases a
  · show t.val + 1 ≤ 16; omega
  · show 0 + 64 ≤ 64; omega
abbrev rectR (t : Fin 16) : Rect S16x64 := Rect.unit (s := S16x64) ![t.val, 0] S1x64.size (inb_dst t)
/-- Row `t` of the row scratch, as the body slices and squeezes it. -/
abbrev dRowV (t : Fin 16) : Memref sig .scVector .vmem S64 .f32 := ((sR).slice (rectR t) (fun _ => rfl)).squeeze S64 squeezes_S1x64_S64

theorem rectR_eq (t : Fin 16) : rectR t = rowR t := by
  unfold rectR rowR Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- The elements of row `t` of the row scratch. -/
abbrev dSet (t : Fin 16) : Finset S16x64.Idx := (dRowV t).view.set

theorem set_dRowV (t : Fin 16) : dSet t = (rowR t).set := by
  show (((sR).view.slice (rectR t)).reshape S64 squeezes_S1x64_S64.numel_eq).set = _
  rw [View.set_reshape, View.set_slice]
  show (rectR t).set.map (Function.Embedding.refl _) = _
  rw [Finset.map_refl, rectR_eq]

theorem rowsR_disjoint : ∀ i ∈ (Finset.univ : Finset (Fin 16)), ∀ j ∈ (Finset.univ : Finset (Fin 16)), i ≠ j → Disjoint (dSet i) (dSet j) :=
  fun i _ j _ h => by rw [set_dRowV, set_dRowV]; exact Rect.part_disjoint hdivR h
theorem rowsR_cover : (Finset.univ : Finset (Fin 16)).biUnion dSet = Finset.univ :=
  (Finset.biUnion_congr rfl fun i _ => set_dRowV i).trans (Rect.biUnion_part hdivR)

/-- The row scratch whole is its sixteen rows. -/
theorem sR_rows (d : Dev nD) (L : grid0.Coords) (f : Buf (Elt F) ((thr d L).loc cc0_scratch1)) :
    ((thr d L).loc cc0_scratch1 ↦{fullShare} f : sProp 𝕄) = bigSep Finset.univ fun t : Fin 16 => (thr d L).loc cc0_scratch1 ↦[dSet t]{fullShare} f := by
  rw [← pointsTo_biUnion Finset.univ (ℓ := (thr d L).loc cc0_scratch1) dSet rowsR_disjoint, rowsR_cover]; try rfl

/-! ## A table row, at a run-time word -/

/-- The side condition of a row slice at word `w`: the row is one of the table's. -/
def chkW (w : BitVec 32) : Prop := ∀ a, (![w.toNat, 0] : Fin 2 → Nat) a + S1x64.size a ≤ S100000x64.size a

theorem chkW_of {w : BitVec 32} (h : w.toNat < 100000) : chkW w := by
  intro a; fin_cases a
  · show w.toNat + 1 ≤ 100000; omega
  · show 0 + 64 ≤ 64; omega

/-- The table's row at word `w`, as the body slices and squeezes it. -/
abbrev sRowV (w : BitVec 32) (h : chkW w) : Memref sig .scVector .hbm S64 .f32 :=
  ((tV).slice (Rect.unit (s := S100000x64) ![w.toNat, 0] S1x64.size h) (fun _ => rfl)).squeeze S64 squeezes_S1x64_S64

theorem chk1_of {w : BitVec 32} (h : chkW w) : k0_chk1 w := ⟨h, h⟩
theorem chk2_of {w : BitVec 32} (h : chkW w) : k0_chk2 w := ⟨h, h⟩
theorem chk3_of {w : BitVec 32} (h : chkW w) : k0_chk3 w := ⟨h, h⟩
theorem chk4_of {w : BitVec 32} (h : chkW w) : k0_chk4 w := ⟨h, h⟩
theorem chk5_of {w : BitVec 32} (h : chkW w) : k0_chk5 w := ⟨h, h⟩
theorem chk6_of {w : BitVec 32} (h : chkW w) : k0_chk6 w := ⟨h, h⟩
theorem chk7_of {w : BitVec 32} (h : chkW w) : k0_chk7 w := ⟨h, h⟩
theorem chk8_of {w : BitVec 32} (h : chkW w) : k0_chk8 w := ⟨h, h⟩
theorem chk9_of {w : BitVec 32} (h : chkW w) : k0_chk9 w := ⟨h, h⟩
theorem chk10_of {w : BitVec 32} (h : chkW w) : k0_chk10 w := ⟨h, h⟩
theorem chk11_of {w : BitVec 32} (h : chkW w) : k0_chk11 w := ⟨h, h⟩
theorem chk12_of {w : BitVec 32} (h : chkW w) : k0_chk12 w := ⟨h, h⟩
theorem chk13_of {w : BitVec 32} (h : chkW w) : k0_chk13 w := ⟨h, h⟩
theorem chk14_of {w : BitVec 32} (h : chkW w) : k0_chk14 w := ⟨h, h⟩
theorem chk15_of {w : BitVec 32} (h : chkW w) : k0_chk15 w := ⟨h, h⟩
theorem chk16_of {w : BitVec 32} (h : chkW w) : k0_chk16 w := h

/-! ## The sixteen index words the body extracts -/

theorem slicesT (t : Fin 16) : S16.Slices ![t.val] S1 :=
  ⟨rfl, Fin.forall_fin_one.mpr (by have := t.isLt; show t.val + 1 ≤ 16; omega)⟩

/-- Word `t` of the index vector, as the body extracts it. -/
def wd (v4 : IVec S16 32) (t : Fin 16) : BitVec 32 :=
  extractAt ![0] (extractStridedSlice S1 ![t.val] v4 (slicesT t)) inpos_S1_p0

theorem wd_eq (v4 : IVec S16 32) (t : Fin 16) : wd v4 t = v4 (ix1 t) := by
  unfold wd extractAt extractStridedSlice
  congr 1; funext a
  match a with
  | ⟨0, _⟩ => apply Fin.ext; simp

theorem shapeCast_self (v3 : IVec S16 32) (j : S16.Idx) : shapeCast S16 v3 shapeCasts_S16_S16 j = v3 j := by
  unfold shapeCast
  congr 1
  revert j; decide

variable [FloatOps F]

theorem wd_pay2 (v3 : Vec F S16 .i32) : extractAt ![0] (k0_pay2 v3) inpos_S1_p0 = wd (k0_pay1 v3) 0 := rfl
theorem wd_pay3 (v3 : Vec F S16 .i32) : extractAt ![0] (k0_pay3 v3) inpos_S1_p0 = wd (k0_pay1 v3) 1 := rfl
theorem wd_pay4 (v3 : Vec F S16 .i32) : extractAt ![0] (k0_pay4 v3) inpos_S1_p0 = wd (k0_pay1 v3) 2 := rfl
theorem wd_pay5 (v4 : IVec S16 32) : extractAt ![0] (k0_pay5 v4) inpos_S1_p0 = wd v4 3 := rfl
theorem wd_pay6 (v4 : IVec S16 32) : extractAt ![0] (k0_pay6 v4) inpos_S1_p0 = wd v4 4 := rfl
theorem wd_pay7 (v4 : IVec S16 32) : extractAt ![0] (k0_pay7 v4) inpos_S1_p0 = wd v4 5 := rfl
theorem wd_pay8 (v4 : IVec S16 32) : extractAt ![0] (k0_pay8 v4) inpos_S1_p0 = wd v4 6 := rfl
theorem wd_pay9 (v4 : IVec S16 32) : extractAt ![0] (k0_pay9 v4) inpos_S1_p0 = wd v4 7 := rfl
theorem wd_pay10 (v4 : IVec S16 32) : extractAt ![0] (k0_pay10 v4) inpos_S1_p0 = wd v4 8 := rfl
theorem wd_pay11 (v4 : IVec S16 32) : extractAt ![0] (k0_pay11 v4) inpos_S1_p0 = wd v4 9 := rfl
theorem wd_pay12 (v4 : IVec S16 32) : extractAt ![0] (k0_pay12 v4) inpos_S1_p0 = wd v4 10 := rfl
theorem wd_pay13 (v4 : IVec S16 32) : extractAt ![0] (k0_pay13 v4) inpos_S1_p0 = wd v4 11 := rfl
theorem wd_pay14 (v4 : IVec S16 32) : extractAt ![0] (k0_pay14 v4) inpos_S1_p0 = wd v4 12 := rfl
theorem wd_pay15 (v4 : IVec S16 32) : extractAt ![0] (k0_pay15 v4) inpos_S1_p0 = wd v4 13 := rfl
theorem wd_pay16 (v4 : IVec S16 32) : extractAt ![0] (k0_pay16 v4) inpos_S1_p0 = wd v4 14 := rfl
theorem wd_pay17 (v4 : IVec S16 32) : extractAt ![0] (k0_pay17 v4) inpos_S1_p0 = wd v4 15 := rfl

end Cert.Kernel.Sc

end
-- ==== Proof.BitsScBatch.lean ====
import proofs.«203981_g87385404604482_cont_9to1_m_1030_24_alg».proof.Proof.BitsScGhost
import proofs.«203981_g87385404604482_cont_9to1_m_1030_24_alg».proof.Proof.BitsScGeom

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The index vector a tile loads -/

/-- The tile's 16 words of the index array, as the body slices them. -/
abbrev iRowsV (L : grid0.Coords) : Memref sig .scVector .hbm S16 .i32 :=
  (iV).slice (Rect.unit (s := S512) (k0_off1 L) S16.size (k0_off1_inb L)) (fun _ => rfl)
abbrev rS : Rect S16 := Rect.unit (s := S16) ![0] S16.size inb_S16_S16_0

theorem rS_idx (j : S16.Idx) : (rS : Rect S16).toLoadRect.idx j = j := by
  funext a; apply Fin.ext
  rw [LoadRect.idx_apply, Subsingleton.elim a 0]
  show 0 + 1 * (j 0).val = (j 0).val
  simp

/-- A load of the whole index scratch after a copy has filled it reads the copy's payload. -/
theorem loaded_eq (d : Dev nD) (L : grid0.Coords) (fs : Buf (Elt F) ((thr d L).loc cc0_scratch0)) (pay : S16.Idx → Elt F .i32) (j : S16.Idx) :
    View.readAt (Elt F) (sI).view (rS : Rect S16).toLoadRect (View.write (Elt F) (sI).view fs pay Finset.univ) j = pay j := by
  simp only [View.readAt_apply, Memref.view_whole, View.read_whole]
  rw [rS_idx, View.write_whole_univ]

variable [FloatOps F]

/-- Word `t` of the vector the body shape-casts is word `t` of the vector it loaded. -/
theorem wd_pay1 (v3 : Vec F S16 .i32) (t : Fin 16) : wd (k0_pay1 v3) t = v3 (ix1 t) :=
  (wd_eq _ t).trans (shapeCast_self v3 (ix1 t))

/-! ## The batch of sixteen row copies on the tile's one semaphore -/

section Batch

variable (d : Dev nD) (L : grid0.Coords)

/-- One row copy's credit. -/
abbrev NN : ℕ := (dRowV 0).view.dmaCredit
omit [FloatOps F] in
theorem NN_pos : 0 < NN := View.dmaCredit_pos _ (by decide)

variable (tbd : Buf (Elt F) (tLoc d)) (fr : Buf (Elt F) ((thr d L).loc cc0_scratch1)) (v4 : IVec S16 32) (hall : ∀ t, chkW (wd v4 t))
variable (q : PosShare TreeShare)

/-- The row scratch once copy `t` has landed in its row `t`. -/
def landed (t : Fin 16) : Buf (Elt F) ((thr d L).loc cc0_scratch1) :=
  (dRowV t).view.write (Elt F) fr (ReadAs.same.apply ((sRowV (wd v4 t) (hall t)).view.read (Elt F) tbd)) Finset.univ

/-- What copy `t` delivers: row `t` of the scratch landed, and its read token of the table row back. -/
def Dl (t : Fin 16) : sProp 𝕄 :=
  iprop(((dRowV t).view.loc (thr d L) ↦[(dRowV t).view.set]{fullShare} landed d L tbd fr v4 hall t)
    ∗ ((sRowV (wd v4 t) (hall t)).view.loc (thr d L) ↦[(sRowV (wd v4 t) (hall t)).view.set]{Transfers.shareTok q 16 t} tbd))

instance Dl_storable (t : Fin 16) : BI.Storable (upEmb : UEmb _ 𝕄) (Dl d L tbd fr v4 hall q t) := by unfold Dl; infer_instance

/-- The table row copy `t` reads, as a set of the table's elements. -/
abbrev sSet (t : Fin 16) : Finset S100000x64.Idx := (sRowV (wd v4 t) (hall t)).view.set

omit [FloatOps F] in
/-- A read share of the whole table: a remainder, the sixteen copies' rows each at its token, and the tokens' rests. -/
theorem toks_split :
    (tLoc d ↦{q} tbd : sProp 𝕄) ⊢ iprop((tLoc d ↦{Transfers.shareDrop q 16} tbd)
      ∗ (bigSep Finset.univ fun t : Fin 16 => tLoc d ↦[sSet v4 hall t]{Transfers.shareTok q 16 t} tbd)
      ∗ (bigSep Finset.univ fun t : Fin 16 => tLoc d ↦[Finset.univ \ sSet v4 hall t]{Transfers.shareTok q 16 t} tbd)) := by
  refine (Transfers.pointsTo_toks_split q 16).trans (sep_mono_right ?_)
  rw [← bigSep_sep']
  exact bigSep_mono fun t _ => (pointsTo_split_subset (Finset.subset_univ _)).1

omit [FloatOps F] in
theorem toks_join :
    iprop((tLoc d ↦{Transfers.shareDrop q 16} tbd)
      ∗ (bigSep Finset.univ fun t : Fin 16 => tLoc d ↦[sSet v4 hall t]{Transfers.shareTok q 16 t} tbd)
      ∗ (bigSep Finset.univ fun t : Fin 16 => tLoc d ↦[Finset.univ \ sSet v4 hall t]{Transfers.shareTok q 16 t} tbd)) ⊢ (tLoc d ↦{q} tbd : sProp 𝕄) := by
  refine (sep_mono_right ?_).trans (Transfers.pointsTo_toks_join q 16)
  rw [← bigSep_sep']
  exact bigSep_mono fun t _ => (pointsTo_split_subset (Finset.subset_univ _)).2

end Batch

end Cert.Kernel.Sc

end
-- ==== Proof.BitsScValue.lean ====
import proofs.«203981_g87385404604482_cont_9to1_m_1030_24_alg».proof.Proof.BitsScGhost
import proofs.«203981_g87385404604482_cont_9to1_m_1030_24_alg».proof.Proof.BitsScBatch

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## What the sixteen copies leave in the row scratch -/

theorem emb_dRow (t : Fin 16) (k : S64.Idx) : (dRowV t).view.emb k = (ix2 t (k 0) : S16x64.Idx) := by
  have hk := Shape.reshapeEquiv_cons_one (n := 1) (d := ![64]) squeezes_S1x64_S64.numel_eq k
  funext a; apply Fin.ext
  show ((rectR t).emb (Shape.reshapeEquiv squeezes_S1x64_S64.numel_eq k) a : Nat) = _
  rw [Rect.emb_apply, hk]
  match a with
  | ⟨0, _⟩ => simp [Fin.cons, Rect.unit]; rfl
  | ⟨1, _⟩ => simp [Fin.cons, Rect.unit]; rfl

theorem chkW_lt {w : BitVec 32} (h : chkW w) : w.toNat < 100000 := by
  have := h 0; simp at this; omega

theorem emb_sRow (w : BitVec 32) (h : chkW w) (k : S64.Idx) :
    (sRowV w h).view.emb k = (ix2 (⟨w.toNat, chkW_lt h⟩ : Fin 100000) (k 0) : S100000x64.Idx) := by
  have hk := Shape.reshapeEquiv_cons_one (n := 1) (d := ![64]) squeezes_S1x64_S64.numel_eq k
  funext a; apply Fin.ext
  show ((Rect.unit (s := S100000x64) ![w.toNat, 0] S1x64.size h).emb (Shape.reshapeEquiv squeezes_S1x64_S64.numel_eq k) a : Nat) = _
  rw [Rect.emb_apply, hk]
  match a with
  | ⟨0, _⟩ => simp [Fin.cons, Rect.unit]; rfl
  | ⟨1, _⟩ => simp [Fin.cons, Rect.unit]; rfl

section Rows

variable (d : Dev nD) (L : grid0.Coords)
variable (tbd : Buf (Elt F) (tLoc d)) (fr : Buf (Elt F) ((thr d L).loc cc0_scratch1)) (v4 : IVec S16 32) (hall : ∀ t, chkW (wd v4 t))

/-- The row scratch once every copy has landed: row `r` is the table row that index word `r` names. -/
def rowsG : Buf (Elt F) ((thr d L).loc cc0_scratch1) :=
  fun (i : S16x64.Idx) => (tbd : S100000x64.Idx → Elt F .f32) (ix2 (rowOf (wd v4 (i 0))) (i 1))

theorem rowOf_eq {w : BitVec 32} (h : chkW w) : rowOf w = ⟨w.toNat, chkW_lt h⟩ := Fin.ext (rowOf_val (chkW_lt h))

theorem landed_on (t : Fin 16) (i : S16x64.Idx) (hi : i ∈ dSet t) : landed d L tbd fr v4 hall t i = rowsG d L tbd v4 i := by
  obtain ⟨k, -, rfl⟩ := Finset.mem_map.mp hi
  unfold landed
  rw [View.write_emb_of_mem _ _ (Finset.mem_univ k)]
  unfold rowsG
  rw [emb_dRow]
  show _root_.cast _ ((sRowV (wd v4 t) (hall t)).view.read (Elt F) tbd k) = _
  rw [View.read_apply, emb_sRow, rowOf_eq (hall t)]
  rfl

theorem rows_join :
    (bigSep Finset.univ fun t : Fin 16 => ((dRowV t).view.loc (thr d L) ↦[(dRowV t).view.set]{fullShare} landed d L tbd fr v4 hall t : sProp 𝕄))
      ⊢ ((thr d L).loc cc0_scratch1 ↦{fullShare} rowsG d L tbd v4) := by
  rw [sR_rows d L (rowsG d L tbd v4)]
  exact bigSep_mono fun t _ => Entails.of_eq (pointsTo_congr (landed_on d L tbd fr v4 hall t))

end Rows

end Cert.Kernel.Sc

end
-- ==== Proof.BitsScOut.lean ====
import proofs.«203981_g87385404604482_cont_9to1_m_1030_24_alg».proof.Proof.BitsScGhost
import proofs.«203981_g87385404604482_cont_9to1_m_1030_24_alg».proof.Proof.BitsScValue

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## What the copy out leaves in the tile's rows of the result -/

theorem whole_emb (k : S16x64.Idx) : (Rect.whole S16x64).emb k = k := by
  funext a; apply Fin.ext; rw [Rect.emb_apply]; simp [Rect.whole, Rect.unit]

section Out

variable (tb : (d : Dev nD) → Buf (Elt F) (tLoc d)) (ix : (d : Dev nD) → Buf (Elt F) (iLoc d))
variable (d : Dev nD) (L : grid0.Coords)

/-- The result's slice keeps the column; -/
theorem emb_oRows_col (k : S16x64.Idx) : ((oRowsV L).view.emb k : S512x64.Idx) 1 = k 1 := by
  apply Fin.ext
  show (k0_off33 L) 1 + 1 * ((k 1 : Fin 64) : Nat) = ((k 1 : Fin 64) : Nat)
  rw [congrFun (k0_off33_eq L) 1]; simp

/-- and its row is the index slice's word: both sit at the tile's offset. -/
theorem emb_iRows_row (k : S16x64.Idx) :
    ((iRowsV L).view.emb (ix1 (k 0)) : S512.Idx) = ix1 (((oRowsV L).view.emb k : S512x64.Idx) 0) := by
  funext a
  match a with
  | ⟨0, _⟩ =>
    apply Fin.ext
    show (k0_off1 L) 0 + 1 * ((k 0 : Fin 16) : Nat) = (k0_off33 L) 0 + 1 * ((k 0 : Fin 16) : Nat)
    rw [congrFun (k0_off1_eq L) 0, congrFun (k0_off33_eq L) 0]; simp

variable [FloatOps F]

theorem out_value (fo : Buf (Elt F) (oLoc d)) (v3 : Vec F S16 .i32) (hV : ∀ j : S16.Idx, v3 j = (ix d : S512.Idx → BitVec 32) ((iRowsV L).view.emb j))
    (i : S512x64.Idx) (hi : i ∈ oSet L) :
    (oRowsV L).view.writes (Elt F) fo [⟨Rect.whole S16x64, ReadAs.same.apply ((sR).view.read (Elt F) (rowsG d L (tb d) (k0_pay1 v3)))⟩] i = gath tb ix d i := by
  obtain ⟨k, -, rfl⟩ := Finset.mem_map.mp hi
  rw [View.writes_singleton]
  have e : (oRowsV L).view.emb k = ((oRowsV L).view.slice (Rect.whole S16x64)).emb k := by
    show _ = (oRowsV L).view.emb ((Rect.whole S16x64).emb k); rw [whole_emb]
  rw [e, View.write_emb_of_mem _ _ (Finset.mem_univ k), ← e]
  show _root_.cast _ ((sR).view.read (Elt F) (rowsG d L (tb d) (k0_pay1 v3)) k) = _
  rw [View.read_apply]
  unfold rowsG gath
  show (tb d : S100000x64.Idx → Elt F .f32) (ix2 (rowOf (wd (k0_pay1 v3) (k 0))) (k 1)) = _
  have h1 : wd (k0_pay1 v3) (k 0) = (ix d : S512.Idx → BitVec 32) (ix1 (((oRowsV L).view.emb k : S512x64.Idx) 0)) :=
    (wd_pay1 v3 (k 0)).trans ((hV _).trans (congrArg (ix d : S512.Idx → BitVec 32) (emb_iRows_row L k)))
  have h2 : (k 1 : Fin 64) = ((oRowsV L).view.emb k : S512x64.Idx) 1 := (emb_oRows_col L k).symm
  exact congrArg₂ (fun (a : BitVec 32) (b : Fin 64) => (tb d : S100000x64.Idx → Elt F .f32) (ix2 (rowOf a) b)) h1 h2

end Out

end Cert.Kernel.Sc

end
-- ==== Proof.BitsScTile.lean ====
/-
  The SparseCore side of the launch, 2: one tile's task, at a symbolic tile.

  The tile copies its 16 words of the index array into its index scratch and waits; loads them; for each word, in
  order, starts the copy of the table row it names into the matching row of its row scratch, all sixteen on one
  semaphore; waits sixteen times; copies the row scratch to its 16 rows of the result and waits. Between the first
  start and the last wait nothing reads or writes a source or a destination of the sixteen copies, so they run as one
  counted batch: the first fifteen waits learn nothing, the sixteenth that every copy has landed. The table is read
  under sixteen read tokens of the tile's share, one per copy (two words may name the same row). Every word names a
  table row by hypothesis on the index array, so each of the body's side conditions holds.
-/
import proofs.«203981_g87385404604482_cont_9to1_m_1030_24_alg».proof.Proof.BitsScGhost
import proofs.«203981_g87385404604482_cont_9to1_m_1030_24_alg».proof.Proof.BitsScOut

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

section Tile
variable (tb : (d : Dev nD) → Buf (Elt F) (tLoc d)) (ix : (d : Dev nD) → Buf (Elt F) (iLoc d))
variable [FloatOps F]
variable (d : Dev nD) (L : grid0.Coords)

omit [FloatOps F] in
theorem pts_i (q : PosShare TreeShare) (f : Buf (Elt F) (iLoc d)) :
    ((iV).view.loc (thr d L) ↦{q} f : sProp 𝕄) = iLoc d ↦{q} f := by
  simp only [Memref.view_whole, View.set_whole]

set_option maxHeartbeats 8000000 in
theorem tile_body (hF : (K (F := F)).Facts) (hidx : IdxOK ix) (O : CellTallies nD τ sig (HIx 1)) (W : Waits sig (HIx 1)) (hO : ∀ g, O g none = 0) :
    iprop(levAts (K (F := F)).L (K (F := F)).lev ∗ emp ∗ goA tb ix d L
        ∗ scopedBufs (thr d L) ∗ scopedSems0 (thr d L) ∗ owes (thr d L) O W)
      ⊢ wp frame (wpE (defs₀ (F := F)) 𝒱₀ (thr d L) none) Set.univ
          (cc0_k L tV (Memref.isWhole_whole _) iV (Memref.isWhole_whole _) oV (Memref.isWhole_whole _)
            sI (Memref.isWhole_whole _) sR (Memref.isWhole_whole _) cc0_scratch2 cc0_scoped0 cc0_scoped1)
          fun _ => iprop(tdA tb ix d L ∗ scopedBufs (thr d L) ∗ scopedSems0 (thr d L)
            ∗ ∃ W', ⌜∀ p ∈ W', p ∈ W ∨ p.2 = none⌝ ∗ owes (thr d L) O W') := by
  simp only [cc0_k_eq_skeleton]; unfold cc0_k_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold goA
  iintro ⟨#Hlv, -, ⟨Ht, Hi, %fo, Ho⟩, ⟨⟨%fs, Hs⟩, ⟨%fr, Hr⟩, Hbufs⟩, ⟨HsemI, HsemR, HsemO, Hsems⟩, HO⟩
  ihave Hmw := ((K (F := F)).mayWaits_none (thr := thr d L) hO) $$ Hlv
  ihave Hi' := (Entails.of_eq (pts_i (F := F) d L _ _).symm) $$ Hi
  ihave Hs' := (Entails.of_eq (show ((thr d L).loc cc0_scratch0 ↦{fullShare} fs : sProp 𝕄) = ((sI).view.loc (thr d L) ↦{fullShare} fs) from rfl)) $$ Hs
  -- the index copy, its wait, the load of the sixteen words
  set_option sl_exec.maxSteps 3 in sl_exec
  have hV : ∀ j : S16.Idx, (View.readAt (Elt F) (sI).view (rS : Rect S16).toLoadRect (View.write (Elt F) (sI).view fs (tile_body.sl.dma0 ix d L) Finset.univ)) j = (ix d : S512.Idx → BitVec 32) ((iRowsV L).view.emb j) := by
    intro j; rw [loaded_eq]; unfold tile_body.sl.dma0; exact (View.read_apply _ _).trans (_root_.cast_eq _ _)
  generalize (View.readAt (Elt F) (sI).view (rS : Rect S16).toLoadRect (View.write (Elt F) (sI).view fs (tile_body.sl.dma0 ix d L) Finset.univ)) = v3 at hV ⊢
  beta_reduce
  have hall : ∀ t, chkW (wd (k0_pay1 v3) t) := fun t => chkW_of (by rw [wd_pay1, hV]; exact hidx d _)
  -- the batch of sixteen row copies: allocated from the semaphore's counter at zero
  imod (Transfers.batch_alloc' (Lvl := ℕ) (countersEmb (U := UU)) (thr d L) (none : HIx 1) NN (Dl d L (tb d) fr (k0_pay1 v3) hall (qTile L)) (sm := .dma cc0_scratch2.sem) (E := Set.univ)) $$ HsemR with HB
  -- the table's share by copy, the row scratch by row
  ihave Ht2 := (toks_split d (tb d) (k0_pay1 v3) hall (qTile L)) $$ Ht
  icases Ht2 with ⟨HtD, HtS, HtX⟩
  ihave HtS' := (Entails.of_eq (bigSep_fin16 _)) $$ HtS
  icases HtS' with ⟨T0, T1, T2, T3, T4, T5, T6, T7, T8, T9, T10, T11, T12, T13, T14, T15⟩
  ihave Hr2 := (Entails.of_eq (sR_rows d L fr)) $$ Hr
  ihave Hr3 := (Entails.of_eq (bigSep_fin16 _)) $$ Hr2
  icases Hr3 with ⟨R0, R1, R2, R3, R4, R5, R6, R7, R8, R9, R10, R11, R12, R13, R14, R15⟩
  -- copy 0: its index word names a table row; issued on the batch
  iapply (wp_assume 𝒱₀ (thr d L) none Set.univ (chk1_of (hall 0)))
  iapply (Transfers.wp_dmaBatch (countersEmb (U := UU)) 𝒱₀ (thr d L) none (src := sRowV (wd (k0_pay1 v3) 0) (hall 0)) (dst := dRowV 0) (none : HIx 1) NN rfl subset_rfl
    (D := Dl d L (tb d) fr (k0_pay1 v3) hall (qTile L)) (j := 0) (u := 0) (by decide) (Nat.zero_le _) (by unfold Dl landed; exact .rfl)) $$ [T0 R0 HB]
  · isplitl [T0]; · iexact T0
    isplitl [R0]; · iexact R0
    iexact HB
  iintro HB
  -- copy 1: its index word names a table row; issued on the batch
  iapply (wp_assume 𝒱₀ (thr d L) none Set.univ (chk2_of (hall 1)))
  iapply (Transfers.wp_dmaBatch (countersEmb (U := UU)) 𝒱₀ (thr d L) none (src := sRowV (wd (k0_pay1 v3) 1) (hall 1)) (dst := dRowV 1) (none : HIx 1) NN rfl subset_rfl
    (D := Dl d L (tb d) fr (k0_pay1 v3) hall (qTile L)) (j := 1) (u := 0) (by decide) (Nat.zero_le _) (by unfold Dl landed; exact .rfl)) $$ [T1 R1 HB]
  · isplitl [T1]; · iexact T1
    isplitl [R1]; · iexact R1
    iexact HB
  iintro HB
  -- copy 2: its index word names a table row; issued on the batch
  iapply (wp_assume 𝒱₀ (thr d L) none Set.univ (chk3_of (hall 2)))
  iapply (Transfers.wp_dmaBatch (countersEmb (U := UU)) 𝒱₀ (thr d L) none (src := sRowV (wd (k0_pay1 v3) 2) (hall 2)) (dst := dRowV 2) (none : HIx 1) NN rfl subset_rfl
    (D := Dl d L (tb d) fr (k0_pay1 v3) hall (qTile L)) (j := 2) (u := 0) (by decide) (Nat.zero_le _) (by unfold Dl landed; exact .rfl)) $$ [T2 R2 HB]
  · isplitl [T2]; · iexact T2
    isplitl [R2]; · iexact R2
    iexact HB
  iintro HB
  -- copy 3: its index word names a table row; issued on the batch
  iapply (wp_assume 𝒱₀ (thr d L) none Set.univ (chk4_of (hall 3)))
  iapply (Transfers.wp_dmaBatch (countersEmb (U := UU)) 𝒱₀ (thr d L) none (src := sRowV (wd (k0_pay1 v3) 3) (hall 3)) (dst := dRowV 3) (none : HIx 1) NN rfl subset_rfl
    (D := Dl d L (tb d) fr (k0_pay1 v3) hall (qTile L)) (j := 3) (u := 0) (by decide) (Nat.zero_le _) (by unfold Dl landed; exact .rfl)) $$ [T3 R3 HB]
  · isplitl [T3]; · iexact T3
    isplitl [R3]; · iexact R3
    iexact HB
  iintro HB
  -- copy 4: its index word names a table row; issued on the batch
  iapply (wp_assume 𝒱₀ (thr d L) none Set.univ (chk5_of (hall 4)))
  iapply (Transfers.wp_dmaBatch (countersEmb (U := UU)) 𝒱₀ (thr d L) none (src := sRowV (wd (k0_pay1 v3) 4) (hall 4)) (dst := dRowV 4) (none : HIx 1) NN rfl subset_rfl
    (D := Dl d L (tb d) fr (k0_pay1 v3) hall (qTile L)) (j := 4) (u := 0) (by decide) (Nat.zero_le _) (by unfold Dl landed; exact .rfl)) $$ [T4 R4 HB]
  · isplitl [T4]; · iexact T4
    isplitl [R4]; · iexact R4
    iexact HB
  iintro HB
  -- copy 5: its index word names a table row; issued on the batch
  iapply (wp_assume 𝒱₀ (thr d L) none Set.univ (chk6_of (hall 5)))
  iapply (Transfers.wp_dmaBatch (countersEmb (U := UU)) 𝒱₀ (thr d L) none (src := sRowV (wd (k0_pay1 v3) 5) (hall 5)) (dst := dRowV 5) (none : HIx 1) NN rfl subset_rfl
    (D := Dl d L (tb d) fr (k0_pay1 v3) hall (qTile L)) (j := 5) (u := 0) (by decide) (Nat.zero_le _) (by unfold Dl landed; exact .rfl)) $$ [T5 R5 HB]
  · isplitl [T5]; · iexact T5
    isplitl [R5]; · iexact R5
    iexact HB
  iintro HB
  -- copy 6: its index word names a table row; issued on the batch
  iapply (wp_assume 𝒱₀ (thr d L) none Set.univ (chk7_of (hall 6)))
  iapply (Transfers.wp_dmaBatch (countersEmb (U := UU)) 𝒱₀ (thr d L) none (src := sRowV (wd (k0_pay1 v3) 6) (hall 6)) (dst := dRowV 6) (none : HIx 1) NN rfl subset_rfl
    (D := Dl d L (tb d) fr (k0_pay1 v3) hall (qTile L)) (j := 6) (u := 0) (by decide) (Nat.zero_le _) (by unfold Dl landed; exact .rfl)) $$ [T6 R6 HB]
  · isplitl [T6]; · iexact T6
    isplitl [R6]; · iexact R6
    iexact HB
  iintro HB
  -- copy 7: its index word names a table row; issued on the batch
  iapply (wp_assume 𝒱₀ (thr d L) none Set.univ (chk8_of (hall 7)))
  iapply (Transfers.wp_dmaBatch (countersEmb (U := UU)) 𝒱₀ (thr d L) none (src := sRowV (wd (k0_pay1 v3) 7) (hall 7)) (dst := dRowV 7) (none : HIx 1) NN rfl subset_rfl
    (D := Dl d L (tb d) fr (k0_pay1 v3) hall (qTile L)) (j := 7) (u := 0) (by decide) (Nat.zero_le _) (by unfold Dl landed; exact .rfl)) $$ [T7 R7 HB]
  · isplitl [T7]; · iexact T7
    isplitl [R7]; · iexact R7
    iexact HB
  iintro HB
  -- copy 8: its index word names a table row; issued on the batch
  iapply (wp_assume 𝒱₀ (thr d L) none Set.univ (chk9_of (hall 8)))
  iapply (Transfers.wp_dmaBatch (countersEmb (U := UU)) 𝒱₀ (thr d L) none (src := sRowV (wd (k0_pay1 v3) 8) (hall 8)) (dst := dRowV 8) (none : HIx 1) NN rfl subset_rfl
    (D := Dl d L (tb d) fr (k0_pay1 v3) hall (qTile L)) (j := 8) (u := 0) (by decide) (Nat.zero_le _) (by unfold Dl landed; exact .rfl)) $$ [T8 R8 HB]
  · isplitl [T8]; · iexact T8
    isplitl [R8]; · iexact R8
    iexact HB
  iintro HB
  -- copy 9: its index word names a table row; issued on the batch
  iapply (wp_assume 𝒱₀ (thr d L) none Set.univ (chk10_of (hall 9)))
  iapply (Transfers.wp_dmaBatch (countersEmb (U := UU)) 𝒱₀ (thr d L) none (src := sRowV (wd (k0_pay1 v3) 9) (hall 9)) (dst := dRowV 9) (none : HIx 1) NN rfl subset_rfl
    (D := Dl d L (tb d) fr (k0_pay1 v3) hall (qTile L)) (j := 9) (u := 0) (by decide) (Nat.zero_le _) (by unfold Dl landed; exact .rfl)) $$ [T9 R9 HB]
  · isplitl [T9]; · iexact T9
    isplitl [R9]; · iexact R9
    iexact HB
  iintro HB
  -- copy 10: its index word names a table row; issued on the batch
  iapply (wp_assume 𝒱₀ (thr d L) none Set.univ (chk11_of (hall 10)))
  iapply (Transfers.wp_dmaBatch (countersEmb (U := UU)) 𝒱₀ (thr d L) none (src := sRowV (wd (k0_pay1 v3) 10) (hall 10)) (dst := dRowV 10) (none : HIx 1) NN rfl subset_rfl
    (D := Dl d L (tb d) fr (k0_pay1 v3) hall (qTile L)) (j := 10) (u := 0) (by decide) (Nat.zero_le _) (by unfold Dl landed; exact .rfl)) $$ [T10 R10 HB]
  · isplitl [T10]; · iexact T10
    isplitl [R10]; · iexact R10
    iexact HB
  iintro HB
  -- copy 11: its index word names a table row; issued on the batch
  iapply (wp_assume 𝒱₀ (thr d L) none Set.univ (chk12_of (hall 11)))
  iapply (Transfers.wp_dmaBatch (countersEmb (U := UU)) 𝒱₀ (thr d L) none (src := sRowV (wd (k0_pay1 v3) 11) (hall 11)) (dst := dRowV 11) (none : HIx 1) NN rfl subset_rfl
    (D := Dl d L (tb d) fr (k0_pay1 v3) hall (qTile L)) (j := 11) (u := 0) (by decide) (Nat.zero_le _) (by unfold Dl landed; exact .rfl)) $$ [T11 R11 HB]
  · isplitl [T11]; · iexact T11
    isplitl [R11]; · iexact R11
    iexact HB
  iintro HB
  -- copy 12: its index word names a table row; issued on the batch
  iapply (wp_assume 𝒱₀ (thr d L) none Set.univ (chk13_of (hall 12)))
  iapply (Transfers.wp_dmaBatch (countersEmb (U := UU)) 𝒱₀ (thr d L) none (src := sRowV (wd (k0_pay1 v3) 12) (hall 12)) (dst := dRowV 12) (none : HIx 1) NN rfl subset_rfl
    (D := Dl d L (tb d) fr (k0_pay1 v3) hall (qTile L)) (j := 12) (u := 0) (by decide) (Nat.zero_le _) (by unfold Dl landed; exact .rfl)) $$ [T12 R12 HB]
  · isplitl [T12]; · iexact T12
    isplitl [R12]; · iexact R12
    iexact HB
  iintro HB
  -- copy 13: its index word names a table row; issued on the batch
  iapply (wp_assume 𝒱₀ (thr d L) none Set.univ (chk14_of (hall 13)))
  iapply (Transfers.wp_dmaBatch (countersEmb (U := UU)) 𝒱₀ (thr d L) none (src := sRowV (wd (k0_pay1 v3) 13) (hall 13)) (dst := dRowV 13) (none : HIx 1) NN rfl subset_rfl
    (D := Dl d L (tb d) fr (k0_pay1 v3) hall (qTile L)) (j := 13) (u := 0) (by decide) (Nat.zero_le _) (by unfold Dl landed; exact .rfl)) $$ [T13 R13 HB]
  · isplitl [T13]; · iexact T13
    isplitl [R13]; · iexact R13
    iexact HB
  iintro HB
  -- copy 14: its index word names a table row; issued on the batch
  iapply (wp_assume 𝒱₀ (thr d L) none Set.univ (chk15_of (hall 14)))
  iapply (Transfers.wp_dmaBatch (countersEmb (U := UU)) 𝒱₀ (thr d L) none (src := sRowV (wd (k0_pay1 v3) 14) (hall 14)) (dst := dRowV 14) (none : HIx 1) NN rfl subset_rfl
    (D := Dl d L (tb d) fr (k0_pay1 v3) hall (qTile L)) (j := 14) (u := 0) (by decide) (Nat.zero_le _) (by unfold Dl landed; exact .rfl)) $$ [T14 R14 HB]
  · isplitl [T14]; · iexact T14
    isplitl [R14]; · iexact R14
    iexact HB
  iintro HB
  -- copy 15: its index word names a table row; issued on the batch
  iapply (wp_assume 𝒱₀ (thr d L) none Set.univ (chk16_of (hall 15)))
  iapply (Transfers.wp_dmaBatch (countersEmb (U := UU)) 𝒱₀ (thr d L) none (src := sRowV (wd (k0_pay1 v3) 15) (hall 15)) (dst := dRowV 15) (none : HIx 1) NN rfl subset_rfl
    (D := Dl d L (tb d) fr (k0_pay1 v3) hall (qTile L)) (j := 15) (u := 0) (by decide) (Nat.zero_le _) (by unfold Dl landed; exact .rfl)) $$ [T15 R15 HB]
  · isplitl [T15]; · iexact T15
    isplitl [R15]; · iexact R15
    iexact HB
  iintro HB
  -- wait 0: hands back nothing
  iapply (Transfers.wp_waitBatchO (countersEmb (U := UU)) 𝒱₀ (thr d L) none (dstw := dRowV 0) (none : HIx 1) (N := NN) rfl (D := (Dl d L (tb d) fr (k0_pay1 v3) hall (qTile L))) (n := 16) (u := 0) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 1: hands back nothing
  iapply (Transfers.wp_waitBatchO (countersEmb (U := UU)) 𝒱₀ (thr d L) none (dstw := dRowV 1) (none : HIx 1) (N := NN) rfl (D := (Dl d L (tb d) fr (k0_pay1 v3) hall (qTile L))) (n := 16) (u := (0 + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 2: hands back nothing
  iapply (Transfers.wp_waitBatchO (countersEmb (U := UU)) 𝒱₀ (thr d L) none (dstw := dRowV 2) (none : HIx 1) (N := NN) rfl (D := (Dl d L (tb d) fr (k0_pay1 v3) hall (qTile L))) (n := 16) (u := ((0 + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 3: hands back nothing
  iapply (Transfers.wp_waitBatchO (countersEmb (U := UU)) 𝒱₀ (thr d L) none (dstw := dRowV 3) (none : HIx 1) (N := NN) rfl (D := (Dl d L (tb d) fr (k0_pay1 v3) hall (qTile L))) (n := 16) (u := (((0 + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 4: hands back nothing
  iapply (Transfers.wp_waitBatchO (countersEmb (U := UU)) 𝒱₀ (thr d L) none (dstw := dRowV 4) (none : HIx 1) (N := NN) rfl (D := (Dl d L (tb d) fr (k0_pay1 v3) hall (qTile L))) (n := 16) (u := ((((0 + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 5: hands back nothing
  iapply (Transfers.wp_waitBatchO (countersEmb (U := UU)) 𝒱₀ (thr d L) none (dstw := dRowV 5) (none : HIx 1) (N := NN) rfl (D := (Dl d L (tb d) fr (k0_pay1 v3) hall (qTile L))) (n := 16) (u := (((((0 + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 6: hands back nothing
  iapply (Transfers.wp_waitBatchO (countersEmb (U := UU)) 𝒱₀ (thr d L) none (dstw := dRowV 6) (none : HIx 1) (N := NN) rfl (D := (Dl d L (tb d) fr (k0_pay1 v3) hall (qTile L))) (n := 16) (u := ((((((0 + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 7: hands back nothing
  iapply (Transfers.wp_waitBatchO (countersEmb (U := UU)) 𝒱₀ (thr d L) none (dstw := dRowV 7) (none : HIx 1) (N := NN) rfl (D := (Dl d L (tb d) fr (k0_pay1 v3) hall (qTile L))) (n := 16) (u := (((((((0 + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 8: hands back nothing
  iapply (Transfers.wp_waitBatchO (countersEmb (U := UU)) 𝒱₀ (thr d L) none (dstw := dRowV 8) (none : HIx 1) (N := NN) rfl (D := (Dl d L (tb d) fr (k0_pay1 v3) hall (qTile L))) (n := 16) (u := ((((((((0 + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 9: hands back nothing
  iapply (Transfers.wp_waitBatchO (countersEmb (U := UU)) 𝒱₀ (thr d L) none (dstw := dRowV 9) (none : HIx 1) (N := NN) rfl (D := (Dl d L (tb d) fr (k0_pay1 v3) hall (qTile L))) (n := 16) (u := (((((((((0 + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 10: hands back nothing
  iapply (Transfers.wp_waitBatchO (countersEmb (U := UU)) 𝒱₀ (thr d L) none (dstw := dRowV 10) (none : HIx 1) (N := NN) rfl (D := (Dl d L (tb d) fr (k0_pay1 v3) hall (qTile L))) (n := 16) (u := ((((((((((0 + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 11: hands back nothing
  iapply (Transfers.wp_waitBatchO (countersEmb (U := UU)) 𝒱₀ (thr d L) none (dstw := dRowV 11) (none : HIx 1) (N := NN) rfl (D := (Dl d L (tb d) fr (k0_pay1 v3) hall (qTile L))) (n := 16) (u := (((((((((((0 + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 12: hands back nothing
  iapply (Transfers.wp_waitBatchO (countersEmb (U := UU)) 𝒱₀ (thr d L) none (dstw := dRowV 12) (none : HIx 1) (N := NN) rfl (D := (Dl d L (tb d) fr (k0_pay1 v3) hall (qTile L))) (n := 16) (u := ((((((((((((0 + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 13: hands back nothing
  iapply (Transfers.wp_waitBatchO (countersEmb (U := UU)) 𝒱₀ (thr d L) none (dstw := dRowV 13) (none : HIx 1) (N := NN) rfl (D := (Dl d L (tb d) fr (k0_pay1 v3) hall (qTile L))) (n := 16) (u := (((((((((((((0 + NN) + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- wait 14: hands back nothing
  iapply (Transfers.wp_waitBatchO (countersEmb (U := UU)) 𝒱₀ (thr d L) none (dstw := dRowV 14) (none : HIx 1) (N := NN) rfl (D := (Dl d L (tb d) fr (k0_pay1 v3) hall (qTile L))) (n := 16) (u := ((((((((((((((0 + NN) + NN) + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HB, HO⟩
  -- the last wait: every copy has landed
  iapply (Transfers.wp_waitBatchLastO (countersEmb (U := UU)) 𝒱₀ (thr d L) none (dstw := dRowV 15) (none : HIx 1) (N := NN) rfl NN_pos (D := (Dl d L (tb d) fr (k0_pay1 v3) hall (qTile L))) (n := 16) (u := (((((((((((((((0 + NN) + NN) + NN) + NN) + NN) + NN) + NN) + NN) + NN) + NN) + NN) + NN) + NN) + NN) + NN)) (by have := NN_pos; omega)) $$ [HB HO]
  · isplitl [HB]; · iexact HB
    isplitl [HO]; · iexact HO
    iapply (Transfers.MayWaits.elim (SemLoc.dma cc0_scratch2.sem)); iexact Hmw
  iintro ⟨HD, HsemR, HO⟩
  -- every delivery: the scratch's rows landed, the table rows' tokens back
  ihave HD' := (Entails.of_eq (show bigSep Finset.univ (Dl d L (tb d) fr (k0_pay1 v3) hall (qTile L)) = iprop(
      (bigSep Finset.univ fun t : Fin 16 => ((dRowV t).view.loc (thr d L) ↦[(dRowV t).view.set]{fullShare} landed d L (tb d) fr (k0_pay1 v3) hall t : sProp 𝕄))
      ∗ (bigSep Finset.univ fun t : Fin 16 => (tLoc d ↦[sSet (k0_pay1 v3) hall t]{Transfers.shareTok (qTile L) 16 t} tb d : sProp 𝕄))) from by
    unfold Dl; exact bigSep_sep' _ _ _)) $$ HD
  icases HD' with ⟨HRows, HToks⟩
  ihave Ht := (toks_join d (tb d) (k0_pay1 v3) hall (qTile L)) $$ [HtD HToks HtX]
  · isplitl [HtD]; · iexact HtD
    isplitl [HToks]; · iexact HToks
    iexact HtX
  ihave Hr := (rows_join d L (tb d) fr (k0_pay1 v3) hall) $$ HRows
  -- the copy out and its wait
  ihave Hr' := (Entails.of_eq (show ((thr d L).loc cc0_scratch1 ↦{fullShare} rowsG d L (tb d) (k0_pay1 v3) : sProp 𝕄) = ((sR).view.loc (thr d L) ↦{fullShare} rowsG d L (tb d) (k0_pay1 v3)) from rfl)) $$ Hr
  ihave Ho' := (Entails.of_eq (show (oLoc d ↦[oSet L]{fullShare} fo : sProp 𝕄) = ((oRowsV L).view.loc (thr d L) ↦[(oRowsV L).view.set]{fullShare} fo) from rfl)) $$ Ho
  sl_exec
  sl_step
  unfold tdA
  isplitl [Ht Hi' Ho']
  · isplitl [Ht]; · iexact Ht
    isplitl [Hi']; · iapply (Entails.of_eq (pts_i (F := F) d L _ _)); iexact Hi'
    iapply (Entails.of_eq (pointsTo_congr (fun i hi => out_value tb ix d L fo v3 hV i hi))); iexact Ho'
  isplitl [Hs' Hr' Hbufs]
  · isplitl [Hs']; · iexists _; iexact Hs'
    isplitl [Hr']; · iexists _; iexact Hr'
    iexact Hbufs
  isplitl [HsemI HsemR HsemO Hsems]
  · isplitl [HsemI]; · iexact HsemI
    isplitl [HsemR]; · iexact HsemR
    isplitl [HsemO]; · iexact HsemO
    iexact Hsems
  iexists _; isplitr
  rotate_left
  · iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  exact .inl hp

/-! ## The launch theorem's obligation for the tiles -/

theorem defs₀_vector (c : Fin τ.nSC) (s : Fin τ.nSub) :
    defs₀ (F := F) (.scVector c s) 0 ()
      = SparseCore.onTile hcore0 hsub0 (fun c s => cc0_k (coordsV c s)
          tV (Memref.isWhole_whole _) iV (Memref.isWhole_whole _) oV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hidx : IdxOK ix) : (K (F := F)).TileObl (D (F := F)) 𝒱 (P tb ix) v₀ 0 := by
  intro d c i O W hO _ _
  -- this kernel owes nothing for a protocol of its own
  simp only [show (P tb ix).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body tb ix d (coordsV ⟨_, hc.1⟩ ⟨_, hc.2⟩) facts hidx O W hO).trans (wp_mono frame _ _ fun _ => obl_post)
end Tile

end Cert.Kernel.Sc

end
-- ==== Proof.BitsScSplit.lean ====
import proofs.«203981_g87385404604482_cont_9to1_m_1030_24_alg».proof.Proof.BitsScGhost
import proofs.«203981_g87385404604482_cont_9to1_m_1030_24_alg».proof.Proof.BitsScGhost

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

local notation "𝕄" => MT nD τ sig (HIx 1) (Elt F) ℕ UU ℕ

/-! ## The result array, by tile: 32 blocks of 16 rows, block `2 s + c` tile `(c, s)`'s -/

theorem hdivO : 32 ∣ S512x64.size 0 := ⟨16, rfl⟩
abbrev blkO (b : Fin 32) : Rect S512x64 := Rect.part (s := S512x64) (a₀ := 0) hdivO b
def blk (c : Fin 2) (s : Fin 16) : Fin 32 := ⟨2 * s.val + c.val, by omega⟩

theorem rect_crd (c : Fin 2) (s : Fin 16) :
    Rect.unit (s := S512x64) (k0_off33 (crd c s)) S16x64.size (k0_off33_inb (crd c s)) = blkO (blk c s) := by
  unfold blkO Rect.part Rect.block
  congr 1 <;> funext a
  · rw [k0_off33_eq]
    match a with
    | 0 => simp [Shape.partIx, Shape.partSize, blk, crd, coordsV]; omega
    | 1 => simp [Shape.partIx, Shape.partSize]
  · match a with
    | 0 => simp [Shape.partSize]
    | 1 => simp [Shape.partSize]

theorem oSet_eq (c : Fin 2) (s : Fin 16) : oSet (crd c s) = (blkO (blk c s)).set := by
  show ((oV).view.slice (Rect.unit (s := S512x64) (k0_off33 (crd c s)) S16x64.size (k0_off33_inb (crd c s)))).set = _
  rw [View.set_slice]
  show (Rect.unit (s := S512x64) (k0_off33 (crd c s)) S16x64.size (k0_off33_inb (crd c s))).set.map (Function.Embedding.refl _) = _
  rw [Finset.map_refl, rect_crd]

theorem blk_inj {c c' : Fin 2} {s s' : Fin 16} (h : blk c s = blk c' s') : c = c' ∧ s = s' := by
  have := congrArg Fin.val h
  simp only [blk] at this
  exact ⟨Fin.ext (by omega), Fin.ext (by omega)⟩

abbrev oSetP (p : Fin 2 × Fin 16) : Finset S512x64.Idx := oSet (crd p.1 p.2)

theorem oBlocks_disjoint : ∀ p ∈ (Finset.univ : Finset (Fin 2 × Fin 16)), ∀ p' ∈ (Finset.univ : Finset (Fin 2 × Fin 16)), p ≠ p' → Disjoint (oSetP p) (oSetP p') := by
  rintro ⟨c, s⟩ - ⟨c', s'⟩ - hne
  show Disjoint (oSet (crd c s)) (oSet (crd c' s'))
  rw [oSet_eq, oSet_eq]
  exact Rect.part_disjoint hdivO fun e => hne (by obtain ⟨h1, h2⟩ := blk_inj e; rw [h1, h2])

theorem oBlocks_cover : (Finset.univ : Finset (Fin 2 × Fin 16)).biUnion oSetP = Finset.univ := by
  ext i
  simp only [Finset.mem_biUnion, Finset.mem_univ, true_and, iff_true]
  obtain ⟨b, hb⟩ := Rect.exists_mem_part hdivO i
  refine ⟨(⟨b.val % 2, Nat.mod_lt _ (by decide)⟩, ⟨b.val / 2, by have := b.isLt; omega⟩), ?_⟩
  show i ∈ oSet (crd _ _)
  rw [oSet_eq]
  have e : blk ⟨b.val % 2, Nat.mod_lt _ (by decide)⟩ ⟨b.val / 2, by have := b.isLt; omega⟩ = b := Fin.ext (by simp only [blk]; omega)
  rw [e]; exact hb

/-- The result whole is its 32 blocks, by SparseCore then by tile. -/
theorem oPts_blocks (d : Dev nD) (f : Buf (Elt F) (oLoc d)) :
    (oLoc d ↦{fullShare} f : sProp 𝕄)
      = bigSep Finset.univ fun c : Fin 2 => bigSep Finset.univ fun s : Fin 16 => oLoc d ↦[oSet (crd c s)]{fullShare} f := by
  rw [← bigSep_univ_prod (fun p : Fin 2 × Fin 16 => (oLoc d ↦[oSet (crd p.1 p.2)]{fullShare} f : sProp 𝕄)),
    ← pointsTo_biUnion Finset.univ (ℓ := oLoc d) oSetP oBlocks_disjoint, oBlocks_cover]; try rfl

/-! ## A SparseCore's operands among its tiles; the call's operands among the SparseCores -/

section Split

variable (tb : (d : Dev nD) → Buf (Elt F) (tLoc d)) (ix : (d : Dev nD) → Buf (Elt F) (iLoc d))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem qTile_crd (c : Fin 2) (s : Fin 16) : qTile (crd c s) = Transfers.shareTok (qCore c.val) 16 s := rfl

variable [FloatOps F]

theorem vecSplit : (K (F := F)).VecSplit' (P tb ix) 0 := by
  intro d c
  show stA tb ix d (Fin.cast nCore_zero c) ⊢ |={Set.univ}=> iprop(
      (bigSep Finset.univ fun i : Fin ((K (F := F)).nSub 0) => goA tb ix d (crd (Fin.cast nCore_zero c) (Fin.cast nSub_zero i)))
      ∗ ((bigSep Finset.univ fun i : Fin ((K (F := F)).nSub 0) => tdA tb ix d (crd (Fin.cast nCore_zero c) (Fin.cast nSub_zero i)))
          -∗ dnA tb ix d (Fin.cast nCore_zero c)))
  generalize Fin.cast nCore_zero c = c'
  rw [bigSep_tasks (F := F) (fun s => goA tb ix d (crd c' s)), bigSep_tasks (F := F) (fun s => tdA tb ix d (crd c' s))]
  unfold stA dnA goA tdA
  simp only [qTile_crd]
  rw [bigSep_sep', bigSep_sep', bigSep_sep', bigSep_sep']
  iintro ⟨Ht, Hi, Ho⟩
  ihave Ht' := (Transfers.pointsTo_toks_split (qCore c'.val) 16) $$ Ht
  icases Ht' with ⟨HtD, HtT⟩
  ihave Hi' := (Transfers.pointsTo_toks_split (qCore c'.val) 16) $$ Hi
  icases Hi' with ⟨HiD, HiT⟩
  imodintro
  isplitl [HtT HiT Ho]
  · isplitl [HtT]; · iexact HtT
    isplitl [HiT]; · iexact HiT
    iexact Ho
  iintro ⟨HtT, HiT, Ho⟩
  isplitl [HtD HtT]
  · iapply (Transfers.pointsTo_toks_join (qCore c'.val) 16)
    isplitl [HtD]; · iexact HtD
    iexact HtT
  isplitl [HiD HiT]
  · iapply (Transfers.pointsTo_toks_join (qCore c'.val) 16)
    isplitl [HiD]; · iexact HiD
    iexact HiT
  iexact Ho

theorem halves {ℓ : Loc nD τ sig} (f : Buf (Elt F) ℓ) :
    (ℓ ↦{fullShare} f : sProp 𝕄) ⊣⊢ iprop((ℓ ↦{qCore 0} f) ∗ ℓ ↦{qCore 1} f) :=
  pointsTo_share (PosShare.mem_left_op_right fullShare)

omit [FloatOps F] in
theorem blocks_exists (d : Dev nD) (c : Fin 2) (f : Buf (Elt F) (oLoc d)) :
    (bigSep Finset.univ fun s : Fin 16 => (oLoc d ↦[oSet (crd c s)]{fullShare} f : sProp 𝕄))
      ⊢ bigSep Finset.univ fun s : Fin 16 => iprop(∃ g, oLoc d ↦[oSet (crd c s)]{fullShare} g) :=
  bigSep_mono fun s _ => exists_intro (Φ := fun g => (oLoc d ↦[oSet (crd c s)]{fullShare} g : sProp 𝕄)) f

/-- What @main gives at the call: the table, the index array and the result, whole. -/
theorem st0_intro (d : Dev nD) :
    iprop((tLoc d ↦{fullShare} tb d) ∗ (iLoc d ↦{fullShare} ix d) ∗ ∃ f, oLoc d ↦{fullShare} f)
      ⊢ (bigSep Finset.univ fun c : Fin ((K (F := F)).nCore 0) => (P tb ix).st 0 d c : sProp 𝕄) := by
  show _ ⊢ (bigSep Finset.univ fun c : Fin ((K (F := F)).nCore 0) => stA tb ix d (Fin.cast nCore_zero c) : sProp 𝕄)
  rw [bigSep_cores (F := F) (fun c => stA tb ix d c), bigSep_univ_two]
  unfold stA
  iintro ⟨Ht, Hi, %f, Ho⟩
  ihave Ht' := (halves (tb d)).1 $$ Ht
  icases Ht' with ⟨Ht0, Ht1⟩
  ihave Hi' := (halves (ix d)).1 $$ Hi
  icases Hi' with ⟨Hi0, Hi1⟩
  ihave Ho' := (Entails.of_eq ((oPts_blocks d f).trans (bigSep_univ_two _))) $$ Ho
  icases Ho' with ⟨Ho0, Ho1⟩
  isplitl [Ht0 Hi0 Ho0]
  · isplitl [Ht0]; · iexact Ht0
    isplitl [Hi0]; · iexact Hi0
    iapply (blocks_exists d 0 f); iexact Ho0
  · isplitl [Ht1]; · iexact Ht1
    isplitl [Hi1]; · iexact Hi1
    iapply (blocks_exists d 1 f); iexact Ho1

/-- What @main gets back: the same, the result at the gathered array. -/
theorem dn0_elim (d : Dev nD) :
    (bigSep Finset.univ fun c : Fin ((K (F := F)).nCore 0) => (P tb ix).dn 0 d c : sProp 𝕄)
      ⊢ iprop((tLoc d ↦{fullShare} tb d) ∗ (iLoc d ↦{fullShare} ix d) ∗ oLoc d ↦{fullShare} gath tb ix d) := by
  show (bigSep Finset.univ fun c : Fin ((K (F := F)).nCore 0) => dnA tb ix d (Fin.cast nCore_zero c) : sProp 𝕄) ⊢ _
  rw [bigSep_cores (F := F) (fun c => dnA tb ix d c), bigSep_univ_two]
  unfold dnA
  iintro ⟨⟨Ht0, Hi0, Ho0⟩, Ht1, Hi1, Ho1⟩
  isplitl [Ht0 Ht1]
  · iapply (halves (tb d)).2; isplitl [Ht0]; · iexact Ht0
    iexact Ht1
  isplitl [Hi0 Hi1]
  · iapply (halves (ix d)).2; isplitl [Hi0]; · iexact Hi0
    iexact Hi1
  iapply (Entails.of_eq ((oPts_blocks d (gath tb ix d)).trans (bigSep_univ_two _)).symm)
  isplitl [Ho0]; · iexact Ho0
  iexact Ho1

omit [FloatOps F] in
theorem bigSep_emp' {I : Type} (s : Finset I) : (bigSep s fun _ => iprop(emp)) = (iprop(emp) : sProp 𝕄) := bigSep_emp_const s

/-- The kernel's proof consumes nothing of the launch's. -/
theorem Px_all : (bigSep Finset.univ fun thr : Thread nD τ => bigSep Finset.univ fun q : Fin 1 => (P (F := F) tb ix).x q thr) = (iprop(emp) : sProp 𝕄) := by
  show (bigSep Finset.univ fun _ : Thread nD τ => bigSep Finset.univ fun _ : Fin 1 => (iprop(emp) : sProp 𝕄)) = _
  rw [bigSep_congr fun _ _ => bigSep_emp' (F := F) _, bigSep_emp']

end Split

end Cert.Kernel.Sc

end
-- ==== Proof.ValSpec.lean ====
/-
  The specification of the captioning network, index by index, over the extended reals.

  Inputs: image features `[16, 64]`, caption tokens `[16, 20]` (32-bit words), an embedding table `[100000, 64]`,
  the recurrent cell's weights `W_ih : [2048, 64]`, `W_hh : [2048, 512]` and biases `b_ih, b_hh : [2048]`, and the
  output layer `W_fc : [100000, 512]`, `b_fc : [100000]`.

  * The cell's input for sequence position `b` (16 of them) and row `t` (21 of them): row 0 is the features' row `b`,
    row `t + 1` is the table's row named by token `(b, t)` (read signed, clamped into the table).
  * One trip of the cell on states `h, c : [21, 512]`: the four gate pre-activations are
    `x · W_ihᵀ + h · W_hhᵀ + (b_ih + b_hh)` (columns 0–511 input gate, 512–1023 forget gate, 1024–1535 cell candidate,
    1536–2047 output gate), `c' = σ(f) · c + σ(i) · tanh(g)`, `h' = σ(o) · tanh(c')`. Each row `t` of the new state reads
    only row `t` of the old one.
  * The states after `k` trips, from zero states, by recursion on `k`; trip `k` reads the input of position `k`.
  * The result at `(b, t, v)`: `∑ l, h_{b+1}(t, l) · W_fc(v, l) + b_fc(v)`.
-/
import Idealize.ShloMosaic.Lib.ValueIdx
import Idealize.ShloMosaic.PureOps.Ideal.Laws

noncomputable section

open scoped BigOperators

namespace Cert.Proof.Val

open Idealize.ShloMosaic Idealize.ShloMosaic.ValueIdx

/-- The nine argument arrays, as functions of their literal index types. -/
structure Args where
  feat : (⟨2, ![16, 64]⟩ : Shape).Idx → EReal
  cap : (⟨2, ![16, 20]⟩ : Shape).Idx → BitVec 32
  tab : (⟨2, ![100000, 64]⟩ : Shape).Idx → EReal
  wih : (⟨2, ![2048, 64]⟩ : Shape).Idx → EReal
  whh : (⟨2, ![2048, 512]⟩ : Shape).Idx → EReal
  bih : (⟨1, ![2048]⟩ : Shape).Idx → EReal
  bhh : (⟨1, ![2048]⟩ : Shape).Idx → EReal
  wfc : (⟨2, ![100000, 512]⟩ : Shape).Idx → EReal
  bfc : (⟨1, ![100000]⟩ : Shape).Idx → EReal

/-- A state of the cell: 21 rows of 512 entries. -/
abbrev St : Type := Fin 21 → Fin 512 → EReal

/-- The table row token `(b, t)` names: the word read signed and clamped into `[0, 99999]`. -/
def tok (A : Args) (b : Fin 16) (t : Fin 20) : Fin 100000 :=
  ⟨min (A.cap (ix2 b t)).toInt.toNat 99999, by omega⟩

/-- The cell's input at position `b`, row `t`: the features' row for `t = 0`, else the embedding of token `(b, t - 1)`. -/
def xin (A : Args) (b : Fin 16) (t : Fin 21) (e : Fin 64) : EReal :=
  if t.val = 0 then A.feat (ix2 b e) else A.tab (ix2 (tok A b ⟨t.val - 1, by omega⟩) e)

/-- The input of trip `k` (zero past the sixteen positions, which no trip reads). -/
def xrow (A : Args) (k : ℕ) (t : Fin 21) (e : Fin 64) : EReal :=
  if h : k < 16 then xin A ⟨k, h⟩ t e else 0

/-- Gate pre-activation `n` of row `t`: `x · W_ihᵀ + h · W_hhᵀ + (b_ih + b_hh)`. -/
def gate (A : Args) (x : Fin 21 → Fin 64 → EReal) (h : St) (t : Fin 21) (n : Fin 2048) : EReal :=
  ((∑ e : Fin 64, x t e * A.wih (ix2 n e)) + ∑ l : Fin 512, h t l * A.whh (ix2 n l))
    + (A.bih (ix1 n) + A.bhh (ix1 n))

/-- The new cell state: `σ(f) · c + σ(i) · tanh(g)`. -/
def cellC (A : Args) (x : Fin 21 → Fin 64 → EReal) (h c : St) : St := fun t j =>
  Ideal.logistic (gate A x h t ⟨j.val + 512, by omega⟩) * c t j
    + Ideal.logistic (gate A x h t ⟨j.val, by omega⟩) * Ideal.tanh (gate A x h t ⟨j.val + 1024, by omega⟩)

/-- The new hidden state: `σ(o) · tanh(c')`. -/
def cellH (A : Args) (x : Fin 21 → Fin 64 → EReal) (h c : St) : St := fun t j =>
  Ideal.logistic (gate A x h t ⟨j.val + 1536, by omega⟩) * Ideal.tanh (cellC A x h c t j)

/-- The states `(h, c)` after `k` trips, from zero states. -/
def lstm (A : Args) : ℕ → St × St
  | 0 => (fun _ _ => 0, fun _ _ => 0)
  | k + 1 => (cellH A (xrow A k) (lstm A k).1 (lstm A k).2, cellC A (xrow A k) (lstm A k).1 (lstm A k).2)

theorem lstm_zero (A : Args) : lstm A 0 = (fun _ _ => 0, fun _ _ => 0) := rfl

theorem lstm_succ (A : Args) (k : ℕ) :
    lstm A (k + 1) = (cellH A (xrow A k) (lstm A k).1 (lstm A k).2, cellC A (xrow A k) (lstm A k).1 (lstm A k).2) := rfl

/-- The hidden state position `b` emits: the one after `b + 1` trips. -/
def hid (A : Args) (b : Fin 16) : St := (lstm A (b.val + 1)).1

/-- The result at `(b, t, v)`. -/
def outAt (A : Args) (b : Fin 16) (t : Fin 21) (v : Fin 100000) : EReal :=
  (∑ l : Fin 512, hid A b t l * A.wfc (ix2 v l)) + A.bfc (ix1 v)

/-- THE SPECIFICATION: the result array `[16, 21, 100000]` as a function of the nine arguments. -/
def G (A : Args) : (⟨3, ![16, 21, 100000]⟩ : Shape).Idx → EReal := fun i => outAt A (i 0) (i 1) (i 2)

theorem G_ix3 (A : Args) (b : Fin 16) (t : Fin 21) (v : Fin 100000) : G A (ix3 b t v) = outAt A b t v := rfl

/-- Under the tokens' range, the clamp does nothing: the row named is the word's own number. -/
theorem tok_val (A : Args) (b : Fin 16) (t : Fin 20)
    (h0 : 0 ≤ (A.cap (ix2 b t)).toInt) (h1 : (A.cap (ix2 b t)).toInt ≤ 99999) :
    (tok A b t).val = (A.cap (ix2 b t)).toNat := by
  have e : (A.cap (ix2 b t)).toInt = ((A.cap (ix2 b t)).toNat : Int) := by
    rw [BitVec.toInt_eq_toNat_cond]
    split
    · rfl
    · rename_i hh
      exfalso
      rw [BitVec.toInt_eq_toNat_cond, if_neg hh] at h0
      have := (A.cap (ix2 b t)).isLt
      omega
  show min (A.cap (ix2 b t)).toInt.toNat 99999 = _
  rw [e] at h1 ⊢
  simp only [Int.toNat_natCast]
  omega

end Cert.Proof.Val

end
-- ==== Proof.ValLayout.lean ====
/-
  The network's input layout, for any element type: one `[16, 64]` array put in front of a `[16, 20, 64]` array along the middle
  axis. Read at `(b, t, e)`: row `t = 0` is the first array's `(b, e)`, row `t ≥ 1` is the second's `(b, t − 1, e)`.
-/
import Idealize.ShloMosaic.Lib.ValueIdx
import Idealize.ShloMosaic.Lib.ValueLayout
import Idealize.ShloMosaic.Lib.Pipeline.Value

noncomputable section

namespace Cert.Proof.Val

open Idealize.ShloMosaic Idealize.ShloMosaic.ValueIdx

/-- The concatenation of the features (given a unit middle axis) and the 20 embedded rows, at `(b, t, e)`. -/
theorem concat_head_rows_apply {α : Type} (feat : (⟨2, ![16, 64]⟩ : Shape).Idx → α) (E : (⟨3, ![16, 20, 64]⟩ : Shape).Idx → α)
    (hb : (⟨2, ![16, 64]⟩ : Shape).BroadcastsInDim ⟨3, ![16, 1, 64]⟩ ![0, 2])
    (hc : Shape.Concatenates [(⟨3, ![16, 1, 64]⟩ : Shape), ⟨3, ![16, 20, 64]⟩] ⟨3, ![16, 21, 64]⟩ 1)
    (b : Fin 16) (t : Fin 21) (e : Fin 64) :
    concatenate ⟨3, ![16, 21, 64]⟩ 1 [⟨⟨3, ![16, 1, 64]⟩, broadcastInDim ⟨3, ![16, 1, 64]⟩ ![0, 2] hb feat⟩, ⟨⟨3, ![16, 20, 64]⟩, E⟩] hc
        (ix3 b t e)
      = if h : t.val = 0 then feat (ix2 b e) else E (ix3 b (⟨t.val - 1, by omega⟩ : Fin 20) e) := by
  by_cases h : t.val = 0
  · rw [dif_pos h]
    refine (concatenate_pair_apply_left (t := ⟨3, ![16, 21, 64]⟩) (s₁ := ⟨3, ![16, 1, 64]⟩) (s₂ := ⟨3, ![16, 20, 64]⟩) (1 : Fin 3) _ _ hc (ix3 b t e) rfl (ix3 b (0 : Fin 1) e) (fun a => ?_)).trans ?_
    · match a with
      | ⟨0, _⟩ => rfl
      | ⟨1, _⟩ => exact h.symm
      | ⟨2, _⟩ => rfl
    · refine broadcastInDim_apply _ hb feat (ix3 b (0 : Fin 1) e) (ix2 b e) fun a => ?_
      match a with
      | ⟨0, _⟩ => show b.val = if (16 : ℕ) = 1 then 0 else b.val; simp
      | ⟨1, _⟩ => show e.val = if (64 : ℕ) = 1 then 0 else e.val; simp
  · rw [dif_neg h]
    refine concatenate_pair_apply_right (t := ⟨3, ![16, 21, 64]⟩) (s₁ := ⟨3, ![16, 1, 64]⟩) (s₂ := ⟨3, ![16, 20, 64]⟩) (1 : Fin 3) _ _ hc (ix3 b t e) rfl rfl (ix3 b (⟨t.val - 1, by omega⟩ : Fin 20) e)
      (fun a ha => ?_) ?_
    · match a with
      | ⟨0, _⟩ => rfl
      | ⟨1, _⟩ => exact absurd rfl ha
      | ⟨2, _⟩ => rfl
    · show (t.val - 1) + 1 = t.val
      omega

end Cert.Proof.Val

end
-- ==== Proof.ValRefX.lean ====
/-
  The reference's input array: `jnp.take` of the embedding table at the tokens, with the features in front.

  `jnp.take` lowers to: wrap a negative token by the table's length, gather the row (the start clamped into the table), and keep
  the gathered row only where the wrapped token is in `[0, 99999]` (else a NaN). Under the tokens' range `0 ≤ token ≤ 99999` the
  wrap does nothing, the mask is 1 everywhere, and the result row is the table's row of that number.
-/
import proofs.«203981_g87385404604482_cont_9to1_m_1030_24_alg».proof.Proof.Gen.ReferenceIdeal
import proofs.«203981_g87385404604482_cont_9to1_m_1030_24_alg».proof.Proof.ValSpec
import proofs.«203981_g87385404604482_cont_9to1_m_1030_24_alg».proof.Proof.ValLayout
import Idealize.ShloMosaic.Lib.ReduceAll
import Idealize.ShloMosaic.Lib.DynamicIndex
import Idealize.ShloMosaic.Lib.IdealHost

noncomputable section

namespace Cert.Proof.Val

open Idealize.ShloMosaic Idealize.ShloMosaic.ValueIdx Cert.ReferenceIdeal Cert.ReferenceIdeal.Gen

/-- A left fold by `and` over one-bit words that are all 1, from 1, is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hf => foldl_andi_ones f l _ (by
        subst h
        show IntOp.andi 1#1 (f a) = 1#1
        rw [hf a (List.mem_cons_self ..)]
        rfl)
      (fun n hn => hf n (List.mem_cons_of_mem _ hn))

/-- The tokens, a negative one wrapped by the table's length, with a trailing unit axis. -/
def refIdx (cap : IVec S16x20 32) : IVec S16x20x1 32 :=
  broadcastInDim S16x20x1 ![0, 1] bcast_S16x20_S16x20x1_0_1 (select (cmpi .slt cap (broadcastInDim S16x20 ![] bcast_S_S16x20 (constantI S_ 32 0#32))) (addi cap (broadcastInDim S16x20 ![] bcast_S_S16x20 (constantI S_ 32 100000#32))) cap)

/-- A token that is not negative is not wrapped. -/
theorem refIdx_apply (cap : IVec S16x20 32) (b : Fin 16) (t : Fin 20) (h0 : 0 ≤ (cap (ix2 b t)).toInt) :
    refIdx cap (ix3 b t (0 : Fin 1)) = cap (ix2 b t) := by
  unfold refIdx
  refine (broadcastInDim_apply _ _ _ (ix3 b t (0 : Fin 1)) (ix2 b t) (fun a => ?_)).trans ?_
  · match a with
    | ⟨0, _⟩ => show b.val = if (16 : ℕ) = 1 then 0 else b.val; simp
    | ⟨1, _⟩ => show t.val = if (20 : ℕ) = 1 then 0 else t.val; simp
  · show Scalar.select (IntOp.cmpi .slt (cap (ix2 b t)) (0#32)) _ _ = _
    have hc : IntOp.cmpi .slt (cap (ix2 b t)) (0#32) = 0#1 := eq_zero_of_ne_one (fun h => by
      have := IntOp.cmpi_slt.mp h
      rw [BitVec.toInt_zero] at this
      omega)
    rw [hc, select_zero]

/-- Where the wrapped token is in `[0, 99999]`, reduced over the trailing unit axis. -/
def refMask (cap : IVec S16x20 32) : IVec S16x20 1 :=
  Host.reduce IntOp.andi (andi (cmpi .sge (refIdx cap) (broadcastInDim S16x20x1 ![] bcast_S_S16x20x1 (constantI S_ 32 0#32))) (cmpi .sle (refIdx cap) (broadcastInDim S16x20x1 ![0, 1, 2] bcast_S1x1x1_S16x20x1_0_1_2 (broadcastInDim S1x1x1 ![2] bcast_S1_S1x1x1_2 (constantI S1 32 99999#32))))) (constantI S_ 1 1#1) reducesTo_S16x20x1_S16x20_d2 h_S_

/-- Under the tokens' range the mask is 1 everywhere. -/
theorem refMask_apply (cap : IVec S16x20 32)
    (hcap : ∀ (b : Fin 16) (t : Fin 20), 0 ≤ (cap (ix2 b t)).toInt ∧ (cap (ix2 b t)).toInt ≤ 99999) (j : S16x20.Idx) :
    refMask cap j = 1#1 := by
  unfold refMask
  rw [Host.reduce_eq_foldl]
  refine foldl_andi_ones _ _ _ rfl fun i _ => ?_
  obtain ⟨b, t, u, rfl⟩ : ∃ (b : Fin 16) (t : Fin 20) (u : Fin 1), i = ix3 b t u := ⟨i 0, i 1, i 2, eq_ix3 i⟩
  obtain rfl : u = 0 := Subsingleton.elim _ _
  show IntOp.andi (IntOp.cmpi .sge (refIdx cap (ix3 b t (0 : Fin 1))) (0#32))
    (IntOp.cmpi .sle (refIdx cap (ix3 b t (0 : Fin 1))) (99999#32)) = 1#1
  rw [refIdx_apply cap b t (hcap b t).1]
  refine IntOp.andi_eq_one.mpr ⟨IntOp.cmpi_sge.mpr ?_, IntOp.cmpi_sle.mpr ?_⟩
  · rw [BitVec.toInt_zero]; exact (hcap b t).1
  · rw [show (99999#32 : BitVec 32).toInt = 99999 by decide]; exact (hcap b t).2

/-- The gather of table rows at start indices `[16, 20, 1]`, at `(b, t, e)`: the table's row named by the start index read signed
    and clamped into the table, column `e`. -/
theorem ref_gather_apply {α : Type} (tab : S100000x64.Idx → α) (idx : IVec S16x20x1 32) (b : Fin 16) (t : Fin 20) (e : Fin 64) :
    Host.gather gather_S100000x64_S16x20x1_S16x20x64_2_0_n_n_0_2_164 tab idx (ix3 b t e)
      = tab (ix2 (⟨min (idx (ix3 b t (0 : Fin 1))).toInt.toNat 99999, by omega⟩ : Fin 100000) e) := by
  unfold Host.gather
  congr 1
  funext a
  refine Fin.ext ?_
  match a with
  | ⟨0, _⟩ =>
    show gather_S100000x64_S16x20x1_S16x20x64_2_0_n_n_0_2_164.start (ix3 b t e) idx 0
      + gather_S100000x64_S16x20x1_S16x20x64_2_0_n_n_0_2_164.batchCoord (ix3 b t e) 0
      + gather_S100000x64_S16x20x1_S16x20x64_2_0_n_n_0_2_164.offCoord (ix3 b t e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S16x20x1_S16x20x64_2_0_n_n_0_2_164.startIndexMap from List.mem_singleton.mpr rfl)]
    have hsi : gather_S100000x64_S16x20x1_S16x20x64_2_0_n_n_0_2_164.siIdx (ix3 b t e)
        ⟨List.idxOf (0 : Fin 2) gather_S100000x64_S16x20x1_S16x20x64_2_0_n_n_0_2_164.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S100000x64_S16x20x1_S16x20x64_2_0_n_n_0_2_164.start (ix3 b t e) idx 1
      + gather_S100000x64_S16x20x1_S16x20x64_2_0_n_n_0_2_164.batchCoord (ix3 b t e) 1
      + gather_S100000x64_S16x20x1_S16x20x64_2_0_n_n_0_2_164.offCoord (ix3 b t e) 1 = e.val
    rw [GatherDims.batchCoord_eq_zero _ _ _ List.not_mem_nil]
    unfold GatherDims.start
    rw [dif_neg (show (1 : Fin 2) ∉ gather_S100000x64_S16x20x1_S16x20x64_2_0_n_n_0_2_164.startIndexMap by decide)]
    simp only [Nat.add_zero, Nat.zero_add]
    rfl

/-- `jnp.take` of the table at the tokens. -/
def refTake (cap : IVec S16x20 32) (tab : FVec Ideal S100000x64 .f32) : FVec Ideal S16x20x64 .f32 :=
  select (broadcastInDim S16x20x64 ![0, 1] bcast_S16x20_S16x20x64_0_1 (refMask cap)) (Host.gather gather_S100000x64_S16x20x1_S16x20x64_2_0_n_n_0_2_164 tab (refIdx cap)) (broadcastInDim S16x20x64 ![] bcast_S_S16x20x64 (constant (F := Ideal) S_ .f32 0x7FC00000#32))

/-- Under the tokens' range, `jnp.take` at `(b, t, e)` is the table's row of token `(b, t)`. -/
theorem refTake_apply (cap : IVec S16x20 32) (tab : FVec Ideal S100000x64 .f32)
    (hcap : ∀ (b : Fin 16) (t : Fin 20), 0 ≤ (cap (ix2 b t)).toInt ∧ (cap (ix2 b t)).toInt ≤ 99999)
    (b : Fin 16) (t : Fin 20) (e : Fin 64) :
    refTake cap tab (ix3 b t e) = tab (ix2 (⟨min (cap (ix2 b t)).toInt.toNat 99999, by omega⟩ : Fin 100000) e) := by
  unfold refTake
  have hm : broadcastInDim S16x20x64 ![0, 1] bcast_S16x20_S16x20x64_0_1 (refMask cap) (ix3 b t e) = 1#1 :=
    (broadcastInDim_apply _ _ _ (ix3 b t e) (ix2 b t) (fun a => by
      match a with
      | ⟨0, _⟩ => show b.val = if (16 : ℕ) = 1 then 0 else b.val; simp
      | ⟨1, _⟩ => show t.val = if (20 : ℕ) = 1 then 0 else t.val; simp)).trans (refMask_apply cap hcap _)
  rw [select_apply, hm, select_one, ref_gather_apply]
  simp only [refIdx_apply cap b t (hcap b t).1]

/-- The reference's input array `[16, 21, 64]`: the features in front of the embedded tokens. -/
def refX (feat : FVec Ideal S16x64 .f32) (cap : IVec S16x20 32) (tab : FVec Ideal S100000x64 .f32) : FVec Ideal S16x21x64 .f32 :=
  concatenate S16x21x64 1 [⟨S16x1x64, broadcastInDim S16x1x64 ![0, 2] bcast_S16x64_S16x1x64_0_2 feat⟩, ⟨S16x20x64, refTake cap tab⟩] concatenates_S16x1x64_S16x20x64_S16x21x64_d1

/-- Under the tokens' range the reference's input array is the specification's. -/
theorem refX_apply (A : Args)
    (hcap : ∀ (b : Fin 16) (t : Fin 20), 0 ≤ (A.cap (ix2 b t)).toInt ∧ (A.cap (ix2 b t)).toInt ≤ 99999)
    (b : Fin 16) (t : Fin 21) (e : Fin 64) :
    refX A.feat A.cap A.tab (ix3 b t e) = xin A b t e := by
  unfold refX xin
  rw [concat_head_rows_apply]
  by_cases h : t.val = 0
  · rw [dif_pos h, if_pos h]
  · rw [dif_neg h, if_neg h, refTake_apply A.cap A.tab hcap]
    rfl

end Cert.Proof.Val

end
-- ==== Proof.ValRefEntry0.lean ====
/-
  The reference's loop entry: the input array. The operations before the loop (`jnp.take` of the table at the tokens, the
  features put in front) leave, in the loop's first carried buffer, the take-and-concatenate term of the three arguments.
-/
import proofs.«203981_g87385404604482_cont_9to1_m_1030_24_alg».proof.Proof.RefRunGen2
import proofs.«203981_g87385404604482_cont_9to1_m_1030_24_alg».proof.Proof.ValRefX

noncomputable section

open scoped BigOperators

namespace Cert.Proof.Val

open Idealize.ShloMosaic Idealize.ShloMosaic.ValueIdx Idealize.ShloMosaic.TcCoe Idealize.ShloMosaic.Tactic
open Idealize.ShloMosaic.StableHlo
open Idealize.SL Idealize.SL.Sem
open Cert.ReferenceIdeal Cert.ReferenceIdeal.Gen Cert.ReferenceIdeal.GenP Cert.ReferenceIdeal.ValueP

variable (m : (ℓ : Loc nD τ sig) → Buf (Elt Ideal) ℓ) (c : Dev nD)

/-- The nine arguments as the reference's memory holds them. -/
def refArgs : Args where
  feat := m ((c.tc : Thread nD τ).loc main_arg0)
  cap := m ((c.tc : Thread nD τ).loc main_arg1)
  tab := m ((c.tc : Thread nD τ).loc main_arg2)
  wih := m ((c.tc : Thread nD τ).loc main_arg3)
  whh := m ((c.tc : Thread nD τ).loc main_arg4)
  bih := m ((c.tc : Thread nD τ).loc main_arg5)
  bhh := m ((c.tc : Thread nD τ).loc main_arg6)
  wfc := m ((c.tc : Thread nD τ).loc main_arg7)
  bfc := m ((c.tc : Thread nD τ).loc main_arg8)

set_option maxRecDepth 100000 in
set_option maxHeartbeats 4000000 in
/-- At the loop's entry the first carried buffer holds the reference's input array. -/
theorem entry_v6_0 : entryContents preI m c (Proc.devRef .tc main_v6_0)
    = refX (refArgs m c).feat (refArgs m c).cap (refArgs m c).tab := by
  unfold refX refTake refMask refIdx
  simp only [entryContents, afterL_cons, afterL_nil]
  after_results_simp
  all_goals rfl

end Cert.Proof.Val

end
-- ==== Proof.ValRefEntry.lean ====
/-
  The reference's loop entry: the other carried buffers. The weights and biases are the arguments; the counter is zero (the
  generated run states that); the two states and the stack of hidden states are zero splats.
-/
import proofs.«203981_g87385404604482_cont_9to1_m_1030_24_alg».proof.Proof.ValRefEntry0
import Idealize.ShloMosaic.Lib.IdealHost

noncomputable section

open scoped BigOperators

namespace Cert.Proof.Val

open Idealize.ShloMosaic Idealize.ShloMosaic.ValueIdx Idealize.ShloMosaic.TcCoe Idealize.ShloMosaic.Tactic
open Idealize.ShloMosaic.StableHlo
open Idealize.SL Idealize.SL.Sem
open Cert.ReferenceIdeal Cert.ReferenceIdeal.Gen Cert.ReferenceIdeal.GenP Cert.ReferenceIdeal.ValueP

variable (m : (ℓ : Loc nD τ sig) → Buf (Elt Ideal) ℓ) (c : Dev nD)

set_option maxRecDepth 100000 in
set_option maxHeartbeats 4000000 in
theorem entry_v6_1 : entryContents preI m c (Proc.devRef .tc main_v6_1) = (refArgs m c).wih := by
  unfold refArgs
  simp only [entryContents, afterL_cons, afterL_nil]
  after_results_simp
  all_goals rfl

set_option maxRecDepth 100000 in
set_option maxHeartbeats 4000000 in
theorem entry_v6_2 : entryContents preI m c (Proc.devRef .tc main_v6_2) = (refArgs m c).whh := by
  unfold refArgs
  simp only [entryContents, afterL_cons, afterL_nil]
  after_results_simp
  all_goals rfl

set_option maxRecDepth 100000 in
set_option maxHeartbeats 4000000 in
theorem entry_v6_3 : entryContents preI m c (Proc.devRef .tc main_v6_3) = (refArgs m c).bih := by
  unfold refArgs
  simp only [entryContents, afterL_cons, afterL_nil]
  after_results_simp
  all_goals rfl

set_option maxRecDepth 100000 in
set_option maxHeartbeats 4000000 in
theorem entry_v6_4 : entryContents preI m c (Proc.devRef .tc main_v6_4) = (refArgs m c).bhh := by
  unfold refArgs
  simp only [entryContents, afterL_cons, afterL_nil]
  after_results_simp
  all_goals rfl

set_option maxRecDepth 100000 in
set_option maxHeartbeats 4000000 in
theorem entry_v6_6 : entryContents preI m c (Proc.devRef .tc main_v6_6)
    = broadcastInDim S21x512 ![] bcast_S_S21x512 (constant (F := Ideal) S_ .f32 0x00000000#32) := by
  simp only [entryContents, afterL_cons, afterL_nil]
  after_results_simp
  all_goals rfl

set_option maxRecDepth 100000 in
set_option maxHeartbeats 4000000 in
theorem entry_v6_7 : entryContents preI m c (Proc.devRef .tc main_v6_7)
    = broadcastInDim S21x512 ![] bcast_S_S21x512 (constant (F := Ideal) S_ .f32 0x00000000#32) := by
  simp only [entryContents, afterL_cons, afterL_nil]
  after_results_simp
  all_goals rfl

set_option maxRecDepth 100000 in
set_option maxHeartbeats 4000000 in
theorem entry_v6_8 : entryContents preI m c (Proc.devRef .tc main_v6_8)
    = broadcastInDim S16x21x512 ![] bcast_S_S16x21x512 (constant (F := Ideal) S_ .f32 0x00000000#32) := by
  simp only [entryContents, afterL_cons, afterL_nil]
  after_results_simp
  all_goals rfl

/-- A zero splat reads zero. -/
theorem zeroSplat_apply {T : Shape} (h : (⟨0, ![]⟩ : Shape).BroadcastsInDim T ![]) (i : T.Idx) :
    broadcastInDim T ![] h (constant (F := Ideal) S_ .f32 0x00000000#32) i = 0 :=
  (broadcastInDim_scalar_apply h _ i).trans Ideal.ofBits_zero_f32

end Cert.Proof.Val

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.ValRefOps.lean ====
/-
  The reference's host operations read at an index, at the exact (extended-real) instance, over variables.

  * The host's logistic, spelt `1 / (1 + exp (−y))` with splat constants, is the instance's logistic at every index.
  * The gate pre-activations: the `dot_general`s against the transposed weights are the plain sums `∑ e, x(t,e) · W(n,e)`; the
    input block is the dynamic slice of the `[16, 21, 64]` input at the trip counter, which is in range, so it is position
    `k`'s rows; the two bias rows are added one after the other, which is the sum with the biases grouped first (addition of
    extended reals is associative).
  * The dynamic update at the trip counter writes position `k`'s `[21, 512]` block and leaves the others.
  * The output layer: the rank-3 `dot_general` against the transposed weights, plus the bias spread over positions and rows.
-/
import proofs.«203981_g87385404604482_cont_9to1_m_1030_24_alg».proof.Proof.Gen.ReferenceIdeal
import proofs.«203981_g87385404604482_cont_9to1_m_1030_24_alg».proof.Proof.LibIdealLayout
import proofs.«203981_g87385404604482_cont_9to1_m_1030_24_alg».proof.Proof.ValSpec
import Idealize.ShloMosaic.Lib.ValueLayout
import Idealize.ShloMosaic.Lib.Pipeline.Value
import Idealize.ShloMosaic.Lib.StackMember
import Idealize.ShloMosaic.Lib.DynamicIndex
import Idealize.ShloMosaic.Lib.IdealHost

noncomputable section

open scoped BigOperators

namespace Cert.Proof.Val

open Idealize.ShloMosaic Idealize.ShloMosaic.ValueIdx Cert.ReferenceIdeal Cert.ReferenceIdeal.Gen

/-- The host's `1 / (1 + exp (−y))` over `[21, 512]` is the logistic of the entry. -/
theorem ref_sigmoid_apply (Y : FVec Ideal S21x512 .f32) (i : S21x512.Idx) :
    Host.divf (broadcastInDim S21x512 ![] bcast_S_S21x512 (constant (F := Ideal) S_ .f32 0x3F800000#32))
      (addf (broadcastInDim S21x512 ![] bcast_S_S21x512 (constant (F := Ideal) S_ .f32 0x3F800000#32)) (Host.exp (Host.negf Y))) i
      = Ideal.logistic (Y i) := by
  show Ideal.div (Ideal.ofBits .f32 0x3F800000#32) (Ideal.ofBits .f32 0x3F800000#32 + Ideal.exp (-(Y i))) = _
  rw [Ideal.ofBits_one_f32]
  rfl

/-- The start of the dynamic slice or update at the trip counter `k`: `(k, 0, 0)`. -/
theorem ref_start (ctr : IVec S_ 32) (k : ℕ) (hctr : ∀ i, (ctr i).toInt = (k : Int)) (a : Fin 3) :
    (((![ctr, constantI S_ 32 0#32, constantI S_ 32 0#32] : Fin 3 → IVec S_ 32)) a (Shape.Idx.first h_S_)).toInt
      = ((![k, 0, 0] : Fin 3 → ℕ) a : Int) := by
  fin_cases a
  · exact hctr _
  · rfl
  · rfl

/-- The gate pre-activations at `(t, n)`, at trip counter `k < 16`. -/
theorem ref_gate_apply (X : FVec Ideal S16x21x64 .f32) (ctr : IVec S_ 32) (wih : FVec Ideal S2048x64 .f32)
    (whh : FVec Ideal S2048x512 .f32) (bih bhh : FVec Ideal S2048 .f32) (h : FVec Ideal S21x512 .f32)
    (k : ℕ) (hk : k < 16) (hctr : ∀ i, (ctr i).toInt = (k : Int)) (t : Fin 21) (n : Fin 2048) :
    addf (addf (addf (Host.dotGeneral dot_S21x64_S64x2048_S21x2048_1_0_0_1_n_n none (shapeCast S21x64 (Host.dynamicSlice S1x21x64 X (fun a => (((![ctr, constantI S_ 32 0#32, constantI S_ 32 0#32] : Fin 3 → IVec S_ 32)) a (Shape.Idx.first h_S_)).toInt) sliceFits_S16x21x64_S1x21x64) shapeCasts_S1x21x64_S21x64) (transpose S64x2048 [1, 0] wih transposes_S2048x64_S64x2048_1_0)) (Host.dotGeneral dot_S21x512_S512x2048_S21x2048_1_0_0_1_n_n none h (transpose S512x2048 [1, 0] whh transposes_S2048x512_S512x2048_1_0))) (broadcastInDim S21x2048 ![0, 1] bcast_S1x2048_S21x2048_0_1 (broadcastInDim S1x2048 ![1] bcast_S2048_S1x2048_1 bih))) (broadcastInDim S21x2048 ![0, 1] bcast_S1x2048_S21x2048_0_1 (broadcastInDim S1x2048 ![1] bcast_S2048_S1x2048_1 bhh)) (ix2 t n)
      = ((∑ e : Fin 64, X (ix3 (⟨k, hk⟩ : Fin 16) t e) * wih (ix2 n e)) + ∑ l : Fin 512, h (ix2 t l) * whh (ix2 n l))
        + (bih (ix1 n) + bhh (ix1 n)) := by
  simp only [addf_apply]
  rw [add_assoc]
  have hoff : S16x21x64.Slices (![k, 0, 0] : Fin 3 → ℕ) S1x21x64 := ⟨rfl, fun a => by
    fin_cases a
    · show k + 1 ≤ 16; omega
    · show 0 + 21 ≤ 21; omega
    · show 0 + 64 ≤ 64; omega⟩
  refine congrArg₂ (· + ·) (congrArg₂ (· + ·) ?_ ?_) (congrArg₂ (· + ·) ?_ ?_)
  · refine (StackMember.dotGeneral_plain_apply (m := 21) (k := 64) (n := 2048) none _ _ t n).trans ?_
    refine Finset.sum_congr rfl fun e _ => congrArg₂ (· * ·) ?_ ?_
    · refine (shapeCast_1ab_ab_apply (a := 21) (b := 64) _ _ t e).trans ?_
      rw [Host.dynamicSlice_eq_extractStridedSlice S1x21x64 X _ (![k, 0, 0] : Fin 3 → ℕ) sliceFits_S16x21x64_S1x21x64 hoff
        (ref_start ctr k hctr)]
      refine extractStridedSlice_apply _ X hoff (ix3 (0 : Fin 1) t e) (ix3 (⟨k, hk⟩ : Fin 16) t e) fun a => ?_
      match a with
      | ⟨0, _⟩ => rfl
      | ⟨1, _⟩ => exact (Nat.zero_add _).symm
      | ⟨2, _⟩ => exact (Nat.zero_add _).symm
    · exact transpose_ix2_apply (a := 2048) (b := 64) wih _ e n
  · refine (StackMember.dotGeneral_plain_apply (m := 21) (k := 512) (n := 2048) none _ _ t n).trans ?_
    refine Finset.sum_congr rfl fun l _ => congrArg₂ (· * ·) rfl ?_
    exact transpose_ix2_apply (a := 2048) (b := 512) whh _ l n
  · exact IdealLayout.broadcastInDim_row_apply (a := 21) (b := 2048) bih _ _ t n
  · exact IdealLayout.broadcastInDim_row_apply (a := 21) (b := 2048) bhh _ _ t n

/-- The new cell state at `(t, j)` from the gate rows `Gt`: `σ(f) · c + σ(i) · tanh(g)`. -/
theorem ref_cellC_apply (Gt : FVec Ideal S21x2048 .f32) (c : FVec Ideal S21x512 .f32) (t : Fin 21) (j : Fin 512) :
    addf (mulf (Host.divf (broadcastInDim S21x512 ![] bcast_S_S21x512 (constant (F := Ideal) S_ .f32 0x3F800000#32)) (addf (broadcastInDim S21x512 ![] bcast_S_S21x512 (constant (F := Ideal) S_ .f32 0x3F800000#32)) (Host.exp (Host.negf (extractStridedSlice S21x512 ![0, 512] Gt slices_S21x2048_S21x512_0_512))))) c) (mulf (Host.divf (broadcastInDim S21x512 ![] bcast_S_S21x512 (constant (F := Ideal) S_ .f32 0x3F800000#32)) (addf (broadcastInDim S21x512 ![] bcast_S_S21x512 (constant (F := Ideal) S_ .f32 0x3F800000#32)) (Host.exp (Host.negf (extractStridedSlice S21x512 ![0, 0] Gt slices_S21x2048_S21x512_0_0))))) (Host.tanh (extractStridedSlice S21x512 ![0, 1024] Gt slices_S21x2048_S21x512_0_1024))) (ix2 t j)
      = Ideal.logistic (Gt (ix2 t (⟨j.val + 512, by omega⟩ : Fin 2048))) * c (ix2 t j)
        + Ideal.logistic (Gt (ix2 t (⟨j.val, by omega⟩ : Fin 2048))) * Ideal.tanh (Gt (ix2 t (⟨j.val + 1024, by omega⟩ : Fin 2048))) := by
  simp only [addf_apply, mulf_apply]
  refine congrArg₂ (· + ·) (congrArg₂ (· * ·) ((ref_sigmoid_apply _ _).trans (congrArg Ideal.logistic ?_)) rfl)
    (congrArg₂ (· * ·) ((ref_sigmoid_apply _ _).trans (congrArg Ideal.logistic ?_)) (congrArg Ideal.tanh ?_))
  · exact slice2_axis1_apply (n0 := 21) (n1 := 2048) (m := 512) 512 _ _ t j _ (Nat.add_comm _ _)
  · exact slice2_axis1_apply (n0 := 21) (n1 := 2048) (m := 512) 0 _ _ t j _ (Nat.zero_add _).symm
  · exact slice2_axis1_apply (n0 := 21) (n1 := 2048) (m := 512) 1024 _ _ t j _ (Nat.add_comm _ _)

/-- The new hidden state at `(t, j)` from the gate rows `Gt` and the new cell state `Cn`: `σ(o) · tanh(c')`. -/
theorem ref_cellH_apply (Gt : FVec Ideal S21x2048 .f32) (Cn : FVec Ideal S21x512 .f32) (t : Fin 21) (j : Fin 512) :
    mulf (Host.divf (broadcastInDim S21x512 ![] bcast_S_S21x512 (constant (F := Ideal) S_ .f32 0x3F800000#32)) (addf (broadcastInDim S21x512 ![] bcast_S_S21x512 (constant (F := Ideal) S_ .f32 0x3F800000#32)) (Host.exp (Host.negf (extractStridedSlice S21x512 ![0, 1536] Gt slices_S21x2048_S21x512_0_1536))))) (Host.tanh Cn) (ix2 t j)
      = Ideal.logistic (Gt (ix2 t (⟨j.val + 1536, by omega⟩ : Fin 2048))) * Ideal.tanh (Cn (ix2 t j)) := by
  simp only [mulf_apply]
  refine congrArg₂ (· * ·) ((ref_sigmoid_apply _ _).trans (congrArg Ideal.logistic ?_)) rfl
  exact slice2_axis1_apply (n0 := 21) (n1 := 2048) (m := 512) 1536 _ _ t j _ (Nat.add_comm _ _)

/-- The dynamic update at trip counter `k < 16`: position `k`'s block becomes `H`, the other positions keep theirs. -/
theorem ref_update_apply (hsOld : FVec Ideal S16x21x512 .f32) (H : FVec Ideal S21x512 .f32) (ctr : IVec S_ 32)
    (k : ℕ) (hk : k < 16) (hctr : ∀ i, (ctr i).toInt = (k : Int)) (b : Fin 16) (t : Fin 21) (j : Fin 512) :
    Host.dynamicUpdateSlice hsOld (broadcastInDim S1x21x512 ![1, 2] bcast_S21x512_S1x21x512_1_2 H) (fun a => (((![ctr, constantI S_ 32 0#32, constantI S_ 32 0#32] : Fin 3 → IVec S_ 32)) a (Shape.Idx.first h_S_)).toInt) updateFits_S16x21x512_S1x21x512 (ix3 b t j)
      = if b.val = k then H (ix2 t j) else hsOld (ix3 b t j) := by
  have hoff : S16x21x512.Slices (![k, 0, 0] : Fin 3 → ℕ) S1x21x512 := ⟨rfl, fun a => by
    fin_cases a
    · show k + 1 ≤ 16; omega
    · show 0 + 21 ≤ 21; omega
    · show 0 + 512 ≤ 512; omega⟩
  rw [Host.dynamicUpdateSlice_eq_updateSlice hsOld _ _ updateFits_S16x21x512_S1x21x512 (![k, 0, 0] : Fin 3 → ℕ) (fun a => by
    rw [ref_start ctr k hctr a]
    fin_cases a
    · show (min (max (k : Int) 0) ((16 - 1 : ℕ) : Int)).toNat = k; omega
    · show (min (max ((0 : ℕ) : Int) 0) ((21 - 21 : ℕ) : Int)).toNat = 0; omega
    · show (min (max ((0 : ℕ) : Int) 0) ((512 - 512 : ℕ) : Int)).toNat = 0; omega) hoff]
  unfold updateSlice
  by_cases hb : b.val = k
  · rw [if_pos hb, dif_pos (fun a => by
      fin_cases a
      · show k ≤ b.val ∧ b.val < k + 1; omega
      · show 0 ≤ t.val ∧ t.val < 0 + 21; omega
      · show 0 ≤ j.val ∧ j.val < 0 + 512; omega)]
    refine broadcastInDim_apply _ _ H _ (ix2 t j) fun a => ?_
    match a with
    | ⟨0, _⟩ => show t.val = if (21 : ℕ) = 1 then 0 else t.val - 0; simp
    | ⟨1, _⟩ => show j.val = if (512 : ℕ) = 1 then 0 else j.val - 0; simp
  · rw [if_neg hb, dif_neg (fun hin => hb (by
      have := hin (0 : Fin 3)
      have h1 : k ≤ b.val ∧ b.val < k + 1 := this
      omega))]

/-- The output layer at `(b, t, v)`: `∑ l, hs(b, t, l) · W_fc(v, l) + b_fc(v)`. -/
theorem ref_out_apply (HS : FVec Ideal S16x21x512 .f32) (wfc : FVec Ideal S100000x512 .f32) (bfc : FVec Ideal S100000 .f32)
    (b : Fin 16) (t : Fin 21) (v : Fin 100000) :
    addf (Host.dotGeneral dot_S16x21x512_S512x100000_S16x21x100000_2_0_01_1_n_n none HS (transpose S512x100000 [1, 0] wfc transposes_S100000x512_S512x100000_1_0)) (broadcastInDim S16x21x100000 ![0, 1, 2] bcast_S1x1x100000_S16x21x100000_0_1_2 (broadcastInDim S1x1x100000 ![2] bcast_S100000_S1x1x100000_2 bfc)) (ix3 b t v)
      = (∑ l : Fin 512, HS (ix3 b t l) * wfc (ix2 v l)) + bfc (ix1 v) := by
  simp only [addf_apply]
  refine congrArg₂ (· + ·) ?_ ?_
  · show FloatOps.dotGeneral dot_S16x21x512_S512x100000_S16x21x100000_2_0_01_1_n_n none _ HS _ (ix3 b t v) = _
    rw [Ideal.dotGeneral_apply,
      ← Equiv.sum_comp (contrEquiv1 dot_S16x21x512_S512x100000_S16x21x100000_2_0_01_1_n_n 512 rfl rfl).symm]
    refine Finset.sum_congr rfl fun l _ => ?_
    have hl := contrEquiv1_symm_val dot_S16x21x512_S512x100000_S16x21x100000_2_0_01_1_n_n 512 rfl rfl l
    have el : dot_S16x21x512_S512x100000_S16x21x100000_2_0_01_1_n_n.lhsIdx (ix3 b t v)
        ((contrEquiv1 dot_S16x21x512_S512x100000_S16x21x100000_2_0_01_1_n_n 512 rfl rfl).symm l) = ix3 b t l :=
      funext fun a => Fin.ext (by
        match a with
        | ⟨0, _⟩ => rfl
        | ⟨1, _⟩ => rfl
        | ⟨2, _⟩ => exact (dot_S16x21x512_S512x100000_S16x21x100000_2_0_01_1_n_n.lhsIdx_val_of_single rfl _ _).trans hl)
    have er : dot_S16x21x512_S512x100000_S16x21x100000_2_0_01_1_n_n.rhsIdx (ix3 b t v)
        ((contrEquiv1 dot_S16x21x512_S512x100000_S16x21x100000_2_0_01_1_n_n 512 rfl rfl).symm l) = ix2 l v :=
      funext fun a => Fin.ext (by
        match a with
        | ⟨0, _⟩ => exact (dot_S16x21x512_S512x100000_S16x21x100000_2_0_01_1_n_n.rhsIdx_val_of_single rfl _ _).trans hl
        | ⟨1, _⟩ => rfl)
    rw [el, er]
    exact congrArg₂ (· * ·) rfl (transpose_ix2_apply (a := 100000) (b := 512) wfc _ l v)
  · refine (broadcastInDim_apply _ _ _ (ix3 b t v) (ix3 (0 : Fin 1) (0 : Fin 1) v) fun a => ?_).trans
      (broadcastInDim_apply _ _ bfc (ix3 (0 : Fin 1) (0 : Fin 1) v) (ix1 v) fun a => ?_)
    · match a with
      | ⟨0, _⟩ => rfl
      | ⟨1, _⟩ => rfl
      | ⟨2, _⟩ => show v.val = if (100000 : ℕ) = 1 then 0 else v.val; simp
    · match a with
      | ⟨0, _⟩ => show v.val = if (100000 : ℕ) = 1 then 0 else v.val; simp

end Cert.Proof.Val

end
-- ==== Proof.ValRef.lean ====
/-
  The reference's result is the specification.

  The reference's run ends with its result at `out (STEP^[16] entry)`: the loop's entry valuation, one trip's function on
  valuations iterated sixteen times, and the operations after the loop. Here: one trip on any valuation whose carried buffers
  hold the specification's data (the gates, the new states, the updated stack), the invariant after `k` trips (the counter is
  `k`; the two states are the specification's states after `k` trips; positions `< k` of the stack hold their emitted states,
  the others zero), and the result read at an index.
-/
import proofs.«203981_g87385404604482_cont_9to1_m_1030_24_alg».proof.Proof.ValRefEntry
import proofs.«203981_g87385404604482_cont_9to1_m_1030_24_alg».proof.Proof.ValRefOps

noncomputable section

open scoped BigOperators

namespace Cert.Proof.Val

open Idealize.ShloMosaic Idealize.ShloMosaic.ValueIdx Idealize.ShloMosaic.TcCoe Idealize.ShloMosaic.Tactic
open Idealize.ShloMosaic.StableHlo
open Idealize.SL Idealize.SL.Sem
open Cert.ReferenceIdeal Cert.ReferenceIdeal.Gen Cert.ReferenceIdeal.GenP Cert.ReferenceIdeal.ValueP

variable (m : (ℓ : Loc nD τ sig) → Buf (Elt Ideal) ℓ) (c : Dev nD)

/-! ## One trip, from any valuation -/

section Trip
variable (V0 : Valuation τ sig (Elt Ideal)) (A : Args) (k : ℕ) (hk : k < 16)
variable (H0 : ∀ (b : Fin 16) (t : Fin 21) (e : Fin 64), V0 (Proc.devRef .tc main_v6_0) (ix3 b t e) = xin A b t e)
variable (H1 : V0 (Proc.devRef .tc main_v6_1) = A.wih) (H2 : V0 (Proc.devRef .tc main_v6_2) = A.whh)
variable (H3 : V0 (Proc.devRef .tc main_v6_3) = A.bih) (H4 : V0 (Proc.devRef .tc main_v6_4) = A.bhh)
variable (H5 : ∀ i, (V0 (Proc.devRef .tc main_v6_5) i).toInt = (k : Int))
variable (hS cS : St)
variable (H6 : ∀ (t : Fin 21) (j : Fin 512), V0 (Proc.devRef .tc main_v6_6) (ix2 t j) = hS t j)
variable (H7 : ∀ (t : Fin 21) (j : Fin 512), V0 (Proc.devRef .tc main_v6_7) (ix2 t j) = cS t j)

include hk H0 H1 H2 H3 H4 H5 H6 in
/-- The trip's gate pre-activations are the specification's. -/
theorem trip_gate (t : Fin 21) (n : Fin 2048) :
    res_main_while0b_call2_v10 V0 (ix2 t n) = gate A (xrow A k) hS t n := by
  unfold res_main_while0b_call2_v10
  refine (ref_gate_apply (V0 (Proc.devRef .tc main_v6_0)) (V0 (Proc.devRef .tc main_v6_5)) (V0 (Proc.devRef .tc main_v6_1))
    (V0 (Proc.devRef .tc main_v6_2)) (V0 (Proc.devRef .tc main_v6_3)) (V0 (Proc.devRef .tc main_v6_4))
    (V0 (Proc.devRef .tc main_v6_6)) k hk H5 t n).trans ?_
  unfold gate
  rw [H1, H2, H3, H4]
  refine congrArg₂ (· + ·) (congrArg₂ (· + ·) (Finset.sum_congr rfl fun e _ => ?_) (Finset.sum_congr rfl fun l _ => ?_)) rfl
  · rw [H0]
    unfold xrow
    rw [dif_pos hk]
  · rw [H6]

include hk H0 H1 H2 H3 H4 H5 H6 H7 in
/-- The trip's new cell state is the specification's. -/
theorem trip_cellC (t : Fin 21) (j : Fin 512) :
    res_main_while0b_v13_1 V0 (ix2 t j) = cellC A (xrow A k) hS cS t j := by
  unfold res_main_while0b_v13_1
  refine (ref_cellC_apply (res_main_while0b_call2_v10 V0) (V0 (Proc.devRef .tc main_v6_7)) t j).trans ?_
  rw [trip_gate V0 A k hk H0 H1 H2 H3 H4 H5 hS H6, trip_gate V0 A k hk H0 H1 H2 H3 H4 H5 hS H6,
    trip_gate V0 A k hk H0 H1 H2 H3 H4 H5 hS H6, H7]
  rfl

include hk H0 H1 H2 H3 H4 H5 H6 H7 in
/-- The trip's new hidden state is the specification's. -/
theorem trip_cellH (t : Fin 21) (j : Fin 512) :
    res_main_while0b_v13_0 V0 (ix2 t j) = cellH A (xrow A k) hS cS t j := by
  unfold res_main_while0b_v13_0
  refine (ref_cellH_apply (res_main_while0b_call2_v10 V0) (res_main_while0b_v13_1 V0) t j).trans ?_
  rw [trip_gate V0 A k hk H0 H1 H2 H3 H4 H5 hS H6, trip_cellC V0 A k hk H0 H1 H2 H3 H4 H5 hS cS H6 H7]
  rfl

end Trip

/-! ## The iterate -/

/-- The valuation after `k` trips. -/
abbrev Vk (k : ℕ) : Valuation τ sig (Elt Ideal) := STEP^[k] (entryContents preI m c)

theorem Vk_succ (k : ℕ) : Vk m c (k + 1) = STEP (Vk m c k) := Function.iterate_succ_apply' _ _ _

theorem Vk_v6_0 : ∀ k, Vk m c k (Proc.devRef .tc main_v6_0) = entryContents preI m c (Proc.devRef .tc main_v6_0)
  | 0 => rfl
  | k + 1 => by rw [Vk_succ, STEP_main_v6_0]; exact Vk_v6_0 k
theorem Vk_v6_1 : ∀ k, Vk m c k (Proc.devRef .tc main_v6_1) = entryContents preI m c (Proc.devRef .tc main_v6_1)
  | 0 => rfl
  | k + 1 => by rw [Vk_succ, STEP_main_v6_1]; exact Vk_v6_1 k
theorem Vk_v6_2 : ∀ k, Vk m c k (Proc.devRef .tc main_v6_2) = entryContents preI m c (Proc.devRef .tc main_v6_2)
  | 0 => rfl
  | k + 1 => by rw [Vk_succ, STEP_main_v6_2]; exact Vk_v6_2 k
theorem Vk_v6_3 : ∀ k, Vk m c k (Proc.devRef .tc main_v6_3) = entryContents preI m c (Proc.devRef .tc main_v6_3)
  | 0 => rfl
  | k + 1 => by rw [Vk_succ, STEP_main_v6_3]; exact Vk_v6_3 k
theorem Vk_v6_4 : ∀ k, Vk m c k (Proc.devRef .tc main_v6_4) = entryContents preI m c (Proc.devRef .tc main_v6_4)
  | 0 => rfl
  | k + 1 => by rw [Vk_succ, STEP_main_v6_4]; exact Vk_v6_4 k

/-- After `k` trips the counter is `k`. -/
theorem Vk_ctr : ∀ k, Vk m c k (Proc.devRef .tc main_v6_5) = fun _ => BitVec.ofNat 32 k
  | 0 => ctr_entry m c
  | k + 1 => by
    rw [Vk_succ, STEP_main_v6_5]
    unfold step_main_v6_5
    rw [Vk_ctr k]
    funext i
    exact BitVec.ofNat_add_ofNat k 1

theorem Vk_ctr_toInt (k : ℕ) (hk : k < 16) (i : S_.Idx) : (Vk m c k (Proc.devRef .tc main_v6_5) i).toInt = (k : Int) := by
  rw [Vk_ctr]
  exact toInt_ofNat_of_lt (by omega)

/-- THE INVARIANT after `k ≤ 16` trips, under the tokens' range. -/
theorem Vk_inv
    (hcap : ∀ (b : Fin 16) (t : Fin 20), 0 ≤ ((refArgs m c).cap (ix2 b t)).toInt ∧ ((refArgs m c).cap (ix2 b t)).toInt ≤ 99999) :
    ∀ k, k ≤ 16 →
      (∀ (t : Fin 21) (j : Fin 512), Vk m c k (Proc.devRef .tc main_v6_6) (ix2 t j) = (lstm (refArgs m c) k).1 t j)
      ∧ (∀ (t : Fin 21) (j : Fin 512), Vk m c k (Proc.devRef .tc main_v6_7) (ix2 t j) = (lstm (refArgs m c) k).2 t j)
      ∧ (∀ (b : Fin 16) (t : Fin 21) (j : Fin 512), Vk m c k (Proc.devRef .tc main_v6_8) (ix3 b t j)
          = if b.val < k then hid (refArgs m c) b t j else 0)
  | 0, _ => by
    refine ⟨fun t j => ?_, fun t j => ?_, fun b t j => ?_⟩
    · show entryContents preI m c (Proc.devRef .tc main_v6_6) (ix2 t j) = (0 : EReal)
      rw [entry_v6_6]; exact zeroSplat_apply _ _
    · show entryContents preI m c (Proc.devRef .tc main_v6_7) (ix2 t j) = (0 : EReal)
      rw [entry_v6_7]; exact zeroSplat_apply _ _
    · show entryContents preI m c (Proc.devRef .tc main_v6_8) (ix3 b t j) = _
      rw [entry_v6_8, if_neg (Nat.not_lt_zero _)]; exact zeroSplat_apply _ _
  | k + 1, hk1 => by
    obtain ⟨ih6, ih7, ih8⟩ := Vk_inv hcap k (by omega)
    have hk : k < 16 := by omega
    have H0 : ∀ (b : Fin 16) (t : Fin 21) (e : Fin 64),
        Vk m c k (Proc.devRef .tc main_v6_0) (ix3 b t e) = xin (refArgs m c) b t e := fun b t e => by
      rw [Vk_v6_0, entry_v6_0]; exact refX_apply (refArgs m c) hcap b t e
    have H1 := (Vk_v6_1 m c k).trans (entry_v6_1 m c)
    have H2 := (Vk_v6_2 m c k).trans (entry_v6_2 m c)
    have H3 := (Vk_v6_3 m c k).trans (entry_v6_3 m c)
    have H4 := (Vk_v6_4 m c k).trans (entry_v6_4 m c)
    have H5 := Vk_ctr_toInt m c k hk
    have hH : ∀ (t : Fin 21) (j : Fin 512),
        res_main_while0b_v13_0 (Vk m c k) (ix2 t j) = (lstm (refArgs m c) (k + 1)).1 t j := fun t j =>
      trip_cellH (Vk m c k) (refArgs m c) k hk H0 H1 H2 H3 H4 H5 _ _ ih6 ih7 t j
    refine ⟨fun t j => ?_, fun t j => ?_, fun b t j => ?_⟩
    · rw [Vk_succ, STEP_main_v6_6]
      exact hH t j
    · rw [Vk_succ, STEP_main_v6_7]
      exact trip_cellC (Vk m c k) (refArgs m c) k hk H0 H1 H2 H3 H4 H5 _ _ ih6 ih7 t j
    · rw [Vk_succ, STEP_main_v6_8]
      unfold step_main_v6_8
      refine (ref_update_apply (Vk m c k (Proc.devRef .tc main_v6_8)) (res_main_while0b_v13_0 (Vk m c k))
        (Vk m c k (Proc.devRef .tc main_v6_5)) k hk H5 b t j).trans ?_
      by_cases hb : b.val = k
      · rw [if_pos hb, if_pos (by omega), hH t j]
        unfold hid
        rw [hb]
      · rw [if_neg hb, ih8 b t j]
        by_cases hlt : b.val < k
        · rw [if_pos hlt, if_pos (by omega)]
        · rw [if_neg hlt, if_neg (by omega)]

/-- THE REFERENCE IS THE SPECIFICATION: under the tokens' range, the result the reference's run names is `G` of the arguments. -/
theorem ref_eq_G
    (hcap : ∀ (b : Fin 16) (t : Fin 20), 0 ≤ ((refArgs m c).cap (ix2 b t)).toInt ∧ ((refArgs m c).cap (ix2 b t)).toInt ≤ 99999) :
    out_main_v11 (STEP^[16] (entryContents preI m c)) = G (refArgs m c) := by
  funext i
  obtain ⟨b, t, v, rfl⟩ : ∃ (b : Fin 16) (t : Fin 21) (v : Fin 100000), i = ix3 b t v := ⟨i 0, i 1, i 2, eq_ix3 i⟩
  unfold out_main_v11
  refine (ref_out_apply (Vk m c 16 (Proc.devRef .tc main_v6_8)) (Vk m c 16 (Proc.devRef .tc main_arg7))
    (Vk m c 16 (Proc.devRef .tc main_arg8)) b t v).trans ?_
  rw [G_ix3]
  unfold outAt
  have h7 : Vk m c 16 (Proc.devRef .tc main_arg7) = (refArgs m c).wfc := iter_main_arg7 m c 16
  have h8 : Vk m c 16 (Proc.devRef .tc main_arg8) = (refArgs m c).bfc := iter_main_arg8 m c 16
  rw [h7, h8]
  refine congrArg₂ (· + ·) (Finset.sum_congr rfl fun l _ => ?_) rfl
  rw [(Vk_inv m c hcap 16 (le_refl _)).2.2 b t l, if_pos b.isLt]

end Cert.Proof.Val

end
-- ==== Proof.TcEntry.lean ====
/-
  The output array after the region, entry by entry: the three moving windows' index maps and cut sizes over the grid,
  the arrays read whole, and entry (b, s, 6400 t + v) of the output array as the output block's entry (b, s, v) at staged
  blocks whose row and entry `v` are the weight and bias arrays' row and entry `6400 t + v`; the five whole inputs as
  their arrays.
-/
import proofs.«203981_g87385404604482_cont_9to1_m_1030_24_alg».proof.Proof.TcRel
import Idealize.ShloMosaic.Lib.ValueIdx
import Idealize.ShloMosaic.Lib.Pipeline.Value
import Idealize.ShloMosaic.Lib.Exec
import Idealize.ShloMosaic.Lib.Tactic
import Idealize.ShloMosaic.Lib.Pipeline.Kit
import Idealize.ShloMosaic.Lib.Pipeline.FrameBody
import Idealize.ShloMosaic.Lib.Ring

set_option maxRecDepth 16384

noncomputable section

namespace Cert.KernelIdeal.Tc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.ValueIdx

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-! ## The three moving windows' geometry, decided over the grid -/

theorem index5 : ∀ (t : Fin cfg1.N) (a : Fin 2), (cfg1.win 5).index t a = (![t.val, 0] : Fin 2 → ℕ) a :=
  (by decide +kernel : ∀ (t : Fin grid1.N) (a : Fin 2), win1_5.index t a = (![t.val, 0] : Fin 2 → ℕ) a)
theorem index6 : ∀ (t : Fin cfg1.N) (a : Fin 2), (cfg1.win 6).index t a = (![0, t.val] : Fin 2 → ℕ) a :=
  (by decide +kernel : ∀ (t : Fin grid1.N) (a : Fin 2), win1_6.index t a = (![0, t.val] : Fin 2 → ℕ) a)
theorem index7 : ∀ (t : Fin cfg1.N) (a : Fin 3), (cfg1.win 7).index t a = (![0, 0, t.val] : Fin 3 → ℕ) a :=
  (by decide +kernel : ∀ (t : Fin grid1.N) (a : Fin 3), win1_7.index t a = (![0, 0, t.val] : Fin 3 → ℕ) a)

/-- The part of a block the transfers move: all of it but at the last point, where the vocabulary axis is cut at the
    array's end. -/
theorem xsize5 : ∀ (t : Fin cfg1.N) (a : Fin 2), (cfg1.win 5).xsize (cfg1.grid.coords t) a = (![min 6400 (100000 - 6400 * t.val), 512] : Fin 2 → ℕ) a :=
  (by decide +kernel : ∀ (t : Fin grid1.N) (a : Fin 2), win1_5.xsize (grid1.coords t) a = (![min 6400 (100000 - 6400 * t.val), 512] : Fin 2 → ℕ) a)
theorem xsize6 : ∀ (t : Fin cfg1.N) (a : Fin 2), (cfg1.win 6).xsize (cfg1.grid.coords t) a = (![1, min 6400 (100000 - 6400 * t.val)] : Fin 2 → ℕ) a :=
  (by decide +kernel : ∀ (t : Fin grid1.N) (a : Fin 2), win1_6.xsize (grid1.coords t) a = (![1, min 6400 (100000 - 6400 * t.val)] : Fin 2 → ℕ) a)
theorem xsize7 : ∀ (t : Fin cfg1.N) (a : Fin 3), (cfg1.win 7).xsize (cfg1.grid.coords t) a = (![16, 21, min 6400 (100000 - 6400 * t.val)] : Fin 3 → ℕ) a :=
  (by decide +kernel : ∀ (t : Fin grid1.N) (a : Fin 3), win1_7.xsize (grid1.coords t) a = (![16, 21, min 6400 (100000 - 6400 * t.val)] : Fin 3 → ℕ) a)

/-! ## The arrays read whole -/

/-- The output layer's weight and bias arrays as the region finds them, and an output array's contents, each read
    through its window's whole array. -/
def wfcOf (c : Dev nD) : Vec F S100000x512 .f32 := (cfg1.win 5).arr.view.read (Elt F) (V c (Pipeline.arrRef spec1 5))
def bfcOf (c : Dev nD) : Vec F S1x100000 .f32 := (cfg1.win 6).arr.view.read (Elt F) (V c (Pipeline.arrRef spec1 6))
def outOf (c : Dev nD) (out : Buf (Elt F) ((cfg1.win 7).arr.view.loc (c.tc : Thread nD τ))) : Vec F S16x21x100000 .f32 :=
  (cfg1.win 7).arr.view.read (Elt F) out

/-! ## The output array, entry by entry -/

/-- ENTRY (b, s, 6400 t + v) of the output array after the region, `v` inside the array: the output block's entry
    (b, s, v) computed from the stacked hidden states and staged weight and bias blocks whose row `v` and entry `v`
    are the arrays' row and entry `6400 t + v` (what the blocks hold past the array's end is not read at such a `v`). -/
theorem OutRel.entry (c : Dev nD) {out : Buf (Elt F) ((cfg1.win 7).arr.view.loc (c.tc : Thread nD τ))} (h : OutRel V c out)
    (t : Fin cfg1.N) (b : Fin 16) (s : Fin 21) (v : Fin 6400) (hv : 6400 * t.val + v.val < 100000) :
    ∃ (w : Vec F S6400x512 .f32) (bias : Vec F S1x6400 .f32),
      (∀ l : Fin 512, w (ix2 v l) = wfcOf V c (ix2 (⟨6400 * t.val + v.val, hv⟩ : Fin 100000) l))
      ∧ bias (ix2 (0 : Fin 1) v) = bfcOf V c (ix2 (0 : Fin 1) (⟨6400 * t.val + v.val, hv⟩ : Fin 100000))
      ∧ outOf c out (ix3 b s (⟨6400 * t.val + v.val, hv⟩ : Fin 100000)) = k1_pay7 (hsOf V c) w bias (ix3 b s v) := by
  obtain ⟨X, ⟨d5, d6, rfl⟩, e⟩ := h t
  have hm : v.val < min 6400 (100000 - 6400 * t.val) := by have := v.isLt; omega
  refine ⟨fetchedOf V c 5 t d5, fetchedOf V c 6 t d6, fun l => ?_, ?_, ?_⟩
  · let j5 : ((cfg1.win 5).xblock (cfg1.grid.coords t)).Idx := fun a =>
      ⟨(ix2 v l a).val, by show (ix2 v l a).val < (cfg1.win 5).xsize (cfg1.grid.coords t) a; rw [xsize5 t a]; revert a; exact Fin.forall_fin_two.mpr ⟨hm, l.isLt⟩⟩
    have e1 : fetchedOf V c 5 t d5 (ix2 v l) = blkOf V c 5 t j5 :=
      (cfg1.win 5).fill_xinj (cfg1.grid.coords t) d5 (blkOf V c 5 t) j5
    rw [e1]
    show (cfg1.win 5).arr.view.read (Elt F) (V c (Pipeline.arrRef spec1 5)) (((cfg1.win 5).rect t).emb j5) = _
    unfold wfcOf
    congr 1
    funext a; apply Fin.ext
    rw [Window.rect_emb_val, index5 t a]
    revert a
    exact Fin.forall_fin_two.mpr ⟨by show t.val * 6400 + v.val = 6400 * t.val + v.val; omega, by show 0 * 512 + l.val = l.val; omega⟩
  · let j6 : ((cfg1.win 6).xblock (cfg1.grid.coords t)).Idx := fun a =>
      ⟨(ix2 (0 : Fin 1) v a).val, by show (ix2 (0 : Fin 1) v a).val < (cfg1.win 6).xsize (cfg1.grid.coords t) a; rw [xsize6 t a]; revert a; exact Fin.forall_fin_two.mpr ⟨Nat.one_pos, hm⟩⟩
    have e1 : fetchedOf V c 6 t d6 (ix2 (0 : Fin 1) v) = blkOf V c 6 t j6 :=
      (cfg1.win 6).fill_xinj (cfg1.grid.coords t) d6 (blkOf V c 6 t) j6
    rw [e1]
    show (cfg1.win 6).arr.view.read (Elt F) (V c (Pipeline.arrRef spec1 6)) (((cfg1.win 6).rect t).emb j6) = _
    unfold bfcOf
    congr 1
    funext a; apply Fin.ext
    rw [Window.rect_emb_val, index6 t a]
    revert a
    exact Fin.forall_fin_two.mpr ⟨by show 0 * 1 + 0 = 0; omega, by show t.val * 6400 + v.val = 6400 * t.val + v.val; omega⟩
  · let j7 : ((cfg1.win 7).xblock (cfg1.grid.coords t)).Idx := fun a =>
      ⟨(ix3 b s v a).val, by show (ix3 b s v a).val < (cfg1.win 7).xsize (cfg1.grid.coords t) a; rw [xsize7 t a]; revert a; exact Fin.forall_fin_succ.mpr ⟨b.isLt, Fin.forall_fin_two.mpr ⟨s.isLt, hm⟩⟩⟩
    have e7 := congrFun e j7
    have e2 : (cfg1.win 7).cut (cfg1.grid.coords t) (k1_pay7 (hsOf V c) (fetchedOf V c 5 t d5) (fetchedOf V c 6 t d6)) j7
        = k1_pay7 (hsOf V c) (fetchedOf V c 5 t d5) (fetchedOf V c 6 t d6) (ix3 b s v) := rfl
    rw [e2] at e7
    rw [← e7]
    show (cfg1.win 7).arr.view.read (Elt F) out _ = (cfg1.win 7).arr.view.read (Elt F) out (((cfg1.win 7).rect t).emb j7)
    congr 1
    funext a; apply Fin.ext
    rw [Window.rect_emb_val, index7 t a]
    revert a
    exact Fin.forall_fin_succ.mpr ⟨by show b.val = 0 * 16 + b.val; omega,
      Fin.forall_fin_two.mpr ⟨by show s.val = 0 * 21 + s.val; omega, by show 6400 * t.val + v.val = t.val * 6400 + v.val; omega⟩⟩

/-! ## The five whole inputs are their arrays -/

theorem index0 : ∀ (t : Fin cfg1.N) (a : Fin 2), (cfg1.win 0).index t a = 0 :=
  (by decide +kernel : ∀ (t : Fin grid1.N) (a : Fin 2), win1_0.index t a = 0)
theorem index1 : ∀ (t : Fin cfg1.N) (a : Fin 2), (cfg1.win 1).index t a = 0 :=
  (by decide +kernel : ∀ (t : Fin grid1.N) (a : Fin 2), win1_1.index t a = 0)
theorem index2 : ∀ (t : Fin cfg1.N) (a : Fin 2), (cfg1.win 2).index t a = 0 :=
  (by decide +kernel : ∀ (t : Fin grid1.N) (a : Fin 2), win1_2.index t a = 0)
theorem index3 : ∀ (t : Fin cfg1.N) (a : Fin 2), (cfg1.win 3).index t a = 0 :=
  (by decide +kernel : ∀ (t : Fin grid1.N) (a : Fin 2), win1_3.index t a = 0)
theorem index4 : ∀ (t : Fin cfg1.N) (a : Fin 2), (cfg1.win 4).index t a = 0 :=
  (by decide +kernel : ∀ (t : Fin grid1.N) (a : Fin 2), win1_4.index t a = 0)

/-- Each whole input, read through its window's one block, is its array read whole. -/
theorem xOf_eq (c : Dev nD) : xOf V c = (cfg1.win 0).arr.view.read (Elt F) (V c (Pipeline.arrRef spec1 0)) := by
  funext j
  show (cfg1.win 0).arr.view.read (Elt F) (V c (Pipeline.arrRef spec1 0)) (((cfg1.win 0).rect t1_0).emb j) = _
  congr 1
  funext a; apply Fin.ext
  rw [Window.rect_emb_val, index0 t1_0 a]
  omega

theorem wihOf_eq (c : Dev nD) : wihOf V c = (cfg1.win 1).arr.view.read (Elt F) (V c (Pipeline.arrRef spec1 1)) := by
  funext j
  show (cfg1.win 1).arr.view.read (Elt F) (V c (Pipeline.arrRef spec1 1)) (((cfg1.win 1).rect t1_0).emb j) = _
  congr 1
  funext a; apply Fin.ext
  rw [Window.rect_emb_val, index1 t1_0 a]
  omega

theorem whhOf_eq (c : Dev nD) : whhOf V c = (cfg1.win 2).arr.view.read (Elt F) (V c (Pipeline.arrRef spec1 2)) := by
  funext j
  show (cfg1.win 2).arr.view.read (Elt F) (V c (Pipeline.arrRef spec1 2)) (((cfg1.win 2).rect t1_0).emb j) = _
  congr 1
  funext a; apply Fin.ext
  rw [Window.rect_emb_val, index2 t1_0 a]
  omega

theorem b1Of_eq (c : Dev nD) : b1Of V c = (cfg1.win 3).arr.view.read (Elt F) (V c (Pipeline.arrRef spec1 3)) := by
  funext j
  show (cfg1.win 3).arr.view.read (Elt F) (V c (Pipeline.arrRef spec1 3)) (((cfg1.win 3).rect t1_0).emb j) = _
  congr 1
  funext a; apply Fin.ext
  rw [Window.rect_emb_val, index3 t1_0 a]
  omega

theorem b2Of_eq (c : Dev nD) : b2Of V c = (cfg1.win 4).arr.view.read (Elt F) (V c (Pipeline.arrRef spec1 4)) := by
  funext j
  show (cfg1.win 4).arr.view.read (Elt F) (V c (Pipeline.arrRef spec1 4)) (((cfg1.win 4).rect t1_0).emb j) = _
  congr 1
  funext a; apply Fin.ext
  rw [Window.rect_emb_val, index4 t1_0 a]
  omega

end Cert.KernelIdeal.Tc

end
-- ==== Proof.LibTransposedMatmul.lean ====
/-
  A matrix product with the right operand transposed, read at an index, at the exact (extended-real) instance.

  For operands `l : [M, K]` and `w : [N, K]` and the dimension numbers "contract the last axis of both operands, no batch
  axis" — the product `l · wᵀ` — the product accumulated into the zero array has, at `(r, c)`, the value
  `∑ j, l (r, j) * w (c, j)`: there is no rounding and no accumulation order at this instance, and the one-axis contraction
  index is its one coordinate. Stated for every extent and every pair of operand formats.
-/
import Idealize.ShloMosaic.Lib.ValueIdx
import Idealize.ShloMosaic.PureOps.Ideal.Laws

noncomputable section

open scoped BigOperators

namespace Cert.Lib

open Idealize.ShloMosaic Idealize.ShloMosaic.ValueIdx

/-- A product `[M, K] × [N, K]ᵀ` accumulated into zeros, read at `(r, c)`: the sum over the contracted index `j` of
    `l (r, j) * w (c, j)`. -/
theorem matmul_transposedRhs_zero_apply {M K N : ℕ} {φ₁ φ₂ : FTy} (prec : Option ContractPrecision)
    (l : FVec Ideal ⟨2, ![M, K]⟩ φ₁) (w : FVec Ideal ⟨2, ![N, K]⟩ φ₂) (r : Fin M) (c : Fin N) :
    matmul (DotDims.transposedRhs M K N) prec l w (constant (F := Ideal) ⟨2, ![M, N]⟩ .f32 0x00000000#32) (ix2 r c)
      = ∑ j : Fin K, l (ix2 r j) * w (ix2 c j) := by
  simp only [matmul]
  rw [Ideal.matmul_constant_zero_apply, ← Equiv.sum_comp (contrEquiv1 (DotDims.transposedRhs M K N) K rfl rfl).symm]
  refine Finset.sum_congr rfl fun k _ => ?_
  -- the contraction index built from `k` has `k` as its one coordinate
  have hk := contrEquiv1_symm_val (DotDims.transposedRhs M K N) K rfl rfl k
  -- the left operand is read at (r, k): its kept axis follows the output's row, its last axis the contraction index
  have el : (DotDims.transposedRhs M K N).lhsIdx (ix2 r c) ((contrEquiv1 (DotDims.transposedRhs M K N) K rfl rfl).symm k)
      = ix2 r k :=
    funext fun a => Fin.ext (by
      match a with
      | ⟨0, _⟩ => rfl
      | ⟨1, _⟩ => exact ((DotDims.transposedRhs M K N).lhsIdx_val_of_single rfl _ _).trans hk)
  -- the right operand is read at (c, k): its kept axis follows the output's column, its last axis the contraction index
  have er : (DotDims.transposedRhs M K N).rhsIdx (ix2 r c) ((contrEquiv1 (DotDims.transposedRhs M K N) K rfl rfl).symm k)
      = ix2 c k :=
    funext fun a => Fin.ext (by
      match a with
      | ⟨0, _⟩ => rfl
      | ⟨1, _⟩ => exact ((DotDims.transposedRhs M K N).rhsIdx_val_of_single rfl _ _).trans hk)
  rw [el, er]

end Cert.Lib

end
-- ==== Proof.ValKer.lean ====
/-
  The TensorCore body's payloads read at an index, at the exact (extended-real) instance.

  * The gate pre-activations (`k1_pay3`) at `(t, n)`: `∑ e, x(t,e) · W_ih(n,e) + ∑ l, h(t,l) · W_hh(n,l) + (b_ih(n) + b_hh(n))`:
    each product contracts the last axis of both operands into a zero accumulator, so it is the plain sum; the two bias rows
    are added first and then spread over the 24 rows.
  * The new cell state (`k1_pay4`) and hidden state (`k1_pay5`, `k1_pay6`) at `(t, j)`: the cell's formulas over the four
    quarters of the gate row `t`; row `t` of the result reads row `t` of the states only.
  * The output block (`k1_pay7`) at `(b, t, v)`: `∑ l, hs(24 b + t, l) · W(v, l) + bias(v)`: the casts to bf16 are the identity at
    this instance, the `[384, 6400]` product is regrouped as `[16, 24, 6400]` (row `24 b + t` is `(b, t)`) and its first 21 rows
    of each group kept.
-/
import proofs.«203981_g87385404604482_cont_9to1_m_1030_24_alg».proof.Proof.Gen.KernelIdeal.Skeleton
import proofs.«203981_g87385404604482_cont_9to1_m_1030_24_alg».proof.Proof.LibTransposedMatmul
import proofs.«203981_g87385404604482_cont_9to1_m_1030_24_alg».proof.Proof.ValSpec
import Idealize.ShloMosaic.Lib.ValueLayout
import Idealize.ShloMosaic.Lib.Pipeline.Value

noncomputable section

open scoped BigOperators

namespace Cert.Proof.Val

open Idealize.ShloMosaic Idealize.ShloMosaic.ValueIdx Cert.KernelIdeal Cert.KernelIdeal.Gen Cert.KernelIdeal.Facts₀

/-- The gate pre-activations at `(t, n)`. -/
theorem pay3_apply (v15 v17 : Vec Ideal S1x2048 .f32) (h : FVec Ideal S24x512 .f32) (x : Vec Ideal S24x64 .f32)
    (wih : Vec Ideal S2048x64 .f32) (whh : Vec Ideal S2048x512 .f32) (t : Fin 24) (n : Fin 2048) :
    Gen.k1_pay3 v15 v17 h x wih whh (ix2 t n)
      = ((∑ e : Fin 64, x (ix2 t e) * wih (ix2 n e)) + ∑ l : Fin 512, h (ix2 t l) * whh (ix2 n l))
        + (v15 (ix2 (0 : Fin 1) n) + v17 (ix2 (0 : Fin 1) n)) := by
  unfold Gen.k1_pay3
  simp only [addf_apply, shapeCast_self]
  refine congrArg₂ (· + ·) (congrArg₂ (· + ·) ?_ ?_) ?_
  · exact Cert.Lib.matmul_transposedRhs_zero_apply (M := 24) (K := 64) (N := 2048) none x wih t n
  · exact Cert.Lib.matmul_transposedRhs_zero_apply (M := 24) (K := 512) (N := 2048) none h whh t n
  · exact broadcastTo_1b_ab_apply (a := 24) (b := 2048) _ _ t n

/-- The new cell state at `(t, j)`: `σ(f) · c + σ(i) · tanh(g)` over the gate row `t`. -/
theorem pay4_apply (v15 v17 : Vec Ideal S1x2048 .f32) (h c : FVec Ideal S24x512 .f32) (x : Vec Ideal S24x64 .f32)
    (wih : Vec Ideal S2048x64 .f32) (whh : Vec Ideal S2048x512 .f32) (t : Fin 24) (j : Fin 512) :
    Gen.k1_pay4 v15 v17 h c x wih whh (ix2 t j)
      = Ideal.logistic (Gen.k1_pay3 v15 v17 h x wih whh (ix2 t (⟨j.val + 512, by omega⟩ : Fin 2048))) * c (ix2 t j)
        + Ideal.logistic (Gen.k1_pay3 v15 v17 h x wih whh (ix2 t (⟨j.val, by omega⟩ : Fin 2048)))
          * Ideal.tanh (Gen.k1_pay3 v15 v17 h x wih whh (ix2 t (⟨j.val + 1024, by omega⟩ : Fin 2048))) := by
  unfold Gen.k1_pay4
  simp only [addf_apply, mulf_apply]
  refine congrArg₂ (· + ·) (congrArg₂ (· * ·) (congrArg Ideal.logistic ?_) rfl)
    (congrArg₂ (· * ·) (congrArg Ideal.logistic ?_) (congrArg Ideal.tanh ?_))
  · exact slice2_axis1_apply (n0 := 24) (n1 := 2048) (m := 512) 512 _ _ t j _ (Nat.add_comm _ _)
  · exact slice2_axis1_apply (n0 := 24) (n1 := 2048) (m := 512) 0 _ _ t j _ (Nat.zero_add _).symm
  · exact slice2_axis1_apply (n0 := 24) (n1 := 2048) (m := 512) 1024 _ _ t j _ (Nat.add_comm _ _)

/-- The new hidden state at `(t, j)`: `σ(o) · tanh(c')`. -/
theorem pay5_apply (v15 v17 : Vec Ideal S1x2048 .f32) (h c : FVec Ideal S24x512 .f32) (x : Vec Ideal S24x64 .f32)
    (wih : Vec Ideal S2048x64 .f32) (whh : Vec Ideal S2048x512 .f32) (t : Fin 24) (j : Fin 512) :
    Gen.k1_pay5 v15 v17 h c x wih whh (ix2 t j)
      = Ideal.logistic (Gen.k1_pay3 v15 v17 h x wih whh (ix2 t (⟨j.val + 1536, by omega⟩ : Fin 2048)))
        * Ideal.tanh (Gen.k1_pay4 v15 v17 h c x wih whh (ix2 t j)) := by
  unfold Gen.k1_pay5
  simp only [mulf_apply]
  refine congrArg₂ (· * ·) (congrArg Ideal.logistic ?_) rfl
  exact slice2_axis1_apply (n0 := 24) (n1 := 2048) (m := 512) 1536 _ _ t j _ (Nat.add_comm _ _)

/-- What the trip stores is the new hidden state. -/
theorem pay6_eq (v15 v17 : Vec Ideal S1x2048 .f32) (h c : FVec Ideal S24x512 .f32) (x : Vec Ideal S24x64 .f32)
    (wih : Vec Ideal S2048x64 .f32) (whh : Vec Ideal S2048x512 .f32) :
    Gen.k1_pay6 v15 v17 h c x wih whh = Gen.k1_pay5 v15 v17 h c x wih whh := by
  unfold Gen.k1_pay6
  exact shapeCast_self _ _

/-- The output block at `(b, t, v)`: row `24 b + t` of the stored hidden states against row `v` of the weight block, plus the
    bias block's entry `v`. -/
theorem pay7_apply (hs : Vec Ideal S384x512 .f32) (w : Vec Ideal S6400x512 .f32) (bias : Vec Ideal S1x6400 .f32)
    (b : Fin 16) (t : Fin 21) (v : Fin 6400) :
    Gen.k1_pay7 hs w bias (ix3 b t v)
      = (∑ l : Fin 512, hs (ix2 (⟨24 * b.val + t.val, by omega⟩ : Fin 384) l) * w (ix2 v l)) + bias (ix2 (0 : Fin 1) v) := by
  unfold Gen.k1_pay7
  refine (extractStridedSlice_apply _ _ _ (ix3 b t v) (ix3 b (⟨t.val, by omega⟩ : Fin 24) v) (fun a => ?_)).trans ?_
  · match a with
    | ⟨0, _⟩ => exact (Nat.zero_add _).symm
    | ⟨1, _⟩ => exact (Nat.zero_add _).symm
    | ⟨2, _⟩ => exact (Nat.zero_add _).symm
  refine (shapeCast_apply _ _ (ix3 b (⟨t.val, by omega⟩ : Fin 24) v)
    (ix2 (⟨24 * b.val + t.val, by omega⟩ : Fin 384) v) ?_).trans ?_
  · rw [Shape.rowMajor_val_two, Shape.rowMajor_val_three]
    show (24 * b.val + t.val) * 6400 + v.val = (b.val * 24 + t.val) * 6400 + v.val
    omega
  simp only [addf_apply, shapeCast_self]
  refine congrArg₂ (· + ·) ?_ ?_
  · exact Cert.Lib.matmul_transposedRhs_zero_apply (M := 384) (K := 512) (N := 6400) none
      (truncf .bf16 hs Facts₀.bitsLt_bf16_f32) (truncf .bf16 w Facts₀.bitsLt_bf16_f32) _ v
  · exact broadcastTo_1b_ab_apply (a := 384) (b := 6400) _ _ _ v

end Cert.Proof.Val

end
-- ==== Proof.ValKerIter.lean ====
/-
  The TensorCore body's recurrence, iterated, against the specification.

  The body carries states `h, c : [24, 512]`; the specification's states are `[21, 512]`. Row `t` of one trip's new states
  reads row `t` of the old states and row `t` of the trip's input only (a row of a matrix product reads one row of the left
  operand), so rows `0 … 20` of the body's states follow the specification's recursion whatever rows `21 … 23` hold.
-/
import proofs.«203981_g87385404604482_cont_9to1_m_1030_24_alg».proof.Proof.ValKer

noncomputable section

open scoped BigOperators

namespace Cert.Proof.Val

open Idealize.ShloMosaic Idealize.ShloMosaic.ValueIdx Cert.KernelIdeal Cert.KernelIdeal.Gen

/-- Row `t < 21` as a row of the 24-row state. -/
abbrev r24 (t : Fin 21) : Fin 24 := ⟨t.val, by omega⟩

/-- The gate pre-activations of row `t < 21` are the specification's gate, when the trip's input, the hidden state's row and
    the two bias rows are the specification's. -/
theorem pay3_eq_gate (A : Args) (v15 v17 : Vec Ideal S1x2048 .f32) (h : FVec Ideal S24x512 .f32) (x : Vec Ideal S24x64 .f32)
    (xS : Fin 21 → Fin 64 → EReal) (hS : St) (t : Fin 21) (n : Fin 2048)
    (h15 : ∀ n : Fin 2048, v15 (ix2 (0 : Fin 1) n) = A.bih (ix1 n)) (h17 : ∀ n : Fin 2048, v17 (ix2 (0 : Fin 1) n) = A.bhh (ix1 n))
    (hx : ∀ e : Fin 64, x (ix2 (r24 t) e) = xS t e) (hh : ∀ l : Fin 512, h (ix2 (r24 t) l) = hS t l) :
    Gen.k1_pay3 v15 v17 h x A.wih A.whh (ix2 (r24 t) n) = gate A xS hS t n := by
  rw [pay3_apply, h15, h17]
  unfold gate
  refine congrArg₂ (· + ·) (congrArg₂ (· + ·) ?_ ?_) rfl
  · exact Finset.sum_congr rfl fun e _ => by rw [hx]
  · exact Finset.sum_congr rfl fun l _ => by rw [hh]

/-- One trip, rows `t < 21`: the new cell state is the specification's. -/
theorem pay4_eq_cellC (A : Args) (v15 v17 : Vec Ideal S1x2048 .f32) (h c : FVec Ideal S24x512 .f32) (x : Vec Ideal S24x64 .f32)
    (xS : Fin 21 → Fin 64 → EReal) (hS cS : St) (t : Fin 21) (j : Fin 512)
    (h15 : ∀ n : Fin 2048, v15 (ix2 (0 : Fin 1) n) = A.bih (ix1 n)) (h17 : ∀ n : Fin 2048, v17 (ix2 (0 : Fin 1) n) = A.bhh (ix1 n))
    (hx : ∀ e : Fin 64, x (ix2 (r24 t) e) = xS t e) (hh : ∀ l : Fin 512, h (ix2 (r24 t) l) = hS t l)
    (hc : c (ix2 (r24 t) j) = cS t j) :
    Gen.k1_pay4 v15 v17 h c x A.wih A.whh (ix2 (r24 t) j) = cellC A xS hS cS t j := by
  rw [pay4_apply, hc, pay3_eq_gate A v15 v17 h x xS hS t _ h15 h17 hx hh, pay3_eq_gate A v15 v17 h x xS hS t _ h15 h17 hx hh,
    pay3_eq_gate A v15 v17 h x xS hS t _ h15 h17 hx hh]
  rfl

/-- One trip, rows `t < 21`: the new hidden state is the specification's. -/
theorem pay5_eq_cellH (A : Args) (v15 v17 : Vec Ideal S1x2048 .f32) (h c : FVec Ideal S24x512 .f32) (x : Vec Ideal S24x64 .f32)
    (xS : Fin 21 → Fin 64 → EReal) (hS cS : St) (t : Fin 21) (j : Fin 512)
    (h15 : ∀ n : Fin 2048, v15 (ix2 (0 : Fin 1) n) = A.bih (ix1 n)) (h17 : ∀ n : Fin 2048, v17 (ix2 (0 : Fin 1) n) = A.bhh (ix1 n))
    (hx : ∀ e : Fin 64, x (ix2 (r24 t) e) = xS t e) (hh : ∀ l : Fin 512, h (ix2 (r24 t) l) = hS t l)
    (hc : c (ix2 (r24 t) j) = cS t j) :
    Gen.k1_pay5 v15 v17 h c x A.wih A.whh (ix2 (r24 t) j) = cellH A xS hS cS t j := by
  rw [pay5_apply, pay4_eq_cellC A v15 v17 h c x xS hS cS t j h15 h17 hx hh hc,
    pay3_eq_gate A v15 v17 h x xS hS t _ h15 h17 hx hh]
  rfl

/-- The body's states `(h, c)` after `k` trips, trip `k` reading the input block `xs k`: the loop's initial values, then
    the trip's yielded pair. -/
def kst (A : Args) (v15 v17 : Vec Ideal S1x2048 .f32) (xs : ℕ → Vec Ideal S24x64 .f32) :
    ℕ → FVec Ideal S24x512 .f32 × FVec Ideal S24x512 .f32
  | 0 => (Gen.k1_pay1 (F := Ideal), Gen.k1_pay2 (F := Ideal))
  | k + 1 => (Gen.k1_pay5 v15 v17 (kst A v15 v17 xs k).1 (kst A v15 v17 xs k).2 (xs k) A.wih A.whh,
              Gen.k1_pay4 v15 v17 (kst A v15 v17 xs k).1 (kst A v15 v17 xs k).2 (xs k) A.wih A.whh)

theorem kst_zero (A : Args) (v15 v17 : Vec Ideal S1x2048 .f32) (xs : ℕ → Vec Ideal S24x64 .f32) :
    kst A v15 v17 xs 0 = (Gen.k1_pay1 (F := Ideal), Gen.k1_pay2 (F := Ideal)) := rfl

theorem kst_succ (A : Args) (v15 v17 : Vec Ideal S1x2048 .f32) (xs : ℕ → Vec Ideal S24x64 .f32) (k : ℕ) :
    kst A v15 v17 xs (k + 1)
      = (Gen.k1_pay5 v15 v17 (kst A v15 v17 xs k).1 (kst A v15 v17 xs k).2 (xs k) A.wih A.whh,
         Gen.k1_pay4 v15 v17 (kst A v15 v17 xs k).1 (kst A v15 v17 xs k).2 (xs k) A.wih A.whh) := rfl

/-- The loop's initial states are zero. -/
theorem pay1_apply (i : S24x512.Idx) : Gen.k1_pay1 (F := Ideal) i = 0 := by
  unfold Gen.k1_pay1
  exact Ideal.ofBits_zero_f32

theorem pay2_apply (i : S24x512.Idx) : Gen.k1_pay2 (F := Ideal) i = 0 := by
  unfold Gen.k1_pay2
  exact Ideal.ofBits_zero_f32

/-- THE ITERATE: rows `t < 21` of the body's states after `k` trips are the specification's states after `k` trips, when
    every trip's input block holds the specification's input in its rows `t < 21`. -/
theorem kst_rows (A : Args) (v15 v17 : Vec Ideal S1x2048 .f32) (xs : ℕ → Vec Ideal S24x64 .f32)
    (h15 : ∀ n : Fin 2048, v15 (ix2 (0 : Fin 1) n) = A.bih (ix1 n)) (h17 : ∀ n : Fin 2048, v17 (ix2 (0 : Fin 1) n) = A.bhh (ix1 n))
    (hx : ∀ k, k < 16 → ∀ (t : Fin 21) (e : Fin 64), xs k (ix2 (r24 t) e) = xrow A k t e) :
    ∀ k, k ≤ 16 → ∀ (t : Fin 21) (j : Fin 512),
      (kst A v15 v17 xs k).1 (ix2 (r24 t) j) = (lstm A k).1 t j ∧ (kst A v15 v17 xs k).2 (ix2 (r24 t) j) = (lstm A k).2 t j
  | 0, _, t, j => ⟨pay1_apply (ix2 (r24 t) j), pay2_apply (ix2 (r24 t) j)⟩
  | k + 1, hk, t, j => by
    have ih := kst_rows A v15 v17 xs h15 h17 hx k (by omega)
    rw [kst_succ, lstm_succ]
    exact ⟨pay5_eq_cellH A v15 v17 _ _ (xs k) (xrow A k) _ _ t j h15 h17 (hx k (by omega) t) (fun l => (ih t l).1) (ih t j).2,
      pay4_eq_cellC A v15 v17 _ _ (xs k) (xrow A k) _ _ t j h15 h17 (hx k (by omega) t) (fun l => (ih t l).1) (ih t j).2⟩

/-- The hidden state trip `b` stores, rows `t < 21`: the specification's emitted state of position `b`. -/
theorem kst_hid (A : Args) (v15 v17 : Vec Ideal S1x2048 .f32) (xs : ℕ → Vec Ideal S24x64 .f32)
    (h15 : ∀ n : Fin 2048, v15 (ix2 (0 : Fin 1) n) = A.bih (ix1 n)) (h17 : ∀ n : Fin 2048, v17 (ix2 (0 : Fin 1) n) = A.bhh (ix1 n))
    (hx : ∀ k, k < 16 → ∀ (t : Fin 21) (e : Fin 64), xs k (ix2 (r24 t) e) = xrow A k t e)
    (b : Fin 16) (t : Fin 21) (j : Fin 512) :
    Gen.k1_pay6 v15 v17 (kst A v15 v17 xs b.val).1 (kst A v15 v17 xs b.val).2 (xs b.val) A.wih A.whh (ix2 (r24 t) j) = hid A b t j := by
  rw [pay6_eq]
  exact (kst_rows A v15 v17 xs h15 h17 hx (b.val + 1) (by omega) t j).1

/-- THE OUTPUT BLOCK against the specification: block `i` (vocabulary entries `6400 i … 6400 i + 6399`) at `(b, t, v)`, for an
    entry inside the array, when the stored hidden states' row `24 b + t` is position `b`'s emitted row `t`, and the weight and
    bias blocks hold the output layer's rows `6400 i + v`. -/
theorem pay7_eq_G (A : Args) (hs : Vec Ideal S384x512 .f32) (w : Vec Ideal S6400x512 .f32) (bias : Vec Ideal S1x6400 .f32)
    (i : ℕ) (b : Fin 16) (t : Fin 21) (v : Fin 6400) (hv : 6400 * i + v.val < 100000)
    (hhs : ∀ l : Fin 512, hs (ix2 (⟨24 * b.val + t.val, by omega⟩ : Fin 384) l) = hid A b t l)
    (hw : ∀ l : Fin 512, w (ix2 v l) = A.wfc (ix2 (⟨6400 * i + v.val, hv⟩ : Fin 100000) l))
    (hb : bias (ix2 (0 : Fin 1) v) = A.bfc (ix1 (⟨6400 * i + v.val, hv⟩ : Fin 100000))) :
    Gen.k1_pay7 hs w bias (ix3 b t v) = G A (ix3 b t (⟨6400 * i + v.val, hv⟩ : Fin 100000)) := by
  rw [pay7_apply, G_ix3, hb]
  unfold outAt
  refine congrArg₂ (· + ·) ?_ rfl
  exact Finset.sum_congr rfl fun l _ => by rw [hhs, hw]

end Cert.Proof.Val

end
-- ==== Proof.ValBridge.lean ====
/-
  The kernel side against the specification, at the exact (extended-real) instance.

  * The padded index vector at entry `20 b + t` is token `(b, t)`; the `[384, 64]` input built from the features and the gathered
    rows holds, at row `24 b + t` (`t < 21`), the specification's input of position `b`, row `t`.
  * The body's carried pair before trip `k` is the iterate of the payloads; rows `t < 21` are the specification's states.
  * The stacked hidden states' row `24 b + t` is position `b`'s emitted row `t`; an output block read at an entry inside the
    array is the specification's result there.
-/
import proofs.«203981_g87385404604482_cont_9to1_m_1030_24_alg».proof.Proof.TcValue
import proofs.«203981_g87385404604482_cont_9to1_m_1030_24_alg».proof.Proof.MainVals
import proofs.«203981_g87385404604482_cont_9to1_m_1030_24_alg».proof.Proof.ValKerIter
import proofs.«203981_g87385404604482_cont_9to1_m_1030_24_alg».proof.Proof.ValLayout
import Idealize.ShloMosaic.Lib.KernelVsHost

noncomputable section

open scoped BigOperators

namespace Cert.Proof.Val

open Idealize.ShloMosaic Idealize.ShloMosaic.ValueIdx Cert.KernelIdeal Cert.KernelIdeal.Gen

/-! ## The host glue -/

/-- The padded index vector at entry `20 b + t`: token `(b, t)`. -/
theorem idxPad_apply (cap : IVec S16x20 32) (b : Fin 16) (t : Fin 20) :
    Hand.idxPad cap (ix1 (⟨20 * b.val + t.val, by omega⟩ : Fin 512)) = cap (ix2 b t) := by
  unfold Hand.idxPad
  refine (pad_apply_of_inside _ _ _ _ _ _ _ (ix1 (⟨20 * b.val + t.val, by omega⟩ : Fin 512))
    (ix1 (⟨20 * b.val + t.val, by omega⟩ : Fin 320)) (fun a => ?_)).trans ?_
  · match a with
    | ⟨0, _⟩ => show 20 * b.val + t.val = 0 + (20 * b.val + t.val) * (0 + 1); omega
  · refine shapeCast_apply _ _ _ (ix2 b t) ?_
    rw [Shape.rowMajor_val_two, Shape.rowMajor_val_one]
    show b.val * 20 + t.val = 20 * b.val + t.val
    omega

/-- The `[384, 64]` input at row `24 b + t`, `t < 21`: the features' row for `t = 0`, else the gathered row `20 b + t − 1`. -/
theorem xRows_apply (feat : FVec Ideal S16x64 .f32) (emb : FVec Ideal S512x64 .f32) (b : Fin 16) (t : Fin 21) (e : Fin 64) :
    Hand.xRows feat emb (ix2 (⟨24 * b.val + t.val, by omega⟩ : Fin 384) e)
      = if h : t.val = 0 then feat (ix2 b e) else emb (ix2 (⟨20 * b.val + (t.val - 1), by omega⟩ : Fin 512) e) := by
  unfold Hand.xRows
  refine (shapeCast_apply _ _ (ix2 (⟨24 * b.val + t.val, by omega⟩ : Fin 384) e) (ix3 b (⟨t.val, by omega⟩ : Fin 24) e) ?_).trans ?_
  · rw [Shape.rowMajor_val_two, Shape.rowMajor_val_three]
    show (b.val * 24 + t.val) * 64 + e.val = (24 * b.val + t.val) * 64 + e.val
    omega
  refine (pad_apply_of_inside _ _ _ _ _ _ _ (ix3 b (⟨t.val, by omega⟩ : Fin 24) e) (ix3 b t e) (fun a => ?_)).trans ?_
  · match a with
    | ⟨0, _⟩ => show b.val = 0 + b.val * (0 + 1); omega
    | ⟨1, _⟩ => show t.val = 0 + t.val * (0 + 1); omega
    | ⟨2, _⟩ => show e.val = 0 + e.val * (0 + 1); omega
  rw [concat_head_rows_apply]
  by_cases h : t.val = 0
  · rw [dif_pos h, dif_pos h]
  · rw [dif_neg h, dif_neg h]
    refine (shapeCast_apply _ _ (ix3 b (⟨t.val - 1, by omega⟩ : Fin 20) e)
      (ix2 (⟨20 * b.val + (t.val - 1), by omega⟩ : Fin 320) e) ?_).trans ?_
    · rw [Shape.rowMajor_val_two, Shape.rowMajor_val_three]
      show (20 * b.val + (t.val - 1)) * 64 + e.val = (b.val * 20 + (t.val - 1)) * 64 + e.val
      omega
    · exact slice2_axis0_apply (n0 := 512) (n1 := 64) (m := 320) 0 emb _ _ e _ (Nat.zero_add _).symm

/-- The `[384, 64]` input against the specification: when the gathered array's row `r` is the table's row named by entry `r` of
    the padded index vector (the word's number modulo the table's length), and the tokens are in range. -/
theorem xRows_eq_xin (A : Args)
    (hcap : ∀ (b : Fin 16) (t : Fin 20), 0 ≤ (A.cap (ix2 b t)).toInt ∧ (A.cap (ix2 b t)).toInt ≤ 99999)
    (emb : FVec Ideal S512x64 .f32)
    (hemb : ∀ (r : Fin 512) (e : Fin 64), emb (ix2 r e)
      = A.tab (ix2 (⟨(Hand.idxPad A.cap (ix1 r)).toNat % 100000, Nat.mod_lt _ (by decide)⟩ : Fin 100000) e))
    (b : Fin 16) (t : Fin 21) (e : Fin 64) :
    Hand.xRows A.feat emb (ix2 (⟨24 * b.val + t.val, by omega⟩ : Fin 384) e) = xin A b t e := by
  rw [xRows_apply]
  unfold xin
  by_cases h : t.val = 0
  · rw [dif_pos h, if_pos h]
  · rw [dif_neg h, if_neg h, hemb]
    refine congrArg A.tab (congrArg₂ ix2 (Fin.ext ?_) rfl)
    have hi := idxPad_apply A.cap b (⟨t.val - 1, by omega⟩ : Fin 20)
    have hv := tok_val A b (⟨t.val - 1, by omega⟩ : Fin 20) (hcap b _).1 (hcap b _).2
    have hlt : (tok A b (⟨t.val - 1, by omega⟩ : Fin 20)).val < 100000 := (tok A b _).isLt
    show (Hand.idxPad A.cap (ix1 (⟨20 * b.val + (t.val - 1), by omega⟩ : Fin 512))).toNat % 100000 = (tok A b (⟨t.val - 1, by omega⟩ : Fin 20)).val
    rw [hi, hv]
    rw [hv] at hlt
    exact Nat.mod_eq_of_lt hlt

/-- A bias given a leading unit axis reads the bias. -/
theorem biasRow_apply (bias : FVec Ideal S2048 .f32) (h : S2048.ShapeCasts S1x2048) (n : Fin 2048) :
    shapeCast S1x2048 bias h (ix2 (0 : Fin 1) n) = bias (ix1 n) :=
  shapeCast_a_1a_apply (a := 2048) bias h 0 n

/-! ## The recurrence -/

/-- Rows `24 k … 24 k + 23` of the input, as the trip's load reads them: entry `(r, e)` is `x (24 k + r, e)`. -/
theorem tc_xrows_apply (x : Vec Ideal S384x64 .f32) (k : Fin k1_t1_loop.trips) (r : Fin 24) (e : Fin 64) :
    Tc.xrows x k (ix2 r e)
      = x (ix2 (⟨24 * k.val + r.val, by have := k.isLt; have := Tc.trips_eq; omega⟩ : Fin 384) e) := by
  unfold Tc.xrows
  refine congrArg x (funext fun a => Fin.ext ?_)
  have ho := Gen.k1_off1_eq k
  match a with
  | ⟨0, _⟩ =>
    show k1_off1 k 0 + 1 * r.val = 24 * k.val + r.val
    rw [ho]
    show 24 * k.val + 1 * r.val = _
    omega
  | ⟨1, _⟩ =>
    show k1_off1 k 1 + 1 * e.val = e.val
    rw [ho]
    show 0 + 1 * e.val = _
    omega

/-- The input blocks the trips read, as a sequence over all naturals (zero past the last trip, which no trip reads). -/
def tcXs (x : Vec Ideal S384x64 .f32) : ℕ → Vec Ideal S24x64 .f32 := fun k =>
  if h : k < k1_t1_loop.trips then Tc.xrows x ⟨k, h⟩ else fun _ => 0

theorem tcXs_of_lt (x : Vec Ideal S384x64 .f32) (k : Fin k1_t1_loop.trips) : tcXs x k.val = Tc.xrows x k := by
  unfold tcXs
  rw [dif_pos k.isLt]

/-- The body's carried pair before trip `k` is the iterate of the payloads. -/
theorem tc_lstm_eq_kst (A : Args) (x : Vec Ideal S384x64 .f32) (b1 b2 : Vec Ideal S1x2048 .f32) :
    ∀ k, k ≤ 16 → Tc.lstm x A.wih A.whh b1 b2 k = kst A b1 b2 (tcXs x) k
  | 0, _ => rfl
  | k + 1, hk => by
    have hk' : k < k1_t1_loop.trips := by rw [Tc.trips_eq]; omega
    rw [Tc.lstm_succ x A.wih A.whh b1 b2 ⟨k, hk'⟩, kst_succ, ← tc_lstm_eq_kst A x b1 b2 k (by omega), tcXs_of_lt x ⟨k, hk'⟩]
    rfl

/-- The stacked hidden states' row `24 b + t` is row `t` of what trip `b` stores. -/
theorem tc_hs_row (x : Vec Ideal S384x64 .f32) (wih : Vec Ideal S2048x64 .f32) (whh : Vec Ideal S2048x512 .f32)
    (b1 b2 : Vec Ideal S1x2048 .f32) (b : Fin 16) (t : Fin 24) (l : Fin 512) :
    Tc.hs x wih whh b1 b2 (ix2 (⟨24 * b.val + t.val, by omega⟩ : Fin 384) l)
      = Tc.hrow x wih whh b1 b2 ⟨b.val, by rw [Tc.trips_eq]; exact b.isLt⟩ (ix2 t l) := by
  have key : ∀ (q : Fin k1_t1_loop.trips) (i : S24x512.Idx), q.val = b.val → i = ix2 t l →
      Tc.hrow x wih whh b1 b2 q i = Tc.hrow x wih whh b1 b2 ⟨b.val, by rw [Tc.trips_eq]; exact b.isLt⟩ (ix2 t l) := by
    intro q i hq hi
    obtain rfl : q = ⟨b.val, by rw [Tc.trips_eq]; exact b.isLt⟩ := Fin.ext hq
    rw [hi]
  unfold Tc.hs
  refine key _ _ ?_ ?_
  · show (24 * b.val + t.val) / 24 = b.val
    omega
  · funext a
    refine Fin.ext ?_
    match a with
    | ⟨0, _⟩ =>
      show (24 * b.val + t.val) - 24 * ((24 * b.val + t.val) / 24) = t.val
      omega
    | ⟨1, _⟩ =>
      show l.val - 0 = l.val
      omega

/-- THE STACKED HIDDEN STATES against the specification: row `24 b + t`, `t < 21`, is position `b`'s emitted row `t`, when the
    input holds the specification's input in those rows and the two bias rows are the biases. -/
theorem tc_hs_eq_hid (A : Args) (x : Vec Ideal S384x64 .f32) (b1 b2 : Vec Ideal S1x2048 .f32)
    (h15 : ∀ n : Fin 2048, b1 (ix2 (0 : Fin 1) n) = A.bih (ix1 n)) (h17 : ∀ n : Fin 2048, b2 (ix2 (0 : Fin 1) n) = A.bhh (ix1 n))
    (hx : ∀ (b : Fin 16) (t : Fin 21) (e : Fin 64), x (ix2 (⟨24 * b.val + t.val, by omega⟩ : Fin 384) e) = xin A b t e)
    (b : Fin 16) (t : Fin 21) (l : Fin 512) :
    Tc.hs x A.wih A.whh b1 b2 (ix2 (⟨24 * b.val + t.val, by omega⟩ : Fin 384) l) = hid A b t l := by
  have hxs : ∀ k, k < 16 → ∀ (t : Fin 21) (e : Fin 64), tcXs x k (ix2 (r24 t) e) = xrow A k t e := by
    intro k hk t e
    have hk' : k < k1_t1_loop.trips := by rw [Tc.trips_eq]; exact hk
    rw [tcXs_of_lt x ⟨k, hk'⟩, tc_xrows_apply]
    unfold xrow
    rw [dif_pos hk]
    exact hx ⟨k, hk⟩ t e
  have hb' : b.val < k1_t1_loop.trips := by rw [Tc.trips_eq]; exact b.isLt
  have e1 := tc_hs_row x A.wih A.whh b1 b2 b (r24 t) l
  refine e1.trans ?_
  unfold Tc.hrow
  rw [tc_lstm_eq_kst A x b1 b2 b.val (by omega), ← tcXs_of_lt x ⟨b.val, hb'⟩]
  exact kst_hid A b1 b2 (tcXs x) h15 h17 hxs b t l

/-- THE OUTPUT BLOCK against the specification: block `i` at `(b, t, v)`, an entry inside the array. -/
theorem tc_out_eq_G (A : Args) (x : Vec Ideal S384x64 .f32) (b1 b2 : Vec Ideal S1x2048 .f32)
    (h15 : ∀ n : Fin 2048, b1 (ix2 (0 : Fin 1) n) = A.bih (ix1 n)) (h17 : ∀ n : Fin 2048, b2 (ix2 (0 : Fin 1) n) = A.bhh (ix1 n))
    (hx : ∀ (b : Fin 16) (t : Fin 21) (e : Fin 64), x (ix2 (⟨24 * b.val + t.val, by omega⟩ : Fin 384) e) = xin A b t e)
    (w : Vec Ideal S6400x512 .f32) (bias : Vec Ideal S1x6400 .f32)
    (i : ℕ) (b : Fin 16) (t : Fin 21) (v : Fin 6400) (hv : 6400 * i + v.val < 100000)
    (hw : ∀ l : Fin 512, w (ix2 v l) = A.wfc (ix2 (⟨6400 * i + v.val, hv⟩ : Fin 100000) l))
    (hb : bias (ix2 (0 : Fin 1) v) = A.bfc (ix1 (⟨6400 * i + v.val, hv⟩ : Fin 100000))) :
    Gen.k1_pay7 (Tc.hs x A.wih A.whh b1 b2) w bias (ix3 b t v) = G A (ix3 b t (⟨6400 * i + v.val, hv⟩ : Fin 100000)) :=
  pay7_eq_G A _ w bias i b t v hv (fun l => tc_hs_eq_hid A x b1 b2 h15 h17 hx b t l) hw hb

end Cert.Proof.Val

end
-- ==== Proof.ValFinal.lean ====
/-
  The TensorCore region's result against the specification, at the exact (extended-real) instance.

  After the region every entry `(b, s, 6400 t + v)` of the output array inside the array is the output block's entry `(b, s, v)`
  computed from the stacked hidden states and weight and bias blocks that hold the output layer's row `6400 t + v`. When the
  region's inputs are the specification's data, that entry is the specification's result; every vocabulary entry `n` is
  `6400 (n / 6400) + n % 6400`, so the whole array is the specification's result.
-/
import proofs.«203981_g87385404604482_cont_9to1_m_1030_24_alg».proof.Proof.TcEntry
import proofs.«203981_g87385404604482_cont_9to1_m_1030_24_alg».proof.Proof.LaunchFin
import proofs.«203981_g87385404604482_cont_9to1_m_1030_24_alg».proof.Proof.ValBridge

noncomputable section

namespace Cert.Proof.Val

open Idealize.ShloMosaic Idealize.ShloMosaic.ValueIdx Idealize.ShloMosaic.TcCoe Cert.KernelIdeal Cert.KernelIdeal.Gen

variable (V : (c : Dev nD) → (b : Ref sig .tc) → Buf (Elt Ideal) ((c : Thread nD τ).loc b))

/-- The region's output array is the specification's result, when its inputs hold the specification's data: the `[384, 64]` input
    in its rows `24 b + t` (`t < 21`), the recurrent weights, the two bias rows, and the output layer's weights and bias row. -/
theorem outRel_eq_G (c : Dev nD) (A : Args) {out : Buf (Elt Ideal) ((cfg1.win 7).arr.view.loc (c.tc : Thread nD τ))}
    (h : Tc.OutRel V c out)
    (hx : ∀ (b : Fin 16) (t : Fin 21) (e : Fin 64), Tc.xOf V c (ix2 (⟨24 * b.val + t.val, by omega⟩ : Fin 384) e) = xin A b t e)
    (hwih : Tc.wihOf V c = A.wih) (hwhh : Tc.whhOf V c = A.whh)
    (h15 : ∀ n : Fin 2048, Tc.b1Of V c (ix2 (0 : Fin 1) n) = A.bih (ix1 n))
    (h17 : ∀ n : Fin 2048, Tc.b2Of V c (ix2 (0 : Fin 1) n) = A.bhh (ix1 n))
    (hwfc : Tc.wfcOf V c = A.wfc)
    (hbfc : ∀ n : Fin 100000, Tc.bfcOf V c (ix2 (0 : Fin 1) n) = A.bfc (ix1 n)) :
    Tc.outOf c out = G A := by
  have hN : cfg1.N = 16 := by decide
  have key : ∀ (b : Fin 16) (s : Fin 21) (t : Fin cfg1.N) (v : Fin 6400) (hv : 6400 * t.val + v.val < 100000),
      Tc.outOf c out (ix3 b s (⟨6400 * t.val + v.val, hv⟩ : Fin 100000)) = G A (ix3 b s (⟨6400 * t.val + v.val, hv⟩ : Fin 100000)) := by
    intro b s t v hv
    obtain ⟨w, bias, hw, hb, ho⟩ := h.entry V c t b s v hv
    rw [ho]
    unfold Tc.hsOf
    rw [hwih, hwhh]
    refine tc_out_eq_G A (Tc.xOf V c) (Tc.b1Of V c) (Tc.b2Of V c) h15 h17 hx w bias t.val b s v hv (fun l => ?_) ?_
    · rw [hw l, hwfc]
    · rw [hb, hbfc]
  funext i
  obtain ⟨b, s, n, rfl⟩ : ∃ (b : Fin 16) (s : Fin 21) (n : Fin 100000), i = ix3 b s n := ⟨i 0, i 1, i 2, eq_ix3 i⟩
  have hn : n = (⟨6400 * (n.val / 6400) + n.val % 6400, by have := n.isLt; omega⟩ : Fin 100000) := Fin.ext (by
    show n.val = 6400 * (n.val / 6400) + n.val % 6400
    omega)
  have ht : n.val / 6400 < cfg1.N := by rw [hN]; have := n.isLt; omega
  refine (congrArg (fun q => Tc.outOf c out (ix3 b s q)) hn).trans
    ((key b s ⟨n.val / 6400, ht⟩ ⟨n.val % 6400, Nat.mod_lt _ (by decide)⟩ _).trans (congrArg (fun q => G A (ix3 b s q)) hn.symm))

/-! ## The kernel's run -/

/-- The nine arguments as the kernel's memory holds them. -/
def kerArgs (m : (ℓ : Loc nD τ sig) → Buf (Elt Ideal) ℓ) (c : Dev nD) : Args where
  feat := m ((c.tc : Thread nD τ).loc main_arg0)
  cap := m ((c.tc : Thread nD τ).loc main_arg1)
  tab := m ((c.tc : Thread nD τ).loc main_arg2)
  wih := m ((c.tc : Thread nD τ).loc main_arg3)
  whh := m ((c.tc : Thread nD τ).loc main_arg4)
  bih := m ((c.tc : Thread nD τ).loc main_arg5)
  bhh := m ((c.tc : Thread nD τ).loc main_arg6)
  wfc := m ((c.tc : Thread nD τ).loc main_arg7)
  bfc := m ((c.tc : Thread nD τ).loc main_arg8)

/-- THE KERNEL IS THE SPECIFICATION: under the tokens' range, a result array in the relation the region's write-backs determine,
    over the contents @main leaves at the region's entry, is `G` of the arguments. -/
theorem kernel_eq_G (m : (ℓ : Loc nD τ sig) → Buf (Elt Ideal) ℓ) (c : Dev nD)
    (hcap : ∀ (b : Fin 16) (t : Fin 20), 0 ≤ ((kerArgs m c).cap (ix2 b t)).toInt ∧ ((kerArgs m c).cap (ix2 b t)).toInt ≤ 99999)
    (out : Buf (Elt Ideal) ((c.tc : Thread nD τ).loc main_v12)) (h : Tc.OutRel (Hand.Vc m) c out) :
    out = G (kerArgs m c) := by
  have hwih : Tc.wihOf (Hand.Vc m) c = (kerArgs m c).wih := (Tc.wihOf_eq (Hand.Vc m) c).trans (Hand.VC_arg3 m c)
  have hwhh : Tc.whhOf (Hand.Vc m) c = (kerArgs m c).whh := (Tc.whhOf_eq (Hand.Vc m) c).trans (Hand.VC_arg4 m c)
  have hb1 : Tc.b1Of (Hand.Vc m) c = shapeCast S1x2048 (kerArgs m c).bih _ := (Tc.b1Of_eq (Hand.Vc m) c).trans (Hand.VC_v9 m c)
  have hb2 : Tc.b2Of (Hand.Vc m) c = shapeCast S1x2048 (kerArgs m c).bhh _ := (Tc.b2Of_eq (Hand.Vc m) c).trans (Hand.VC_v10 m c)
  have hxe : Tc.xOf (Hand.Vc m) c = Hand.xRows (F := Ideal) (kerArgs m c).feat (Sc.gath (Hand.tbl m) (Hand.idx m) c) :=
    (Tc.xOf_eq (Hand.Vc m) c).trans (Hand.VC_v8 m c)
  have hwfc : Tc.wfcOf (Hand.Vc m) c = (kerArgs m c).wfc := Hand.VC_arg7 m c
  have hbf : Tc.bfcOf (Hand.Vc m) c = shapeCast S1x100000 (kerArgs m c).bfc _ := Hand.VC_v11 m c
  refine outRel_eq_G (Hand.Vc m) c (kerArgs m c) h (fun b t e => ?_) hwih hwhh (fun n => ?_) (fun n => ?_) hwfc (fun n => ?_)
  · rw [hxe]
    exact xRows_eq_xin (kerArgs m c) hcap _ (fun r e => rfl) b t e
  · rw [hb1]
    exact biasRow_apply _ _ n
  · rw [hb2]
    exact biasRow_apply _ _ n
  · rw [hbf]
    exact shapeCast_a_1a_apply (a := 100000) _ _ 0 n

end Cert.Proof.Val

end
-- ==== Proof.ValAgree.lean ====
/-
  The two programs' arguments: when the reference's memory agrees with the kernel's on the nine argument arrays, the nine
  arguments read off either memory are the same record.
-/
import proofs.«203981_g87385404604482_cont_9to1_m_1030_24_alg».proof.Proof.ValRef
import proofs.«203981_g87385404604482_cont_9to1_m_1030_24_alg».proof.Proof.ValFinal

noncomputable section

namespace Cert.Proof.Val

open Idealize.ShloMosaic Idealize.ShloMosaic.TcCoe

/-- Two records of arguments with equal fields are equal. -/
theorem Args.ext' {A A' : Args} (h0 : A.feat = A'.feat) (h1 : A.cap = A'.cap) (h2 : A.tab = A'.tab) (h3 : A.wih = A'.wih)
    (h4 : A.whh = A'.whh) (h5 : A.bih = A'.bih) (h6 : A.bhh = A'.bhh) (h7 : A.wfc = A'.wfc) (h8 : A.bfc = A'.bfc) : A = A' := by
  cases A
  cases A'
  simp only [Args.mk.injEq]
  exact ⟨h0, h1, h2, h3, h4, h5, h6, h7, h8⟩

/-- From memories agreeing on the nine arguments, the reference's arguments are the kernel's. -/
theorem args_eq_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    refArgs m' c = kerArgs m c := by
  obtain ⟨h0, h1, h2, h3, h4, h5, h6, h7, h8⟩ := h
  exact Args.ext' h0 h1 h2 h3 h4 h5 h6 h7 h8

/-- THE REFERENCE'S RESULT IN THE KERNEL'S ARGUMENTS: from memories agreeing on the nine arguments, under the tokens' range stated
    of the kernel's memory, the result the reference's run names is `G` of the kernel's arguments. -/
theorem ref_eq_G_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hargs : refArgs m' c = kerArgs m c)
    (hcap : ∀ (b : Fin 16) (t : Fin 20), 0 ≤ ((kerArgs m c).cap (ValueIdx.ix2 b t)).toInt ∧ ((kerArgs m c).cap (ValueIdx.ix2 b t)).toInt ≤ 99999) :
    Cert.ReferenceIdeal.ValueP.out_main_v11
        (Cert.ReferenceIdeal.ValueP.STEP^[16] (StableHlo.entryContents Cert.ReferenceIdeal.ValueP.preI m' c))
      = G (kerArgs m c) := by
  rw [← hargs]
  exact ref_eq_G m' c (by rw [hargs]; exact hcap)

end Cert.Proof.Val

end
-- ==== Proof.ValRange.lean ====
/-
  The tokens' range in the two forms used: a 32-bit word whose number is below 100000 is, read signed, in `[0, 99999]`.
-/
import proofs.«203981_g87385404604482_cont_9to1_m_1030_24_alg».proof.Proof.ValSpec

noncomputable section

namespace Cert.Proof.Val

open Idealize.ShloMosaic Idealize.ShloMosaic.ValueIdx

/-- A word below 100000 as a natural number is in `[0, 99999]` as a signed integer. -/
theorem signed_range_of_toNat_lt (w : BitVec 32) (h : w.toNat < 100000) : 0 ≤ w.toInt ∧ w.toInt ≤ 99999 := by
  rw [BitVec.toInt_eq_toNat_cond]
  split <;> omega

/-- The tokens' range as the value lemmas take it, from every token's number being below the table's length. -/
theorem hcap_of_toNat_lt (A : Args) (h : ∀ i : (⟨2, ![16, 20]⟩ : Shape).Idx, (A.cap i).toNat < 100000) :
    ∀ (b : Fin 16) (t : Fin 20), 0 ≤ (A.cap (ix2 b t)).toInt ∧ (A.cap (ix2 b t)).toInt ≤ 99999 :=
  fun b t => signed_range_of_toNat_lt _ (h (ix2 b t))

end Cert.Proof.Val

end
-- ==== Proof.lean ====
/-
  The certificate's five claims, assembled.

  The kernel program is @main on the TensorCore beside the SparseCores' subcores: host operations flatten and pad the
  captions; a vector-subcore kernel on 32 tiles gathers the 512 table rows the padded captions name (each tile its 16
  rows: one copy of its index words, 16 row copies counted on one semaphore, one copy out); host operations put the
  feature row in front of each sequence of 20 gathered rows and pad it to 24 rows; a pallas_call of 16 grid points
  runs the LSTM recurrence over the 16 sequences at its first point (24 rows at a time, the hidden states kept in a
  scratch) and at every point multiplies the hidden states with one block of 6400 output weights and adds the bias.
  The launch theorem for programs with SparseCore calls gives the run from the tile's obligation, the TensorCore's
  thread and the launch element; the pallas_call's region runs inside that thread from relational proof data, the
  last block of the output weights overhanging its array. At the exact instance an entry of the matrix product
  reads one row of each operand, the three padding rows of a sequence never reach the result, (g + b₁) + b₂ is
  g + (b₁ + b₂) on the extended reals, the logistic function is 1 / (1 + exp (−x)) in both spellings, and both
  programs compute, entry by entry, Σ_l h(b, t, l) · W_fc(v, l) + b_fc(v) of the same LSTM recursion: no finiteness
  of a float input is used, only the captions' range. The reference's run is the generated one.
-/
import proofs.«203981_g87385404604482_cont_9to1_m_1030_24_alg».proof.Defs
import proofs.«203981_g87385404604482_cont_9to1_m_1030_24_alg».proof.Proof.Gen.Kernel
import proofs.«203981_g87385404604482_cont_9to1_m_1030_24_alg».proof.Proof.Gen.KernelIdeal
import proofs.«203981_g87385404604482_cont_9to1_m_1030_24_alg».proof.Proof.Gen.ReferenceIdeal
import proofs.«203981_g87385404604482_cont_9to1_m_1030_24_alg».proof.Proof.Gen.Pre_input_domain
import proofs.«203981_g87385404604482_cont_9to1_m_1030_24_alg».proof.Proof.PreRange
import proofs.«203981_g87385404604482_cont_9to1_m_1030_24_alg».proof.Proof.LaunchFin
import proofs.«203981_g87385404604482_cont_9to1_m_1030_24_alg».proof.Proof.BitsLaunchFin
import proofs.«203981_g87385404604482_cont_9to1_m_1030_24_alg».proof.Proof.ScTile
import proofs.«203981_g87385404604482_cont_9to1_m_1030_24_alg».proof.Proof.ScSplit
import proofs.«203981_g87385404604482_cont_9to1_m_1030_24_alg».proof.Proof.BitsScTile
import proofs.«203981_g87385404604482_cont_9to1_m_1030_24_alg».proof.Proof.BitsScSplit
import proofs.«203981_g87385404604482_cont_9to1_m_1030_24_alg».proof.Proof.RefRunGen2
import proofs.«203981_g87385404604482_cont_9to1_m_1030_24_alg».proof.Proof.ValRef
import proofs.«203981_g87385404604482_cont_9to1_m_1030_24_alg».proof.Proof.ValFinal
import proofs.«203981_g87385404604482_cont_9to1_m_1030_24_alg».proof.Proof.ValAgree
import proofs.«203981_g87385404604482_cont_9to1_m_1030_24_alg».proof.Proof.ValRange
import Idealize.ShloMosaic.Adequacy
import Idealize.ShloMosaic.Init

noncomputable section

namespace Cert.Proof

open Idealize.ShloMosaic Idealize.SL.Sem

/-! ## The kernel program's run at the exact instance and at the word-level one -/

section Exact

open Cert.KernelIdeal Cert.KernelIdeal.Hand Cert.KernelIdeal.Sc

/-- Under the precondition every caption names a table row. -/
theorem capI (m : (ℓ : Loc Cert.KernelIdeal.nD Cert.KernelIdeal.τ Cert.KernelIdeal.sig) → Buf (Elt Ideal) ℓ) (h : Cert.Pre_KernelIdeal m)
    (d : Dev Cert.KernelIdeal.nD) (j : S16x20.Idx) :
    ((m ((SparseCore.T d : Thread Cert.KernelIdeal.nD Cert.KernelIdeal.τ).loc main_arg1) : IVec S16x20 32) j).toNat < 100000 :=
  Cert.Pre_input_domain.Hand.captions_range _ _ _ _ _ _ _ _ _ (h d) j

theorem runI (m : (ℓ : Loc Cert.KernelIdeal.nD Cert.KernelIdeal.τ Cert.KernelIdeal.sig) → Buf (Elt Ideal) ℓ) (g : Dev Cert.KernelIdeal.nD → PrngReg)
    (h : Cert.Pre_KernelIdeal m) :
    θ_run (Cert.KernelIdeal.defs (F := Ideal)) (Cert.KernelIdeal.threads (F := Ideal)) ⟨m, fun _ => 0, g⟩ (QC m) :=
  run_main (F := Ideal) m g (tileObl (tbl m) (idx m) (idxOK m (capI m h))) (vecSplit (tbl m) (idx m)) (st0_intro (tbl m) (idx m))
    (dn0_elim (tbl m) (idx m)) (Px_all (tbl m) (idx m))

end Exact

section Words

open Cert.Kernel Cert.Kernel.Hand Cert.Kernel.Sc

theorem capB (m : (ℓ : Loc Cert.Kernel.nD Cert.Kernel.τ Cert.Kernel.sig) → Buf (Elt Bits) ℓ) (h : Cert.Pre_Kernel m)
    (d : Dev Cert.Kernel.nD) (j : S16x20.Idx) :
    ((m ((SparseCore.T d : Thread Cert.Kernel.nD Cert.Kernel.τ).loc main_arg1) : IVec S16x20 32) j).toNat < 100000 :=
  Cert.Pre_input_domain.Hand.captions_range _ _ _ _ _ _ _ _ _ (h d) j

theorem runB (m : (ℓ : Loc Cert.Kernel.nD Cert.Kernel.τ Cert.Kernel.sig) → Buf (Elt Bits) ℓ) (g : Dev Cert.Kernel.nD → PrngReg)
    (h : Cert.Pre_Kernel m) :
    θ_run (Cert.Kernel.defs (F := Bits)) (Cert.Kernel.threads (F := Bits)) ⟨m, fun _ => 0, g⟩ (QC m) :=
  run_main (F := Bits) m g (tileObl (tbl m) (idx m) (idxOK m (capB m h))) (vecSplit (tbl m) (idx m)) (st0_intro (tbl m) (idx m))
    (dn0_elim (tbl m) (idx m)) (Px_all (tbl m) (idx m))

end Words

/-! ## The claims -/

theorem frame_k : Cert.frame_Kernel := fun m g h =>
  (θ_run Cert.Kernel.defs _ _).mono (fun _ hq c => (hq c).2) (runB m g h)

theorem frame_ki : Cert.frame_KernelIdeal := fun m g h =>
  (θ_run Cert.KernelIdeal.defs _ _).mono (fun _ hq c => (hq c).2) (runI m g h)

theorem frame_ri : Cert.frame_ReferenceIdeal := fun m g _ =>
  (θ_run Cert.ReferenceIdeal.defs _ _).mono (fun _ h c => (h c).2) (Cert.ReferenceIdeal.ValueP.run (F := Ideal) m g)

/-- Both programs end with the result at the one specification of the nine arguments. -/
theorem algebraic : Cert.algebraic_KernelIdeal_ReferenceIdeal := by
  intro m g m' g' hpre hagree
  have hcap : ∀ c, ∀ (b : Fin 16) (t : Fin 20), 0 ≤ ((Cert.Proof.Val.kerArgs m c).cap (ValueIdx.ix2 b t)).toInt ∧ ((Cert.Proof.Val.kerArgs m c).cap (ValueIdx.ix2 b t)).toInt ≤ 99999 :=
    fun c => Cert.Proof.Val.hcap_of_toNat_lt (Cert.Proof.Val.kerArgs m c) (fun i => capI m hpre c i)
  refine ⟨fun c => Cert.Proof.Val.G (Cert.Proof.Val.kerArgs m c), ?_, ?_⟩
  · exact (θ_run Cert.KernelIdeal.defs _ _).mono (fun _ hq c => ⟨Cert.Proof.Val.kernel_eq_G m c (hcap c) _ (hq c).1, (hq c).2⟩) (runI m g hpre)
  · exact (θ_run Cert.ReferenceIdeal.defs _ _).mono (fun _ h c => ⟨(h c).1.trans
      (Cert.Proof.Val.ref_eq_G_of_agree m m' c (Cert.Proof.Val.args_eq_of_agree m m' c (hagree c)) (hcap c)), (h c).2⟩)
      (Cert.ReferenceIdeal.ValueP.run (F := Ideal) m' g')

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
